-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x144 : Shape := ⟨2, ![5000, 144]⟩
abbrev S50000x4864 : Shape := ⟨2, ![50000, 4864]⟩
abbrev S50000x25 : Shape := ⟨2, ![50000, 25]⟩
abbrev S1225 : Shape := ⟨1, ![1225]⟩
abbrev S19 : Shape := ⟨1, ![19]⟩
abbrev S50000 : Shape := ⟨1, ![50000]⟩
abbrev S_ : Shape := ⟨0, ![]⟩

class Facts : Prop where
  bcast_S_S5000x144 : S_.BroadcastsInDim S5000x144 (![] : Fin 0 → Fin S5000x144.rank)
  reducesTo_S5000x144_S_d0_1 : S5000x144.ReducesTo [0, 1] S_
  h_S_ : 0 < S_.numel
  bcast_S_S50000x4864 : S_.BroadcastsInDim S50000x4864 (![] : Fin 0 → Fin S50000x4864.rank)
  reducesTo_S50000x4864_S_d0_1 : S50000x4864.ReducesTo [0, 1] S_
  bcast_S_S50000x25 : S_.BroadcastsInDim S50000x25 (![] : Fin 0 → Fin S50000x25.rank)
  reducesTo_S50000x25_S_d0_1 : S50000x25.ReducesTo [0, 1] S_
  bcast_S_S1225 : S_.BroadcastsInDim S1225 (![] : Fin 0 → Fin S1225.rank)
  reducesTo_S1225_S_d0 : S1225.ReducesTo [0] S_
  bcast_S_S19 : S_.BroadcastsInDim S19 (![] : Fin 0 → Fin S19.rank)
  reducesTo_S19_S_d0 : S19.ReducesTo [0] S_

variable [Facts]

def fn_part1 {F : FTy → Type} [FloatOps F] (main_arg4 : FVec F S19 .f32) (main_v13 : IVec S_ 1) (main_v16 : IVec S1225 1) : IVec S_ 1 :=
  let main_c_5 : IVec S_ 1 := constantI S_ 1 1#1
  let main_v17 : IVec S_ 1 := (fun x v => Host.reduce IntOp.andi x v reducesTo_S1225_S_d0 h_S_) main_v16 main_c_5
  let main_v18 : IVec S_ 1 := andi main_v13 main_v17
  let main_v19 : FVec F S19 .f32 := Host.absf main_arg4
  let main_cst_6 : FVec F S_ .f32 := constant S_ .f32 0x7F800000#32
  let main_v20 : FVec F S19 .f32 := broadcastInDim S19 ![] bcast_S_S19 main_cst_6
  let main_v21 : IVec S19 1 := cmpf .olt main_v19 main_v20
  let main_c_7 : IVec S_ 1 := constantI S_ 1 1#1
  let main_v22 : IVec S_ 1 := (fun x v => Host.reduce IntOp.andi x v reducesTo_S19_S_d0 h_S_) main_v21 main_c_7
  let main_v23 : IVec S_ 1 := andi main_v18 main_v22
  main_v23

def fn {F : FTy → Type} [FloatOps F] (main_arg0 : FVec F S5000x144 .f32) (main_arg1 : FVec F S50000x4864 .f32) (main_arg2 : FVec F S50000x25 .f32) (main_arg3 : FVec F S1225 .f32) (main_arg4 : FVec F S19 .f32) (main_arg5 : IVec S50000 32) (main_arg6 : IVec S50000 32) : IVec S_ 1 :=
  let main_v0 : FVec F S5000x144 .f32 := Host.absf main_arg0
  let main_cst : FVec F S_ .f32 := constant S_ .f32 0x7F800000#32
  let main_v1 : FVec F S5000x144 .f32 := broadcastInDim S5000x144 ![] bcast_S_S5000x144 main_cst
  let main_v2 : IVec S5000x144 1 := cmpf .olt main_v0 main_v1
  let main_c : IVec S_ 1 := constantI S_ 1 1#1
  let main_v3 : IVec S_ 1 := (fun x v => Host.reduce IntOp.andi x v reducesTo_S5000x144_S_d0_1 h_S_) main_v2 main_c
  let main_v4 : FVec F S50000x4864 .f32 := Host.absf main_arg1
  let main_cst_0 : FVec F S_ .f32 := constant S_ .f32 0x7F800000#32
  let main_v5 : FVec F S50000x4864 .f32 := broadcastInDim S50000x4864 ![] bcast_S_S50000x4864 main_cst_0
  let main_v6 : IVec S50000x4864 1 := cmpf .olt main_v4 main_v5
  let main_c_1 : IVec S_ 1 := constantI S_ 1 1#1
  let main_v7 : IVec S_ 1 := (fun x v => Host.reduce IntOp.andi x v reducesTo_S50000x4864_S_d0_1 h_S_) main_v6 main_c_1
  let main_v8 : IVec S_ 1 := andi main_v3 main_v7
  let main_v9 : FVec F S50000x25 .f32 := Host.absf main_arg2
  let main_cst_2 : FVec F S_ .f32 := constant S_ .f32 0x7F800000#32
  let main_v10 : FVec F S50000x25 .f32 := broadcastInDim S50000x25 ![] bcast_S_S50000x25 main_cst_2
  let main_v11 : IVec S50000x25 1 := cmpf .olt main_v9 main_v10
  let main_c_3 : IVec S_ 1 := constantI S_ 1 1#1
  let main_v12 : IVec S_ 1 := (fun x v => Host.reduce IntOp.andi x v reducesTo_S50000x25_S_d0_1 h_S_) main_v11 main_c_3
  let main_v13 : IVec S_ 1 := andi main_v8 main_v12
  let main_v14 : FVec F S1225 .f32 := Host.absf main_arg3
  let main_cst_4 : FVec F S_ .f32 := constant S_ .f32 0x7F800000#32
  let main_v15 : FVec F S1225 .f32 := broadcastInDim S1225 ![] bcast_S_S1225 main_cst_4
  let main_v16 : IVec S1225 1 := cmpf .olt main_v14 main_v15
  fn_part1 (F := F) main_arg4 main_v13 main_v16
-- ==== Kernel.lean ====
abbrev S5000x144 : Shape := ⟨2, ![5000, 144]⟩
abbrev S50000x4864 : Shape := ⟨2, ![50000, 4864]⟩
abbrev S50000x25 : Shape := ⟨2, ![50000, 25]⟩
abbrev S1225 : Shape := ⟨1, ![1225]⟩
abbrev S19 : Shape := ⟨1, ![19]⟩
abbrev S50000 : Shape := ⟨1, ![50000]⟩
abbrev S_ : Shape := ⟨0, ![]⟩
abbrev S50000x1 : Shape := ⟨2, ![50000, 1]⟩
abbrev S50000x144 : Shape := ⟨2, ![50000, 144]⟩
abbrev S25x259 : Shape := ⟨2, ![25, 259]⟩
abbrev S1 : Shape := ⟨1, ![1]⟩
abbrev S1x1x1 : Shape := ⟨3, ![1, 1, 1]⟩
abbrev S1x1 : Shape := ⟨2, ![1, 1]⟩
abbrev S2 : Shape := ⟨1, ![2]⟩
abbrev S9 : Shape := ⟨1, ![9]⟩
abbrev S1x3x3 : Shape := ⟨3, ![1, 3, 3]⟩
abbrev S3x1x3 : Shape := ⟨3, ![3, 1, 3]⟩
abbrev S3x3 : Shape := ⟨2, ![3, 3]⟩
abbrev S25 : Shape := ⟨1, ![25]⟩
abbrev S1x5x5 : Shape := ⟨3, ![1, 5, 5]⟩
abbrev S5x1x5 : Shape := ⟨3, ![5, 1, 5]⟩
abbrev S5x5 : Shape := ⟨2, ![5, 5]⟩
abbrev S3x3x1 : Shape := ⟨3, ![3, 3, 1]⟩
abbrev S1x9 : Shape := ⟨2, ![1, 9]⟩
abbrev S27 : Shape := ⟨1, ![27]⟩
abbrev S3x3x3 : Shape := ⟨3, ![3, 3, 3]⟩
abbrev S3x9 : Shape := ⟨2, ![3, 9]⟩
abbrev S45 : Shape := ⟨1, ![45]⟩
abbrev S3x3x5 : Shape := ⟨3, ![3, 3, 5]⟩
abbrev S5x3x3 : Shape := ⟨3, ![5, 3, 3]⟩
abbrev S5x9 : Shape := ⟨2, ![5, 9]⟩
abbrev S3x5x3 : Shape := ⟨3, ![3, 5, 3]⟩
abbrev S3x15 : Shape := ⟨2, ![3, 15]⟩
abbrev S75 : Shape := ⟨1, ![75]⟩
abbrev S3x5x5 : Shape := ⟨3, ![3, 5, 5]⟩
abbrev S5x3x5 : Shape := ⟨3, ![5, 3, 5]⟩
abbrev S5x15 : Shape := ⟨2, ![5, 15]⟩
abbrev S105 : Shape := ⟨1, ![105]⟩
abbrev S3x5x7 : Shape := ⟨3, ![3, 5, 7]⟩
abbrev S7x3x5 : Shape := ⟨3, ![7, 3, 5]⟩
abbrev S7x15 : Shape := ⟨2, ![7, 15]⟩
abbrev S5x5x1 : Shape := ⟨3, ![5, 5, 1]⟩
abbrev S5x5x3 : Shape := ⟨3, ![5, 5, 3]⟩
abbrev S5x3x7 : Shape := ⟨3, ![5, 3, 7]⟩
abbrev S7x5x3 : Shape := ⟨3, ![7, 5, 3]⟩
abbrev S1x25 : Shape := ⟨2, ![1, 25]⟩
abbrev S3x25 : Shape := ⟨2, ![3, 25]⟩
abbrev S125 : Shape := ⟨1, ![125]⟩
abbrev S5x5x5 : Shape := ⟨3, ![5, 5, 5]⟩
abbrev S5x25 : Shape := ⟨2, ![5, 25]⟩
abbrev S175 : Shape := ⟨1, ![175]⟩
abbrev S5x5x7 : Shape := ⟨3, ![5, 5, 7]⟩
abbrev S7x5x5 : Shape := ⟨3, ![7, 5, 5]⟩
abbrev S7x25 : Shape := ⟨2, ![7, 25]⟩
abbrev S225 : Shape := ⟨1, ![225]⟩
abbrev S5x5x9 : Shape := ⟨3, ![5, 5, 9]⟩
abbrev S9x5x5 : Shape := ⟨3, ![9, 5, 5]⟩
abbrev S9x25 : Shape := ⟨2, ![9, 25]⟩
abbrev S1x19 : Shape := ⟨2, ![1, 19]⟩
abbrev S400x4864 : Shape := ⟨2, ![400, 4864]⟩
abbrev S400x25 : Shape := ⟨2, ![400, 25]⟩
abbrev S400x144 : Shape := ⟨2, ![400, 144]⟩
abbrev S400x259 : Shape := ⟨2, ![400, 259]⟩
abbrev S400x16x1 : Shape := ⟨3, ![400, 16, 1]⟩
abbrev S400x16 : Shape := ⟨2, ![400, 16]⟩
abbrev S400x256 : Shape := ⟨2, ![400, 256]⟩
abbrev S400x256x1 : Shape := ⟨3, ![400, 256, 1]⟩
abbrev S400x1 : Shape := ⟨2, ![400, 1]⟩
abbrev S400x1x1 : Shape := ⟨3, ![400, 1, 1]⟩
abbrev S400x16x16 : Shape := ⟨3, ![400, 16, 16]⟩
abbrev S400x48 : Shape := ⟨2, ![400, 48]⟩
abbrev S400x16x3 : Shape := ⟨3, ![400, 16, 3]⟩
abbrev S400x3 : Shape := ⟨2, ![400, 3]⟩
abbrev S400x1x3 : Shape := ⟨3, ![400, 1, 3]⟩
abbrev S400x80 : Shape := ⟨2, ![400, 80]⟩
abbrev S400x16x5 : Shape := ⟨3, ![400, 16, 5]⟩
abbrev S400x5 : Shape := ⟨2, ![400, 5]⟩
abbrev S400x1x5 : Shape := ⟨3, ![400, 1, 5]⟩
abbrev S400x3x1 : Shape := ⟨3, ![400, 3, 1]⟩
abbrev S400x768 : Shape := ⟨2, ![400, 768]⟩
abbrev S400x256x3 : Shape := ⟨3, ![400, 256, 3]⟩
abbrev S400x9 : Shape := ⟨2, ![400, 9]⟩
abbrev S400x3x3 : Shape := ⟨3, ![400, 3, 3]⟩
abbrev S400x15 : Shape := ⟨2, ![400, 15]⟩
abbrev S400x3x5 : Shape := ⟨3, ![400, 3, 5]⟩
abbrev S400x5x1 : Shape := ⟨3, ![400, 5, 1]⟩
abbrev S400x5x3 : Shape := ⟨3, ![400, 5, 3]⟩
abbrev S400x1280 : Shape := ⟨2, ![400, 1280]⟩
abbrev S400x256x5 : Shape := ⟨3, ![400, 256, 5]⟩
abbrev S400x5x5 : Shape := ⟨3, ![400, 5, 5]⟩

abbrev nBuf : Space → Nat
  | .hbm => 221
  | .vmem => 10
  | .smem => 0
  | _ => 0

abbrev hbmTy0_0 (i : Nat) : BufTy := match i % 128 with
  | 0 => ⟨S5000x144, .f32⟩
  | 1 => ⟨S50000x4864, .f32⟩
  | 2 => ⟨S50000x25, .f32⟩
  | 3 => ⟨S1225, .f32⟩
  | 4 => ⟨S19, .f32⟩
  | 5 => ⟨S50000, .i32⟩
  | 6 => ⟨S50000, .i32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x144, .f32⟩
  | 16 => ⟨S_, .f32⟩
  | 17 => ⟨S25x259, .f32⟩
  | 18 => ⟨S1, .f32⟩
  | 19 => ⟨S1x1x1, .f32⟩
  | 20 => ⟨S1x1x1, .f32⟩
  | 21 => ⟨S1x1, .f32⟩
  | 22 => ⟨S_, .i32⟩
  | 23 => ⟨S1, .i32⟩
  | 24 => ⟨S_, .i32⟩
  | 25 => ⟨S1, .i32⟩
  | 26 => ⟨S2, .i32⟩
  | 27 => ⟨S25x259, .f32⟩
  | 28 => ⟨S9, .f32⟩
  | 29 => ⟨S1x3x3, .f32⟩
  | 30 => ⟨S3x1x3, .f32⟩
  | 31 => ⟨S3x3, .f32⟩
  | 32 => ⟨S_, .i32⟩
  | 33 => ⟨S1, .i32⟩
  | 34 => ⟨S_, .i32⟩
  | 35 => ⟨S1, .i32⟩
  | 36 => ⟨S2, .i32⟩
  | 37 => ⟨S25x259, .f32⟩
  | 38 => ⟨S25, .f32⟩
  | 39 => ⟨S1x5x5, .f32⟩
  | 40 => ⟨S5x1x5, .f32⟩
  | 41 => ⟨S5x5, .f32⟩
  | 42 => ⟨S_, .i32⟩
  | 43 => ⟨S1, .i32⟩
  | 44 => ⟨S_, .i32⟩
  | 45 => ⟨S1, .i32⟩
  | 46 => ⟨S2, .i32⟩
  | 47 => ⟨S25x259, .f32⟩
  | 48 => ⟨S9, .f32⟩
  | 49 => ⟨S3x1x3, .f32⟩
  | 50 => ⟨S3x3x1, .f32⟩
  | 51 => ⟨S3x3, .f32⟩
  | 52 => ⟨S_, .i32⟩
  | 53 => ⟨S1, .i32⟩
  | 54 => ⟨S_, .i32⟩
  | 55 => ⟨S1, .i32⟩
  | 56 => ⟨S2, .i32⟩
  | 57 => ⟨S25x259, .f32⟩
  | 58 => ⟨S9, .f32⟩
  | 59 => ⟨S3x3x1, .f32⟩
  | 60 => ⟨S1x3x3, .f32⟩
  | 61 => ⟨S1x9, .f32⟩
  | 62 => ⟨S_, .i32⟩
  | 63 => ⟨S1, .i32⟩
  | 64 => ⟨S_, .i32⟩
  | 65 => ⟨S1, .i32⟩
  | 66 => ⟨S2, .i32⟩
  | 67 => ⟨S25x259, .f32⟩
  | 68 => ⟨S27, .f32⟩
  | 69 => ⟨S3x3x3, .f32⟩
  | 70 => ⟨S3x3x3, .f32⟩
  | 71 => ⟨S3x9, .f32⟩
  | 72 => ⟨S_, .i32⟩
  | 73 => ⟨S1, .i32⟩
  | 74 => ⟨S_, .i32⟩
  | 75 => ⟨S1, .i32⟩
  | 76 => ⟨S2, .i32⟩
  | 77 => ⟨S25x259, .f32⟩
  | 78 => ⟨S45, .f32⟩
  | 79 => ⟨S3x3x5, .f32⟩
  | 80 => ⟨S5x3x3, .f32⟩
  | 81 => ⟨S5x9, .f32⟩
  | 82 => ⟨S_, .i32⟩
  | 83 => ⟨S1, .i32⟩
  | 84 => ⟨S_, .i32⟩
  | 85 => ⟨S1, .i32⟩
  | 86 => ⟨S2, .i32⟩
  | 87 => ⟨S25x259, .f32⟩
  | 88 => ⟨S45, .f32⟩
  | 89 => ⟨S3x5x3, .f32⟩
  | 90 => ⟨S3x3x5, .f32⟩
  | 91 => ⟨S3x15, .f32⟩
  | 92 => ⟨S_, .i32⟩
  | 93 => ⟨S1, .i32⟩
  | 94 => ⟨S_, .i32⟩
  | 95 => ⟨S1, .i32⟩
  | 96 => ⟨S2, .i32⟩
  | 97 => ⟨S25x259, .f32⟩
  | 98 => ⟨S75, .f32⟩
  | 99 => ⟨S3x5x5, .f32⟩
  | 100 => ⟨S5x3x5, .f32⟩
  | 101 => ⟨S5x15, .f32⟩
  | 102 => ⟨S_, .i32⟩
  | 103 => ⟨S1, .i32⟩
  | 104 => ⟨S_, .i32⟩
  | 105 => ⟨S1, .i32⟩
  | 106 => ⟨S2, .i32⟩
  | 107 => ⟨S25x259, .f32⟩
  | 108 => ⟨S105, .f32⟩
  | 109 => ⟨S3x5x7, .f32⟩
  | 110 => ⟨S7x3x5, .f32⟩
  | 111 => ⟨S7x15, .f32⟩
  | 112 => ⟨S_, .i32⟩
  | 113 => ⟨S1, .i32⟩
  | 114 => ⟨S_, .i32⟩
  | 115 => ⟨S1, .i32⟩
  | 116 => ⟨S2, .i32⟩
  | 117 => ⟨S25x259, .f32⟩
  | 118 => ⟨S25, .f32⟩
  | 119 => ⟨S5x1x5, .f32⟩
  | 120 => ⟨S5x5x1, .f32⟩
  | 121 => ⟨S5x5, .f32⟩
  | 122 => ⟨S_, .i32⟩
  | 123 => ⟨S1, .i32⟩
  | 124 => ⟨S_, .i32⟩
  | 125 => ⟨S1, .i32⟩
  | 126 => ⟨S2, .i32⟩
  | 127 => ⟨S25x259, .f32⟩
  | _ => ⟨S5000x144, .f32⟩

abbrev hbmTy0_1 (i : Nat) : BufTy := match i % 128 with
  | 0 => ⟨S45, .f32⟩
  | 1 => ⟨S5x3x3, .f32⟩
  | 2 => ⟨S3x5x3, .f32⟩
  | 3 => ⟨S3x15, .f32⟩
  | 4 => ⟨S_, .i32⟩
  | 5 => ⟨S1, .i32⟩
  | 6 => ⟨S_, .i32⟩
  | 7 => ⟨S1, .i32⟩
  | 8 => ⟨S2, .i32⟩
  | 9 => ⟨S25x259, .f32⟩
  | 10 => ⟨S75, .f32⟩
  | 11 => ⟨S5x3x5, .f32⟩
  | 12 => ⟨S5x5x3, .f32⟩
  | 13 => ⟨S5x15, .f32⟩
  | 14 => ⟨S_, .i32⟩
  | 15 => ⟨S1, .i32⟩
  | 16 => ⟨S_, .i32⟩
  | 17 => ⟨S1, .i32⟩
  | 18 => ⟨S2, .i32⟩
  | 19 => ⟨S25x259, .f32⟩
  | 20 => ⟨S105, .f32⟩
  | 21 => ⟨S5x3x7, .f32⟩
  | 22 => ⟨S7x5x3, .f32⟩
  | 23 => ⟨S7x15, .f32⟩
  | 24 => ⟨S_, .i32⟩
  | 25 => ⟨S1, .i32⟩
  | 26 => ⟨S_, .i32⟩
  | 27 => ⟨S1, .i32⟩
  | 28 => ⟨S2, .i32⟩
  | 29 => ⟨S25x259, .f32⟩
  | 30 => ⟨S25, .f32⟩
  | 31 => ⟨S5x5x1, .f32⟩
  | 32 => ⟨S1x5x5, .f32⟩
  | 33 => ⟨S1x25, .f32⟩
  | 34 => ⟨S_, .i32⟩
  | 35 => ⟨S1, .i32⟩
  | 36 => ⟨S_, .i32⟩
  | 37 => ⟨S1, .i32⟩
  | 38 => ⟨S2, .i32⟩
  | 39 => ⟨S25x259, .f32⟩
  | 40 => ⟨S75, .f32⟩
  | 41 => ⟨S5x5x3, .f32⟩
  | 42 => ⟨S3x5x5, .f32⟩
  | 43 => ⟨S3x25, .f32⟩
  | 44 => ⟨S_, .i32⟩
  | 45 => ⟨S1, .i32⟩
  | 46 => ⟨S_, .i32⟩
  | 47 => ⟨S1, .i32⟩
  | 48 => ⟨S2, .i32⟩
  | 49 => ⟨S25x259, .f32⟩
  | 50 => ⟨S125, .f32⟩
  | 51 => ⟨S5x5x5, .f32⟩
  | 52 => ⟨S5x5x5, .f32⟩
  | 53 => ⟨S5x25, .f32⟩
  | 54 => ⟨S_, .i32⟩
  | 55 => ⟨S1, .i32⟩
  | 56 => ⟨S_, .i32⟩
  | 57 => ⟨S1, .i32⟩
  | 58 => ⟨S2, .i32⟩
  | 59 => ⟨S25x259, .f32⟩
  | 60 => ⟨S175, .f32⟩
  | 61 => ⟨S5x5x7, .f32⟩
  | 62 => ⟨S7x5x5, .f32⟩
  | 63 => ⟨S7x25, .f32⟩
  | 64 => ⟨S_, .i32⟩
  | 65 => ⟨S1, .i32⟩
  | 66 => ⟨S_, .i32⟩
  | 67 => ⟨S1, .i32⟩
  | 68 => ⟨S2, .i32⟩
  | 69 => ⟨S25x259, .f32⟩
  | 70 => ⟨S225, .f32⟩
  | 71 => ⟨S5x5x9, .f32⟩
  | 72 => ⟨S9x5x5, .f32⟩
  | 73 => ⟨S9x25, .f32⟩
  | 74 => ⟨S_, .i32⟩
  | 75 => ⟨S1, .i32⟩
  | 76 => ⟨S_, .i32⟩
  | 77 => ⟨S1, .i32⟩
  | 78 => ⟨S2, .i32⟩
  | 79 => ⟨S25x259, .f32⟩
  | 80 => ⟨S1x19, .f32⟩
  | 81 => ⟨S50000x144, .f32⟩
  | 82 => ⟨S_, .f32⟩
  | 83 => ⟨S5000x144, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S5000x144, .f32⟩
  | _ => ⟨S5000x144, .f32⟩

abbrev hbmTy (i : Nat) : BufTy := match i / 128 with
  | 0 => hbmTy0_0 i
  | 1 => hbmTy0_1 i
  | _ => ⟨S5000x144, .f32⟩

abbrev bufTy : (tb : Table) → Fin (tcTables nBuf tb) → BufTy
  | .hbm, ⟨i, _⟩ => hbmTy i
  | .local _ .vmem, ⟨0, _⟩ => ⟨S400x4864, .f32⟩
  | .local _ .vmem, ⟨1, _⟩ => ⟨S400x4864, .f32⟩
  | .local _ .vmem, ⟨2, _⟩ => ⟨S400x25, .f32⟩
  | .local _ .vmem, ⟨3, _⟩ => ⟨S400x25, .f32⟩
  | .local _ .vmem, ⟨4, _⟩ => ⟨S400x144, .f32⟩
  | .local _ .vmem, ⟨5, _⟩ => ⟨S400x144, .f32⟩
  | .local _ .vmem, ⟨6, _⟩ => ⟨S25x259, .f32⟩
  | .local _ .vmem, ⟨7, _⟩ => ⟨S1x19, .f32⟩
  | .local _ .vmem, ⟨8, _⟩ => ⟨S400x144, .f32⟩
  | .local _ .vmem, ⟨9, _⟩ => ⟨S400x144, .f32⟩
  | _, _ => ⟨S5000x144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_c_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_c_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_19 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_21 : Ref sig .tc := ⟨.hbm, 122, rfl⟩
abbrev main_v92 : Ref sig .tc := ⟨.hbm, 123, rfl⟩
abbrev main_c_22 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_23 : Ref sig .tc := ⟨.hbm, 132, rfl⟩
abbrev main_v100 : Ref sig .tc := ⟨.hbm, 133, rfl⟩
abbrev main_c_24 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_25 : Ref sig .tc := ⟨.hbm, 142, rfl⟩
abbrev main_v108 : Ref sig .tc := ⟨.hbm, 143, rfl⟩
abbrev main_c_26 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_27 : Ref sig .tc := ⟨.hbm, 152, rfl⟩
abbrev main_v116 : Ref sig .tc := ⟨.hbm, 153, rfl⟩
abbrev main_c_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_29 : Ref sig .tc := ⟨.hbm, 162, rfl⟩
abbrev main_v124 : Ref sig .tc := ⟨.hbm, 163, rfl⟩
abbrev main_c_30 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_31 : Ref sig .tc := ⟨.hbm, 172, rfl⟩
abbrev main_v132 : Ref sig .tc := ⟨.hbm, 173, rfl⟩
abbrev main_c_32 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_33 : Ref sig .tc := ⟨.hbm, 182, rfl⟩
abbrev main_v140 : Ref sig .tc := ⟨.hbm, 183, rfl⟩
abbrev main_c_34 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_35 : Ref sig .tc := ⟨.hbm, 192, rfl⟩
abbrev main_v148 : Ref sig .tc := ⟨.hbm, 193, rfl⟩
abbrev main_c_36 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_37 : Ref sig .tc := ⟨.hbm, 202, rfl⟩
abbrev main_v156 : Ref sig .tc := ⟨.hbm, 203, rfl⟩
abbrev main_c_38 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_39 : Ref sig .tc := ⟨.hbm, 210, rfl⟩
abbrev main_v162 : Ref sig .tc := ⟨.hbm, 211, rfl⟩
abbrev main_c_40 : Ref sig .tc := ⟨.hbm, 212, rfl⟩
abbrev main_v163 : Ref sig .tc := ⟨.hbm, 213, rfl⟩
abbrev main_v164 : Ref sig .tc := ⟨.hbm, 214, rfl⟩
abbrev main_c_41 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x259 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S25x259 : S_.BroadcastsInDim S25x259 (![] : Fin 0 → Fin S25x259.rank)
  slices_S1225_S1_0 : S1225.Slices ![0] S1
  shapeCasts_S1_S1x1x1 : S1.ShapeCasts S1x1x1
  transposes_S1x1x1_S1x1x1_2_0_1 : S1x1x1.Transposes [2, 0, 1] S1x1x1
  shapeCasts_S1x1x1_S1x1 : S1x1x1.ShapeCasts S1x1
  bcast_S_S1 : S_.BroadcastsInDim S1 (![] : Fin 0 → Fin S1.rank)
  concatenates_S1_S1_S2_d0 : Shape.Concatenates [S1, S1] S2 0
  slices_S1225_S9_1 : S1225.Slices ![1] S9
  shapeCasts_S9_S1x3x3 : S9.ShapeCasts S1x3x3
  transposes_S1x3x3_S3x1x3_2_0_1 : S1x3x3.Transposes [2, 0, 1] S3x1x3
  shapeCasts_S3x1x3_S3x3 : S3x1x3.ShapeCasts S3x3
  slices_S1225_S25_10 : S1225.Slices ![10] S25
  shapeCasts_S25_S1x5x5 : S25.ShapeCasts S1x5x5
  transposes_S1x5x5_S5x1x5_2_0_1 : S1x5x5.Transposes [2, 0, 1] S5x1x5
  shapeCasts_S5x1x5_S5x5 : S5x1x5.ShapeCasts S5x5
  slices_S1225_S9_35 : S1225.Slices ![35] S9
  shapeCasts_S9_S3x1x3 : S9.ShapeCasts S3x1x3
  transposes_S3x1x3_S3x3x1_2_0_1 : S3x1x3.Transposes [2, 0, 1] S3x3x1
  shapeCasts_S3x3x1_S3x3 : S3x3x1.ShapeCasts S3x3
  slices_S1225_S9_44 : S1225.Slices ![44] S9
  shapeCasts_S9_S3x3x1 : S9.ShapeCasts S3x3x1
  transposes_S3x3x1_S1x3x3_2_0_1 : S3x3x1.Transposes [2, 0, 1] S1x3x3
  shapeCasts_S1x3x3_S1x9 : S1x3x3.ShapeCasts S1x9
  slices_S1225_S27_53 : S1225.Slices ![53] S27
  shapeCasts_S27_S3x3x3 : S27.ShapeCasts S3x3x3
  transposes_S3x3x3_S3x3x3_2_0_1 : S3x3x3.Transposes [2, 0, 1] S3x3x3
  shapeCasts_S3x3x3_S3x9 : S3x3x3.ShapeCasts S3x9
  slices_S1225_S45_80 : S1225.Slices ![80] S45
  shapeCasts_S45_S3x3x5 : S45.ShapeCasts S3x3x5
  transposes_S3x3x5_S5x3x3_2_0_1 : S3x3x5.Transposes [2, 0, 1] S5x3x3
  shapeCasts_S5x3x3_S5x9 : S5x3x3.ShapeCasts S5x9
  slices_S1225_S45_125 : S1225.Slices ![125] S45
  shapeCasts_S45_S3x5x3 : S45.ShapeCasts S3x5x3
  transposes_S3x5x3_S3x3x5_2_0_1 : S3x5x3.Transposes [2, 0, 1] S3x3x5
  shapeCasts_S3x3x5_S3x15 : S3x3x5.ShapeCasts S3x15
  slices_S1225_S75_170 : S1225.Slices ![170] S75
  shapeCasts_S75_S3x5x5 : S75.ShapeCasts S3x5x5
  transposes_S3x5x5_S5x3x5_2_0_1 : S3x5x5.Transposes [2, 0, 1] S5x3x5
  shapeCasts_S5x3x5_S5x15 : S5x3x5.ShapeCasts S5x15
  slices_S1225_S105_245 : S1225.Slices ![245] S105
  shapeCasts_S105_S3x5x7 : S105.ShapeCasts S3x5x7
  transposes_S3x5x7_S7x3x5_2_0_1 : S3x5x7.Transposes [2, 0, 1] S7x3x5
  shapeCasts_S7x3x5_S7x15 : S7x3x5.ShapeCasts S7x15
  slices_S1225_S25_350 : S1225.Slices ![350] S25
  shapeCasts_S25_S5x1x5 : S25.ShapeCasts S5x1x5
  transposes_S5x1x5_S5x5x1_2_0_1 : S5x1x5.Transposes [2, 0, 1] S5x5x1
  shapeCasts_S5x5x1_S5x5 : S5x5x1.ShapeCasts S5x5
  slices_S1225_S45_375 : S1225.Slices ![375] S45
  shapeCasts_S45_S5x3x3 : S45.ShapeCasts S5x3x3
  transposes_S5x3x3_S3x5x3_2_0_1 : S5x3x3.Transposes [2, 0, 1] S3x5x3
  shapeCasts_S3x5x3_S3x15 : S3x5x3.ShapeCasts S3x15
  slices_S1225_S75_420 : S1225.Slices ![420] S75
  shapeCasts_S75_S5x3x5 : S75.ShapeCasts S5x3x5
  transposes_S5x3x5_S5x5x3_2_0_1 : S5x3x5.Transposes [2, 0, 1] S5x5x3
  shapeCasts_S5x5x3_S5x15 : S5x5x3.ShapeCasts S5x15
  slices_S1225_S105_495 : S1225.Slices ![495] S105
  shapeCasts_S105_S5x3x7 : S105.ShapeCasts S5x3x7
  transposes_S5x3x7_S7x5x3_2_0_1 : S5x3x7.Transposes [2, 0, 1] S7x5x3
  shapeCasts_S7x5x3_S7x15 : S7x5x3.ShapeCasts S7x15
  slices_S1225_S25_600 : S1225.Slices ![600] S25
  shapeCasts_S25_S5x5x1 : S25.ShapeCasts S5x5x1
  transposes_S5x5x1_S1x5x5_2_0_1 : S5x5x1.Transposes [2, 0, 1] S1x5x5
  shapeCasts_S1x5x5_S1x25 : S1x5x5.ShapeCasts S1x25
  slices_S1225_S75_625 : S1225.Slices ![625] S75
  shapeCasts_S75_S5x5x3 : S75.ShapeCasts S5x5x3
  transposes_S5x5x3_S3x5x5_2_0_1 : S5x5x3.Transposes [2, 0, 1] S3x5x5
  shapeCasts_S3x5x5_S3x25 : S3x5x5.ShapeCasts S3x25
  slices_S1225_S125_700 : S1225.Slices ![700] S125
  shapeCasts_S125_S5x5x5 : S125.ShapeCasts S5x5x5
  transposes_S5x5x5_S5x5x5_2_0_1 : S5x5x5.Transposes [2, 0, 1] S5x5x5
  shapeCasts_S5x5x5_S5x25 : S5x5x5.ShapeCasts S5x25
  slices_S1225_S175_825 : S1225.Slices ![825] S175
  shapeCasts_S175_S5x5x7 : S175.ShapeCasts S5x5x7
  transposes_S5x5x7_S7x5x5_2_0_1 : S5x5x7.Transposes [2, 0, 1] S7x5x5
  shapeCasts_S7x5x5_S7x25 : S7x5x5.ShapeCasts S7x25
  slices_S1225_S225_1000 : S1225.Slices ![1000] S225
  shapeCasts_S225_S5x5x9 : S225.ShapeCasts S5x5x9
  transposes_S5x5x9_S9x5x5_2_0_1 : S5x5x9.Transposes [2, 0, 1] S9x5x5
  shapeCasts_S9x5x5_S9x25 : S9x5x5.ShapeCasts S9x25
  shapeCasts_S19_S1x19 : S19.ShapeCasts S1x19
  inb_S400x25_S400x25_0_0 : ∀ a, (![0, 0] : Fin 2 → Nat) a + S400x25.size a ≤ S400x25.size a
  h_S400x25 : 0 < S400x25.numel
  inb_S25x259_S25x259_0_0 : ∀ a, (![0, 0] : Fin 2 → Nat) a + S25x259.size a ≤ S25x259.size a
  h_S25x259 : 0 < S25x259.numel
  shapeCasts_S25x259_S25x259 : S25x259.ShapeCasts S25x259
  inb_S400x144_S400x144_0_0 : ∀ a, (![0, 0] : Fin 2 → Nat) a + S400x144.size a ≤ S400x144.size a
  h_S400x144 : 0 < S400x144.numel
  shapeCasts_S400x144_S400x144 : S400x144.ShapeCasts S400x144
  inb_S400x4864_S400x4864_0_0 : ∀ a, (![0, 0] : Fin 2 → Nat) a + S400x4864.size a ≤ S400x4864.size a
  h_S400x4864 : 0 < S400x4864.numel
  inb_S1x19_S1x19_0_0 : ∀ a, (![0, 0] : Fin 2 → Nat) a + S1x19.size a ≤ S1x19.size a
  h_S1x19 : 0 < S1x19.numel
  shapeCasts_S1x19_S19 : S1x19.ShapeCasts S19
  slices_S400x144_o0_0_S400x16 : S400x144.Slices ![0, 0] S400x16
  shapeCasts_S400x16_S400x16x1 : S400x16.ShapeCasts S400x16x1
  slices_S400x4864_o0_0_S400x256 : S400x4864.Slices ![0, 0] S400x256
  shapeCasts_S400x256_S400x256x1 : S400x256.ShapeCasts S400x256x1
  slices_S400x259_o0_0_S400x1 : S400x259.Slices ![0, 0] S400x1
  shapeCasts_S400x1_S400x1x1 : S400x1.ShapeCasts S400x1x1
  shapeCasts_S400x256x1_S400x256 : S400x256x1.ShapeCasts S400x256
  shapeCasts_S400x256_S400x16x16 : S400x256.ShapeCasts S400x16x16
  slices_S19_o0_S1 : S19.Slices ![0] S1
  inpos_S1_p0 : ∀ a, (![0] : Fin 1 → Nat) a < S1.size a
  slices_S400x144_o0_16_S400x48 : S400x144.Slices ![0, 16] S400x48
  shapeCasts_S400x48_S400x16x3 : S400x48.ShapeCasts S400x16x3
  slices_S400x4864_o0_256_S400x256 : S400x4864.Slices ![0, 256] S400x256
  slices_S400x259_o0_1_S400x3 : S400x259.Slices ![0, 1] S400x3
  shapeCasts_S400x3_S400x1x3 : S400x3.ShapeCasts S400x1x3
  slices_S19_o1_S1 : S19.Slices ![1] S1
  slices_S400x144_o0_64_S400x80 : S400x144.Slices ![0, 64] S400x80
  shapeCasts_S400x80_S400x16x5 : S400x80.ShapeCasts S400x16x5
  slices_S400x4864_o0_512_S400x256 : S400x4864.Slices ![0, 512] S400x256
  slices_S400x259_o0_4_S400x5 : S400x259.Slices ![0, 4] S400x5
  shapeCasts_S400x5_S400x1x5 : S400x5.ShapeCasts S400x1x5
  slices_S19_o2_S1 : S19.Slices ![2] S1
  shapeCasts_S400x16x1_S400x16 : S400x16x1.ShapeCasts S400x16
  slices_S400x4864_o0_768_S400x256 : S400x4864.Slices ![0, 768] S400x256
  slices_S400x259_o0_9_S400x3 : S400x259.Slices ![0, 9] S400x3
  shapeCasts_S400x3_S400x3x1 : S400x3.ShapeCasts S400x3x1
  slices_S19_o3_S1 : S19.Slices ![3] S1
  slices_S400x4864_o0_1024_S400x768 : S400x4864.Slices ![0, 1024] S400x768
  shapeCasts_S400x768_S400x256x3 : S400x768.ShapeCasts S400x256x3
  slices_S400x259_o0_12_S400x9 : S400x259.Slices ![0, 12] S400x9
  shapeCasts_S400x9_S400x3x3 : S400x9.ShapeCasts S400x3x3
  slices_S400x256x3_o0_0_0_S400x256x1 : S400x256x3.Slices ![0, 0, 0] S400x256x1
  slices_S19_o4_S1 : S19.Slices ![4] S1
  slices_S400x259_o0_21_S400x9 : S400x259.Slices ![0, 21] S400x9
  slices_S400x256x3_o0_0_1_S400x256x1 : S400x256x3.Slices ![0, 0, 1] S400x256x1
  slices_S19_o5_S1 : S19.Slices ![5] S1
  slices_S400x259_o0_30_S400x9 : S400x259.Slices ![0, 30] S400x9
  slices_S400x256x3_o0_0_2_S400x256x1 : S400x256x3.Slices ![0, 0, 2] S400x256x1
  slices_S19_o6_S1 : S19.Slices ![6] S1
  slices_S400x4864_o0_1792_S400x768 : S400x4864.Slices ![0, 1792] S400x768
  slices_S400x259_o0_39_S400x15 : S400x259.Slices ![0, 39] S400x15
  shapeCasts_S400x15_S400x3x5 : S400x15.ShapeCasts S400x3x5
  slices_S19_o7_S1 : S19.Slices ![7] S1
  slices_S400x259_o0_54_S400x15 : S400x259.Slices ![0, 54] S400x15
  slices_S19_o8_S1 : S19.Slices ![8] S1
  slices_S400x259_o0_69_S400x15 : S400x259.Slices ![0, 69] S400x15
  slices_S19_o9_S1 : S19.Slices ![9] S1
  shapeCasts_S400x16x3_S400x48 : S400x16x3.ShapeCasts S400x48
  slices_S400x4864_o0_2560_S400x256 : S400x4864.Slices ![0, 2560] S400x256
  slices_S400x259_o0_84_S400x5 : S400x259.Slices ![0, 84] S400x5
  shapeCasts_S400x5_S400x5x1 : S400x5.ShapeCasts S400x5x1
  slices_S19_o10_S1 : S19.Slices ![10] S1
  slices_S400x4864_o0_2816_S400x768 : S400x4864.Slices ![0, 2816] S400x768
  slices_S400x259_o0_89_S400x15 : S400x259.Slices ![0, 89] S400x15
  shapeCasts_S400x15_S400x5x3 : S400x15.ShapeCasts S400x5x3
  slices_S19_o11_S1 : S19.Slices ![11] S1
  slices_S400x259_o0_104_S400x15 : S400x259.Slices ![0, 104] S400x15
  slices_S19_o12_S1 : S19.Slices ![12] S1
  slices_S400x259_o0_119_S400x15 : S400x259.Slices ![0, 119] S400x15
  slices_S19_o13_S1 : S19.Slices ![13] S1
  slices_S400x4864_o0_3584_S400x1280 : S400x4864.Slices ![0, 3584] S400x1280
  shapeCasts_S400x1280_S400x256x5 : S400x1280.ShapeCasts S400x256x5
  slices_S400x259_o0_134_S400x25 : S400x259.Slices ![0, 134] S400x25
  shapeCasts_S400x25_S400x5x5 : S400x25.ShapeCasts S400x5x5
  slices_S400x256x5_o0_0_0_S400x256x1 : S400x256x5.Slices ![0, 0, 0] S400x256x1
  slices_S19_o14_S1 : S19.Slices ![14] S1
  slices_S400x259_o0_159_S400x25 : S400x259.Slices ![0, 159] S400x25
  slices_S400x256x5_o0_0_1_S400x256x1 : S400x256x5.Slices ![0, 0, 1] S400x256x1
  slices_S19_o15_S1 : S19.Slices ![15] S1
  slices_S400x259_o0_184_S400x25 : S400x259.Slices ![0, 184] S400x25
  slices_S400x256x5_o0_0_2_S400x256x1 : S400x256x5.Slices ![0, 0, 2] S400x256x1
  slices_S19_o16_S1 : S19.Slices ![16] S1
  slices_S400x259_o0_209_S400x25 : S400x259.Slices ![0, 209] S400x25
  slices_S400x256x5_o0_0_3_S400x256x1 : S400x256x5.Slices ![0, 0, 3] S400x256x1
  slices_S19_o17_S1 : S19.Slices ![17] S1
  slices_S400x259_o0_234_S400x25 : S400x259.Slices ![0, 234] S400x25
  slices_S400x256x5_o0_0_4_S400x256x1 : S400x256x5.Slices ![0, 0, 4] S400x256x1
  slices_S19_o18_S1 : S19.Slices ![18] S1
  shapeCasts_S400x16x5_S400x80 : S400x16x5.ShapeCasts S400x80
  concatenates_S400x16_S400x48_S400x80_S400x144_d1 : Shape.Concatenates [S400x16, S400x48, S400x80] S400x144 1
  bcast_S_S5000x144 : S_.BroadcastsInDim S5000x144 (![] : Fin 0 → Fin S5000x144.rank)
  gather_S5000x144_S50000x1_S50000x144_1_0_n_n_0_1_1144_wf : GatherDims.WF S5000x144 S50000x1 S50000x144 [1] [0] [] [0] [] 1 ![1, 144]
  scatter_S25x259_S2_S1x1_01_n_01_0_wf : ScatterDims.WF S25x259 S2 S1x1 [0, 1] [] [0, 1] 0
  scatter_S25x259_S2_S3x3_01_n_01_0_wf : ScatterDims.WF S25x259 S2 S3x3 [0, 1] [] [0, 1] 0
  scatter_S25x259_S2_S5x5_01_n_01_0_wf : ScatterDims.WF S25x259 S2 S5x5 [0, 1] [] [0, 1] 0
  scatter_S25x259_S2_S1x9_01_n_01_0_wf : ScatterDims.WF S25x259 S2 S1x9 [0, 1] [] [0, 1] 0
  scatter_S25x259_S2_S3x9_01_n_01_0_wf : ScatterDims.WF S25x259 S2 S3x9 [0, 1] [] [0, 1] 0
  scatter_S25x259_S2_S5x9_01_n_01_0_wf : ScatterDims.WF S25x259 S2 S5x9 [0, 1] [] [0, 1] 0
  scatter_S25x259_S2_S3x15_01_n_01_0_wf : ScatterDims.WF S25x259 S2 S3x15 [0, 1] [] [0, 1] 0
  scatter_S25x259_S2_S5x15_01_n_01_0_wf : ScatterDims.WF S25x259 S2 S5x15 [0, 1] [] [0, 1] 0
  scatter_S25x259_S2_S7x15_01_n_01_0_wf : ScatterDims.WF S25x259 S2 S7x15 [0, 1] [] [0, 1] 0
  scatter_S25x259_S2_S1x25_01_n_01_0_wf : ScatterDims.WF S25x259 S2 S1x25 [0, 1] [] [0, 1] 0
  scatter_S25x259_S2_S3x25_01_n_01_0_wf : ScatterDims.WF S25x259 S2 S3x25 [0, 1] [] [0, 1] 0
  scatter_S25x259_S2_S5x25_01_n_01_0_wf : ScatterDims.WF S25x259 S2 S5x25 [0, 1] [] [0, 1] 0
  scatter_S25x259_S2_S7x25_01_n_01_0_wf : ScatterDims.WF S25x259 S2 S7x25 [0, 1] [] [0, 1] 0
  scatter_S25x259_S2_S9x25_01_n_01_0_wf : ScatterDims.WF S25x259 S2 S9x25 [0, 1] [] [0, 1] 0
  dot_S400x25_S25x259_S400x259_1_0_0_1_n_n_wf : DotDims.WF S400x25 S25x259 S400x259 [1] [0] [0] [1] [] []
  dot_S400x16x1_S400x1x1_S400x16x1_2_2_1_1_0_0_wf : DotDims.WF S400x16x1 S400x1x1 S400x16x1 [2] [2] [1] [1] [0] [0]
  dot_S400x16x16_S400x16x1_S400x16x1_2_1_1_2_0_0_wf : DotDims.WF S400x16x16 S400x16x1 S400x16x1 [2] [1] [1] [2] [0] [0]
  dot_S400x16x3_S400x1x3_S400x16x1_2_2_1_1_0_0_wf : DotDims.WF S400x16x3 S400x1x3 S400x16x1 [2] [2] [1] [1] [0] [0]
  dot_S400x16x5_S400x1x5_S400x16x1_2_2_1_1_0_0_wf : DotDims.WF S400x16x5 S400x1x5 S400x16x1 [2] [2] [1] [1] [0] [0]
  dot_S400x16x1_S400x3x1_S400x16x3_2_2_1_1_0_0_wf : DotDims.WF S400x16x1 S400x3x1 S400x16x3 [2] [2] [1] [1] [0] [0]
  dot_S400x16x16_S400x16x3_S400x16x3_2_1_1_2_0_0_wf : DotDims.WF S400x16x16 S400x16x3 S400x16x3 [2] [1] [1] [2] [0] [0]
  dot_S400x16x3_S400x3x3_S400x16x3_2_2_1_1_0_0_wf : DotDims.WF S400x16x3 S400x3x3 S400x16x3 [2] [2] [1] [1] [0] [0]
  dot_S400x16x5_S400x3x5_S400x16x3_2_2_1_1_0_0_wf : DotDims.WF S400x16x5 S400x3x5 S400x16x3 [2] [2] [1] [1] [0] [0]
  dot_S400x16x1_S400x5x1_S400x16x5_2_2_1_1_0_0_wf : DotDims.WF S400x16x1 S400x5x1 S400x16x5 [2] [2] [1] [1] [0] [0]
  dot_S400x16x16_S400x16x5_S400x16x5_2_1_1_2_0_0_wf : DotDims.WF S400x16x16 S400x16x5 S400x16x5 [2] [1] [1] [2] [0] [0]
  dot_S400x16x3_S400x5x3_S400x16x5_2_2_1_1_0_0_wf : DotDims.WF S400x16x3 S400x5x3 S400x16x5 [2] [2] [1] [1] [0] [0]
  dot_S400x16x5_S400x5x5_S400x16x5_2_2_1_1_0_0_wf : DotDims.WF S400x16x5 S400x5x5 S400x16x5 [2] [2] [1] [1] [0] [0]
  scatter_S5000x144_S50000x1_S50000x144_1_0_0_1_wf : ScatterDims.WF S5000x144 S50000x1 S50000x144 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4864.size a ≤ S50000x4864.size a
  hwx0_0 : ∀ i : grid0.Coords, EltTy.bits .f32 = 32 ∨ (Rect.block (s := S50000x4864) S400x4864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x25.size a ≤ S50000x25.size a
  hwx0_1 : ∀ i : grid0.Coords, EltTy.bits .f32 = 32 ∨ (Rect.block (s := S50000x25) S400x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x144.size a ≤ S50000x144.size a
  hwx0_2 : ∀ i : grid0.Coords, EltTy.bits .f32 = 32 ∨ (Rect.block (s := S50000x144) S400x144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x259.size a ≤ S25x259.size a
  hwx0_3 : ∀ i : grid0.Coords, EltTy.bits .f32 = 32 ∨ (Rect.block (s := S25x259) S25x259.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x19.size a ≤ S1x19.size a
  hwx0_4 : ∀ i : grid0.Coords, EltTy.bits .f32 = 32 ∨ (Rect.block (s := S1x19) S1x19.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x144.size a ≤ S50000x144.size a
  hwx0_5 : ∀ i : grid0.Coords, EltTy.bits .f32 = 32 ∨ (Rect.block (s := S50000x144) S400x144.size (cc0_transform_5 i) (hinb0_5 i)).WholeWords (EltTy.packing .f32)

variable [Facts₀]

def gather_S5000x144_S50000x1_S50000x144_1_0_n_n_0_1_1144 : GatherDims S5000x144 S50000x1 S50000x144 where
  offsetDims := [1]
  collapsedSliceDims := [0]
  operandBatchingDims := []
  startIndicesBatchingDims := []
  startIndexMap := [0]
  indexVectorDim := 1
  sliceSizes := ![1, 144]
  wf := gather_S5000x144_S50000x1_S50000x144_1_0_n_n_0_1_1144_wf
def scatter_S25x259_S2_S1x1_01_n_01_0 : ScatterDims S25x259 S2 S1x1 where
  updateWindowDims := [0, 1]
  insertedWindowDims := []
  scatterDimsToOperandDims := [0, 1]
  indexVectorDim := 0
  wf := scatter_S25x259_S2_S1x1_01_n_01_0_wf
def scatter_S25x259_S2_S3x3_01_n_01_0 : ScatterDims S25x259 S2 S3x3 where
  updateWindowDims := [0, 1]
  insertedWindowDims := []
  scatterDimsToOperandDims := [0, 1]
  indexVectorDim := 0
  wf := scatter_S25x259_S2_S3x3_01_n_01_0_wf
def scatter_S25x259_S2_S5x5_01_n_01_0 : ScatterDims S25x259 S2 S5x5 where
  updateWindowDims := [0, 1]
  insertedWindowDims := []
  scatterDimsToOperandDims := [0, 1]
  indexVectorDim := 0
  wf := scatter_S25x259_S2_S5x5_01_n_01_0_wf
def scatter_S25x259_S2_S1x9_01_n_01_0 : ScatterDims S25x259 S2 S1x9 where
  updateWindowDims := [0, 1]
  insertedWindowDims := []
  scatterDimsToOperandDims := [0, 1]
  indexVectorDim := 0
  wf := scatter_S25x259_S2_S1x9_01_n_01_0_wf
def scatter_S25x259_S2_S3x9_01_n_01_0 : ScatterDims S25x259 S2 S3x9 where
  updateWindowDims := [0, 1]
  insertedWindowDims := []
  scatterDimsToOperandDims := [0, 1]
  indexVectorDim := 0
  wf := scatter_S25x259_S2_S3x9_01_n_01_0_wf
def scatter_S25x259_S2_S5x9_01_n_01_0 : ScatterDims S25x259 S2 S5x9 where
  updateWindowDims := [0, 1]
  insertedWindowDims := []
  scatterDimsToOperandDims := [0, 1]
  indexVectorDim := 0
  wf := scatter_S25x259_S2_S5x9_01_n_01_0_wf
def scatter_S25x259_S2_S3x15_01_n_01_0 : ScatterDims S25x259 S2 S3x15 where
  updateWindowDims := [0, 1]
  insertedWindowDims := []
  scatterDimsToOperandDims := [0, 1]
  indexVectorDim := 0
  wf := scatter_S25x259_S2_S3x15_01_n_01_0_wf
def scatter_S25x259_S2_S5x15_01_n_01_0 : ScatterDims S25x259 S2 S5x15 where
  updateWindowDims := [0, 1]
  insertedWindowDims := []
  scatterDimsToOperandDims := [0, 1]
  indexVectorDim := 0
  wf := scatter_S25x259_S2_S5x15_01_n_01_0_wf
def scatter_S25x259_S2_S7x15_01_n_01_0 : ScatterDims S25x259 S2 S7x15 where
  updateWindowDims := [0, 1]
  insertedWindowDims := []
  scatterDimsToOperandDims := [0, 1]
  indexVectorDim := 0
  wf := scatter_S25x259_S2_S7x15_01_n_01_0_wf
def scatter_S25x259_S2_S1x25_01_n_01_0 : ScatterDims S25x259 S2 S1x25 where
  updateWindowDims := [0, 1]
  insertedWindowDims := []
  scatterDimsToOperandDims := [0, 1]
  indexVectorDim := 0
  wf := scatter_S25x259_S2_S1x25_01_n_01_0_wf
def scatter_S25x259_S2_S3x25_01_n_01_0 : ScatterDims S25x259 S2 S3x25 where
  updateWindowDims := [0, 1]
  insertedWindowDims := []
  scatterDimsToOperandDims := [0, 1]
  indexVectorDim := 0
  wf := scatter_S25x259_S2_S3x25_01_n_01_0_wf
def scatter_S25x259_S2_S5x25_01_n_01_0 : ScatterDims S25x259 S2 S5x25 where
  updateWindowDims := [0, 1]
  insertedWindowDims := []
  scatterDimsToOperandDims := [0, 1]
  indexVectorDim := 0
  wf := scatter_S25x259_S2_S5x25_01_n_01_0_wf
def scatter_S25x259_S2_S7x25_01_n_01_0 : ScatterDims S25x259 S2 S7x25 where
  updateWindowDims := [0, 1]
  insertedWindowDims := []
  scatterDimsToOperandDims := [0, 1]
  indexVectorDim := 0
  wf := scatter_S25x259_S2_S7x25_01_n_01_0_wf
def scatter_S25x259_S2_S9x25_01_n_01_0 : ScatterDims S25x259 S2 S9x25 where
  updateWindowDims := [0, 1]
  insertedWindowDims := []
  scatterDimsToOperandDims := [0, 1]
  indexVectorDim := 0
  wf := scatter_S25x259_S2_S9x25_01_n_01_0_wf
def dot_S400x25_S25x259_S400x259_1_0_0_1_n_n : DotDims S400x25 S25x259 S400x259 where
  lhsContracting := [1]
  rhsContracting := [0]
  lhsNonContracting := [0]
  rhsNonContracting := [1]
  lhsBatch := []
  rhsBatch := []
  wf := dot_S400x25_S25x259_S400x259_1_0_0_1_n_n_wf
def dot_S400x16x1_S400x1x1_S400x16x1_2_2_1_1_0_0 : DotDims S400x16x1 S400x1x1 S400x16x1 where
  lhsContracting := [2]
  rhsContracting := [2]
  lhsNonContracting := [1]
  rhsNonContracting := [1]
  lhsBatch := [0]
  rhsBatch := [0]
  wf := dot_S400x16x1_S400x1x1_S400x16x1_2_2_1_1_0_0_wf
def dot_S400x16x16_S400x16x1_S400x16x1_2_1_1_2_0_0 : DotDims S400x16x16 S400x16x1 S400x16x1 where
  lhsContracting := [2]
  rhsContracting := [1]
  lhsNonContracting := [1]
  rhsNonContracting := [2]
  lhsBatch := [0]
  rhsBatch := [0]
  wf := dot_S400x16x16_S400x16x1_S400x16x1_2_1_1_2_0_0_wf
def dot_S400x16x3_S400x1x3_S400x16x1_2_2_1_1_0_0 : DotDims S400x16x3 S400x1x3 S400x16x1 where
  lhsContracting := [2]
  rhsContracting := [2]
  lhsNonContracting := [1]
  rhsNonContracting := [1]
  lhsBatch := [0]
  rhsBatch := [0]
  wf := dot_S400x16x3_S400x1x3_S400x16x1_2_2_1_1_0_0_wf
def dot_S400x16x5_S400x1x5_S400x16x1_2_2_1_1_0_0 : DotDims S400x16x5 S400x1x5 S400x16x1 where
  lhsContracting := [2]
  rhsContracting := [2]
  lhsNonContracting := [1]
  rhsNonContracting := [1]
  lhsBatch := [0]
  rhsBatch := [0]
  wf := dot_S400x16x5_S400x1x5_S400x16x1_2_2_1_1_0_0_wf
def dot_S400x16x1_S400x3x1_S400x16x3_2_2_1_1_0_0 : DotDims S400x16x1 S400x3x1 S400x16x3 where
  lhsContracting := [2]
  rhsContracting := [2]
  lhsNonContracting := [1]
  rhsNonContracting := [1]
  lhsBatch := [0]
  rhsBatch := [0]
  wf := dot_S400x16x1_S400x3x1_S400x16x3_2_2_1_1_0_0_wf
def dot_S400x16x16_S400x16x3_S400x16x3_2_1_1_2_0_0 : DotDims S400x16x16 S400x16x3 S400x16x3 where
  lhsContracting := [2]
  rhsContracting := [1]
  lhsNonContracting := [1]
  rhsNonContracting := [2]
  lhsBatch := [0]
  rhsBatch := [0]
  wf := dot_S400x16x16_S400x16x3_S400x16x3_2_1_1_2_0_0_wf
def dot_S400x16x3_S400x3x3_S400x16x3_2_2_1_1_0_0 : DotDims S400x16x3 S400x3x3 S400x16x3 where
  lhsContracting := [2]
  rhsContracting := [2]
  lhsNonContracting := [1]
  rhsNonContracting := [1]
  lhsBatch := [0]
  rhsBatch := [0]
  wf := dot_S400x16x3_S400x3x3_S400x16x3_2_2_1_1_0_0_wf
def dot_S400x16x5_S400x3x5_S400x16x3_2_2_1_1_0_0 : DotDims S400x16x5 S400x3x5 S400x16x3 where
  lhsContracting := [2]
  rhsContracting := [2]
  lhsNonContracting := [1]
  rhsNonContracting := [1]
  lhsBatch := [0]
  rhsBatch := [0]
  wf := dot_S400x16x5_S400x3x5_S400x16x3_2_2_1_1_0_0_wf
def dot_S400x16x1_S400x5x1_S400x16x5_2_2_1_1_0_0 : DotDims S400x16x1 S400x5x1 S400x16x5 where
  lhsContracting := [2]
  rhsContracting := [2]
  lhsNonContracting := [1]
  rhsNonContracting := [1]
  lhsBatch := [0]
  rhsBatch := [0]
  wf := dot_S400x16x1_S400x5x1_S400x16x5_2_2_1_1_0_0_wf
def dot_S400x16x16_S400x16x5_S400x16x5_2_1_1_2_0_0 : DotDims S400x16x16 S400x16x5 S400x16x5 where
  lhsContracting := [2]
  rhsContracting := [1]
  lhsNonContracting := [1]
  rhsNonContracting := [2]
  lhsBatch := [0]
  rhsBatch := [0]
  wf := dot_S400x16x16_S400x16x5_S400x16x5_2_1_1_2_0_0_wf
def dot_S400x16x3_S400x5x3_S400x16x5_2_2_1_1_0_0 : DotDims S400x16x3 S400x5x3 S400x16x5 where
  lhsContracting := [2]
  rhsContracting := [2]
  lhsNonContracting := [1]
  rhsNonContracting := [1]
  lhsBatch := [0]
  rhsBatch := [0]
  wf := dot_S400x16x3_S400x5x3_S400x16x5_2_2_1_1_0_0_wf
def dot_S400x16x5_S400x5x5_S400x16x5_2_2_1_1_0_0 : DotDims S400x16x5 S400x5x5 S400x16x5 where
  lhsContracting := [2]
  rhsContracting := [2]
  lhsNonContracting := [1]
  rhsNonContracting := [1]
  lhsBatch := [0]
  rhsBatch := [0]
  wf := dot_S400x16x5_S400x5x5_S400x16x5_2_2_1_1_0_0_wf
def scatter_S5000x144_S50000x1_S50000x144_1_0_0_1 : ScatterDims S5000x144 S50000x1 S50000x144 where
  updateWindowDims := [1]
  insertedWindowDims := [0]
  scatterDimsToOperandDims := [0]
  indexVectorDim := 1
  wf := scatter_S5000x144_S50000x1_S50000x144_1_0_0_1_wf

abbrev win0_0 : Pipeline.Window sig grid0 :=
  Pipeline.Window.ofSpec (Memref.whole main_arg1) S400x4864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S400x144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v159) S25x259.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v160) S1x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v161) S400x144.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S5000x144 : Shape := ⟨2, ![5000, 144]⟩
abbrev S50000x4864 : Shape := ⟨2, ![50000, 4864]⟩
abbrev S50000x25 : Shape := ⟨2, ![50000, 25]⟩
abbrev S1225 : Shape := ⟨1, ![1225]⟩
abbrev S19 : Shape := ⟨1, ![19]⟩
abbrev S50000 : Shape := ⟨1, ![50000]⟩
abbrev S_ : Shape := ⟨0, ![]⟩
abbrev S50000x1 : Shape := ⟨2, ![50000, 1]⟩
abbrev S50000x144 : Shape := ⟨2, ![50000, 144]⟩
abbrev S50000x16x1 : Shape := ⟨3, ![50000, 16, 1]⟩
abbrev S50000x16 : Shape := ⟨2, ![50000, 16]⟩
abbrev S50000x256 : Shape := ⟨2, ![50000, 256]⟩
abbrev S50000x16x16x1 : Shape := ⟨4, ![50000, 16, 16, 1]⟩
abbrev S1 : Shape := ⟨1, ![1]⟩
abbrev S1x1x1 : Shape := ⟨3, ![1, 1, 1]⟩
abbrev S50000x1x1 : Shape := ⟨3, ![50000, 1, 1]⟩
abbrev S50000x16x16 : Shape := ⟨3, ![50000, 16, 16]⟩
abbrev S50000x1x16 : Shape := ⟨3, ![50000, 1, 16]⟩
abbrev S50000x48 : Shape := ⟨2, ![50000, 48]⟩
abbrev S50000x16x3 : Shape := ⟨3, ![50000, 16, 3]⟩
abbrev S9 : Shape := ⟨1, ![9]⟩
abbrev S1x3x3 : Shape := ⟨3, ![1, 3, 3]⟩
abbrev S50000x3 : Shape := ⟨2, ![50000, 3]⟩
abbrev S50000x1x3 : Shape := ⟨3, ![50000, 1, 3]⟩
abbrev S50000x80 : Shape := ⟨2, ![50000, 80]⟩
abbrev S50000x16x5 : Shape := ⟨3, ![50000, 16, 5]⟩
abbrev S25 : Shape := ⟨1, ![25]⟩
abbrev S1x5x5 : Shape := ⟨3, ![1, 5, 5]⟩
abbrev S50000x5 : Shape := ⟨2, ![50000, 5]⟩
abbrev S50000x1x5 : Shape := ⟨3, ![50000, 1, 5]⟩
abbrev S3x1x3 : Shape := ⟨3, ![3, 1, 3]⟩
abbrev S50000x3x1 : Shape := ⟨3, ![50000, 3, 1]⟩
abbrev S50000x768 : Shape := ⟨2, ![50000, 768]⟩
abbrev S50000x16x16x3 : Shape := ⟨4, ![50000, 16, 16, 3]⟩
abbrev S3x3x1 : Shape := ⟨3, ![3, 3, 1]⟩
abbrev S50000x3x3 : Shape := ⟨3, ![50000, 3, 3]⟩
abbrev S50000x3x16 : Shape := ⟨3, ![50000, 3, 16]⟩
abbrev S27 : Shape := ⟨1, ![27]⟩
abbrev S3x3x3 : Shape := ⟨3, ![3, 3, 3]⟩
abbrev S45 : Shape := ⟨1, ![45]⟩
abbrev S3x3x5 : Shape := ⟨3, ![3, 3, 5]⟩
abbrev S3x5x3 : Shape := ⟨3, ![3, 5, 3]⟩
abbrev S50000x3x5 : Shape := ⟨3, ![50000, 3, 5]⟩
abbrev S75 : Shape := ⟨1, ![75]⟩
abbrev S3x5x5 : Shape := ⟨3, ![3, 5, 5]⟩
abbrev S105 : Shape := ⟨1, ![105]⟩
abbrev S3x5x7 : Shape := ⟨3, ![3, 5, 7]⟩
abbrev S50000x7 : Shape := ⟨2, ![50000, 7]⟩
abbrev S5x1x5 : Shape := ⟨3, ![5, 1, 5]⟩
abbrev S50000x5x1 : Shape := ⟨3, ![50000, 5, 1]⟩
abbrev S5x3x3 : Shape := ⟨3, ![5, 3, 3]⟩
abbrev S50000x5x3 : Shape := ⟨3, ![50000, 5, 3]⟩
abbrev S5x3x5 : Shape := ⟨3, ![5, 3, 5]⟩
abbrev S5x3x7 : Shape := ⟨3, ![5, 3, 7]⟩
abbrev S50000x1280 : Shape := ⟨2, ![50000, 1280]⟩
abbrev S50000x16x16x5 : Shape := ⟨4, ![50000, 16, 16, 5]⟩
abbrev S5x5x1 : Shape := ⟨3, ![5, 5, 1]⟩
abbrev S50000x5x5 : Shape := ⟨3, ![50000, 5, 5]⟩
abbrev S50000x5x16 : Shape := ⟨3, ![50000, 5, 16]⟩
abbrev S5x5x3 : Shape := ⟨3, ![5, 5, 3]⟩
abbrev S125 : Shape := ⟨1, ![125]⟩
abbrev S5x5x5 : Shape := ⟨3, ![5, 5, 5]⟩
abbrev S175 : Shape := ⟨1, ![175]⟩
abbrev S5x5x7 : Shape := ⟨3, ![5, 5, 7]⟩
abbrev S225 : Shape := ⟨1, ![225]⟩
abbrev S5x5x9 : Shape := ⟨3, ![5, 5, 9]⟩
abbrev S50000x9 : Shape := ⟨2, ![50000, 9]⟩

abbrev nBuf : Space → Nat
  | .hbm => 315
  | .vmem => 0
  | .smem => 0
  | _ => 0

abbrev hbmTy0_0 (i : Nat) : BufTy := match i % 128 with
  | 0 => ⟨S5000x144, .f32⟩
  | 1 => ⟨S50000x4864, .f32⟩
  | 2 => ⟨S50000x25, .f32⟩
  | 3 => ⟨S1225, .f32⟩
  | 4 => ⟨S19, .f32⟩
  | 5 => ⟨S50000, .i32⟩
  | 6 => ⟨S50000, .i32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x144, .f32⟩
  | 16 => ⟨S_, .f32⟩
  | 17 => ⟨S50000x16x1, .f32⟩
  | 18 => ⟨S50000x16, .f32⟩
  | 19 => ⟨S50000x16x1, .f32⟩
  | 20 => ⟨S50000x256, .f32⟩
  | 21 => ⟨S50000x16x16x1, .f32⟩
  | 22 => ⟨S1, .f32⟩
  | 23 => ⟨S1x1x1, .f32⟩
  | 24 => ⟨S50000x1, .f32⟩
  | 25 => ⟨S50000x1x1, .f32⟩
  | 26 => ⟨S1, .f32⟩
  | 27 => ⟨S_, .f32⟩
  | 28 => ⟨S50000x16x16, .f32⟩
  | 29 => ⟨S50000x1x16, .f32⟩
  | 30 => ⟨S50000x16x1, .f32⟩
  | 31 => ⟨S50000x16x1, .f32⟩
  | 32 => ⟨S50000x16x1, .f32⟩
  | 33 => ⟨S50000x16x1, .f32⟩
  | 34 => ⟨S50000x48, .f32⟩
  | 35 => ⟨S50000x16x3, .f32⟩
  | 36 => ⟨S50000x256, .f32⟩
  | 37 => ⟨S50000x16x16x1, .f32⟩
  | 38 => ⟨S9, .f32⟩
  | 39 => ⟨S1x3x3, .f32⟩
  | 40 => ⟨S50000x3, .f32⟩
  | 41 => ⟨S50000x1x3, .f32⟩
  | 42 => ⟨S1, .f32⟩
  | 43 => ⟨S_, .f32⟩
  | 44 => ⟨S50000x16x16, .f32⟩
  | 45 => ⟨S50000x16x1, .f32⟩
  | 46 => ⟨S50000x16x1, .f32⟩
  | 47 => ⟨S50000x16x1, .f32⟩
  | 48 => ⟨S50000x16x1, .f32⟩
  | 49 => ⟨S50000x16x1, .f32⟩
  | 50 => ⟨S50000x80, .f32⟩
  | 51 => ⟨S50000x16x5, .f32⟩
  | 52 => ⟨S50000x256, .f32⟩
  | 53 => ⟨S50000x16x16x1, .f32⟩
  | 54 => ⟨S25, .f32⟩
  | 55 => ⟨S1x5x5, .f32⟩
  | 56 => ⟨S50000x5, .f32⟩
  | 57 => ⟨S50000x1x5, .f32⟩
  | 58 => ⟨S1, .f32⟩
  | 59 => ⟨S_, .f32⟩
  | 60 => ⟨S50000x16x16, .f32⟩
  | 61 => ⟨S50000x16x1, .f32⟩
  | 62 => ⟨S50000x16x1, .f32⟩
  | 63 => ⟨S50000x16x1, .f32⟩
  | 64 => ⟨S50000x16x1, .f32⟩
  | 65 => ⟨S50000x16x1, .f32⟩
  | 66 => ⟨S50000x16, .f32⟩
  | 67 => ⟨S_, .f32⟩
  | 68 => ⟨S50000x16x3, .f32⟩
  | 69 => ⟨S50000x16, .f32⟩
  | 70 => ⟨S50000x16x1, .f32⟩
  | 71 => ⟨S50000x256, .f32⟩
  | 72 => ⟨S50000x16x16x1, .f32⟩
  | 73 => ⟨S9, .f32⟩
  | 74 => ⟨S3x1x3, .f32⟩
  | 75 => ⟨S50000x3, .f32⟩
  | 76 => ⟨S50000x3x1, .f32⟩
  | 77 => ⟨S1, .f32⟩
  | 78 => ⟨S_, .f32⟩
  | 79 => ⟨S50000x16x16, .f32⟩
  | 80 => ⟨S50000x1x16, .f32⟩
  | 81 => ⟨S50000x16x3, .f32⟩
  | 82 => ⟨S50000x16x3, .f32⟩
  | 83 => ⟨S50000x16x3, .f32⟩
  | 84 => ⟨S50000x16x3, .f32⟩
  | 85 => ⟨S50000x48, .f32⟩
  | 86 => ⟨S50000x16x3, .f32⟩
  | 87 => ⟨S50000x768, .f32⟩
  | 88 => ⟨S50000x16x16x3, .f32⟩
  | 89 => ⟨S9, .f32⟩
  | 90 => ⟨S3x3x1, .f32⟩
  | 91 => ⟨S50000x1, .f32⟩
  | 92 => ⟨S50000x3x3, .f32⟩
  | 93 => ⟨S1, .f32⟩
  | 94 => ⟨S_, .f32⟩
  | 95 => ⟨S50000x16x16x1, .f32⟩
  | 96 => ⟨S50000x16x16, .f32⟩
  | 97 => ⟨S50000x3x16, .f32⟩
  | 98 => ⟨S50000x16x3, .f32⟩
  | 99 => ⟨S50000x16x3, .f32⟩
  | 100 => ⟨S50000x16x3, .f32⟩
  | 101 => ⟨S50000x16x3, .f32⟩
  | 102 => ⟨S27, .f32⟩
  | 103 => ⟨S3x3x3, .f32⟩
  | 104 => ⟨S50000x3, .f32⟩
  | 105 => ⟨S50000x3x3, .f32⟩
  | 106 => ⟨S1, .f32⟩
  | 107 => ⟨S_, .f32⟩
  | 108 => ⟨S50000x16x16x1, .f32⟩
  | 109 => ⟨S50000x16x16, .f32⟩
  | 110 => ⟨S50000x3x16, .f32⟩
  | 111 => ⟨S50000x16x3, .f32⟩
  | 112 => ⟨S50000x16x3, .f32⟩
  | 113 => ⟨S50000x16x3, .f32⟩
  | 114 => ⟨S50000x16x3, .f32⟩
  | 115 => ⟨S45, .f32⟩
  | 116 => ⟨S3x3x5, .f32⟩
  | 117 => ⟨S50000x5, .f32⟩
  | 118 => ⟨S50000x3x3, .f32⟩
  | 119 => ⟨S1, .f32⟩
  | 120 => ⟨S_, .f32⟩
  | 121 => ⟨S50000x16x16x1, .f32⟩
  | 122 => ⟨S50000x16x16, .f32⟩
  | 123 => ⟨S50000x3x16, .f32⟩
  | 124 => ⟨S50000x16x3, .f32⟩
  | 125 => ⟨S50000x16x3, .f32⟩
  | 126 => ⟨S50000x16x3, .f32⟩
  | 127 => ⟨S50000x16x3, .f32⟩
  | _ => ⟨S5000x144, .f32⟩

abbrev hbmTy0_1 (i : Nat) : BufTy := match i % 128 with
  | 0 => ⟨S50000x80, .f32⟩
  | 1 => ⟨S50000x16x5, .f32⟩
  | 2 => ⟨S50000x768, .f32⟩
  | 3 => ⟨S50000x16x16x3, .f32⟩
  | 4 => ⟨S45, .f32⟩
  | 5 => ⟨S3x5x3, .f32⟩
  | 6 => ⟨S50000x3, .f32⟩
  | 7 => ⟨S50000x3x5, .f32⟩
  | 8 => ⟨S1, .f32⟩
  | 9 => ⟨S_, .f32⟩
  | 10 => ⟨S50000x16x16x1, .f32⟩
  | 11 => ⟨S50000x16x16, .f32⟩
  | 12 => ⟨S50000x16x3, .f32⟩
  | 13 => ⟨S50000x16x3, .f32⟩
  | 14 => ⟨S50000x16x3, .f32⟩
  | 15 => ⟨S50000x16x3, .f32⟩
  | 16 => ⟨S50000x16x3, .f32⟩
  | 17 => ⟨S75, .f32⟩
  | 18 => ⟨S3x5x5, .f32⟩
  | 19 => ⟨S50000x5, .f32⟩
  | 20 => ⟨S50000x3x5, .f32⟩
  | 21 => ⟨S1, .f32⟩
  | 22 => ⟨S_, .f32⟩
  | 23 => ⟨S50000x16x16x1, .f32⟩
  | 24 => ⟨S50000x16x16, .f32⟩
  | 25 => ⟨S50000x16x3, .f32⟩
  | 26 => ⟨S50000x16x3, .f32⟩
  | 27 => ⟨S50000x16x3, .f32⟩
  | 28 => ⟨S50000x16x3, .f32⟩
  | 29 => ⟨S50000x16x3, .f32⟩
  | 30 => ⟨S105, .f32⟩
  | 31 => ⟨S3x5x7, .f32⟩
  | 32 => ⟨S50000x7, .f32⟩
  | 33 => ⟨S50000x3x5, .f32⟩
  | 34 => ⟨S1, .f32⟩
  | 35 => ⟨S_, .f32⟩
  | 36 => ⟨S50000x16x16x1, .f32⟩
  | 37 => ⟨S50000x16x16, .f32⟩
  | 38 => ⟨S50000x16x3, .f32⟩
  | 39 => ⟨S50000x16x3, .f32⟩
  | 40 => ⟨S50000x16x3, .f32⟩
  | 41 => ⟨S50000x16x3, .f32⟩
  | 42 => ⟨S50000x16x3, .f32⟩
  | 43 => ⟨S50000x48, .f32⟩
  | 44 => ⟨S_, .f32⟩
  | 45 => ⟨S50000x16x5, .f32⟩
  | 46 => ⟨S50000x16, .f32⟩
  | 47 => ⟨S50000x16x1, .f32⟩
  | 48 => ⟨S50000x256, .f32⟩
  | 49 => ⟨S50000x16x16x1, .f32⟩
  | 50 => ⟨S25, .f32⟩
  | 51 => ⟨S5x1x5, .f32⟩
  | 52 => ⟨S50000x5, .f32⟩
  | 53 => ⟨S50000x5x1, .f32⟩
  | 54 => ⟨S1, .f32⟩
  | 55 => ⟨S_, .f32⟩
  | 56 => ⟨S50000x16x16, .f32⟩
  | 57 => ⟨S50000x1x16, .f32⟩
  | 58 => ⟨S50000x16x5, .f32⟩
  | 59 => ⟨S50000x16x5, .f32⟩
  | 60 => ⟨S50000x16x5, .f32⟩
  | 61 => ⟨S50000x16x5, .f32⟩
  | 62 => ⟨S50000x48, .f32⟩
  | 63 => ⟨S50000x16x3, .f32⟩
  | 64 => ⟨S50000x768, .f32⟩
  | 65 => ⟨S50000x16x16x3, .f32⟩
  | 66 => ⟨S45, .f32⟩
  | 67 => ⟨S5x3x3, .f32⟩
  | 68 => ⟨S50000x3, .f32⟩
  | 69 => ⟨S50000x5x3, .f32⟩
  | 70 => ⟨S1, .f32⟩
  | 71 => ⟨S_, .f32⟩
  | 72 => ⟨S50000x16x16x1, .f32⟩
  | 73 => ⟨S50000x16x16, .f32⟩
  | 74 => ⟨S50000x3x16, .f32⟩
  | 75 => ⟨S50000x16x5, .f32⟩
  | 76 => ⟨S50000x16x5, .f32⟩
  | 77 => ⟨S50000x16x5, .f32⟩
  | 78 => ⟨S50000x16x5, .f32⟩
  | 79 => ⟨S75, .f32⟩
  | 80 => ⟨S5x3x5, .f32⟩
  | 81 => ⟨S50000x5, .f32⟩
  | 82 => ⟨S50000x5x3, .f32⟩
  | 83 => ⟨S1, .f32⟩
  | 84 => ⟨S_, .f32⟩
  | 85 => ⟨S50000x16x16x1, .f32⟩
  | 86 => ⟨S50000x16x16, .f32⟩
  | 87 => ⟨S50000x3x16, .f32⟩
  | 88 => ⟨S50000x16x5, .f32⟩
  | 89 => ⟨S50000x16x5, .f32⟩
  | 90 => ⟨S50000x16x5, .f32⟩
  | 91 => ⟨S50000x16x5, .f32⟩
  | 92 => ⟨S105, .f32⟩
  | 93 => ⟨S5x3x7, .f32⟩
  | 94 => ⟨S50000x7, .f32⟩
  | 95 => ⟨S50000x5x3, .f32⟩
  | 96 => ⟨S1, .f32⟩
  | 97 => ⟨S_, .f32⟩
  | 98 => ⟨S50000x16x16x1, .f32⟩
  | 99 => ⟨S50000x16x16, .f32⟩
  | 100 => ⟨S50000x3x16, .f32⟩
  | 101 => ⟨S50000x16x5, .f32⟩
  | 102 => ⟨S50000x16x5, .f32⟩
  | 103 => ⟨S50000x16x5, .f32⟩
  | 104 => ⟨S50000x16x5, .f32⟩
  | 105 => ⟨S50000x80, .f32⟩
  | 106 => ⟨S50000x16x5, .f32⟩
  | 107 => ⟨S50000x1280, .f32⟩
  | 108 => ⟨S50000x16x16x5, .f32⟩
  | 109 => ⟨S25, .f32⟩
  | 110 => ⟨S5x5x1, .f32⟩
  | 111 => ⟨S50000x1, .f32⟩
  | 112 => ⟨S50000x5x5, .f32⟩
  | 113 => ⟨S1, .f32⟩
  | 114 => ⟨S_, .f32⟩
  | 115 => ⟨S50000x16x16x1, .f32⟩
  | 116 => ⟨S50000x16x16, .f32⟩
  | 117 => ⟨S50000x5x16, .f32⟩
  | 118 => ⟨S50000x16x5, .f32⟩
  | 119 => ⟨S50000x16x5, .f32⟩
  | 120 => ⟨S50000x16x5, .f32⟩
  | 121 => ⟨S50000x16x5, .f32⟩
  | 122 => ⟨S75, .f32⟩
  | 123 => ⟨S5x5x3, .f32⟩
  | 124 => ⟨S50000x3, .f32⟩
  | 125 => ⟨S50000x5x5, .f32⟩
  | 126 => ⟨S1, .f32⟩
  | 127 => ⟨S_, .f32⟩
  | _ => ⟨S5000x144, .f32⟩

abbrev hbmTy0_2 (i : Nat) : BufTy := match i % 128 with
  | 0 => ⟨S50000x16x16x1, .f32⟩
  | 1 => ⟨S50000x16x16, .f32⟩
  | 2 => ⟨S50000x5x16, .f32⟩
  | 3 => ⟨S50000x16x5, .f32⟩
  | 4 => ⟨S50000x16x5, .f32⟩
  | 5 => ⟨S50000x16x5, .f32⟩
  | 6 => ⟨S50000x16x5, .f32⟩
  | 7 => ⟨S125, .f32⟩
  | 8 => ⟨S5x5x5, .f32⟩
  | 9 => ⟨S50000x5, .f32⟩
  | 10 => ⟨S50000x5x5, .f32⟩
  | 11 => ⟨S1, .f32⟩
  | 12 => ⟨S_, .f32⟩
  | 13 => ⟨S50000x16x16x1, .f32⟩
  | 14 => ⟨S50000x16x16, .f32⟩
  | 15 => ⟨S50000x5x16, .f32⟩
  | 16 => ⟨S50000x16x5, .f32⟩
  | 17 => ⟨S50000x16x5, .f32⟩
  | 18 => ⟨S50000x16x5, .f32⟩
  | 19 => ⟨S50000x16x5, .f32⟩
  | 20 => ⟨S175, .f32⟩
  | 21 => ⟨S5x5x7, .f32⟩
  | 22 => ⟨S50000x7, .f32⟩
  | 23 => ⟨S50000x5x5, .f32⟩
  | 24 => ⟨S1, .f32⟩
  | 25 => ⟨S_, .f32⟩
  | 26 => ⟨S50000x16x16x1, .f32⟩
  | 27 => ⟨S50000x16x16, .f32⟩
  | 28 => ⟨S50000x5x16, .f32⟩
  | 29 => ⟨S50000x16x5, .f32⟩
  | 30 => ⟨S50000x16x5, .f32⟩
  | 31 => ⟨S50000x16x5, .f32⟩
  | 32 => ⟨S50000x16x5, .f32⟩
  | 33 => ⟨S225, .f32⟩
  | 34 => ⟨S5x5x9, .f32⟩
  | 35 => ⟨S50000x9, .f32⟩
  | 36 => ⟨S50000x5x5, .f32⟩
  | 37 => ⟨S1, .f32⟩
  | 38 => ⟨S_, .f32⟩
  | 39 => ⟨S50000x16x16x1, .f32⟩
  | 40 => ⟨S50000x16x16, .f32⟩
  | 41 => ⟨S50000x5x16, .f32⟩
  | 42 => ⟨S50000x16x5, .f32⟩
  | 43 => ⟨S50000x16x5, .f32⟩
  | 44 => ⟨S50000x16x5, .f32⟩
  | 45 => ⟨S50000x16x5, .f32⟩
  | 46 => ⟨S50000x80, .f32⟩
  | 47 => ⟨S50000x144, .f32⟩
  | 48 => ⟨S_, .f32⟩
  | 49 => ⟨S5000x144, .f32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S5000x144, .f32⟩
  | _ => ⟨S5000x144, .f32⟩

abbrev hbmTy (i : Nat) : BufTy := match i / 128 with
  | 0 => hbmTy0_0 i
  | 1 => hbmTy0_1 i
  | 2 => hbmTy0_2 i
  | _ => ⟨S5000x144, .f32⟩

abbrev bufTy : (tb : Table) → Fin (tcTables nBuf tb) → BufTy
  | .hbm, ⟨i, _⟩ => hbmTy i
  | _, _ => ⟨S5000x144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_1 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_cst_2 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_v262 : Ref sig .tc := ⟨.hbm, 274, rfl⟩
abbrev main_v263 : Ref sig .tc := ⟨.hbm, 275, rfl⟩
abbrev main_v264 : Ref sig .tc := ⟨.hbm, 276, rfl⟩
abbrev main_v265 : Ref sig .tc := ⟨.hbm, 277, rfl⟩
abbrev main_v266 : Ref sig .tc := ⟨.hbm, 278, rfl⟩
abbrev main_v267 : Ref sig .tc := ⟨.hbm, 279, rfl⟩
abbrev main_v268 : Ref sig .tc := ⟨.hbm, 280, rfl⟩
abbrev main_v269 : Ref sig .tc := ⟨.hbm, 281, rfl⟩
abbrev main_v270 : Ref sig .tc := ⟨.hbm, 282, rfl⟩
abbrev main_v271 : Ref sig .tc := ⟨.hbm, 283, rfl⟩
abbrev main_v272 : Ref sig .tc := ⟨.hbm, 284, rfl⟩
abbrev main_v273 : Ref sig .tc := ⟨.hbm, 285, rfl⟩
abbrev main_v274 : Ref sig .tc := ⟨.hbm, 286, rfl⟩
abbrev main_v275 : Ref sig .tc := ⟨.hbm, 287, rfl⟩
abbrev main_v276 : Ref sig .tc := ⟨.hbm, 288, rfl⟩
abbrev main_v277 : Ref sig .tc := ⟨.hbm, 289, rfl⟩
abbrev main_v278 : Ref sig .tc := ⟨.hbm, 290, rfl⟩
abbrev main_v279 : Ref sig .tc := ⟨.hbm, 291, rfl⟩
abbrev main_v280 : Ref sig .tc := ⟨.hbm, 292, rfl⟩
abbrev main_v281 : Ref sig .tc := ⟨.hbm, 293, rfl⟩
abbrev main_v282 : Ref sig .tc := ⟨.hbm, 294, rfl⟩
abbrev main_v283 : Ref sig .tc := ⟨.hbm, 295, rfl⟩
abbrev main_v284 : Ref sig .tc := ⟨.hbm, 296, rfl⟩
abbrev main_v285 : Ref sig .tc := ⟨.hbm, 297, rfl⟩
abbrev main_v286 : Ref sig .tc := ⟨.hbm, 298, rfl⟩
abbrev main_v287 : Ref sig .tc := ⟨.hbm, 299, rfl⟩
abbrev main_v288 : Ref sig .tc := ⟨.hbm, 300, rfl⟩
abbrev main_v289 : Ref sig .tc := ⟨.hbm, 301, rfl⟩
abbrev main_v290 : Ref sig .tc := ⟨.hbm, 302, rfl⟩
abbrev main_v291 : Ref sig .tc := ⟨.hbm, 303, rfl⟩
abbrev main_cst_3 : Ref sig .tc := ⟨.hbm, 304, rfl⟩
abbrev main_v292 : Ref sig .tc := ⟨.hbm, 305, rfl⟩
abbrev main_c_4 : Ref sig .tc := ⟨.hbm, 306, rfl⟩
abbrev main_v293 : Ref sig .tc := ⟨.hbm, 307, rfl⟩
abbrev main_v294 : Ref sig .tc := ⟨.hbm, 308, rfl⟩
abbrev main_c_5 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x16x1 : S_.BroadcastsInDim S50000x16x1 (![] : Fin 0 → Fin S50000x16x1.rank)
  slices_S50000x144_S50000x16_0_0 : S50000x144.Slices ![0, 0] S50000x16
  shapeCasts_S50000x16_S50000x16x1 : S50000x16.ShapeCasts S50000x16x1
  slices_S50000x4864_S50000x256_0_0 : S50000x4864.Slices ![0, 0] S50000x256
  shapeCasts_S50000x256_S50000x16x16x1 : S50000x256.ShapeCasts S50000x16x16x1
  slices_S1225_S1_0 : S1225.Slices ![0] S1
  shapeCasts_S1_S1x1x1 : S1.ShapeCasts S1x1x1
  slices_S50000x25_S50000x1_0_0 : S50000x25.Slices ![0, 0] S50000x1
  slices_S19_S1_0 : S19.Slices ![0] S1
  shapeCasts_S1_S_ : S1.ShapeCasts S_
  shapeCasts_S50000x16x16x1_S50000x16x16 : S50000x16x16x1.ShapeCasts S50000x16x16
  slices_S50000x144_S50000x48_0_16 : S50000x144.Slices ![0, 16] S50000x48
  shapeCasts_S50000x48_S50000x16x3 : S50000x48.ShapeCasts S50000x16x3
  slices_S50000x4864_S50000x256_0_256 : S50000x4864.Slices ![0, 256] S50000x256
  slices_S1225_S9_1 : S1225.Slices ![1] S9
  shapeCasts_S9_S1x3x3 : S9.ShapeCasts S1x3x3
  slices_S50000x25_S50000x3_0_1 : S50000x25.Slices ![0, 1] S50000x3
  slices_S19_S1_1 : S19.Slices ![1] S1
  slices_S50000x144_S50000x80_0_64 : S50000x144.Slices ![0, 64] S50000x80
  shapeCasts_S50000x80_S50000x16x5 : S50000x80.ShapeCasts S50000x16x5
  slices_S50000x4864_S50000x256_0_512 : S50000x4864.Slices ![0, 512] S50000x256
  slices_S1225_S25_10 : S1225.Slices ![10] S25
  shapeCasts_S25_S1x5x5 : S25.ShapeCasts S1x5x5
  slices_S50000x25_S50000x5_0_4 : S50000x25.Slices ![0, 4] S50000x5
  slices_S19_S1_2 : S19.Slices ![2] S1
  shapeCasts_S50000x16x1_S50000x16 : S50000x16x1.ShapeCasts S50000x16
  bcast_S_S50000x16x3 : S_.BroadcastsInDim S50000x16x3 (![] : Fin 0 → Fin S50000x16x3.rank)
  slices_S50000x4864_S50000x256_0_768 : S50000x4864.Slices ![0, 768] S50000x256
  slices_S1225_S9_35 : S1225.Slices ![35] S9
  shapeCasts_S9_S3x1x3 : S9.ShapeCasts S3x1x3
  slices_S19_S1_3 : S19.Slices ![3] S1
  slices_S50000x4864_S50000x768_0_1024 : S50000x4864.Slices ![0, 1024] S50000x768
  shapeCasts_S50000x768_S50000x16x16x3 : S50000x768.ShapeCasts S50000x16x16x3
  slices_S1225_S9_44 : S1225.Slices ![44] S9
  shapeCasts_S9_S3x3x1 : S9.ShapeCasts S3x3x1
  slices_S19_S1_4 : S19.Slices ![4] S1
  slices_S50000x16x16x3_S50000x16x16x1_0_0_0_0 : S50000x16x16x3.Slices ![0, 0, 0, 0] S50000x16x16x1
  slices_S1225_S27_53 : S1225.Slices ![53] S27
  shapeCasts_S27_S3x3x3 : S27.ShapeCasts S3x3x3
  slices_S19_S1_5 : S19.Slices ![5] S1
  slices_S50000x16x16x3_S50000x16x16x1_0_0_0_1 : S50000x16x16x3.Slices ![0, 0, 0, 1] S50000x16x16x1
  slices_S1225_S45_80 : S1225.Slices ![80] S45
  shapeCasts_S45_S3x3x5 : S45.ShapeCasts S3x3x5
  slices_S19_S1_6 : S19.Slices ![6] S1
  slices_S50000x16x16x3_S50000x16x16x1_0_0_0_2 : S50000x16x16x3.Slices ![0, 0, 0, 2] S50000x16x16x1
  slices_S50000x4864_S50000x768_0_1792 : S50000x4864.Slices ![0, 1792] S50000x768
  slices_S1225_S45_125 : S1225.Slices ![125] S45
  shapeCasts_S45_S3x5x3 : S45.ShapeCasts S3x5x3
  slices_S19_S1_7 : S19.Slices ![7] S1
  slices_S1225_S75_170 : S1225.Slices ![170] S75
  shapeCasts_S75_S3x5x5 : S75.ShapeCasts S3x5x5
  slices_S19_S1_8 : S19.Slices ![8] S1
  slices_S1225_S105_245 : S1225.Slices ![245] S105
  shapeCasts_S105_S3x5x7 : S105.ShapeCasts S3x5x7
  slices_S50000x25_S50000x7_0_9 : S50000x25.Slices ![0, 9] S50000x7
  slices_S19_S1_9 : S19.Slices ![9] S1
  shapeCasts_S50000x16x3_S50000x48 : S50000x16x3.ShapeCasts S50000x48
  bcast_S_S50000x16x5 : S_.BroadcastsInDim S50000x16x5 (![] : Fin 0 → Fin S50000x16x5.rank)
  slices_S50000x4864_S50000x256_0_2560 : S50000x4864.Slices ![0, 2560] S50000x256
  slices_S1225_S25_350 : S1225.Slices ![350] S25
  shapeCasts_S25_S5x1x5 : S25.ShapeCasts S5x1x5
  slices_S19_S1_10 : S19.Slices ![10] S1
  slices_S50000x4864_S50000x768_0_2816 : S50000x4864.Slices ![0, 2816] S50000x768
  slices_S1225_S45_375 : S1225.Slices ![375] S45
  shapeCasts_S45_S5x3x3 : S45.ShapeCasts S5x3x3
  slices_S19_S1_11 : S19.Slices ![11] S1
  slices_S1225_S75_420 : S1225.Slices ![420] S75
  shapeCasts_S75_S5x3x5 : S75.ShapeCasts S5x3x5
  slices_S19_S1_12 : S19.Slices ![12] S1
  slices_S1225_S105_495 : S1225.Slices ![495] S105
  shapeCasts_S105_S5x3x7 : S105.ShapeCasts S5x3x7
  slices_S19_S1_13 : S19.Slices ![13] S1
  slices_S50000x4864_S50000x1280_0_3584 : S50000x4864.Slices ![0, 3584] S50000x1280
  shapeCasts_S50000x1280_S50000x16x16x5 : S50000x1280.ShapeCasts S50000x16x16x5
  slices_S1225_S25_600 : S1225.Slices ![600] S25
  shapeCasts_S25_S5x5x1 : S25.ShapeCasts S5x5x1
  slices_S19_S1_14 : S19.Slices ![14] S1
  slices_S50000x16x16x5_S50000x16x16x1_0_0_0_0 : S50000x16x16x5.Slices ![0, 0, 0, 0] S50000x16x16x1
  slices_S1225_S75_625 : S1225.Slices ![625] S75
  shapeCasts_S75_S5x5x3 : S75.ShapeCasts S5x5x3
  slices_S19_S1_15 : S19.Slices ![15] S1
  slices_S50000x16x16x5_S50000x16x16x1_0_0_0_1 : S50000x16x16x5.Slices ![0, 0, 0, 1] S50000x16x16x1
  slices_S1225_S125_700 : S1225.Slices ![700] S125
  shapeCasts_S125_S5x5x5 : S125.ShapeCasts S5x5x5
  slices_S19_S1_16 : S19.Slices ![16] S1
  slices_S50000x16x16x5_S50000x16x16x1_0_0_0_2 : S50000x16x16x5.Slices ![0, 0, 0, 2] S50000x16x16x1
  slices_S1225_S175_825 : S1225.Slices ![825] S175
  shapeCasts_S175_S5x5x7 : S175.ShapeCasts S5x5x7
  slices_S19_S1_17 : S19.Slices ![17] S1
  slices_S50000x16x16x5_S50000x16x16x1_0_0_0_3 : S50000x16x16x5.Slices ![0, 0, 0, 3] S50000x16x16x1
  slices_S1225_S225_1000 : S1225.Slices ![1000] S225
  shapeCasts_S225_S5x5x9 : S225.ShapeCasts S5x5x9
  slices_S50000x25_S50000x9_0_16 : S50000x25.Slices ![0, 16] S50000x9
  slices_S19_S1_18 : S19.Slices ![18] S1
  slices_S50000x16x16x5_S50000x16x16x1_0_0_0_4 : S50000x16x16x5.Slices ![0, 0, 0, 4] S50000x16x16x1
  shapeCasts_S50000x16x5_S50000x80 : S50000x16x5.ShapeCasts S50000x80
  concatenates_S50000x16_S50000x48_S50000x80_S50000x144_d1 : Shape.Concatenates [S50000x16, S50000x48, S50000x80] S50000x144 1
  bcast_S_S5000x144 : S_.BroadcastsInDim S5000x144 (![] : Fin 0 → Fin S5000x144.rank)
  gather_S5000x144_S50000x1_S50000x144_1_0_n_n_0_1_1144_wf : GatherDims.WF S5000x144 S50000x1 S50000x144 [1] [0] [] [0] [] 1 ![1, 144]
  dot_S50000x1_S1x1x1_S50000x1x1_1_2_0_01_n_n_wf : DotDims.WF S50000x1 S1x1x1 S50000x1x1 [1] [2] [0] [0, 1] [] []
  dot_S50000x16x1_S50000x16x16_S50000x1x16_1_2_2_1_0_0_wf : DotDims.WF S50000x16x1 S50000x16x16 S50000x1x16 [1] [2] [2] [1] [0] [0]
  dot_S50000x1x16_S50000x1x1_S50000x16x1_1_2_2_1_0_0_wf : DotDims.WF S50000x1x16 S50000x1x1 S50000x16x1 [1] [2] [2] [1] [0] [0]
  dot_S50000x3_S1x3x3_S50000x1x3_1_2_0_01_n_n_wf : DotDims.WF S50000x3 S1x3x3 S50000x1x3 [1] [2] [0] [0, 1] [] []
  dot_S50000x16x3_S50000x1x3_S50000x16x1_2_2_1_1_0_0_wf : DotDims.WF S50000x16x3 S50000x1x3 S50000x16x1 [2] [2] [1] [1] [0] [0]
  dot_S50000x16x16_S50000x16x1_S50000x16x1_2_1_1_2_0_0_wf : DotDims.WF S50000x16x16 S50000x16x1 S50000x16x1 [2] [1] [1] [2] [0] [0]
  dot_S50000x5_S1x5x5_S50000x1x5_1_2_0_01_n_n_wf : DotDims.WF S50000x5 S1x5x5 S50000x1x5 [1] [2] [0] [0, 1] [] []
  dot_S50000x16x5_S50000x1x5_S50000x16x1_2_2_1_1_0_0_wf : DotDims.WF S50000x16x5 S50000x1x5 S50000x16x1 [2] [2] [1] [1] [0] [0]
  dot_S50000x3_S3x1x3_S50000x3x1_1_2_0_01_n_n_wf : DotDims.WF S50000x3 S3x1x3 S50000x3x1 [1] [2] [0] [0, 1] [] []
  dot_S50000x1x16_S50000x3x1_S50000x16x3_1_2_2_1_0_0_wf : DotDims.WF S50000x1x16 S50000x3x1 S50000x16x3 [1] [2] [2] [1] [0] [0]
  dot_S50000x1_S3x3x1_S50000x3x3_1_2_0_01_n_n_wf : DotDims.WF S50000x1 S3x3x1 S50000x3x3 [1] [2] [0] [0, 1] [] []
  dot_S50000x16x3_S50000x16x16_S50000x3x16_1_2_2_1_0_0_wf : DotDims.WF S50000x16x3 S50000x16x16 S50000x3x16 [1] [2] [2] [1] [0] [0]
  dot_S50000x3x16_S50000x3x3_S50000x16x3_1_2_2_1_0_0_wf : DotDims.WF S50000x3x16 S50000x3x3 S50000x16x3 [1] [2] [2] [1] [0] [0]
  dot_S50000x3_S3x3x3_S50000x3x3_1_2_0_01_n_n_wf : DotDims.WF S50000x3 S3x3x3 S50000x3x3 [1] [2] [0] [0, 1] [] []
  dot_S50000x5_S3x3x5_S50000x3x3_1_2_0_01_n_n_wf : DotDims.WF S50000x5 S3x3x5 S50000x3x3 [1] [2] [0] [0, 1] [] []
  dot_S50000x3_S3x5x3_S50000x3x5_1_2_0_01_n_n_wf : DotDims.WF S50000x3 S3x5x3 S50000x3x5 [1] [2] [0] [0, 1] [] []
  dot_S50000x16x5_S50000x3x5_S50000x16x3_2_2_1_1_0_0_wf : DotDims.WF S50000x16x5 S50000x3x5 S50000x16x3 [2] [2] [1] [1] [0] [0]
  dot_S50000x16x16_S50000x16x3_S50000x16x3_2_1_1_2_0_0_wf : DotDims.WF S50000x16x16 S50000x16x3 S50000x16x3 [2] [1] [1] [2] [0] [0]
  dot_S50000x5_S3x5x5_S50000x3x5_1_2_0_01_n_n_wf : DotDims.WF S50000x5 S3x5x5 S50000x3x5 [1] [2] [0] [0, 1] [] []
  dot_S50000x7_S3x5x7_S50000x3x5_1_2_0_01_n_n_wf : DotDims.WF S50000x7 S3x5x7 S50000x3x5 [1] [2] [0] [0, 1] [] []
  dot_S50000x5_S5x1x5_S50000x5x1_1_2_0_01_n_n_wf : DotDims.WF S50000x5 S5x1x5 S50000x5x1 [1] [2] [0] [0, 1] [] []
  dot_S50000x1x16_S50000x5x1_S50000x16x5_1_2_2_1_0_0_wf : DotDims.WF S50000x1x16 S50000x5x1 S50000x16x5 [1] [2] [2] [1] [0] [0]
  dot_S50000x3_S5x3x3_S50000x5x3_1_2_0_01_n_n_wf : DotDims.WF S50000x3 S5x3x3 S50000x5x3 [1] [2] [0] [0, 1] [] []
  dot_S50000x3x16_S50000x5x3_S50000x16x5_1_2_2_1_0_0_wf : DotDims.WF S50000x3x16 S50000x5x3 S50000x16x5 [1] [2] [2] [1] [0] [0]
  dot_S50000x5_S5x3x5_S50000x5x3_1_2_0_01_n_n_wf : DotDims.WF S50000x5 S5x3x5 S50000x5x3 [1] [2] [0] [0, 1] [] []
  dot_S50000x7_S5x3x7_S50000x5x3_1_2_0_01_n_n_wf : DotDims.WF S50000x7 S5x3x7 S50000x5x3 [1] [2] [0] [0, 1] [] []
  dot_S50000x1_S5x5x1_S50000x5x5_1_2_0_01_n_n_wf : DotDims.WF S50000x1 S5x5x1 S50000x5x5 [1] [2] [0] [0, 1] [] []
  dot_S50000x16x5_S50000x16x16_S50000x5x16_1_2_2_1_0_0_wf : DotDims.WF S50000x16x5 S50000x16x16 S50000x5x16 [1] [2] [2] [1] [0] [0]
  dot_S50000x5x16_S50000x5x5_S50000x16x5_1_2_2_1_0_0_wf : DotDims.WF S50000x5x16 S50000x5x5 S50000x16x5 [1] [2] [2] [1] [0] [0]
  dot_S50000x3_S5x5x3_S50000x5x5_1_2_0_01_n_n_wf : DotDims.WF S50000x3 S5x5x3 S50000x5x5 [1] [2] [0] [0, 1] [] []
  dot_S50000x5_S5x5x5_S50000x5x5_1_2_0_01_n_n_wf : DotDims.WF S50000x5 S5x5x5 S50000x5x5 [1] [2] [0] [0, 1] [] []
  dot_S50000x7_S5x5x7_S50000x5x5_1_2_0_01_n_n_wf : DotDims.WF S50000x7 S5x5x7 S50000x5x5 [1] [2] [0] [0, 1] [] []
  dot_S50000x9_S5x5x9_S50000x5x5_1_2_0_01_n_n_wf : DotDims.WF S50000x9 S5x5x9 S50000x5x5 [1] [2] [0] [0, 1] [] []
  scatter_S5000x144_S50000x1_S50000x144_1_0_0_1_wf : ScatterDims.WF S5000x144 S50000x1 S50000x144 [1] [0] [0] 1

variable [Facts₀]

def gather_S5000x144_S50000x1_S50000x144_1_0_n_n_0_1_1144 : GatherDims S5000x144 S50000x1 S50000x144 where
  offsetDims := [1]
  collapsedSliceDims := [0]
  operandBatchingDims := []
  startIndicesBatchingDims := []
  startIndexMap := [0]
  indexVectorDim := 1
  sliceSizes := ![1, 144]
  wf := gather_S5000x144_S50000x1_S50000x144_1_0_n_n_0_1_1144_wf
def dot_S50000x1_S1x1x1_S50000x1x1_1_2_0_01_n_n : DotDims S50000x1 S1x1x1 S50000x1x1 where
  lhsContracting := [1]
  rhsContracting := [2]
  lhsNonContracting := [0]
  rhsNonContracting := [0, 1]
  lhsBatch := []
  rhsBatch := []
  wf := dot_S50000x1_S1x1x1_S50000x1x1_1_2_0_01_n_n_wf
def dot_S50000x16x1_S50000x16x16_S50000x1x16_1_2_2_1_0_0 : DotDims S50000x16x1 S50000x16x16 S50000x1x16 where
  lhsContracting := [1]
  rhsContracting := [2]
  lhsNonContracting := [2]
  rhsNonContracting := [1]
  lhsBatch := [0]
  rhsBatch := [0]
  wf := dot_S50000x16x1_S50000x16x16_S50000x1x16_1_2_2_1_0_0_wf
def dot_S50000x1x16_S50000x1x1_S50000x16x1_1_2_2_1_0_0 : DotDims S50000x1x16 S50000x1x1 S50000x16x1 where
  lhsContracting := [1]
  rhsContracting := [2]
  lhsNonContracting := [2]
  rhsNonContracting := [1]
  lhsBatch := [0]
  rhsBatch := [0]
  wf := dot_S50000x1x16_S50000x1x1_S50000x16x1_1_2_2_1_0_0_wf
def dot_S50000x3_S1x3x3_S50000x1x3_1_2_0_01_n_n : DotDims S50000x3 S1x3x3 S50000x1x3 where
  lhsContracting := [1]
  rhsContracting := [2]
  lhsNonContracting := [0]
  rhsNonContracting := [0, 1]
  lhsBatch := []
  rhsBatch := []
  wf := dot_S50000x3_S1x3x3_S50000x1x3_1_2_0_01_n_n_wf
def dot_S50000x16x3_S50000x1x3_S50000x16x1_2_2_1_1_0_0 : DotDims S50000x16x3 S50000x1x3 S50000x16x1 where
  lhsContracting := [2]
  rhsContracting := [2]
  lhsNonContracting := [1]
  rhsNonContracting := [1]
  lhsBatch := [0]
  rhsBatch := [0]
  wf := dot_S50000x16x3_S50000x1x3_S50000x16x1_2_2_1_1_0_0_wf
def dot_S50000x16x16_S50000x16x1_S50000x16x1_2_1_1_2_0_0 : DotDims S50000x16x16 S50000x16x1 S50000x16x1 where
  lhsContracting := [2]
  rhsContracting := [1]
  lhsNonContracting := [1]
  rhsNonContracting := [2]
  lhsBatch := [0]
  rhsBatch := [0]
  wf := dot_S50000x16x16_S50000x16x1_S50000x16x1_2_1_1_2_0_0_wf
def dot_S50000x5_S1x5x5_S50000x1x5_1_2_0_01_n_n : DotDims S50000x5 S1x5x5 S50000x1x5 where
  lhsContracting := [1]
  rhsContracting := [2]
  lhsNonContracting := [0]
  rhsNonContracting := [0, 1]
  lhsBatch := []
  rhsBatch := []
  wf := dot_S50000x5_S1x5x5_S50000x1x5_1_2_0_01_n_n_wf
def dot_S50000x16x5_S50000x1x5_S50000x16x1_2_2_1_1_0_0 : DotDims S50000x16x5 S50000x1x5 S50000x16x1 where
  lhsContracting := [2]
  rhsContracting := [2]
  lhsNonContracting := [1]
  rhsNonContracting := [1]
  lhsBatch := [0]
  rhsBatch := [0]
  wf := dot_S50000x16x5_S50000x1x5_S50000x16x1_2_2_1_1_0_0_wf
def dot_S50000x3_S3x1x3_S50000x3x1_1_2_0_01_n_n : DotDims S50000x3 S3x1x3 S50000x3x1 where
  lhsContracting := [1]
  rhsContracting := [2]
  lhsNonContracting := [0]
  rhsNonContracting := [0, 1]
  lhsBatch := []
  rhsBatch := []
  wf := dot_S50000x3_S3x1x3_S50000x3x1_1_2_0_01_n_n_wf
def dot_S50000x1x16_S50000x3x1_S50000x16x3_1_2_2_1_0_0 : DotDims S50000x1x16 S50000x3x1 S50000x16x3 where
  lhsContracting := [1]
  rhsContracting := [2]
  lhsNonContracting := [2]
  rhsNonContracting := [1]
  lhsBatch := [0]
  rhsBatch := [0]
  wf := dot_S50000x1x16_S50000x3x1_S50000x16x3_1_2_2_1_0_0_wf
def dot_S50000x1_S3x3x1_S50000x3x3_1_2_0_01_n_n : DotDims S50000x1 S3x3x1 S50000x3x3 where
  lhsContracting := [1]
  rhsContracting := [2]
  lhsNonContracting := [0]
  rhsNonContracting := [0, 1]
  lhsBatch := []
  rhsBatch := []
  wf := dot_S50000x1_S3x3x1_S50000x3x3_1_2_0_01_n_n_wf
def dot_S50000x16x3_S50000x16x16_S50000x3x16_1_2_2_1_0_0 : DotDims S50000x16x3 S50000x16x16 S50000x3x16 where
  lhsContracting := [1]
  rhsContracting := [2]
  lhsNonContracting := [2]
  rhsNonContracting := [1]
  lhsBatch := [0]
  rhsBatch := [0]
  wf := dot_S50000x16x3_S50000x16x16_S50000x3x16_1_2_2_1_0_0_wf
def dot_S50000x3x16_S50000x3x3_S50000x16x3_1_2_2_1_0_0 : DotDims S50000x3x16 S50000x3x3 S50000x16x3 where
  lhsContracting := [1]
  rhsContracting := [2]
  lhsNonContracting := [2]
  rhsNonContracting := [1]
  lhsBatch := [0]
  rhsBatch := [0]
  wf := dot_S50000x3x16_S50000x3x3_S50000x16x3_1_2_2_1_0_0_wf
def dot_S50000x3_S3x3x3_S50000x3x3_1_2_0_01_n_n : DotDims S50000x3 S3x3x3 S50000x3x3 where
  lhsContracting := [1]
  rhsContracting := [2]
  lhsNonContracting := [0]
  rhsNonContracting := [0, 1]
  lhsBatch := []
  rhsBatch := []
  wf := dot_S50000x3_S3x3x3_S50000x3x3_1_2_0_01_n_n_wf
def dot_S50000x5_S3x3x5_S50000x3x3_1_2_0_01_n_n : DotDims S50000x5 S3x3x5 S50000x3x3 where
  lhsContracting := [1]
  rhsContracting := [2]
  lhsNonContracting := [0]
  rhsNonContracting := [0, 1]
  lhsBatch := []
  rhsBatch := []
  wf := dot_S50000x5_S3x3x5_S50000x3x3_1_2_0_01_n_n_wf
def dot_S50000x3_S3x5x3_S50000x3x5_1_2_0_01_n_n : DotDims S50000x3 S3x5x3 S50000x3x5 where
  lhsContracting := [1]
  rhsContracting := [2]
  lhsNonContracting := [0]
  rhsNonContracting := [0, 1]
  lhsBatch := []
  rhsBatch := []
  wf := dot_S50000x3_S3x5x3_S50000x3x5_1_2_0_01_n_n_wf
def dot_S50000x16x5_S50000x3x5_S50000x16x3_2_2_1_1_0_0 : DotDims S50000x16x5 S50000x3x5 S50000x16x3 where
  lhsContracting := [2]
  rhsContracting := [2]
  lhsNonContracting := [1]
  rhsNonContracting := [1]
  lhsBatch := [0]
  rhsBatch := [0]
  wf := dot_S50000x16x5_S50000x3x5_S50000x16x3_2_2_1_1_0_0_wf
def dot_S50000x16x16_S50000x16x3_S50000x16x3_2_1_1_2_0_0 : DotDims S50000x16x16 S50000x16x3 S50000x16x3 where
  lhsContracting := [2]
  rhsContracting := [1]
  lhsNonContracting := [1]
  rhsNonContracting := [2]
  lhsBatch := [0]
  rhsBatch := [0]
  wf := dot_S50000x16x16_S50000x16x3_S50000x16x3_2_1_1_2_0_0_wf
def dot_S50000x5_S3x5x5_S50000x3x5_1_2_0_01_n_n : DotDims S50000x5 S3x5x5 S50000x3x5 where
  lhsContracting := [1]
  rhsContracting := [2]
  lhsNonContracting := [0]
  rhsNonContracting := [0, 1]
  lhsBatch := []
  rhsBatch := []
  wf := dot_S50000x5_S3x5x5_S50000x3x5_1_2_0_01_n_n_wf
def dot_S50000x7_S3x5x7_S50000x3x5_1_2_0_01_n_n : DotDims S50000x7 S3x5x7 S50000x3x5 where
  lhsContracting := [1]
  rhsContracting := [2]
  lhsNonContracting := [0]
  rhsNonContracting := [0, 1]
  lhsBatch := []
  rhsBatch := []
  wf := dot_S50000x7_S3x5x7_S50000x3x5_1_2_0_01_n_n_wf
def dot_S50000x5_S5x1x5_S50000x5x1_1_2_0_01_n_n : DotDims S50000x5 S5x1x5 S50000x5x1 where
  lhsContracting := [1]
  rhsContracting := [2]
  lhsNonContracting := [0]
  rhsNonContracting := [0, 1]
  lhsBatch := []
  rhsBatch := []
  wf := dot_S50000x5_S5x1x5_S50000x5x1_1_2_0_01_n_n_wf
def dot_S50000x1x16_S50000x5x1_S50000x16x5_1_2_2_1_0_0 : DotDims S50000x1x16 S50000x5x1 S50000x16x5 where
  lhsContracting := [1]
  rhsContracting := [2]
  lhsNonContracting := [2]
  rhsNonContracting := [1]
  lhsBatch := [0]
  rhsBatch := [0]
  wf := dot_S50000x1x16_S50000x5x1_S50000x16x5_1_2_2_1_0_0_wf
def dot_S50000x3_S5x3x3_S50000x5x3_1_2_0_01_n_n : DotDims S50000x3 S5x3x3 S50000x5x3 where
  lhsContracting := [1]
  rhsContracting := [2]
  lhsNonContracting := [0]
  rhsNonContracting := [0, 1]
  lhsBatch := []
  rhsBatch := []
  wf := dot_S50000x3_S5x3x3_S50000x5x3_1_2_0_01_n_n_wf
def dot_S50000x3x16_S50000x5x3_S50000x16x5_1_2_2_1_0_0 : DotDims S50000x3x16 S50000x5x3 S50000x16x5 where
  lhsContracting := [1]
  rhsContracting := [2]
  lhsNonContracting := [2]
  rhsNonContracting := [1]
  lhsBatch := [0]
  rhsBatch := [0]
  wf := dot_S50000x3x16_S50000x5x3_S50000x16x5_1_2_2_1_0_0_wf
def dot_S50000x5_S5x3x5_S50000x5x3_1_2_0_01_n_n : DotDims S50000x5 S5x3x5 S50000x5x3 where
  lhsContracting := [1]
  rhsContracting := [2]
  lhsNonContracting := [0]
  rhsNonContracting := [0, 1]
  lhsBatch := []
  rhsBatch := []
  wf := dot_S50000x5_S5x3x5_S50000x5x3_1_2_0_01_n_n_wf
def dot_S50000x7_S5x3x7_S50000x5x3_1_2_0_01_n_n : DotDims S50000x7 S5x3x7 S50000x5x3 where
  lhsContracting := [1]
  rhsContracting := [2]
  lhsNonContracting := [0]
  rhsNonContracting := [0, 1]
  lhsBatch := []
  rhsBatch := []
  wf := dot_S50000x7_S5x3x7_S50000x5x3_1_2_0_01_n_n_wf
def dot_S50000x1_S5x5x1_S50000x5x5_1_2_0_01_n_n : DotDims S50000x1 S5x5x1 S50000x5x5 where
  lhsContracting := [1]
  rhsContracting := [2]
  lhsNonContracting := [0]
  rhsNonContracting := [0, 1]
  lhsBatch := []
  rhsBatch := []
  wf := dot_S50000x1_S5x5x1_S50000x5x5_1_2_0_01_n_n_wf
def dot_S50000x16x5_S50000x16x16_S50000x5x16_1_2_2_1_0_0 : DotDims S50000x16x5 S50000x16x16 S50000x5x16 where
  lhsContracting := [1]
  rhsContracting := [2]
  lhsNonContracting := [2]
  rhsNonContracting := [1]
  lhsBatch := [0]
  rhsBatch := [0]
  wf := dot_S50000x16x5_S50000x16x16_S50000x5x16_1_2_2_1_0_0_wf
def dot_S50000x5x16_S50000x5x5_S50000x16x5_1_2_2_1_0_0 : DotDims S50000x5x16 S50000x5x5 S50000x16x5 where
  lhsContracting := [1]
  rhsContracting := [2]
  lhsNonContracting := [2]
  rhsNonContracting := [1]
  lhsBatch := [0]
  rhsBatch := [0]
  wf := dot_S50000x5x16_S50000x5x5_S50000x16x5_1_2_2_1_0_0_wf
def dot_S50000x3_S5x5x3_S50000x5x5_1_2_0_01_n_n : DotDims S50000x3 S5x5x3 S50000x5x5 where
  lhsContracting := [1]
  rhsContracting := [2]
  lhsNonContracting := [0]
  rhsNonContracting := [0, 1]
  lhsBatch := []
  rhsBatch := []
  wf := dot_S50000x3_S5x5x3_S50000x5x5_1_2_0_01_n_n_wf
def dot_S50000x5_S5x5x5_S50000x5x5_1_2_0_01_n_n : DotDims S50000x5 S5x5x5 S50000x5x5 where
  lhsContracting := [1]
  rhsContracting := [2]
  lhsNonContracting := [0]
  rhsNonContracting := [0, 1]
  lhsBatch := []
  rhsBatch := []
  wf := dot_S50000x5_S5x5x5_S50000x5x5_1_2_0_01_n_n_wf
def dot_S50000x7_S5x5x7_S50000x5x5_1_2_0_01_n_n : DotDims S50000x7 S5x5x7 S50000x5x5 where
  lhsContracting := [1]
  rhsContracting := [2]
  lhsNonContracting := [0]
  rhsNonContracting := [0, 1]
  lhsBatch := []
  rhsBatch := []
  wf := dot_S50000x7_S5x5x7_S50000x5x5_1_2_0_01_n_n_wf
def dot_S50000x9_S5x5x9_S50000x5x5_1_2_0_01_n_n : DotDims S50000x9 S5x5x9 S50000x5x5 where
  lhsContracting := [1]
  rhsContracting := [2]
  lhsNonContracting := [0]
  rhsNonContracting := [0, 1]
  lhsBatch := []
  rhsBatch := []
  wf := dot_S50000x9_S5x5x9_S50000x5x5_1_2_0_01_n_n_wf
def scatter_S5000x144_S50000x1_S50000x144_1_0_0_1 : ScatterDims S5000x144 S50000x1 S50000x144 where
  updateWindowDims := [1]
  insertedWindowDims := [0]
  scatterDimsToOperandDims := [0]
  indexVectorDim := 1
  wf := scatter_S5000x144_S50000x1_S50000x144_1_0_0_1_wf

class Facts : Prop extends Facts₀ where

variable [Facts]
-- ==== Proof.KernelTail.lean ====
/-
  The idealized kernel's program ends with a scatter-add of the per-edge messages into the node rows:
  out[a'(e), :] += msgs[e, :], where a'(e) is the target index of edge e with a negative index wrapped once by the
  number of nodes. The messages are the one array the tiled region writes. This module reads the lines after the
  region off the frame run: the result buffer holds that scatter-add of the array the region leaves, and the
  argument arrays are unchanged.
-/
import proofs.«165524_j45689862095550_2_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The scatter-add of per-edge messages into a zero [5000, 144] array at the wrapped target indices. -/
def scatterTail (idx : (⟨S50000, .i32⟩ : BufTy).Contents (Elt Ideal)) (msgs : (⟨S50000x144, .f32⟩ : BufTy).Contents (Elt Ideal)) :
    (⟨S5000x144, .f32⟩ : BufTy).Contents (Elt Ideal) :=
  Host.scatterAdd scatter_S5000x144_S50000x1_S50000x144_1_0_0_1
    (broadcastInDim S5000x144 ![] bcast_S_S5000x144 (constant (F := Ideal) S_ .f32 0x00000000#32))
    (broadcastInDim S50000x1 ![0] bcast_S50000_S50000x1_0
      (select (cmpi .slt idx (broadcastInDim S50000 ![] bcast_S_S50000 (constantI S_ 32 0#32)))
        (addi idx (broadcastInDim S50000 ![] bcast_S_S50000 (constantI S_ 32 5000#32))) idx))
    msgs

variable (m : (ℓ : Loc nD τ sig) → Buf (Elt Ideal) ℓ) (ρ : Dev nD → PrngReg)

/-- The lines after the region, run from ANY buffer contents `W`: the result buffer is the scatter-add, at the target
    indices held in `W`, of the messages held in `W`. -/
theorem tail_after (W : Valuation τ sig (Elt Ideal)) :
    StableHlo.after (hostOps1 (F := Ideal)) W (Proc.devRef .tc main_v169)
      = scatterTail (W (Proc.devRef .tc main_arg5)) (W (Proc.devRef .tc main_v161)) := by
  after_results
  rfl

/-- The result buffer after the lines that follow the region: the scatter-add, at the launch's target indices, of the
    array the region leaves in its output window. -/
theorem tail_result (c : Dev nD) :
    Pipeline.afterTail₀ cfgs (dats (F := Ideal) m) 0 (V0 m) [hostOps1] c main_v169
      = scatterTail (m ((c : Thread nD τ).loc main_arg5)) ((dats (F := Ideal) m 0 c).arrAt 5 cfg0.N) := by
  unfold Pipeline.afterTail₀
  simp only [List.flatten_cons, List.flatten_nil, List.append_nil]
  rw [tail_after]
  refine congrArg₂ scatterTail ?_ ?_
  · exact (Pipeline.withArrays_of_ne _ c (V0 m c) _ main_arg5 (by exact (by decide : ∀ w, Pipeline.arrRef spec0 w ≠ main_arg5))).trans (V_main_arg5 m c)
  · exact Pipeline.withArrays_arr spec0 launch0.win.arr_inj c _ _ 5

/-- Every weakly fair execution of the idealized kernel's program terminates with the result buffer at the scatter-add
    of the region's output array and with the argument arrays unchanged. -/
theorem run_named : θ_run defs (onTc (τ := τ) (main (F := Ideal))) ⟨m, fun _ => 0, ρ⟩ (fun r => ∀ c : Dev nD,
      r.2.mem ((c.tc : Thread nD τ).loc main_v169)
        = scatterTail (m ((c : Thread nD τ).loc main_arg5)) ((dats (F := Ideal) m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v169 (Pipeline.mem_restRefs_of main_v169 (by decide) (by decide))).trans (tail_result m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Val

end
-- ==== Proof.Blocks.lean ====
/-
  The tiled region writes one array, the per-edge messages [50000, 144], in 125 blocks of 400 rows: grid point t
  writes rows 400 t … 400 t + 399, all 144 columns, and every point writes its block back. So the array after the
  run is ONE function of the index: row e comes from the block of point e / 400, at row e % 400 of that block.
  This module defines that function from the body's result on a point's input blocks, shows that what point t writes
  back is block t of it, that the blocks cover the array, and hence that the array after the run is that function.
-/
import proofs.«165524_j45689862095550_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The grid point whose block holds edge row `e`. -/
def pointOf (e : Nat) : Fin cfg0.N :=
  ⟨e / 400 % 125, by rw [show cfg0.N = 125 from N_0]; exact Nat.mod_lt _ (by norm_num)⟩
/-- The row of that block. -/
def rowOf (e : Nat) : Fin 400 := ⟨e % 400, Nat.mod_lt _ (by norm_num)⟩
/-- The column, which blocks do not cut. -/
def colOf (i : S50000x144.Idx) : Fin 144 := ⟨(i 1).val, (i 1).isLt⟩

/-- What the body leaves in the output window's buffer at point `t`: its result on the point's five input blocks. -/
def blockAt (c : Dev nD) (t : Fin cfg0.N) : Vec Ideal S400x144 .f32 :=
  out0_5 (iblk m c 0 t) (iblk m c 1 t) (iblk m c 2 t) (iblk m c 3 t) (iblk m c 4 t)

/-- The messages as one array: row `e` is row `e % 400` of the block of point `e / 400`. -/
def msgsK (c : Dev nD) : S50000x144.Idx → Elt Ideal .f32 := fun i =>
  blockAt m c (pointOf (i 0).val) (ix2 (rowOf (i 0).val) (colOf i))

/-- At an index that sits at row `r`, column `q` of point `t`'s block, the array is the block's entry. -/
theorem msgsK_at (c : Dev nD) (t : Fin cfg0.N) (r : Fin 400) (q : Fin 144) (i : S50000x144.Idx)
    (h0 : (i 0).val = t.val * 400 + r.val) (h1 : (i 1).val = q.val) :
    msgsK m c i = blockAt m c t (ix2 r q) := by
  have ht : t.val < 125 := lt_of_lt_of_eq t.isLt N_0
  have hr : r.val < 400 := r.isLt
  have e1 : pointOf (i 0).val = t := Fin.ext (by show (i 0).val / 400 % 125 = t.val; omega)
  have e2 : rowOf (i 0).val = r := Fin.ext (by show (i 0).val % 400 = r.val; omega)
  have e3 : colOf i = q := Fin.ext h1
  unfold msgsK
  rw [e1, e2, e3]

/-- The output window's block index at point `t` is (t, 0). -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- WHAT POINT `t` WRITES BACK is block `t` of the one array. -/
theorem flushed5_eq (c : Dev nD) (t : Fin cfg0.N) :
    (dats (F := Ideal) m 0 c).flushed 5 t = ((cfg0.win 5).blk t).view.read (Elt Ideal) (msgsK m c) := by
  show (cfg0.win 5).cut (grid0.coords t) ((dats (F := Ideal) m 0 c).after 5 t) = _
  rw [after0_5]
  obtain ⟨i0, i1⟩ := index5 t
  funext j
  show blockAt m c t j = msgsK m c (((cfg0.win 5).blk t).view.emb j)
  have hj0 : (j 0).val < 400 := (j 0).isLt
  have hj1 : (j 1).val < 144 := (j 1).isLt
  have key := msgsK_at m c t ⟨(j 0).val, hj0⟩ ⟨(j 1).val, hj1⟩ (((cfg0.win 5).blk t).view.emb j)
    (by show win0_5.index t (0 : Fin 2) * 400 + 1 * (j 0).val = t.val * 400 + (j 0).val; rw [i0]; omega)
    (by show win0_5.index t (1 : Fin 2) * 144 + 1 * (j 1).val = (j 1).val; rw [i1]; omega)
  rw [key]
  refine congrArg (blockAt m c t) ?_
  funext a
  match a with
  | ⟨0, _⟩ => rfl
  | ⟨1, _⟩ => rfl

/-- An index of the array is in point `t`'s block iff each coordinate is in the block's range on its axis. -/
theorem mem_blk5 (t : Fin cfg0.N) (i : S50000x144.Idx) :
    i ∈ ((cfg0.win 5).blk t).view.set ↔ ∀ a : Fin 2, win0_5.index t a * S400x144.size a ≤ (i a).val ∧ (i a).val < win0_5.index t a * S400x144.size a + S400x144.size a := by
  show i ∈ ((View.whole main_v161).slice (win0_5.rect t)).set ↔ _
  rw [View.set_slice_whole, Rect.mem_set_unit]
  exact Iff.rfl

/-- Every index of the array is in the block of the point its row belongs to, and every point writes back. -/
theorem cover5 (i : S50000x144.Idx) :
    ∃ t : Fin cfg0.N, (cfg0.win 5).flush t = true ∧ i ∈ ((cfg0.win 5).blk t).view.set := by
  have hi0 : (i 0).val < 50000 := (i 0).isLt
  have hi1 : (i 1).val < 144 := (i 1).isLt
  refine ⟨pointOf (i 0).val, flush0_5 _, ?_⟩
  obtain ⟨i0, i1⟩ := index5 (pointOf (i 0).val)
  have hp : (pointOf (i 0).val).val = (i 0).val / 400 % 125 := rfl
  rw [mem_blk5]
  intro a
  match a with
  | ⟨0, _⟩ => show win0_5.index (pointOf (i 0).val) (0 : Fin 2) * 400 ≤ (i 0).val ∧ (i 0).val < win0_5.index (pointOf (i 0).val) (0 : Fin 2) * 400 + 400; rw [i0, hp]; omega
  | ⟨1, _⟩ => show win0_5.index (pointOf (i 0).val) (1 : Fin 2) * 144 ≤ (i 1).val ∧ (i 1).val < win0_5.index (pointOf (i 0).val) (1 : Fin 2) * 144 + 144; rw [i1]; omega

/-- THE ARRAY AFTER THE RUN is the one function `msgsK`. -/
theorem final5 (c : Dev nD) : (dats (F := Ideal) m 0 c).arrAt 5 cfg0.N = msgsK m c :=
  (dats (F := Ideal) m 0 c).arrAt_eq_of_cover 5 (msgsK m c) (fun t _ => flushed5_eq m c t) cover5

end Cert.KernelIdeal.Val

end
-- ==== Proof.Spec.lean ====
/-
  The layer's message for one edge, as a formula in the five float arguments and the gathered source features.

  For edge e, output block lo (of multiplicity 16 and dimension d_o = 2 lo + 1), channel u and component o:
      msg[e, (lo, u, o)] = Σ over the pairs (li, lf) coupled to lo, in order, of
          W[j] · Σ_v R[e, r_j + (u · 16 + v) · n_j + k_j] · Σ_i F[e, f_j + v · d_i + i] · C_j[e, o, i],
      C_j[e, o, i] = Σ_f Y[e, lf² + f] · cg[g_j + (o · d_i + i) · d_f + f],
  where j numbers the 19 coupled triples (lo, li, lf), R is the radial coefficient array, F the gathered features, Y the
  spherical harmonics, cg the flattened coupling coefficients and W the 19 weights.  The accumulation starts from zero
  and adds the triples' terms in order, as both programs do.  Arrays are read through total accessors (zero outside the
  array) so that an index is a plain number.
-/
import Idealize.ShloMosaic.Lib.ValueIdx
import Idealize.ShloMosaic.PureOps.Ideal

noncomputable section

open scoped BigOperators

namespace Cert.Spec

open Idealize.ShloMosaic Idealize.ShloMosaic.ValueIdx

/-- A matrix and a vector of extended reals. -/
abbrev A2 (a b : Nat) := (⟨2, ![a, b]⟩ : Shape).Idx → EReal
abbrev A1 (a : Nat) := (⟨1, ![a]⟩ : Shape).Idx → EReal

/-- Entry (p, q) of a matrix, zero outside it. -/
def get2 {a b : Nat} (x : A2 a b) (p q : Nat) : EReal := if h : p < a ∧ q < b then x (ix2 ⟨p, h.1⟩ ⟨q, h.2⟩) else 0
/-- Entry p of a vector, zero outside it. -/
def get1 {a : Nat} (x : A1 a) (p : Nat) : EReal := if h : p < a then x (ix1 ⟨p, h⟩) else 0

/-- An entry of a matrix through the accessor. -/
theorem get2_of {a b : Nat} (x : A2 a b) (k : (⟨2, ![a, b]⟩ : Shape).Idx) (p q : Nat) (hp : (k 0).val = p) (hq : (k 1).val = q) :
    x k = get2 x p q := by
  subst hp hq
  unfold get2
  have h : (k 0).val < a ∧ (k 1).val < b := ⟨(k 0).isLt, (k 1).isLt⟩
  rw [dif_pos h]
  exact congrArg x (eq_ix2 k)

/-- An entry of a vector through the accessor. -/
theorem get1_of {a : Nat} (x : A1 a) (k : (⟨1, ![a]⟩ : Shape).Idx) (p : Nat) (hp : (k 0).val = p) : x k = get1 x p := by
  subst hp
  unfold get1
  have h : (k 0).val < a := (k 0).isLt
  rw [dif_pos h]
  exact congrArg x (eq_ix1 k)

/-- The coupling coefficients of one triple contracted with the edge's harmonics: C[e, o, i]. -/
def coup (cg : A1 1225) (Y : A2 50000 25) (e cgOff yOff di df o i : Nat) : EReal :=
  ∑ f : Fin df, get2 Y e (yOff + f.val) * get1 cg (cgOff + ((o * di + i) * df + f.val))

/-- One triple's term at (e, u, o), before its weight. -/
def term (R : A2 50000 4864) (F : A2 50000 144) (Y : A2 50000 25) (cg : A1 1225) (e u o : Nat)
    (rBase nlf k finOff di yOff df cgOff : Nat) : EReal :=
  ∑ v : Fin 16, get2 R e (rBase + ((u * 16 + v.val) * nlf + k))
    * ∑ i : Fin di, get2 F e (finOff + (v.val * di + i.val)) * coup cg Y e cgOff yOff di df o i.val

/-- One coupled triple (lo, li, lf): its weight's number `j`; where its radial coefficients start (`rBase`), how many
    lf share that window (`nlf`) and which of them it is (`k`); where the features of li start (`finOff`) and their
    dimension (`di`); where the harmonics of lf start (`yOff`) and their number (`df`); where its coupling coefficients
    start in the flattened table (`cgOff`). -/
structure Triple where
  j : Nat
  rBase : Nat
  nlf : Nat
  k : Nat
  finOff : Nat
  di : Nat
  yOff : Nat
  df : Nat
  cgOff : Nat

/-- The triples of output block lo = 0 (li = 0, 1, 2 with lf = li). -/
def triples0 : List Triple :=
  [⟨0, 0, 1, 0, 0, 1, 0, 1, 0⟩, ⟨1, 256, 1, 0, 16, 3, 1, 3, 1⟩, ⟨2, 512, 1, 0, 64, 5, 4, 5, 10⟩]

/-- The triples of output block lo = 1: (li, lf) = (0, 1), (1, 0), (1, 1), (1, 2), (2, 1), (2, 2), (2, 3). -/
def triples1 : List Triple :=
  [⟨3, 768, 1, 0, 0, 1, 1, 3, 35⟩, ⟨4, 1024, 3, 0, 16, 3, 0, 1, 44⟩, ⟨5, 1024, 3, 1, 16, 3, 1, 3, 53⟩,
   ⟨6, 1024, 3, 2, 16, 3, 4, 5, 80⟩, ⟨7, 1792, 3, 0, 64, 5, 1, 3, 125⟩, ⟨8, 1792, 3, 1, 64, 5, 4, 5, 170⟩,
   ⟨9, 1792, 3, 2, 64, 5, 9, 7, 245⟩]

/-- The triples of output block lo = 2: (li, lf) = (0, 2), (1, 1), (1, 2), (1, 3), (2, 0), (2, 1), (2, 2), (2, 3), (2, 4). -/
def triples2 : List Triple :=
  [⟨10, 2560, 1, 0, 0, 1, 4, 5, 350⟩, ⟨11, 2816, 3, 0, 16, 3, 1, 3, 375⟩, ⟨12, 2816, 3, 1, 16, 3, 4, 5, 420⟩,
   ⟨13, 2816, 3, 2, 16, 3, 9, 7, 495⟩, ⟨14, 3584, 5, 0, 64, 5, 0, 1, 600⟩, ⟨15, 3584, 5, 1, 64, 5, 1, 3, 625⟩,
   ⟨16, 3584, 5, 2, 64, 5, 4, 5, 700⟩, ⟨17, 3584, 5, 3, 64, 5, 9, 7, 825⟩, ⟨18, 3584, 5, 4, 64, 5, 16, 9, 1000⟩]

section
variable (R : A2 50000 4864) (F : A2 50000 144) (Y : A2 50000 25) (cg : A1 1225) (W : A1 19) (e u o : Nat)

/-- A block's accumulation: from zero, each triple's weighted term added in order. -/
def acc (ts : List Triple) : EReal :=
  ts.foldl (fun s p => s + get1 W p.j * term R F Y cg e u o p.rBase p.nlf p.k p.finOff p.di p.yOff p.df p.cgOff) 0

/-- Output block lo = 0 (d_o = 1). -/
def acc0 : EReal := acc R F Y cg W e u o triples0
/-- Output block lo = 1 (d_o = 3). -/
def acc1 : EReal := acc R F Y cg W e u o triples1
/-- Output block lo = 2 (d_o = 5). -/
def acc2 : EReal := acc R F Y cg W e u o triples2
end

/-- The message of edge `e` at column `col` of the [50000, 144] message array: columns 0–15 are block 0, 16–63 block 1
    as (u, o) = ((col − 16) / 3, (col − 16) % 3), 64–143 block 2 as ((col − 64) / 5, (col − 64) % 5). -/
def msg (R : A2 50000 4864) (F : A2 50000 144) (Y : A2 50000 25) (cg : A1 1225) (W : A1 19) (e col : Nat) : EReal :=
  if col < 16 then acc0 R F Y cg W e col 0
  else if col < 64 then acc1 R F Y cg W e ((col - 16) / 3) ((col - 16) % 3)
  else acc2 R F Y cg W e ((col - 64) / 5) ((col - 64) % 5)

end Cert.Spec

end
-- ==== Proof.Finite.lean ====
/-
  The precondition says of each of the five float arguments that every entry is below +inf in absolute value. Read
  at the exact values, where an entry ranges over the extended reals, that is: every entry is a real number
  (neither infinity satisfies |x| < +inf, and every real does).
-/
import proofs.«165524_j45689862095550_2_alg».proof.Pre_finite_inputs
import proofs.«165524_j45689862095550_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.Bridge

open Idealize.ShloMosaic Idealize.ShloMosaic.ValueIdx Cert.Pre_finite_inputs

variable [Cert.Pre_finite_inputs.Facts]

instance : Subsingleton S_.Idx := ⟨fun a b => funext fun d => d.elim0⟩

/-- The f32 word with all exponent bits set and no fraction denotes +inf. -/
theorem ofBits_inf : Ideal.ofBits .f32 0x7F800000#32 = (⊤ : EReal) := by
  simp [Ideal.ofBits, Ideal.ieee]

/-- An extended real whose absolute value is below +inf is a real. -/
theorem real_of_abs_lt (x : EReal) (h : Ideal.cmp .olt (max x (-x)) ⊤ = 1#1) : ∃ r : ℝ, x = (r : EReal) := by
  induction x using EReal.rec with
  | coe r => exact ⟨r, rfl⟩
  | top => exfalso; simp [Ideal.cmp] at h
  | bot => exfalso; simp [Ideal.cmp] at h

/-- `jnp.all(|a| < inf)` evaluating to true says every entry of `a` is a real. -/
theorem all_real {s : Shape} {axes : List (Fin s.rank)} (a : FVec Ideal s .f32)
    (hb : S_.BroadcastsInDim s (![] : Fin 0 → Fin s.rank)) (hred : s.ReducesTo axes S_) (hu : 0 < S_.numel)
    (e : Host.reduce IntOp.andi (cmpf .olt (Host.absf a) (broadcastInDim s ![] hb (constant (F := Ideal) S_ .f32 0x7F800000#32)))
      (constantI S_ 1 1#1) hred hu ix0 = 1#1)
    (i : s.Idx) : ∃ r : ℝ, a i = (r : EReal) := by
  have he := Host.reduce_andi_all _ _ hred hu ix0 e i
  have he' : Ideal.cmp .olt (max (a i) (-(a i))) (Ideal.ofBits .f32 0x7F800000#32) = 1#1 := he
  rw [ofBits_inf] at he'
  exact real_of_abs_lt _ he'

/-- Under the precondition every entry of every float argument is a real. -/
theorem finite_of_pre (a0 : FVec Ideal S5000x144 .f32) (a1 : FVec Ideal S50000x4864 .f32) (a2 : FVec Ideal S50000x25 .f32)
    (a3 : FVec Ideal S1225 .f32) (a4 : FVec Ideal S19 .f32) (a5 : IVec S50000 32) (a6 : IVec S50000 32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4⟩

end Cert.Bridge

end
-- ==== Proof.LibRowGather.lean ====
/-
  Row gather and row scatter read at an index.

  `x[src]` of a matrix `x : [N, D]` at an integer column `src : [E, 1]` is the matrix whose row `e` is row
  `src[e, 0]` of `x`, the start index read signed and clamped into `[0, N − 1]`; the same for a flat array `v : [N]`.
  A row scatter sends update element `(e, f)` to operand element `(idx[e, 0], f)` when that row exists.
-/
import Idealize.ShloMosaic.Lib.ValueIdx

noncomputable section

namespace Cert.Lib

open Idealize.ShloMosaic Idealize.ShloMosaic.ValueIdx

/-- A word read as a signed integer and clamped into `[0, N − 1]`: the row a gather reads. -/
def clampRow (N : Nat) (hN : 0 < N) {w : Nat} (b : BitVec w) : Fin N := ⟨min b.toInt.toNat (N - 1), by omega⟩

/-- The element `[e, 0]` of an index column `[E, 1]`. -/
abbrev edgeIdx {E : Nat} (e : Fin E) : (⟨2, ![E, 1]⟩ : Shape).Idx := ix2 e (⟨0, Nat.one_pos⟩ : Fin 1)

/-- A rank-1 index's coordinate is below the extent, written as `n` itself. -/
theorem idx1_lt0 {n : Nat} (j : (⟨1, ![n]⟩ : Shape).Idx) : (j 0).val < n := (j 0).isLt

section Gather
variable {α : Type}

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, f)`: the operand at row `idx[e, 0]` (signed, clamped) and column `f`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowGatherDims N E D wf) x idx j
      = x (ix2 (clampRow N hN (idx (edgeIdx ⟨(j 0).val, idx2_lt0 j⟩))) ⟨(j 1).val, idx2_lt1 j⟩) := by
  unfold Host.gather
  congr 1
  funext a
  refine Fin.ext ?_
  match a with
  | ⟨0, _⟩ =>
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = edgeIdx ⟨(j 0).val, idx2_lt0 j⟩ := by
      funext b; refine Fin.ext ?_
      match b with
      | ⟨0, _⟩ => rfl
      | ⟨1, _⟩ => rfl
    rw [hsi]
    rfl
  | ⟨1, _⟩ =>
    show (rowGatherDims N E D wf).start j idx 1 + (rowGatherDims N E D wf).batchCoord j 1
      + (rowGatherDims N E D wf).offCoord j 1 = _
    rw [GatherDims.batchCoord_eq_zero _ _ _ List.not_mem_nil]
    have hs : (rowGatherDims N E D wf).start j idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The same at an index given by its coordinates. -/
theorem rowGather_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (idx (edgeIdx e))) f) :=
  rowGather_apply hN wf x idx (ix2 e f)

/-- The dimension numbers of an element gather: operand `[N]`, start indices `[E, 1]`, result `[E]`. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem elemGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : (⟨1, ![E]⟩ : Shape).Idx) :
    Host.gather (elemGatherDims N E wf) v idx e
      = v (ix1 (clampRow N hN (idx (edgeIdx ⟨(e 0).val, idx1_lt0 e⟩)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]
  rfl

/-- The same at an index given by its coordinate. -/
theorem elemGather_ix1 {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (elemGatherDims N E wf) v idx (ix1 e) = v (ix1 (clampRow N hN (idx (edgeIdx e)))) :=
  elemGather_apply hN wf v idx (ix1 e)

end Gather

section Scatter

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the scatter index `idx[e, 0]`, read signed … -/
theorem rowScatter_start0 :
    (rowScatterDims N E D wf).start j idx 0 = (idx (edgeIdx ⟨(j 0).val, idx2_lt0 j⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = edgeIdx ⟨(j 0).val, idx2_lt0 j⟩ := by
    funext b; refine Fin.ext ?_
    match b with
    | ⟨0, _⟩ => rfl
    | ⟨1, _⟩ => rfl
  rw [hsi]

/-- … and on the column axis at `0`. -/
theorem rowScatter_start1 : (rowScatterDims N E D wf).start j idx 1 = 0 := by
  unfold ScatterDims.start
  rw [dif_neg (show (1 : Fin 2) ∉ ([0] : List (Fin 2)) by decide)]

/-- The window has no extent on the row axis … -/
theorem rowScatter_window0 : (rowScatterDims N E D wf).window j 0 = 0 := by
  have h0 : (0 : Fin 2) ∉ (rowScatterDims N E D wf).sKept :=
    (show (0 : Fin 2) ∉ (List.finRange 2).filter (· ∉ ([0] : List (Fin 2))) by decide)
  unfold ScatterDims.window
  rw [dif_neg h0]

/-- … and on the column axis its coordinate is the update's column. -/
theorem rowScatter_window1 : (rowScatterDims N E D wf).window j 1 = (j 1).val := by
  have h1 : (1 : Fin 2) ∈ (rowScatterDims N E D wf).sKept :=
    (show (1 : Fin 2) ∈ (List.finRange 2).filter (· ∉ ([0] : List (Fin 2))) by decide)
  unfold ScatterDims.window
  rw [dif_pos h1]
  rfl

/-- WHERE A ROW SCATTER'S UPDATE LANDS: update element `(e, f)` lands at operand element `i` only if the scatter index
    `idx[e, 0]`, read signed, is `i`'s row, and `f` is `i`'s column. -/
theorem rowScatter_hit (i : (⟨2, ![N, D]⟩ : Shape).Idx)
    (h : (rowScatterDims N E D wf).resultIdx? j idx = some i) :
    (idx (edgeIdx ⟨(j 0).val, idx2_lt0 j⟩)).toInt = ((i 0).val : Int) ∧ (j 1).val = (i 1).val := by
  unfold ScatterDims.resultIdx? at h
  split at h
  · rename_i hb
    have hi := Option.some.inj h
    subst hi
    have h0 := hb 0
    rw [rowScatter_start0, rowScatter_window0] at h0
    constructor
    · show _ = ((((rowScatterDims N E D wf).start j idx 0 + (rowScatterDims N E D wf).window j 0).toNat : Nat) : Int)
      rw [rowScatter_start0, rowScatter_window0]
      omega
    · show (j 1).val = ((rowScatterDims N E D wf).start j idx 1 + (rowScatterDims N E D wf).window j 1).toNat
      rw [rowScatter_start1, rowScatter_window1]
      omega
  · exact absurd h (by simp)

end Scatter

section ScatterIff

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- … and exactly then: the updates that land at operand element `i` are the `(e, f)` with `idx[e, 0] = i`'s row
    (read signed) and `f = i`'s column. -/
theorem rowScatter_hit_iff (i : (⟨2, ![N, D]⟩ : Shape).Idx) :
    (rowScatterDims N E D wf).resultIdx? j idx = some i ↔
      (idx (edgeIdx ⟨(j 0).val, idx2_lt0 j⟩)).toInt = ((i 0).val : Int) ∧ (j 1).val = (i 1).val := by
  refine ⟨rowScatter_hit wf idx j i, fun ⟨h0, h1⟩ => ?_⟩
  have hi0 := idx2_lt0 i
  have hj1 := idx2_lt1 j
  have hb : ∀ a, 0 ≤ (rowScatterDims N E D wf).start j idx a + (rowScatterDims N E D wf).window j a ∧
      (rowScatterDims N E D wf).start j idx a + (rowScatterDims N E D wf).window j a
        < (⟨2, ![N, D]⟩ : Shape).size a := by
    intro a
    match a with
    | ⟨0, _⟩ =>
      show 0 ≤ (rowScatterDims N E D wf).start j idx 0 + (rowScatterDims N E D wf).window j 0 ∧
        (rowScatterDims N E D wf).start j idx 0 + (rowScatterDims N E D wf).window j 0 < (N : Int)
      rw [rowScatter_start0, rowScatter_window0, h0]
      omega
    | ⟨1, _⟩ =>
      show 0 ≤ (rowScatterDims N E D wf).start j idx 1 + (rowScatterDims N E D wf).window j 1 ∧
        (rowScatterDims N E D wf).start j idx 1 + (rowScatterDims N E D wf).window j 1 < (D : Int)
      rw [rowScatter_start1, rowScatter_window1]
      omega
  unfold ScatterDims.resultIdx?
  refine (dif_pos hb).trans ?_
  congr 1
  funext a
  refine Fin.ext ?_
  match a with
  | ⟨0, _⟩ =>
    show ((rowScatterDims N E D wf).start j idx 0 + (rowScatterDims N E D wf).window j 0).toNat = (i 0).val
    rw [rowScatter_start0, rowScatter_window0, h0]
    omega
  | ⟨1, _⟩ =>
    show ((rowScatterDims N E D wf).start j idx 1 + (rowScatterDims N E D wf).window j 1).toNat = (i 1).val
    rw [rowScatter_start1, rowScatter_window1, h1]
    omega

end ScatterIff

section ElemScatter

/-- The dimension numbers of an element scatter: operand `[N]`, scatter indices `[E, 1]`, updates `[E]`. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : (⟨1, ![E]⟩ : Shape).Idx)

/-- The window starts at the scatter index `idx[e, 0]`, read signed … -/
theorem elemScatter_start0 :
    (elemScatterDims N E wf).start e idx 0 = (idx (edgeIdx ⟨(e 0).val, idx1_lt0 e⟩)).toInt := by
  unfold ScatterDims.start
  rw [dif_pos (show (0 : Fin 1) ∈ (elemScatterDims N E wf).scatterDimsToOperandDims from List.mem_singleton.mpr rfl)]
  have hsi : (elemScatterDims N E wf).siIdx e ⟨List.idxOf (0 : Fin 1) (elemScatterDims N E wf).scatterDimsToOperandDims,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]

/-- … and has no extent. -/
theorem elemScatter_window0 : (elemScatterDims N E wf).window e 0 = 0 := by
  have h0 : (0 : Fin 1) ∉ (elemScatterDims N E wf).sKept :=
    (show (0 : Fin 1) ∉ (List.finRange 1).filter (· ∉ ([0] : List (Fin 1))) by decide)
  unfold ScatterDims.window
  rw [dif_neg h0]

/-- WHERE AN ELEMENT SCATTER'S UPDATE LANDS: update `e` lands at operand element `i` exactly when the scatter index
    `idx[e, 0]`, read signed, is `i`. -/
theorem elemScatter_hit_iff (i : (⟨1, ![N]⟩ : Shape).Idx) :
    (elemScatterDims N E wf).resultIdx? e idx = some i ↔
      (idx (edgeIdx ⟨(e 0).val, idx1_lt0 e⟩)).toInt = ((i 0).val : Int) := by
  have hi0 := idx1_lt0 i
  constructor
  · intro h
    unfold ScatterDims.resultIdx? at h
    split at h
    · rename_i hb
      have hi := Option.some.inj h
      subst hi
      have h0 := hb 0
      rw [elemScatter_start0, elemScatter_window0] at h0
      show _ = ((((elemScatterDims N E wf).start e idx 0 + (elemScatterDims N E wf).window e 0).toNat : Nat) : Int)
      rw [elemScatter_start0, elemScatter_window0]
      omega
    · exact absurd h (by simp)
  · intro h0
    have hb : ∀ a, 0 ≤ (elemScatterDims N E wf).start e idx a + (elemScatterDims N E wf).window e a ∧
        (elemScatterDims N E wf).start e idx a + (elemScatterDims N E wf).window e a
          < (⟨1, ![N]⟩ : Shape).size a := by
      intro a
      obtain rfl : a = 0 := Subsingleton.elim _ _
      show 0 ≤ (elemScatterDims N E wf).start e idx 0 + (elemScatterDims N E wf).window e 0 ∧
        (elemScatterDims N E wf).start e idx 0 + (elemScatterDims N E wf).window e 0 < (N : Int)
      rw [elemScatter_start0, elemScatter_window0, h0]
      omega
    unfold ScatterDims.resultIdx?
    refine (dif_pos hb).trans ?_
    congr 1
    funext a
    obtain rfl : a = 0 := Subsingleton.elim _ _
    refine Fin.ext ?_
    show ((elemScatterDims N E wf).start e idx 0 + (elemScatterDims N E wf).window e 0).toNat = (i 0).val
    rw [elemScatter_start0, elemScatter_window0, h0]
    omega

end ElemScatter

section Words

/-- A word whose signed value is `k < N` clamps to row `k`. -/
theorem clampRow_of_toInt {N w : Nat} (hN : 0 < N) (b : BitVec w) (k : Nat) (hb : b.toInt = (k : Int)) (hk : k < N) :
    clampRow N hN b = ⟨k, hk⟩ := by
  refine Fin.ext ?_
  show min b.toInt.toNat (N - 1) = k
  rw [hb, Int.toNat_natCast]
  omega

/-- The index normalisation `if idx < 0 then idx + n else idx` on a word that is not negative: the word itself. -/
theorem normIdx_of_nonneg {w : Nat} (b n : BitVec w) (k : Nat) (hb : b.toInt = (k : Int)) :
    Scalar.select (IntOp.cmpi .slt b 0#w) (IntOp.addi b n) b = b := by
  have h : b.slt 0#w = false := by
    unfold BitVec.slt
    rw [hb, BitVec.toInt_zero]
    exact decide_eq_false (by omega)
  show Scalar.select (BitVec.ofBool (b.slt 0#w)) (IntOp.addi b n) b = b
  rw [h]
  exact select_zero _ _

/-- The same normalisation on a negative word: the word plus `n`. -/
theorem normIdx_of_neg {w : Nat} (b n : BitVec w) (hb : b.toInt < 0) :
    Scalar.select (IntOp.cmpi .slt b 0#w) (IntOp.addi b n) b = b + n := by
  have h : b.slt 0#w = true := by
    unfold BitVec.slt
    rw [BitVec.toInt_zero]
    exact decide_eq_true hb
  show Scalar.select (BitVec.ofBool (b.slt 0#w)) (b + n) b = b + n
  rw [h]
  exact select_one _ _

/-- The normalisation as the vector operations spell it, read at an index where the compared constant is `0` and the
    index word is not negative. -/
theorem normIdx_apply {s : Shape} {w : Nat} (idx zero n : IVec s w) (i : s.Idx) (k : Nat)
    (hz : zero i = 0#w) (hb : (idx i).toInt = (k : Int)) :
    select (cmpi .slt idx zero) (addi idx n) idx i = idx i := by
  show Scalar.select (IntOp.cmpi .slt (idx i) (zero i)) (IntOp.addi (idx i) (n i)) (idx i) = idx i
  rw [hz]
  exact normIdx_of_nonneg (idx i) (n i) k hb

end Words

section Column
variable {α : Type}

/-- A flat array `[E]` broadcast to a column `[E, 1]` and read at `[e, 0]`: the array at `e`. -/
theorem colBroadcast_apply {E : Nat}
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] h x (edgeIdx e) = x (ix1 e) := by
  unfold broadcastInDim
  beta_reduce
  congr 1
  funext a
  obtain rfl : a = 0 := Subsingleton.elim _ _
  refine Fin.ext ?_
  split
  · rename_i h1
    have hE : E = 1 := h1
    have := e.isLt
    show 0 = e.val
    omega
  · rfl

end Column

end Cert.Lib

end
-- ==== Proof.KernelHost.lean ====
/-
  Two buffers the kernel's host program prepares before the region, read back in terms of the arguments: the gathered
  features (row e is the features row of edge e's source node, a negative index wrapped once by the number of nodes)
  and the 19 weights laid out as a [1, 19] row.
-/
import proofs.«165524_j45689862095550_2_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem

/-- The gather of source-node feature rows, as a function of the features and the source indices. -/
def gatherRows (feat : (⟨S5000x144, .f32⟩ : BufTy).Contents (Elt Ideal)) (idx : (⟨S50000, .i32⟩ : BufTy).Contents (Elt Ideal)) :
    (⟨S50000x144, .f32⟩ : BufTy).Contents (Elt Ideal) :=
  Host.gather gather_S5000x144_S50000x1_S50000x144_1_0_n_n_0_1_1144 feat
    (broadcastInDim S50000x1 ![0] bcast_S50000_S50000x1_0
      (select (cmpi .slt idx (broadcastInDim S50000 ![] bcast_S_S50000 (constantI S_ 32 0#32)))
        (addi idx (broadcastInDim S50000 ![] bcast_S_S50000 (constantI S_ 32 5000#32))) idx))

set_option maxHeartbeats 1000000 in
/-- The host operations before the region, run from any buffer contents: the gathered-features buffer. -/
theorem v6_after (W : Valuation τ sig (Elt Ideal)) :
    StableHlo.after (hostOps0 (F := Ideal)) W (Proc.devRef .tc main_v6)
      = gatherRows (W (Proc.devRef .tc main_arg0)) (W (Proc.devRef .tc main_arg6)) := by
  after_results_simp
  rfl

set_option maxHeartbeats 1000000 in
/-- The host operations before the region, run from any buffer contents: the weights as a [1, 19] row. -/
theorem v160_after (W : Valuation τ sig (Elt Ideal)) :
    StableHlo.after (hostOps0 (F := Ideal)) W (Proc.devRef .tc main_v160)
      = shapeCast S1x19 (W (Proc.devRef .tc main_arg4)) shapeCasts_S19_S1x19 := by
  after_results_simp
  rfl

variable (m : (ℓ : Loc nD τ sig) → Buf (Elt Ideal) ℓ)

/-- As the region finds it: the gathered features. -/
theorem V_v6 (c : Dev nD) :
    V m c main_v6 = gatherRows (m ((c : Thread nD τ).loc main_arg0)) (m ((c : Thread nD τ).loc main_arg6)) := by
  show StableHlo.after (List.flatten [hostOps0]) (fun b => m (c, b)) (Proc.devRef .tc main_v6) = _
  simp only [List.flatten_cons, List.flatten_nil, List.append_nil]
  exact v6_after _

/-- As the region finds it: the weights row. -/
theorem V_v160 (c : Dev nD) :
    V m c main_v160 = shapeCast S1x19 (m ((c : Thread nD τ).loc main_arg4)) shapeCasts_S19_S1x19 := by
  show StableHlo.after (List.flatten [hostOps0]) (fun b => m (c, b)) (Proc.devRef .tc main_v160) = _
  simp only [List.flatten_cons, List.flatten_nil, List.append_nil]
  exact v160_after _

end Cert.KernelIdeal.Val

end
-- ==== Proof.LibBatchDot.lean ====
/-
  A contraction over ONE axis, with any number of batch and free axes on either side, read at an output index: the
  sum over the contracted extent `n` of the products of the two operands, each at the operand index the dimension
  numbers assign to the output index and the summation variable.

  The dimension numbers' own contraction index is a one-coordinate index; summing over it is summing over `Fin n`.
  What is left to a caller is to say, for the dimension numbers at hand, which operand indices those are (`hl`,
  `hr`): at literal shapes each coordinate is read off by evaluation.  Stated for the sum itself, for a
  `tpu.matmul` into a zero accumulator and for the host's `dot_general`, all at the exact (extended real) values.
-/
import Idealize.ShloMosaic.PureOps.Ideal.Laws
import Idealize.ShloMosaic.Lib.ValueIdx

noncomputable section

open scoped BigOperators

namespace Cert.Lib

open Idealize.ShloMosaic Idealize.ShloMosaic.ValueIdx

variable {sl sr so : Shape}

/-- The sum over the dimension numbers' contraction index, re-indexed over `Fin n`. -/
theorem contr_sum (d : DotDims sl sr so) (n : Nat) (hr : d.contr.rank = 1) (hs : d.contr.size ⟨0, by omega⟩ = n)
    (L : sl.Idx → EReal) (R : sr.Idx → EReal) (j : so.Idx) (li : Fin n → sl.Idx) (ri : Fin n → sr.Idx)
    (hl : ∀ k : Fin n, d.lhsIdx j ((contrEquiv1 d n hr hs).symm k) = li k)
    (hri : ∀ k : Fin n, d.rhsIdx j ((contrEquiv1 d n hr hs).symm k) = ri k) :
    ∑ k : d.contr.Idx, L (d.lhsIdx j k) * R (d.rhsIdx j k) = ∑ k : Fin n, L (li k) * R (ri k) := by
  rw [← Equiv.sum_comp (contrEquiv1 d n hr hs).symm]
  exact Finset.sum_congr rfl fun k _ => by rw [hl k, hri k]

/-- A `tpu.matmul` into the zero accumulator, at an output index: that sum. -/
theorem matmul_zero_sum {φ₁ φ₂ : FTy} (d : DotDims sl sr so) (prec : Option ContractPrecision) (n : Nat)
    (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k : Fin n, d.lhsIdx j ((contrEquiv1 d n hr hs).symm k) = li k)
    (hri : ∀ k : Fin n, d.rhsIdx j ((contrEquiv1 d n hr hs).symm k) = ri k) :
    FloatOps.matmul d prec lhs rhs (constant so .f32 0x00000000#32) j = ∑ k : Fin n, lhs (li k) * rhs (ri k) :=
  (Ideal.matmul_constant_zero_apply d prec lhs rhs j).trans (contr_sum d n hr hs lhs rhs j li ri hl hri)

/-- The host's `dot_general`, at an output index: that sum. -/
theorem dotGeneral_sum {φ₁ φ₂ : FTy} (d : DotDims sl sr so) (prec : Option ContractPrecision) (sched : HostSchedule) (n : Nat)
    (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k : Fin n, d.lhsIdx j ((contrEquiv1 d n hr hs).symm k) = li k)
    (hri : ∀ k : Fin n, d.rhsIdx j ((contrEquiv1 d n hr hs).symm k) = ri k) :
    FloatOps.dotGeneral d prec sched lhs rhs j = ∑ k : Fin n, lhs (li k) * rhs (ri k) :=
  (Ideal.dotGeneral_apply d prec sched lhs rhs j).trans (contr_sum d n hr hs lhs rhs j li ri hl hri)

end Cert.Lib

end
-- ==== Proof.LibSliceSplit.lean ====
/-
  Layout steps that every einsum-style body repeats, each read at an index, over any extents:

  * a window of columns of a matrix: entry (r, c) of the window is entry (r, off + c) of the matrix;
  * the last axis of an [N, a * b] matrix regrouped into two, [N, a, b]: entry (r, p, q) is entry (r, p * b + q);
  * the inverse regrouping, [N, a, b] to [N, a * b]: entry (r, c) is entry (r, p, q) whenever p * b + q = c;
  * one entry k of a trailing axis taken out and the unit axis dropped, [N, M, n] to [N, M]: entry (r, p) is entry
    (r, p, k);
  * a trailing unit axis added or dropped.

  Each is stated as "the result at j is the operand at k" for ANY operand index k with the stated coordinates, so a
  caller names k with the index constructors of its own shapes.
-/
import Idealize.ShloMosaic.Lib.Pipeline.Value
import Idealize.ShloMosaic.Lib.ValueIdx

noncomputable section

namespace Cert.Lib

open Idealize.ShloMosaic Idealize.ShloMosaic.ValueIdx

variable {α : Type}

/-- A window of columns. -/
theorem slice_cols_apply {N B w off : Nat} (x : (⟨2, ![N, B]⟩ : Shape).Idx → α)
    (hs : (⟨2, ![N, B]⟩ : Shape).Slices ![0, off] ⟨2, ![N, w]⟩)
    (j : (⟨2, ![N, w]⟩ : Shape).Idx) (k : (⟨2, ![N, B]⟩ : Shape).Idx)
    (h0 : (k 0).val = (j 0).val) (h1 : (k 1).val = off + (j 1).val) :
    extractStridedSlice ⟨2, ![N, w]⟩ ![0, off] x hs j = x k := by
  refine extractStridedSlice_apply _ x hs j k fun a => ?_
  match a with
  | ⟨0, _⟩ => show (k 0).val = 0 + (j 0).val; omega
  | ⟨1, _⟩ => show (k 1).val = off + (j 1).val; exact h1

/-- The last axis regrouped into two. -/
theorem split_last_apply {N ab a b : Nat} (x : (⟨2, ![N, ab]⟩ : Shape).Idx → α)
    (hc : (⟨2, ![N, ab]⟩ : Shape).ShapeCasts ⟨3, ![N, a, b]⟩)
    (j : (⟨3, ![N, a, b]⟩ : Shape).Idx) (k : (⟨2, ![N, ab]⟩ : Shape).Idx) (hab : ab = a * b)
    (h0 : (k 0).val = (j 0).val) (h1 : (k 1).val = (j 1).val * b + (j 2).val) :
    shapeCast ⟨3, ![N, a, b]⟩ x hc j = x k := by
  refine shapeCast_apply x hc j k ?_
  rw [Shape.rowMajor_val_two, Shape.rowMajor_val_three, h0, h1]
  show (j 0).val * ab + ((j 1).val * b + (j 2).val) = ((j 0).val * a + (j 1).val) * b + (j 2).val
  subst hab
  ring

/-- Two trailing axes merged into one. -/
theorem merge_last_apply {N ab a b : Nat} (x : (⟨3, ![N, a, b]⟩ : Shape).Idx → α)
    (hc : (⟨3, ![N, a, b]⟩ : Shape).ShapeCasts ⟨2, ![N, ab]⟩)
    (j : (⟨2, ![N, ab]⟩ : Shape).Idx) (k : (⟨3, ![N, a, b]⟩ : Shape).Idx) (hab : ab = a * b)
    (h0 : (k 0).val = (j 0).val) (h1 : (k 1).val * b + (k 2).val = (j 1).val) :
    shapeCast ⟨2, ![N, ab]⟩ x hc j = x k := by
  refine shapeCast_apply x hc j k ?_
  rw [Shape.rowMajor_val_two, Shape.rowMajor_val_three, h0, ← h1]
  show ((j 0).val * a + (k 1).val) * b + (k 2).val = (j 0).val * ab + ((k 1).val * b + (k 2).val)
  subst hab
  ring

/-- A trailing unit axis dropped. -/
theorem drop_unit_apply {N M : Nat} (x : (⟨3, ![N, M, 1]⟩ : Shape).Idx → α)
    (hc : (⟨3, ![N, M, 1]⟩ : Shape).ShapeCasts ⟨2, ![N, M]⟩)
    (j : (⟨2, ![N, M]⟩ : Shape).Idx) (k : (⟨3, ![N, M, 1]⟩ : Shape).Idx)
    (h0 : (k 0).val = (j 0).val) (h1 : (k 1).val = (j 1).val) :
    shapeCast ⟨2, ![N, M]⟩ x hc j = x k := by
  refine shapeCast_apply x hc j k ?_
  rw [Shape.rowMajor_val_two, Shape.rowMajor_val_three, h0, h1]
  have h2 : (k 2).val < 1 := (k 2).isLt
  show ((j 0).val * M + (j 1).val) * 1 + (k 2).val = (j 0).val * M + (j 1).val
  omega

/-- A trailing unit axis added. -/
theorem add_unit_apply {N M : Nat} (x : (⟨2, ![N, M]⟩ : Shape).Idx → α)
    (hc : (⟨2, ![N, M]⟩ : Shape).ShapeCasts ⟨3, ![N, M, 1]⟩)
    (j : (⟨3, ![N, M, 1]⟩ : Shape).Idx) (k : (⟨2, ![N, M]⟩ : Shape).Idx)
    (h0 : (k 0).val = (j 0).val) (h1 : (k 1).val = (j 1).val) :
    shapeCast ⟨3, ![N, M, 1]⟩ x hc j = x k := by
  refine shapeCast_apply x hc j k ?_
  rw [Shape.rowMajor_val_two, Shape.rowMajor_val_three, h0, h1]
  have h2 : (j 2).val < 1 := (j 2).isLt
  show (j 0).val * M + (j 1).val = ((j 0).val * M + (j 1).val) * 1 + (j 2).val
  omega

/-- One entry of a trailing axis taken out, as a window of width one. -/
theorem slice_last_apply {N M n kk : Nat} (x : (⟨3, ![N, M, n]⟩ : Shape).Idx → α)
    (hs : (⟨3, ![N, M, n]⟩ : Shape).Slices ![0, 0, kk] ⟨3, ![N, M, 1]⟩)
    (j : (⟨3, ![N, M, 1]⟩ : Shape).Idx) (k : (⟨3, ![N, M, n]⟩ : Shape).Idx)
    (h0 : (k 0).val = (j 0).val) (h1 : (k 1).val = (j 1).val) (h2 : (k 2).val = kk) :
    extractStridedSlice ⟨3, ![N, M, 1]⟩ ![0, 0, kk] x hs j = x k := by
  refine extractStridedSlice_apply _ x hs j k fun a => ?_
  have hj2 : (j 2).val < 1 := (j 2).isLt
  match a with
  | ⟨0, _⟩ => show (k 0).val = 0 + (j 0).val; omega
  | ⟨1, _⟩ => show (k 1).val = 0 + (j 1).val; omega
  | ⟨2, _⟩ => show (k 2).val = kk + (j 2).val; omega

end Cert.Lib

end
-- ==== Proof.LibEinsumPair.lean ====
/-
  Two chained batched contractions, as a tensor-product layer's body computes a message block:
      h[t, v, o]   = Σ_i  f[t, v, i] · c[t, o, i]          (einsum "tvi,toi->tvo")
      out[t, u, o] = Σ_v  r[t, u, v] · h[t, v, o]          (einsum "tuv,tvo->tuo")
  each a `tpu.matmul` into a zero accumulator with batch axis t.  Read at an output index (t, u, o):
      out[t, u, o] = Σ_v r[t, u, v] · Σ_i f[t, v, i] · c[t, o, i].
  Stated over any extents and any dimension numbers whose operand index maps are the evident ones (hypotheses
  `hAl … hBr`; at literal shapes each is read off coordinate by coordinate by evaluation).

  Beside it, the operand chains such a body uses, read at an index: a window of columns regrouped into two trailing
  axes (`cols_split_apply`); and a window of columns regrouped as [N, U·V, n], entry k of the last axis taken out, the
  unit axis dropped and the middle axis regrouped into (U, V) (`cols_pick_split_apply`; `cols_unit_split_apply` when
  n = 1 and the body only adds and drops the unit axis).
-/
import Idealize.ShloMosaic.PureOps.Ideal.Laws
import Idealize.ShloMosaic.Lib.ValueIdx
import proofs.«165524_j45689862095550_2_alg».proof.Proof.LibBatchDot
import proofs.«165524_j45689862095550_2_alg».proof.Proof.LibSliceSplit

noncomputable section

open scoped BigOperators

namespace Cert.Lib

open Idealize.ShloMosaic Idealize.ShloMosaic.ValueIdx

section Pair
variable {N V U I O : Nat}

/-- THE PAIR OF CONTRACTIONS AT AN INDEX. -/
theorem einsum_pair_apply
    (dA : DotDims ⟨3, ![N, V, I]⟩ ⟨3, ![N, O, I]⟩ ⟨3, ![N, V, O]⟩) (hAr : dA.contr.rank = 1)
    (hAs : dA.contr.size ⟨0, by omega⟩ = I)
    (hAl : ∀ (t : Fin N) (v : Fin V) (o : Fin O) (k : Fin I),
      dA.lhsIdx (ix3 t v o) ((contrEquiv1 dA I hAr hAs).symm k) = ix3 t v k)
    (hAri : ∀ (t : Fin N) (v : Fin V) (o : Fin O) (k : Fin I),
      dA.rhsIdx (ix3 t v o) ((contrEquiv1 dA I hAr hAs).symm k) = ix3 t o k)
    (dB : DotDims ⟨3, ![N, U, V]⟩ ⟨3, ![N, V, O]⟩ ⟨3, ![N, U, O]⟩) (hBr : dB.contr.rank = 1)
    (hBs : dB.contr.size ⟨0, by omega⟩ = V)
    (hBl : ∀ (t : Fin N) (u : Fin U) (o : Fin O) (k : Fin V),
      dB.lhsIdx (ix3 t u o) ((contrEquiv1 dB V hBr hBs).symm k) = ix3 t u k)
    (hBri : ∀ (t : Fin N) (u : Fin U) (o : Fin O) (k : Fin V),
      dB.rhsIdx (ix3 t u o) ((contrEquiv1 dB V hBr hBs).symm k) = ix3 t k o)
    (pA pB : Option ContractPrecision)
    (f : FVec Ideal ⟨3, ![N, V, I]⟩ .f32) (c : FVec Ideal ⟨3, ![N, O, I]⟩ .f32) (r : FVec Ideal ⟨3, ![N, U, V]⟩ .f32)
    (t : Fin N) (u : Fin U) (o : Fin O) :
    matmul dB pB r (matmul dA pA f c (constant ⟨3, ![N, V, O]⟩ .f32 0x00000000#32))
        (constant ⟨3, ![N, U, O]⟩ .f32 0x00000000#32) (ix3 t u o)
      = ∑ v : Fin V, r (ix3 t u v) * ∑ i : Fin I, f (ix3 t v i) * c (ix3 t o i) := by
  refine (matmul_zero_sum dB pB V hBr hBs r _ (ix3 t u o) (fun v => ix3 t u v) (fun v => ix3 t v o)
    (hBl t u o) (hBri t u o)).trans ?_
  refine Finset.sum_congr rfl fun v _ => congrArg _ ?_
  exact matmul_zero_sum dA pA I hAr hAs f c (ix3 t v o) (fun i => ix3 t v i) (fun i => ix3 t o i)
    (hAl t v o) (hAri t v o)

end Pair

section Chains
variable {α : Type}

/-- A window of `a · b` columns starting at `off`, regrouped into two trailing axes: entry (t, p, q) is the matrix's
    entry (t, off + p · b + q). -/
theorem cols_split_apply {N B ab a b off : Nat} (x : (⟨2, ![N, B]⟩ : Shape).Idx → α)
    (hs : (⟨2, ![N, B]⟩ : Shape).Slices ![0, off] ⟨2, ![N, ab]⟩)
    (hc : (⟨2, ![N, ab]⟩ : Shape).ShapeCasts ⟨3, ![N, a, b]⟩) (hab : ab = a * b)
    (t : Fin N) (p : Fin a) (q : Fin b) (k : (⟨2, ![N, B]⟩ : Shape).Idx)
    (h0 : (k 0).val = t.val) (h1 : (k 1).val = off + (p.val * b + q.val)) :
    shapeCast ⟨3, ![N, a, b]⟩ (extractStridedSlice ⟨2, ![N, ab]⟩ ![0, off] x hs) hc (ix3 t p q) = x k := by
  have hlt : p.val * b + q.val < ab := by
    have h1' : (p.val + 1) * b ≤ a * b := Nat.mul_le_mul_right b (Nat.succ_le_of_lt p.isLt)
    have h2' : (p.val + 1) * b = p.val * b + b := Nat.succ_mul _ _
    have := q.isLt
    omega
  refine (split_last_apply _ hc (ix3 t p q) (ix2 t ⟨p.val * b + q.val, hlt⟩) hab rfl rfl).trans ?_
  exact slice_cols_apply x hs _ k h0 h1

/-- A window of `UV · n` columns regrouped as [N, UV, n], entry `kk` of the last axis taken out, the unit axis
    dropped, and the middle axis regrouped into (U, V): entry (t, u, v) is the matrix's entry
    (t, off + (u · V + v) · n + kk). -/
theorem cols_pick_split_apply {N B W UV n U V off kk : Nat} (x : (⟨2, ![N, B]⟩ : Shape).Idx → α)
    (hs : (⟨2, ![N, B]⟩ : Shape).Slices ![0, off] ⟨2, ![N, W]⟩)
    (hc1 : (⟨2, ![N, W]⟩ : Shape).ShapeCasts ⟨3, ![N, UV, n]⟩)
    (hs2 : (⟨3, ![N, UV, n]⟩ : Shape).Slices ![0, 0, kk] ⟨3, ![N, UV, 1]⟩)
    (hc2 : (⟨3, ![N, UV, 1]⟩ : Shape).ShapeCasts ⟨2, ![N, UV]⟩)
    (hc3 : (⟨2, ![N, UV]⟩ : Shape).ShapeCasts ⟨3, ![N, U, V]⟩)
    (hW : W = UV * n) (hUV : UV = U * V) (hk : kk < n)
    (t : Fin N) (u : Fin U) (v : Fin V) (k : (⟨2, ![N, B]⟩ : Shape).Idx)
    (h0 : (k 0).val = t.val) (h1 : (k 1).val = off + ((u.val * V + v.val) * n + kk)) :
    shapeCast ⟨3, ![N, U, V]⟩
        (shapeCast ⟨2, ![N, UV]⟩
          (extractStridedSlice ⟨3, ![N, UV, 1]⟩ ![0, 0, kk]
            (shapeCast ⟨3, ![N, UV, n]⟩ (extractStridedSlice ⟨2, ![N, W]⟩ ![0, off] x hs) hc1) hs2) hc2) hc3
        (ix3 t u v) = x k := by
  have huv : u.val * V + v.val < UV := by
    have h1' : (u.val + 1) * V ≤ U * V := Nat.mul_le_mul_right V (Nat.succ_le_of_lt u.isLt)
    have h2' : (u.val + 1) * V = u.val * V + V := Nat.succ_mul _ _
    have := v.isLt
    omega
  refine (split_last_apply _ hc3 (ix3 t u v) (ix2 t ⟨u.val * V + v.val, huv⟩) hUV rfl rfl).trans ?_
  refine (drop_unit_apply _ hc2 _ (ix3 t ⟨u.val * V + v.val, huv⟩ (0 : Fin 1)) rfl rfl).trans ?_
  refine (slice_last_apply _ hs2 _ (ix3 t ⟨u.val * V + v.val, huv⟩ ⟨kk, hk⟩) rfl rfl rfl).trans ?_
  exact cols_split_apply x hs hc1 hW t ⟨u.val * V + v.val, huv⟩ ⟨kk, hk⟩ k h0 h1

/-- The same when the window has exactly `UV` columns and the body only adds and drops a unit axis before regrouping:
    entry (t, u, v) is the matrix's entry (t, off + u · V + v). -/
theorem cols_unit_split_apply {N B UV U V off : Nat} (x : (⟨2, ![N, B]⟩ : Shape).Idx → α)
    (hs : (⟨2, ![N, B]⟩ : Shape).Slices ![0, off] ⟨2, ![N, UV]⟩)
    (hc1 : (⟨2, ![N, UV]⟩ : Shape).ShapeCasts ⟨3, ![N, UV, 1]⟩)
    (hc2 : (⟨3, ![N, UV, 1]⟩ : Shape).ShapeCasts ⟨2, ![N, UV]⟩)
    (hc3 : (⟨2, ![N, UV]⟩ : Shape).ShapeCasts ⟨3, ![N, U, V]⟩)
    (hUV : UV = U * V)
    (t : Fin N) (u : Fin U) (v : Fin V) (k : (⟨2, ![N, B]⟩ : Shape).Idx)
    (h0 : (k 0).val = t.val) (h1 : (k 1).val = off + (u.val * V + v.val)) :
    shapeCast ⟨3, ![N, U, V]⟩
        (shapeCast ⟨2, ![N, UV]⟩ (shapeCast ⟨3, ![N, UV, 1]⟩ (extractStridedSlice ⟨2, ![N, UV]⟩ ![0, off] x hs) hc1) hc2) hc3
        (ix3 t u v) = x k := by
  have huv : u.val * V + v.val < UV := by
    have h1' : (u.val + 1) * V ≤ U * V := Nat.mul_le_mul_right V (Nat.succ_le_of_lt u.isLt)
    have h2' : (u.val + 1) * V = u.val * V + V := Nat.succ_mul _ _
    have := v.isLt
    omega
  refine (split_last_apply _ hc3 (ix3 t u v) (ix2 t ⟨u.val * V + v.val, huv⟩) hUV rfl rfl).trans ?_
  refine (drop_unit_apply _ hc2 _ (ix3 t ⟨u.val * V + v.val, huv⟩ (0 : Fin 1)) rfl rfl).trans ?_
  refine (add_unit_apply _ hc1 _ (ix2 t ⟨u.val * V + v.val, huv⟩) rfl rfl).trans ?_
  exact slice_cols_apply x hs _ k h0 h1

end Chains

end Cert.Lib

end
-- ==== Proof.KernelBlocks.lean ====
/-
  What the kernel's body leaves in the output block, read at an index, in terms of the block's inputs: the edge tile's
  radial coefficients x0 [400, 4864], harmonics x1 [400, 25], gathered features x2 [400, 144], the zero-padded coupling
  matrix x3 [25, 259] and the weights x4 [1, 19].  With cy = x1 · x3 (the one product of the harmonics with the coupling
  matrix), column q of output block lo at (u, o) is the accumulation, from zero and in order, over the block's triples j of
      x4[0, j] · Σ_v x0[t, r_j + (u · 16 + v) · n_j + k_j] · Σ_i x2[t, f_j + v · d_i + i] · cy[t, c_j + o · d_i + i].
-/
import proofs.«165524_j45689862095550_2_alg».proof.Proof.Gen.KernelIdeal.Frame
import proofs.«165524_j45689862095550_2_alg».proof.Proof.Spec
import proofs.«165524_j45689862095550_2_alg».proof.Proof.LibEinsumPair
import proofs.«165524_j45689862095550_2_alg».proof.Proof.LibSliceSplit
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx Cert.Lib Cert.Spec

/-- The operand index maps of a batched contraction's dimension numbers at literal shapes, coordinate by coordinate. -/
local macro "dot_idx" : tactic =>
  `(tactic| (intro t v o k; funext a; apply Fin.ext; match a with | ⟨0, _⟩ => rfl | ⟨1, _⟩ => rfl | ⟨2, _⟩ => rfl))

/-- One triple of the kernel: which weight, where its radial window starts, how many lf share it and which one it is,
    where its features start and their dimension, and where its columns of `cy` start. -/
structure KTriple where
  j : Nat
  rBase : Nat
  nlf : Nat
  k : Nat
  finOff : Nat
  di : Nat
  cyOff : Nat

def ktriples0 : List KTriple := [⟨0, 0, 1, 0, 0, 1, 0⟩, ⟨1, 256, 1, 0, 16, 3, 1⟩, ⟨2, 512, 1, 0, 64, 5, 4⟩]
def ktriples1 : List KTriple :=
  [⟨3, 768, 1, 0, 0, 1, 9⟩, ⟨4, 1024, 3, 0, 16, 3, 12⟩, ⟨5, 1024, 3, 1, 16, 3, 21⟩, ⟨6, 1024, 3, 2, 16, 3, 30⟩,
   ⟨7, 1792, 3, 0, 64, 5, 39⟩, ⟨8, 1792, 3, 1, 64, 5, 54⟩, ⟨9, 1792, 3, 2, 64, 5, 69⟩]
def ktriples2 : List KTriple :=
  [⟨10, 2560, 1, 0, 0, 1, 84⟩, ⟨11, 2816, 3, 0, 16, 3, 89⟩, ⟨12, 2816, 3, 1, 16, 3, 104⟩, ⟨13, 2816, 3, 2, 16, 3, 119⟩,
   ⟨14, 3584, 5, 0, 64, 5, 134⟩, ⟨15, 3584, 5, 1, 64, 5, 159⟩, ⟨16, 3584, 5, 2, 64, 5, 184⟩, ⟨17, 3584, 5, 3, 64, 5, 209⟩,
   ⟨18, 3584, 5, 4, 64, 5, 234⟩]

/-- One triple's term at (t, u, o) of the tile, before its weight. -/
def kterm (x0 : A2 400 4864) (x2 : A2 400 144) (cy : A2 400 259) (t u o rBase nlf k finOff di cyOff : Nat) : EReal :=
  ∑ v : Fin 16, get2 x0 t (rBase + ((u * 16 + v.val) * nlf + k))
    * ∑ i : Fin di, get2 x2 t (finOff + (v.val * di + i.val)) * get2 cy t (cyOff + (o * di + i.val))

/-- A block's accumulation over its triples, from zero, in order. -/
def kacc (x0 : A2 400 4864) (x2 : A2 400 144) (cy : A2 400 259) (x4 : A2 1 19) (t u o : Nat) (ts : List KTriple) : EReal :=
  ts.foldl (fun s p => s + get2 x4 0 p.j * kterm x0 x2 cy t u o p.rBase p.nlf p.k p.finOff p.di p.cyOff) 0

variable (x0 : Vec Ideal S400x4864 .f32) (x1 : Vec Ideal S400x25 .f32) (x2 : Vec Ideal S400x144 .f32)
  (x3 : Vec Ideal S25x259 .f32) (x4 : Vec Ideal S1x19 .f32)

theorem hz2 : (![0, 0] : Fin 2 → Nat) = fun _ => 0 := funext fun a => by fin_cases a <;> rfl

/-- The body's recast of the features tile to its own shape changes nothing. -/
theorem pay3_eq : k0_pay3 x2 = x2 := by
  unfold k0_pay3
  exact shapeCast_self _ _

/-- A weight as the body extracts it: entry j of the [1, 19] weights recast to [19]. -/
theorem weight_eq {s : Shape} (j : Fin 19) (hs : S19.Slices ![j.val] S1) (hp) (i : s.Idx) :
    broadcast s (extractAt ![0] (extractStridedSlice S1 ![j.val] (k0_pay4 x4) hs) hp) i = get2 (x4 : A2 1 19) 0 j.val := by
  show extractStridedSlice S1 ![j.val] (k0_pay4 x4) hs (fun a => ⟨(![0] : Fin 1 → Nat) a, hp a⟩) = _
  refine (extractStridedSlice_apply _ (k0_pay4 x4) hs _ (ix1 j) fun a => ?_).trans ?_
  · match a with
    | ⟨0, _⟩ => rfl
  · unfold k0_pay4
    refine (shapeCast_apply x4 _ (ix1 j) (ix2 (0 : Fin 1) j) ?_).trans (get2_of _ _ _ _ rfl rfl)
    rw [Shape.rowMajor_val_two, Shape.rowMajor_val_one]
    show 0 * 19 + j.val = j.val
    omega

/-- An entry of a features window regrouped [400, 16, d_i], through the accessor. -/
theorem fb_apply {ab b off : Nat} (hs : S400x144.Slices ![0, off] ⟨2, ![400, ab]⟩)
    (hc : (⟨2, ![400, ab]⟩ : Shape).ShapeCasts ⟨3, ![400, 16, b]⟩) (hab : ab = 16 * b) (hB : off + ab ≤ 144)
    (t : Fin 400) (v : Fin 16) (i : Fin b) :
    shapeCast ⟨3, ![400, 16, b]⟩ (extractStridedSlice ⟨2, ![400, ab]⟩ ![0, off] x2 hs) hc (ix3 t v i)
      = get2 (x2 : A2 400 144) t.val (off + (v.val * b + i.val)) := by
  have hlt : off + (v.val * b + i.val) < 144 := by
    have h1' : (v.val + 1) * b ≤ 16 * b := Nat.mul_le_mul_right b (Nat.succ_le_of_lt v.isLt)
    have h2' : (v.val + 1) * b = v.val * b + b := Nat.succ_mul _ _
    have := i.isLt
    omega
  exact (cols_split_apply x2 hs hc hab t v i (ix2 t ⟨off + (v.val * b + i.val), hlt⟩) rfl rfl).trans
    (get2_of _ _ _ _ rfl rfl)

/-- An entry of a window of `cy` regrouped [400, d_o, d_i], through the accessor. -/
theorem cyk_apply (cy : FVec Ideal S400x259 .f32) {ab a b off : Nat} (hs : S400x259.Slices ![0, off] ⟨2, ![400, ab]⟩)
    (hc : (⟨2, ![400, ab]⟩ : Shape).ShapeCasts ⟨3, ![400, a, b]⟩) (hab : ab = a * b) (hB : off + ab ≤ 259)
    (t : Fin 400) (o : Fin a) (i : Fin b) :
    shapeCast ⟨3, ![400, a, b]⟩ (extractStridedSlice ⟨2, ![400, ab]⟩ ![0, off] cy hs) hc (ix3 t o i)
      = get2 (cy : A2 400 259) t.val (off + (o.val * b + i.val)) := by
  have hlt : off + (o.val * b + i.val) < 259 := by
    have h1' : (o.val + 1) * b ≤ a * b := Nat.mul_le_mul_right b (Nat.succ_le_of_lt o.isLt)
    have h2' : (o.val + 1) * b = o.val * b + b := Nat.succ_mul _ _
    have := i.isLt
    omega
  exact (cols_split_apply cy hs hc hab t o i (ix2 t ⟨off + (o.val * b + i.val), hlt⟩) rfl rfl).trans
    (get2_of _ _ _ _ rfl rfl)

/-- An entry of a radial window regrouped [400, 256, n], its k-th slab taken and regrouped [400, 16, 16]. -/
theorem rbk_apply {W n off kk : Nat} (hs : S400x4864.Slices ![0, off] ⟨2, ![400, W]⟩)
    (hc1 : (⟨2, ![400, W]⟩ : Shape).ShapeCasts ⟨3, ![400, 256, n]⟩)
    (hs2 : (⟨3, ![400, 256, n]⟩ : Shape).Slices ![0, 0, kk] ⟨3, ![400, 256, 1]⟩)
    (hc2 : (⟨3, ![400, 256, 1]⟩ : Shape).ShapeCasts ⟨2, ![400, 256]⟩)
    (hc3 : (⟨2, ![400, 256]⟩ : Shape).ShapeCasts ⟨3, ![400, 16, 16]⟩)
    (hW : W = 256 * n) (hk : kk < n) (hB : off + W ≤ 4864) (t : Fin 400) (u v : Fin 16) :
    shapeCast ⟨3, ![400, 16, 16]⟩
        (shapeCast ⟨2, ![400, 256]⟩
          (extractStridedSlice ⟨3, ![400, 256, 1]⟩ ![0, 0, kk]
            (shapeCast ⟨3, ![400, 256, n]⟩ (extractStridedSlice ⟨2, ![400, W]⟩ ![0, off] x0 hs) hc1) hs2) hc2) hc3
        (ix3 t u v) = get2 (x0 : A2 400 4864) t.val (off + ((u.val * 16 + v.val) * n + kk)) := by
  have hlt : off + ((u.val * 16 + v.val) * n + kk) < 4864 := by
    have hu := u.isLt; have hv := v.isLt
    have h1' : (u.val * 16 + v.val + 1) * n ≤ 256 * n := Nat.mul_le_mul_right n (by omega)
    have h2' : (u.val * 16 + v.val + 1) * n = (u.val * 16 + v.val) * n + n := Nat.succ_mul _ _
    omega
  exact (cols_pick_split_apply x0 hs hc1 hs2 hc2 hc3 hW rfl hk t u v
    (ix2 t ⟨off + ((u.val * 16 + v.val) * n + kk), hlt⟩) rfl rfl).trans (get2_of _ _ _ _ rfl rfl)

/-- An entry of a radial window of 256 columns regrouped [400, 16, 16] through a unit axis. -/
theorem rb1_apply {off : Nat} (hs : S400x4864.Slices ![0, off] ⟨2, ![400, 256]⟩)
    (hc1 : (⟨2, ![400, 256]⟩ : Shape).ShapeCasts ⟨3, ![400, 256, 1]⟩)
    (hc2 : (⟨3, ![400, 256, 1]⟩ : Shape).ShapeCasts ⟨2, ![400, 256]⟩)
    (hc3 : (⟨2, ![400, 256]⟩ : Shape).ShapeCasts ⟨3, ![400, 16, 16]⟩)
    (hB : off + 256 ≤ 4864) (t : Fin 400) (u v : Fin 16) :
    shapeCast ⟨3, ![400, 16, 16]⟩
        (shapeCast ⟨2, ![400, 256]⟩ (shapeCast ⟨3, ![400, 256, 1]⟩ (extractStridedSlice ⟨2, ![400, 256]⟩ ![0, off] x0 hs) hc1) hc2) hc3
        (ix3 t u v) = get2 (x0 : A2 400 4864) t.val (off + ((u.val * 16 + v.val) * 1 + 0)) := by
  have hlt : off + (u.val * 16 + v.val) < 4864 := by have := u.isLt; have := v.isLt; omega
  exact (cols_unit_split_apply x0 hs hc1 hc2 hc3 rfl t u v (ix2 t ⟨off + (u.val * 16 + v.val), hlt⟩) rfl rfl).trans
    (get2_of _ _ _ _ rfl (by show off + (u.val * 16 + v.val) = off + ((u.val * 16 + v.val) * 1 + 0); omega))

set_option hygiene false in
/-- One triple's leaf: the pair of contractions read as a double sum, then its three operands; the radial window is one
    of `n` interleaved slabs. -/
local macro "leaf_pick" : tactic =>
  `(tactic| (
    unfold kterm
    refine (einsum_pair_apply _ rfl rfl (by dot_idx) (by dot_idx) _ rfl rfl (by dot_idx) (by dot_idx) none none _ _ _ t u o).trans ?_
    refine Finset.sum_congr rfl fun v _ => congrArg₂ (· * ·) ?_ (Finset.sum_congr rfl fun i _ => congrArg₂ (· * ·) ?_ ?_)
    · exact rbk_apply x0 _ _ _ _ _ rfl (by norm_num) (by norm_num) t u v
    · exact fb_apply x2 _ _ rfl (by norm_num) t v i
    · exact cyk_apply (k0_pay2 x1 x3) _ _ rfl (by norm_num) t o i))

set_option hygiene false in
/-- The same when the triple is alone in its radial window (regrouped through a unit axis). -/
local macro "leaf_unit" : tactic =>
  `(tactic| (
    unfold kterm
    refine (einsum_pair_apply _ rfl rfl (by dot_idx) (by dot_idx) _ rfl rfl (by dot_idx) (by dot_idx) none none _ _ _ t u o).trans ?_
    refine Finset.sum_congr rfl fun v _ => congrArg₂ (· * ·) ?_ (Finset.sum_congr rfl fun i _ => congrArg₂ (· * ·) ?_ ?_)
    · exact rb1_apply x0 _ _ _ _ (by norm_num) t u v
    · exact fb_apply x2 _ _ rfl (by norm_num) t v i
    · exact cyk_apply (k0_pay2 x1 x3) _ _ rfl (by norm_num) t o i))

set_option hygiene false in
/-- Opening the body's result down to the concatenation of the three output blocks. -/
local macro "open_out5" : tactic =>
  `(tactic| (
    unfold out0_5
    rw [View.canon_unit_zero hz2]
    simp only [View.ld_unit_zero (S := S400x25) hz2, View.ld_unit_zero (S := S25x259) hz2,
      View.ld_unit_zero (S := S400x144) hz2, View.ld_unit_zero (S := S400x4864) hz2, View.ld_unit_zero (S := S1x19) hz2]
    unfold k0_pay1))

/-- Output block 1 (columns 16 … 63), at (u, o) = ((q − 16) / 3, (q − 16) % 3): seven triples. -/
theorem out5_lo1 (t : Fin 400) (u : Fin 16) (o : Fin 3) (q : Fin 144) (hq : q.val = 16 + (u.val * 3 + o.val)) :
    out0_5 x0 x1 x2 x3 x4 (ix2 t q)
      = kacc (x0 : A2 400 4864) x2 (k0_pay2 x1 x3) (x4 : A2 1 19) t.val u.val o.val ktriples1 := by
  open_out5
  have hb : u.val * 3 + o.val < 48 := by have := u.isLt; have := o.isLt; omega
  refine Eq.trans (concatenate_apply_piece (1 : Fin 2) _ _ (ix2 t q) 1 (by simp) S400x48 _ rfl rfl 16 rfl
    (ix2 t ⟨u.val * 3 + o.val, hb⟩)
    (fun b hbne => by match b with | ⟨0, _⟩ => rfl | ⟨1, _⟩ => exact absurd rfl hbne)
    (by show 16 + (u.val * 3 + o.val) = q.val; omega)) ?_
  unfold k0_pay19
  refine (merge_last_apply _ _ (ix2 t ⟨u.val * 3 + o.val, hb⟩) (ix3 t u o) rfl rfl rfl).trans ?_
  unfold k0_pay16 k0_pay11 k0_pay9 k0_pay10 k0_pay12 k0_pay13 k0_pay17 k0_pay18
  simp only [pay3_eq]
  simp only [addf_apply, mulf_apply]
  unfold k0_pay9 k0_pay10 k0_pay14 k0_pay15
  simp only [pay3_eq]
  unfold kacc ktriples1
  simp only [List.foldl]
  refine congrArg₂ (· + ·) (congrArg₂ (· + ·) (congrArg₂ (· + ·) (congrArg₂ (· + ·) (congrArg₂ (· + ·)
    (congrArg₂ (· + ·) (congrArg₂ (· + ·) ?z (congrArg₂ (· * ·) ?w3 ?T3)) (congrArg₂ (· * ·) ?w4 ?T4))
    (congrArg₂ (· * ·) ?w5 ?T5)) (congrArg₂ (· * ·) ?w6 ?T6)) (congrArg₂ (· * ·) ?w7 ?T7))
    (congrArg₂ (· * ·) ?w8 ?T8)) (congrArg₂ (· * ·) ?w9 ?T9)
  case z => exact Ideal.ofBits_zero_f32
  case w3 => exact weight_eq x4 3 _ _ _
  case w4 => exact weight_eq x4 4 _ _ _
  case w5 => exact weight_eq x4 5 _ _ _
  case w6 => exact weight_eq x4 6 _ _ _
  case w7 => exact weight_eq x4 7 _ _ _
  case w8 => exact weight_eq x4 8 _ _ _
  case w9 => exact weight_eq x4 9 _ _ _
  case T3 => leaf_unit
  case T4 => leaf_pick
  case T5 => leaf_pick
  case T6 => leaf_pick
  case T7 => leaf_pick
  case T8 => leaf_pick
  case T9 => leaf_pick

/-- Output block 0 (columns 0 … 15), at (u, 0): three triples. -/
theorem out5_lo0 (t : Fin 400) (u : Fin 16) (o : Fin 1) (q : Fin 144) (hq : q.val = u.val) :
    out0_5 x0 x1 x2 x3 x4 (ix2 t q)
      = kacc (x0 : A2 400 4864) x2 (k0_pay2 x1 x3) (x4 : A2 1 19) t.val u.val o.val ktriples0 := by
  open_out5
  refine Eq.trans (concatenate_apply_piece (1 : Fin 2) _ _ (ix2 t q) 0 (by exact Nat.zero_lt_succ _) S400x16 _ (by rfl) (by rfl) 0 (by rfl)
    (ix2 t u)
    (fun b hbne => by match b with | ⟨0, _⟩ => rfl | ⟨1, _⟩ => exact absurd rfl hbne)
    (by show 0 + u.val = q.val; omega)) ?_
  unfold k0_pay8
  refine (drop_unit_apply _ _ (ix2 t u) (ix3 t u o) rfl rfl).trans ?_
  unfold k0_pay5 k0_pay6 k0_pay7
  simp only [pay3_eq]
  simp only [addf_apply, mulf_apply]
  unfold kacc ktriples0
  simp only [List.foldl]
  refine congrArg₂ (· + ·) (congrArg₂ (· + ·) (congrArg₂ (· + ·) ?z (congrArg₂ (· * ·) ?w0 ?T0))
    (congrArg₂ (· * ·) ?w1 ?T1)) (congrArg₂ (· * ·) ?w2 ?T2)
  case z => exact Ideal.ofBits_zero_f32
  case w0 => exact weight_eq x4 0 _ _ _
  case w1 => exact weight_eq x4 1 _ _ _
  case w2 => exact weight_eq x4 2 _ _ _
  case T0 => leaf_unit
  case T1 => leaf_unit
  case T2 => leaf_unit

/-- Output block 2 (columns 64 … 143), at (u, o) = ((q − 64) / 5, (q − 64) % 5): nine triples. -/
theorem out5_lo2 (t : Fin 400) (u : Fin 16) (o : Fin 5) (q : Fin 144) (hq : q.val = 64 + (u.val * 5 + o.val)) :
    out0_5 x0 x1 x2 x3 x4 (ix2 t q)
      = kacc (x0 : A2 400 4864) x2 (k0_pay2 x1 x3) (x4 : A2 1 19) t.val u.val o.val ktriples2 := by
  open_out5
  have hb : u.val * 5 + o.val < 80 := by have := u.isLt; have := o.isLt; omega
  refine Eq.trans (concatenate_apply_piece (1 : Fin 2) _ _ (ix2 t q) 2 (by simp) S400x80 _ rfl rfl 64 rfl
    (ix2 t ⟨u.val * 5 + o.val, hb⟩)
    (fun b hbne => by match b with | ⟨0, _⟩ => rfl | ⟨1, _⟩ => exact absurd rfl hbne)
    (by show 64 + (u.val * 5 + o.val) = q.val; omega)) ?_
  refine (merge_last_apply _ _ (ix2 t ⟨u.val * 5 + o.val, hb⟩) (ix3 t u o) rfl rfl rfl).trans ?_
  unfold k0_pay26 k0_pay22 k0_pay20 k0_pay21 k0_pay23 k0_pay24 k0_pay25 k0_pay27
  simp only [pay3_eq]
  simp only [addf_apply, mulf_apply]
  unfold kacc ktriples2
  simp only [List.foldl]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?z (congrArg₂ (· * ·) ?w10 ?T10))
    (congrArg₂ (· * ·) ?w11 ?T11)) (congrArg₂ (· * ·) ?w12 ?T12)) (congrArg₂ (· * ·) ?w13 ?T13))
    (congrArg₂ (· * ·) ?w14 ?T14)) (congrArg₂ (· * ·) ?w15 ?T15)) (congrArg₂ (· * ·) ?w16 ?T16))
    (congrArg₂ (· * ·) ?w17 ?T17)) (congrArg₂ (· * ·) ?w18 ?T18)
  case z => exact Ideal.ofBits_zero_f32
  case w10 => exact weight_eq x4 10 _ _ _
  case w11 => exact weight_eq x4 11 _ _ _
  case w12 => exact weight_eq x4 12 _ _ _
  case w13 => exact weight_eq x4 13 _ _ _
  case w14 => exact weight_eq x4 14 _ _ _
  case w15 => exact weight_eq x4 15 _ _ _
  case w16 => exact weight_eq x4 16 _ _ _
  case w17 => exact weight_eq x4 17 _ _ _
  case w18 => exact weight_eq x4 18 _ _ _
  case T10 => leaf_unit
  case T11 => leaf_pick
  case T12 => leaf_pick
  case T13 => leaf_pick
  case T14 => leaf_pick
  case T15 => leaf_pick
  case T16 => leaf_pick
  case T17 => leaf_pick
  case T18 => leaf_pick

end Cert.KernelIdeal.Val

end
-- ==== Proof.KernelArrays.lean ====
/-
  The region's input windows, read through the accessor: at grid point T the tiled windows (radial coefficients,
  harmonics, gathered features) hold rows 400 T … 400 T + 399 of their arrays, all columns; the two resident windows
  (the coupling matrix and the weights) hold their whole arrays at every point.
-/
import proofs.«165524_j45689862095550_2_alg».proof.Proof.Gen.KernelIdeal.Frame
import proofs.«165524_j45689862095550_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The input windows' block indices at point T: (T, 0) for the tiled ones, (0, 0) for the resident ones. -/
theorem index_in : ∀ T : Fin cfg0.N,
    (win0_0.index T (0 : Fin 2) = T.val ∧ win0_0.index T (1 : Fin 2) = 0)
    ∧ (win0_1.index T (0 : Fin 2) = T.val ∧ win0_1.index T (1 : Fin 2) = 0)
    ∧ (win0_2.index T (0 : Fin 2) = T.val ∧ win0_2.index T (1 : Fin 2) = 0)
    ∧ (win0_3.index T (0 : Fin 2) = 0 ∧ win0_3.index T (1 : Fin 2) = 0)
    ∧ (win0_4.index T (0 : Fin 2) = 0 ∧ win0_4.index T (1 : Fin 2) = 0) :=
  (by decide +kernel : ∀ T : Fin grid0.N,
    (win0_0.index T (0 : Fin 2) = T.val ∧ win0_0.index T (1 : Fin 2) = 0)
    ∧ (win0_1.index T (0 : Fin 2) = T.val ∧ win0_1.index T (1 : Fin 2) = 0)
    ∧ (win0_2.index T (0 : Fin 2) = T.val ∧ win0_2.index T (1 : Fin 2) = 0)
    ∧ (win0_3.index T (0 : Fin 2) = 0 ∧ win0_3.index T (1 : Fin 2) = 0)
    ∧ (win0_4.index T (0 : Fin 2) = 0 ∧ win0_4.index T (1 : Fin 2) = 0))

set_option hygiene false in
/-- A window's block at point T read through the accessor: outside the block's columns both sides are zero; inside, a
    block's element sits in the array at block index times block extent plus its coordinate, on each axis.  The
    arguments: the window's number, its array, its printed window, the block's extents, the array row the block row
    `t` lands on, and the window's two block-index facts. -/
local macro "blk_read" w:num arr:ident win:ident rows:num cols:num row:term:max idx:term:max : tactic =>
  `(tactic| (
    have hT : T.val < 125 := lt_of_lt_of_eq T.isLt N_0
    unfold get2
    by_cases hq : q < $cols
    · rw [dif_pos ⟨ht, hq⟩, dif_pos ⟨by omega, hq⟩]
      obtain ⟨i0, i1⟩ := $idx
      show V m c (Pipeline.arrRef spec0 $w) (((cfg0.win $w).blk T).view.emb (ix2 ⟨t, ht⟩ ⟨q, hq⟩))
        = V m c $arr (ix2 ⟨$row, by omega⟩ ⟨q, hq⟩)
      refine congrArg (V m c $arr) ?_
      funext a
      apply Fin.ext
      match a with
      | ⟨0, _⟩ => show ($win).index T (0 : Fin 2) * $rows + 1 * t = $row; rw [i0]; omega
      | ⟨1, _⟩ => show ($win).index T (1 : Fin 2) * $cols + 1 * q = q; rw [i1]; omega
    · rw [dif_neg (fun h => hq h.2), dif_neg (fun h => hq h.2)]))

/-- The radial coefficients' block at point T: rows 400 T + t of the array. -/
theorem iblk0_get2 (c : Dev nD) (T : Fin cfg0.N) (t q : Nat) (ht : t < 400) :
    get2 (iblk m c 0 T : A2 400 4864) t q = get2 (V m c main_arg1 : A2 50000 4864) (T.val * 400 + t) q := by
  blk_read 0 main_arg1 win0_0 400 4864 (T.val * 400 + t) ((index_in T).1)

/-- The harmonics' block at point T. -/
theorem iblk1_get2 (c : Dev nD) (T : Fin cfg0.N) (t q : Nat) (ht : t < 400) :
    get2 (iblk m c 1 T : A2 400 25) t q = get2 (V m c main_arg2 : A2 50000 25) (T.val * 400 + t) q := by
  blk_read 1 main_arg2 win0_1 400 25 (T.val * 400 + t) ((index_in T).2.1)

/-- The gathered features' block at point T. -/
theorem iblk2_get2 (c : Dev nD) (T : Fin cfg0.N) (t q : Nat) (ht : t < 400) :
    get2 (iblk m c 2 T : A2 400 144) t q = get2 (V m c main_v6 : A2 50000 144) (T.val * 400 + t) q := by
  blk_read 2 main_v6 win0_2 400 144 (T.val * 400 + t) ((index_in T).2.2.1)

/-- The coupling matrix is resident: the whole array at every point. -/
theorem iblk3_get2 (c : Dev nD) (T : Fin cfg0.N) (t q : Nat) (ht : t < 25) :
    get2 (iblk m c 3 T : A2 25 259) t q = get2 (V m c main_v159 : A2 25 259) t q := by
  blk_read 3 main_v159 win0_3 25 259 (t) ((index_in T).2.2.2.1)

/-- The weights are resident: the whole array at every point. -/
theorem iblk4_get2 (c : Dev nD) (T : Fin cfg0.N) (t q : Nat) (ht : t < 1) :
    get2 (iblk m c 4 T : A2 1 19) t q = get2 (V m c main_v160 : A2 1 19) t q := by
  blk_read 4 main_v160 win0_4 1 19 (t) ((index_in T).2.2.2.2)

end Cert.KernelIdeal.Val

end
-- ==== Proof.KernelSide.lean ====
/-
  From the tile to the arrays.  At grid point T the region's inputs are rows 400 T … 400 T + 399 of the radial
  coefficients, harmonics and gathered features, and the whole coupling matrix and weights.  So a triple's term of the
  tile-level accumulation at tile row t is the specification's term at edge 400 T + t, once the one product
      cy[t, c] = Σ_f' Y[400 T + t, f'] · M[f', c]
  against the zero-padded coupling matrix M is read, at the triple's columns, as the sum over the triple's own harmonics
  against its own coefficients (a fact about M taken here as a hypothesis, per triple).
-/
import proofs.«165524_j45689862095550_2_alg».proof.Proof.Gen.KernelIdeal.Frame
import proofs.«165524_j45689862095550_2_alg».proof.Proof.Spec
import proofs.«165524_j45689862095550_2_alg».proof.Proof.LibBatchDot
import proofs.«165524_j45689862095550_2_alg».proof.Proof.KernelBlocks
import proofs.«165524_j45689862095550_2_alg».proof.Proof.KernelArrays
import proofs.«165524_j45689862095550_2_alg».proof.Proof.KernelHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Lib Cert.Spec

/-- The product of the harmonics tile with the coupling matrix, at an index: the sum over the 25 harmonics. -/
theorem cy_get2 (x1 : Vec Ideal S400x25 .f32) (x3 : Vec Ideal S25x259 .f32) (t c : Nat) (ht : t < 400) (hc : c < 259) :
    get2 (k0_pay2 x1 x3 : A2 400 259) t c
      = ∑ f' : Fin 25, get2 (x1 : A2 400 25) t f'.val * get2 (x3 : A2 25 259) f'.val c := by
  refine (get2_of (k0_pay2 x1 x3 : A2 400 259) (ix2 ⟨t, ht⟩ ⟨c, hc⟩) t c rfl rfl).symm.trans ?_
  unfold k0_pay2
  rw [shapeCast_self]
  refine (matmul_zero_sum _ none 25 rfl rfl x1 x3 (ix2 ⟨t, ht⟩ ⟨c, hc⟩) (fun k => ix2 ⟨t, ht⟩ k) (fun k => ix2 k ⟨c, hc⟩)
    (fun k => by funext a; apply Fin.ext; match a with | ⟨0, _⟩ => rfl | ⟨1, _⟩ => rfl)
    (fun k => by funext a; apply Fin.ext; match a with | ⟨0, _⟩ => rfl | ⟨1, _⟩ => rfl)).trans ?_
  exact Finset.sum_congr rfl fun k _ => congrArg₂ (· * ·) (get2_of _ _ _ _ rfl rfl) (get2_of _ _ _ _ rfl rfl)

/-- Two left folds whose steps agree entry by entry agree. -/
theorem foldl_rel {α β : Type} (f : EReal → α → EReal) (g : EReal → β → EReal) :
    ∀ (l1 : List α) (l2 : List β), List.Forall₂ (fun a b => ∀ s, f s a = g s b) l1 l2 →
      ∀ s, l1.foldl f s = l2.foldl g s
  | [], [], _, _ => rfl
  | a :: l1, b :: l2, h, s => by
    cases h with
    | cons hab hl =>
      simp only [List.foldl]
      rw [hab s]
      exact foldl_rel f g l1 l2 hl _

variable (m : (ℓ : Loc nD τ sig) → Buf (Elt Ideal) ℓ)

/-- A weight of the tile is the weight of the argument. -/
theorem weight_conv (c : Dev nD) (T : Fin cfg0.N) (j : Nat) (hj : j < 19) :
    get2 (iblk m c 4 T : A2 1 19) 0 j = get1 (m ((c : Thread nD τ).loc main_arg4) : A1 19) j := by
  rw [iblk4_get2 m c T 0 j (by norm_num), V_v160]
  unfold get2 get1
  rw [dif_pos ⟨by norm_num, hj⟩, dif_pos hj]
  refine shapeCast_apply _ _ (ix2 ⟨0, by norm_num⟩ ⟨j, hj⟩) (ix1 ⟨j, hj⟩) ?_
  rw [Shape.rowMajor_val_one, Shape.rowMajor_val_two]
  show j = 0 * 19 + j
  omega

/-- ONE TRIPLE: the tile-level term at tile row t of point T is the specification's term at edge 400 T + t. -/
theorem kterm_eq_term (c : Dev nD) (T : Fin cfg0.N) (t u : Nat) (ht : t < 400) {dO : Nat} (o : Fin dO)
    (rBase nlf k finOff di yOff df cgOff cyOff : Nat)
    (hcy : ∀ i : Fin di, cyOff + (o.val * di + i.val) < 259) (hy : ∀ f : Fin df, yOff + f.val < 25)
    (hcb : ∀ (Yrow : Fin 25 → EReal) (i : Fin di),
      ∑ f' : Fin 25, Yrow f' * (V m c main_v159 : S25x259.Idx → EReal) (ix2 f' ⟨cyOff + (o.val * di + i.val), hcy i⟩)
        = ∑ f : Fin df, Yrow ⟨yOff + f.val, hy f⟩
            * get1 (m ((c : Thread nD τ).loc main_arg3) : A1 1225) (cgOff + ((o.val * di + i.val) * df + f.val))) :
    kterm (iblk m c 0 T : A2 400 4864) (iblk m c 2 T : A2 400 144)
        (k0_pay2 (iblk m c 1 T) (iblk m c 3 T) : A2 400 259) t u o.val rBase nlf k finOff di cyOff
      = term (m ((c : Thread nD τ).loc main_arg1) : A2 50000 4864) (V m c main_v6 : A2 50000 144)
          (m ((c : Thread nD τ).loc main_arg2) : A2 50000 25) (m ((c : Thread nD τ).loc main_arg3) : A1 1225)
          (T.val * 400 + t) u o.val rBase nlf k finOff di yOff df cgOff := by
  unfold kterm term
  refine Finset.sum_congr rfl fun v _ => congrArg₂ (· * ·) ?_ (Finset.sum_congr rfl fun i _ => congrArg₂ (· * ·) ?_ ?_)
  · rw [iblk0_get2 m c T t _ ht, V_main_arg1]
  · exact iblk2_get2 m c T t _ ht
  · rw [cy_get2 _ _ t _ ht (hcy i)]
    have h1 : ∀ f' : Fin 25,
        get2 (iblk m c 1 T : A2 400 25) t f'.val * get2 (iblk m c 3 T : A2 25 259) f'.val (cyOff + (o.val * di + i.val))
          = (fun f' : Fin 25 => get2 (m ((c : Thread nD τ).loc main_arg2) : A2 50000 25) (T.val * 400 + t) f'.val) f'
              * (V m c main_v159 : S25x259.Idx → EReal) (ix2 f' ⟨cyOff + (o.val * di + i.val), hcy i⟩) := by
      intro f'
      rw [iblk1_get2 m c T t _ ht, V_main_arg2, iblk3_get2 m c T f'.val _ f'.isLt]
      exact congrArg _ (get2_of (V m c main_v159 : A2 25 259) (ix2 f' ⟨cyOff + (o.val * di + i.val), hcy i⟩) f'.val
        (cyOff + (o.val * di + i.val)) rfl rfl).symm
    rw [Finset.sum_congr rfl fun f' _ => h1 f', hcb]
    rfl

end Cert.KernelIdeal.Val

end
-- ==== Proof.LibScatterSet.lean ====
/-
  `stablehlo.scatter` whose body returns the update (a "set"), read at an index.

  Part 1 (any dimension numbers): the fold that defines the scatter overwrites, at each update index in row-major
  order, the element of the result the update index lands on. Read at a result index `i`: if no update index lands on
  `i` the operand's element is still there (`scatter_set_miss`); if the landing map is injective and update index `j`
  lands on `i`, the element is the update's `j`-th (`scatter_set_hit`).

  Part 2 (two instances): a small array written into the top-left corner of a larger one, ONE scatter index equal to
  `0`: rows `[R, D]` into `[R', D]` (`padRows_apply`) and a vector `[R]` into `[R']` (`padVec_apply`), `R ≤ R'`.
-/
import Idealize.ShloMosaic.Lib.ValueIdx

noncomputable section

namespace Cert.Lib

open Idealize.ShloMosaic Idealize.ShloMosaic.ValueIdx

/-! ## A fold of overwriting steps, read at one place -/

section Fold
variable {ι κ β : Type}

/-- A left fold of steps each of which leaves place `i` alone leaves place `i` alone. -/
theorem foldl_step_miss (step : (κ → β) → ι → (κ → β)) (tgt : ι → Option κ) (i : κ)
    (hmiss : ∀ r n, tgt n ≠ some i → step r n i = r i) :
    ∀ (L : List ι) (x : κ → β), (∀ n ∈ L, tgt n ≠ some i) → (L.foldl step x) i = x i := by
  intro L
  induction L with
  | nil => intro x _; rfl
  | cons n L ih =>
    intro x h
    rw [List.foldl_cons, ih (step x n) (fun m hm => h m (List.mem_cons_of_mem _ hm))]
    exact hmiss x n (h n List.mem_cons_self)

/-- A left fold over a list without repeats of steps that overwrite place `tgt n` by `val n`, when at most one `n`
    has `tgt n = some i`: at place `i` the result is `val n₀` for the `n₀` of the list with `tgt n₀ = some i`. -/
theorem foldl_step_hit (step : (κ → β) → ι → (κ → β)) (tgt : ι → Option κ) (val : ι → β) (i : κ)
    (hhit : ∀ r n, tgt n = some i → step r n i = val n)
    (hmiss : ∀ r n, tgt n ≠ some i → step r n i = r i)
    (hinj : ∀ n n', tgt n = some i → tgt n' = some i → n = n') :
    ∀ (L : List ι) (x : κ → β) (n₀ : ι), L.Nodup → n₀ ∈ L → tgt n₀ = some i → (L.foldl step x) i = val n₀ := by
  intro L
  induction L with
  | nil => intro x n₀ _ hmem _; exact absurd hmem List.not_mem_nil
  | cons n L ih =>
    intro x n₀ hnd hmem h0
    rw [List.foldl_cons]
    rcases List.mem_cons.mp hmem with rfl | hmem'
    · rw [foldl_step_miss step tgt i hmiss L (step x n₀) (fun m hm hmi => by
        have : m = n₀ := hinj m n₀ hmi h0
        subst this
        exact (List.nodup_cons.mp hnd).1 hm)]
      exact hhit x n₀ h0
    · exact ih (step x n) n₀ (List.nodup_cons.mp hnd).2 hmem' h0

end Fold

/-! ## The scatter that sets, read at an index -/

section Generic
variable {s si u : Shape} {α : Type} {w : Nat}

/-- One step of the scatter's fold at an update index that lands on `i` writes the update's element at `i`. -/
theorem scatter_step_hit (d : ScatterDims s si u) (idx : IVec si w) (upd : u.Idx → α) (r : s.Idx → α)
    (n : Fin u.numel) (i : s.Idx) (h : d.resultIdx? (u.rowMajor.symm n) idx = some i) :
    (match d.resultIdx? (u.rowMajor.symm n) idx with
      | some i => fun i' => if i' = i then (fun (_ b : α) => b) (r i) (upd (u.rowMajor.symm n)) else r i'
      | none => r) i = upd (u.rowMajor.symm n) := by
  rw [h]
  exact if_pos rfl

/-- One step of the scatter's fold at an update index that does not land on `i` leaves the element at `i`. -/
theorem scatter_step_miss (d : ScatterDims s si u) (idx : IVec si w) (upd : u.Idx → α) (r : s.Idx → α)
    (n : Fin u.numel) (i : s.Idx) (h : d.resultIdx? (u.rowMajor.symm n) idx ≠ some i) :
    (match d.resultIdx? (u.rowMajor.symm n) idx with
      | some i => fun i' => if i' = i then (fun (_ b : α) => b) (r i) (upd (u.rowMajor.symm n)) else r i'
      | none => r) i = r i := by
  cases hc : d.resultIdx? (u.rowMajor.symm n) idx with
  | none => rfl
  | some i₁ =>
    have hne : i ≠ i₁ := fun e => h (by rw [hc, e])
    exact if_neg hne

/-- THE SETTING SCATTER AT AN INDEX NO UPDATE LANDS ON: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_step_miss _ (fun n => d.resultIdx? (u.rowMajor.symm n) idx) i
    (fun r n hn => scatter_step_miss d idx upd r n i hn) _ x (fun n _ => h _)

/-- THE SETTING SCATTER AT THE INDEX UPDATE INDEX `j` LANDS ON, when no two update indices land on the same index:
    the update's element at `j`. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (h : d.resultIdx? j idx = some i) :
    Host.scatter d (fun _ b => b) x idx upd i = upd j := by
  unfold Host.scatter
  have hj : u.rowMajor.symm (u.rowMajor j) = j := u.rowMajor.symm_apply_apply j
  have key := foldl_step_hit
    (fun (r : s.Idx → α) (n : Fin u.numel) =>
      match d.resultIdx? (u.rowMajor.symm n) idx with
      | some i => fun i' => if i' = i then (fun (_ b : α) => b) (r i) (upd (u.rowMajor.symm n)) else r i'
      | none => r)
    (fun n => d.resultIdx? (u.rowMajor.symm n) idx) (fun n => upd (u.rowMajor.symm n)) i
    (fun r n hn => scatter_step_hit d idx upd r n i hn)
    (fun r n hn => scatter_step_miss d idx upd r n i hn)
    (fun n n' hn hn' => u.rowMajor.symm.injective (hinj _ _ i hn hn'))
    (List.finRange u.numel) x (u.rowMajor j) (List.nodup_finRange _) (List.mem_finRange _) (by rw [hj]; exact h)
  rw [hj] at key
  exact key

end Generic

/-! ## Rows written into the top-left corner: `[R, D]` into `[R', D]` at the one scatter index `0` -/

section PadRows
variable {α : Type} {w : Nat}

/-- The dimension numbers of `zeros([R', D]).at[:R, :].set(v)`: both update axes are window axes going to the operand's
    two axes, no inserted axis, the one-component index vector (axis `0` of the scatter indices `[1]`) starts axis
    `0`; their conditions `wf` are decided on a program's literal shapes. -/
abbrev padRowsDims (R R' D : Nat) (wf : ScatterDims.WF ⟨2, ![R', D]⟩ ⟨1, ![1]⟩ ⟨2, ![R, D]⟩ [0, 1] [] [0] 0) :
    ScatterDims ⟨2, ![R', D]⟩ ⟨1, ![1]⟩ ⟨2, ![R, D]⟩ where
  updateWindowDims := [0, 1]
  insertedWindowDims := []
  scatterDimsToOperandDims := [0]
  indexVectorDim := 0
  wf := wf

/-- With every scatter index `0` the window starts at `0` on every axis. -/
theorem padRows_start {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (j : (⟨2, ![R, D]⟩ : Shape).Idx)
    (a : Fin 2) : (padRowsDims R R' D wf).start j idx a = 0 := by
  unfold ScatterDims.start
  split
  · exact h0 _
  · rfl

/-- The window coordinate on an operand axis is the update index's coordinate on the same axis. -/
theorem padRows_window {R R' D : Nat} (wf : ScatterDims.WF ⟨2, ![R', D]⟩ ⟨1, ![1]⟩ ⟨2, ![R, D]⟩ [0, 1] [] [0] 0)
    (j : (⟨2, ![R, D]⟩ : Shape).Idx) (a : Fin 2) : (padRowsDims R R' D wf).window j a = (j a).val := by
  have hm : a ∈ (padRowsDims R R' D wf).sKept := List.mem_filter.2 ⟨List.mem_finRange a, by simp⟩
  unfold ScatterDims.window
  rw [dif_pos hm]
  match a with
  | ⟨0, _⟩ => rfl
  | ⟨1, _⟩ => rfl

/-- Update index `(p, q)` lands on operand index `(p, q)`. -/
theorem padRows_resultIdx {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (hR : R ≤ R') (j : (⟨2, ![R, D]⟩ : Shape).Idx) :
    (padRowsDims R R' D wf).resultIdx? j idx
      = some (ix2 ⟨(j 0).val, lt_of_lt_of_le (idx2_lt0 j) hR⟩ ⟨(j 1).val, idx2_lt1 j⟩) := by
  have hc : ∀ a : Fin 2, 0 ≤ (padRowsDims R R' D wf).start j idx a + (padRowsDims R R' D wf).window j a ∧
      (padRowsDims R R' D wf).start j idx a + (padRowsDims R R' D wf).window j a
        < ((⟨2, ![R', D]⟩ : Shape).size a : Nat) := by
    intro a
    rw [padRows_start wf idx h0 j a, padRows_window wf j a]
    match a with
    | ⟨0, _⟩ => have := idx2_lt0 j; exact ⟨by omega, by show (0 : Int) + ((j 0).val : Int) < (R' : Int); omega⟩
    | ⟨1, _⟩ => have := idx2_lt1 j; exact ⟨by omega, by show (0 : Int) + ((j 1).val : Int) < (D : Int); omega⟩
  unfold ScatterDims.resultIdx?
  rw [dif_pos hc]
  congr 1
  funext a
  refine Fin.ext ?_
  show ((padRowsDims R R' D wf).start j idx a + (padRowsDims R R' D wf).window j a).toNat = _
  rw [padRows_start wf idx h0 j a, padRows_window wf j a]
  match a with
  | ⟨0, _⟩ => show ((0 : Int) + ((j 0).val : Int)).toNat = (j 0).val; omega
  | ⟨1, _⟩ => show ((0 : Int) + ((j 1).val : Int)).toNat = (j 1).val; omega

/-- THE ROWS WRITTEN INTO THE CORNER, READ INSIDE THE CORNER: the written array's element. -/
theorem padRows_apply {R R' D : Nat} (wf : ScatterDims.WF ⟨2, ![R', D]⟩ ⟨1, ![1]⟩ ⟨2, ![R, D]⟩ [0, 1] [] [0] 0)
    (x : (⟨2, ![R', D]⟩ : Shape).Idx → α) (idx : IVec ⟨1, ![1]⟩ w) (upd : (⟨2, ![R, D]⟩ : Shape).Idx → α)
    (h0 : ∀ k, (idx k).toInt = 0) (hR : R ≤ R') (p : Fin R) (q : Fin D) :
    Host.scatter (padRowsDims R R' D wf) (fun _ b => b) x idx upd (ix2 ⟨p.val, lt_of_lt_of_le p.isLt hR⟩ q)
      = upd (ix2 p q) := by
  refine scatter_set_hit (padRowsDims R R' D wf) x idx upd ?_ (ix2 p q) _ ?_
  · intro j j' i hj hj'
    rw [padRows_resultIdx wf idx h0 hR j] at hj
    rw [padRows_resultIdx wf idx h0 hR j'] at hj'
    have e := (Option.some.inj hj).trans (Option.some.inj hj').symm
    have e0 : (j 0).val = (j' 0).val := by
      have := congrArg Fin.val (congrFun e ⟨0, Nat.zero_lt_two⟩); exact this
    have e1 : (j 1).val = (j' 1).val := by
      have := congrArg Fin.val (congrFun e ⟨1, Nat.one_lt_two⟩); exact this
    rw [eq_ix2 j, eq_ix2 j', Fin.ext e0, Fin.ext e1]
  · exact padRows_resultIdx wf idx h0 hR (ix2 p q)

end PadRows

/-! ## A vector written into the head of a longer one: `[R]` into `[R']` at the one scatter index `0` -/

section PadVec
variable {α : Type} {w : Nat}

/-- The dimension numbers of `zeros([R']).at[:R].set(v)`: the update's axis is a window axis going to the operand's
    axis, no inserted axis, the one-component index vector (axis `0` of the scatter indices `[1]`) starts axis `0`;
    their conditions `wf` are decided on a program's literal shapes. -/
abbrev padVecDims (R R' : Nat) (wf : ScatterDims.WF ⟨1, ![R']⟩ ⟨1, ![1]⟩ ⟨1, ![R]⟩ [0] [] [0] 0) :
    ScatterDims ⟨1, ![R']⟩ ⟨1, ![1]⟩ ⟨1, ![R]⟩ where
  updateWindowDims := [0]
  insertedWindowDims := []
  scatterDimsToOperandDims := [0]
  indexVectorDim := 0
  wf := wf

/-- With every scatter index `0` the window starts at `0`. -/
theorem padVec_start {R R' : Nat} (wf : ScatterDims.WF ⟨1, ![R']⟩ ⟨1, ![1]⟩ ⟨1, ![R]⟩ [0] [] [0] 0)
    (idx : IVec ⟨1, ![1]⟩ w) (h0 : ∀ k, (idx k).toInt = 0) (j : (⟨1, ![R]⟩ : Shape).Idx)
    (a : Fin 1) : (padVecDims R R' wf).start j idx a = 0 := by
  unfold ScatterDims.start
  split
  · exact h0 _
  · rfl

/-- The window coordinate on the operand's axis is the update index's coordinate. -/
theorem padVec_window {R R' : Nat} (wf : ScatterDims.WF ⟨1, ![R']⟩ ⟨1, ![1]⟩ ⟨1, ![R]⟩ [0] [] [0] 0)
    (j : (⟨1, ![R]⟩ : Shape).Idx) (a : Fin 1) : (padVecDims R R' wf).window j a = (j a).val := by
  have hm : a ∈ (padVecDims R R' wf).sKept := List.mem_filter.2 ⟨List.mem_finRange a, by simp⟩
  unfold ScatterDims.window
  rw [dif_pos hm]
  match a with
  | ⟨0, _⟩ => rfl

/-- Update index `p` lands on operand index `p`. -/
theorem padVec_resultIdx {R R' : Nat} (wf : ScatterDims.WF ⟨1, ![R']⟩ ⟨1, ![1]⟩ ⟨1, ![R]⟩ [0] [] [0] 0)
    (idx : IVec ⟨1, ![1]⟩ w) (h0 : ∀ k, (idx k).toInt = 0) (hR : R ≤ R') (j : (⟨1, ![R]⟩ : Shape).Idx) :
    (padVecDims R R' wf).resultIdx? j idx = some (ix1 ⟨(j 0).val, lt_of_lt_of_le (j 0).isLt hR⟩) := by
  have hj : (j 0).val < R := (j 0).isLt
  have hc : ∀ a : Fin 1, 0 ≤ (padVecDims R R' wf).start j idx a + (padVecDims R R' wf).window j a ∧
      (padVecDims R R' wf).start j idx a + (padVecDims R R' wf).window j a
        < ((⟨1, ![R']⟩ : Shape).size a : Nat) := by
    intro a
    rw [padVec_start wf idx h0 j a, padVec_window wf j a]
    match a with
    | ⟨0, _⟩ => exact ⟨by omega, by show (0 : Int) + ((j 0).val : Int) < (R' : Int); omega⟩
  unfold ScatterDims.resultIdx?
  rw [dif_pos hc]
  congr 1
  funext a
  refine Fin.ext ?_
  show ((padVecDims R R' wf).start j idx a + (padVecDims R R' wf).window j a).toNat = _
  rw [padVec_start wf idx h0 j a, padVec_window wf j a]
  match a with
  | ⟨0, _⟩ => show ((0 : Int) + ((j 0).val : Int)).toNat = (j 0).val; omega

/-- THE VECTOR WRITTEN INTO THE HEAD, READ INSIDE THE HEAD: the written vector's element. -/
theorem padVec_apply {R R' : Nat} (wf : ScatterDims.WF ⟨1, ![R']⟩ ⟨1, ![1]⟩ ⟨1, ![R]⟩ [0] [] [0] 0)
    (x : (⟨1, ![R']⟩ : Shape).Idx → α) (idx : IVec ⟨1, ![1]⟩ w) (upd : (⟨1, ![R]⟩ : Shape).Idx → α)
    (h0 : ∀ k, (idx k).toInt = 0) (hR : R ≤ R') (p : Fin R) :
    Host.scatter (padVecDims R R' wf) (fun _ b => b) x idx upd (ix1 ⟨p.val, lt_of_lt_of_le p.isLt hR⟩)
      = upd (ix1 p) := by
  refine scatter_set_hit (padVecDims R R' wf) x idx upd ?_ (ix1 p) _ ?_
  · intro j j' i hj hj'
    rw [padVec_resultIdx wf idx h0 hR j] at hj
    rw [padVec_resultIdx wf idx h0 hR j'] at hj'
    have e := (Option.some.inj hj).trans (Option.some.inj hj').symm
    have e0 : (j 0).val = (j' 0).val := by
      have := congrArg Fin.val (congrFun e ⟨0, Nat.zero_lt_one⟩); exact this
    rw [eq_ix1 j, eq_ix1 j', Fin.ext e0]
  · exact padVec_resultIdx wf idx h0 hR (ix1 p)

end PadVec

end Cert.Lib

end
-- ==== Proof.LibPlaceBlock.lean ====
/-
  A small matrix written into a larger one at a given corner: `x.at[r0 : r0 + a, c0 : c0 + b].set(v)`, which jax
  lowers to a `stablehlo.scatter` whose body returns the update, with ONE window (both update axes are window axes
  going to the operand's two axes) and a two-component start index `(r0, c0)` held in a [2] vector.

  Read at an index (P, Q) of the result: inside the window it is the written matrix at (P - r0, Q - c0); outside it is
  the operand there.  (The general facts about a setting scatter, that an index no update lands on keeps the operand
  and an index exactly one update lands on holds that update, are the setting-scatter lemmas this module imports.)
-/
import Idealize.ShloMosaic.Lib.ValueIdx
import proofs.«165524_j45689862095550_2_alg».proof.Proof.LibScatterSet

noncomputable section

namespace Cert.Lib

open Idealize.ShloMosaic Idealize.ShloMosaic.ValueIdx

section PlaceBlock
variable {α : Type} {w : Nat}

/-- The dimension numbers of `x.at[r0 : r0 + a, c0 : c0 + b].set(v)` on an [R, C] operand: both update axes are window
    axes, no inserted axis, the start index's two components (axis `0` of the scatter indices `[2]`) start the
    operand's axes `0` and `1`; their conditions `wf` are decided on a program's literal shapes. -/
abbrev placeDims (R C a b : Nat) (wf : ScatterDims.WF ⟨2, ![R, C]⟩ ⟨1, ![2]⟩ ⟨2, ![a, b]⟩ [0, 1] [] [0, 1] 0) :
    ScatterDims ⟨2, ![R, C]⟩ ⟨1, ![2]⟩ ⟨2, ![a, b]⟩ where
  updateWindowDims := [0, 1]
  insertedWindowDims := []
  scatterDimsToOperandDims := [0, 1]
  indexVectorDim := 0
  wf := wf

variable {R C a b : Nat} (wf : ScatterDims.WF ⟨2, ![R, C]⟩ ⟨1, ![2]⟩ ⟨2, ![a, b]⟩ [0, 1] [] [0, 1] 0)

/-- The window starts at the start index's two components. -/
theorem place_start (idx : IVec ⟨1, ![2]⟩ w) (r0 c0 : Nat)
    (h0 : (idx (ix1 (0 : Fin 2))).toInt = (r0 : Int)) (h1 : (idx (ix1 (1 : Fin 2))).toInt = (c0 : Int))
    (j : (⟨2, ![a, b]⟩ : Shape).Idx) :
    (placeDims R C a b wf).start j idx 0 = (r0 : Int) ∧ (placeDims R C a b wf).start j idx 1 = (c0 : Int) := by
  constructor
  · unfold ScatterDims.start
    rw [dif_pos (by show (0 : Fin 2) ∈ ([0, 1] : List (Fin 2)); decide)]
    have e : (placeDims R C a b wf).siIdx j ⟨List.idxOf (0 : Fin 2) [0, 1],
        by show List.idxOf (0 : Fin 2) [0, 1] < ([0, 1] : List (Fin 2)).length; decide⟩ = ix1 (0 : Fin 2) := by
      funext d; match d with | ⟨0, _⟩ => rfl
    exact (congrArg (fun k => (idx k).toInt) e).trans h0
  · unfold ScatterDims.start
    rw [dif_pos (by show (1 : Fin 2) ∈ ([0, 1] : List (Fin 2)); decide)]
    have e : (placeDims R C a b wf).siIdx j ⟨List.idxOf (1 : Fin 2) [0, 1],
        by show List.idxOf (1 : Fin 2) [0, 1] < ([0, 1] : List (Fin 2)).length; decide⟩ = ix1 (1 : Fin 2) := by
      funext d; match d with | ⟨0, _⟩ => rfl
    exact (congrArg (fun k => (idx k).toInt) e).trans h1

/-- The window coordinate on an operand axis is the update index's coordinate on the same axis. -/
theorem place_window (j : (⟨2, ![a, b]⟩ : Shape).Idx) (d : Fin 2) : (placeDims R C a b wf).window j d = (j d).val := by
  have hm : d ∈ (placeDims R C a b wf).sKept := List.mem_filter.2 ⟨List.mem_finRange d, by simp⟩
  unfold ScatterDims.window
  rw [dif_pos hm]
  match d with
  | ⟨0, _⟩ => rfl
  | ⟨1, _⟩ => rfl

/-- Update index `(p, q)` lands on operand index `(r0 + p, c0 + q)`. -/
theorem place_resultIdx (idx : IVec ⟨1, ![2]⟩ w) (r0 c0 : Nat)
    (h0 : (idx (ix1 (0 : Fin 2))).toInt = (r0 : Int)) (h1 : (idx (ix1 (1 : Fin 2))).toInt = (c0 : Int))
    (hR : r0 + a ≤ R) (hC : c0 + b ≤ C) (j : (⟨2, ![a, b]⟩ : Shape).Idx) :
    (placeDims R C a b wf).resultIdx? j idx
      = some (ix2 ⟨r0 + (j 0).val, by have := idx2_lt0 j; omega⟩ ⟨c0 + (j 1).val, by have := idx2_lt1 j; omega⟩) := by
  obtain ⟨s0, s1⟩ := place_start wf idx r0 c0 h0 h1 j
  have hj0 := idx2_lt0 j
  have hj1 := idx2_lt1 j
  have hc : ∀ d : Fin 2, 0 ≤ (placeDims R C a b wf).start j idx d + (placeDims R C a b wf).window j d ∧
      (placeDims R C a b wf).start j idx d + (placeDims R C a b wf).window j d
        < ((⟨2, ![R, C]⟩ : Shape).size d : Nat) := by
    intro d
    rw [place_window wf j d]
    match d with
    | ⟨0, _⟩ =>
      show 0 ≤ (placeDims R C a b wf).start j idx 0 + (((j 0).val : Nat) : Int) ∧ (placeDims R C a b wf).start j idx 0 + (((j 0).val : Nat) : Int) < (R : Int)
      rw [s0]; exact ⟨by omega, by omega⟩
    | ⟨1, _⟩ =>
      show 0 ≤ (placeDims R C a b wf).start j idx 1 + (((j 1).val : Nat) : Int) ∧ (placeDims R C a b wf).start j idx 1 + (((j 1).val : Nat) : Int) < (C : Int)
      rw [s1]; exact ⟨by omega, by omega⟩
  unfold ScatterDims.resultIdx?
  rw [dif_pos hc]
  congr 1
  funext d
  refine Fin.ext ?_
  show ((placeDims R C a b wf).start j idx d + (placeDims R C a b wf).window j d).toNat = _
  rw [place_window wf j d]
  match d with
  | ⟨0, _⟩ =>
    show ((placeDims R C a b wf).start j idx 0 + (((j 0).val : Nat) : Int)).toNat = r0 + (j 0).val
    rw [s0]; omega
  | ⟨1, _⟩ =>
    show ((placeDims R C a b wf).start j idx 1 + (((j 1).val : Nat) : Int)).toNat = c0 + (j 1).val
    rw [s1]; omega

/-- THE PLACED BLOCK, READ ANYWHERE: inside the window the written matrix, outside it the operand. -/
theorem place_apply (x : (⟨2, ![R, C]⟩ : Shape).Idx → α) (idx : IVec ⟨1, ![2]⟩ w) (upd : (⟨2, ![a, b]⟩ : Shape).Idx → α)
    (r0 c0 : Nat) (h0 : (idx (ix1 (0 : Fin 2))).toInt = (r0 : Int)) (h1 : (idx (ix1 (1 : Fin 2))).toInt = (c0 : Int))
    (hR : r0 + a ≤ R) (hC : c0 + b ≤ C) (p : Fin R) (q : Fin C) :
    Host.scatter (placeDims R C a b wf) (fun _ b => b) x idx upd (ix2 p q)
      = if h : (r0 ≤ p.val ∧ p.val < r0 + a) ∧ (c0 ≤ q.val ∧ q.val < c0 + b) then
          upd (ix2 ⟨p.val - r0, by omega⟩ ⟨q.val - c0, by omega⟩)
        else x (ix2 p q) := by
  split
  · rename_i h
    refine scatter_set_hit (placeDims R C a b wf) x idx upd ?_ (ix2 ⟨p.val - r0, by omega⟩ ⟨q.val - c0, by omega⟩) _ ?_
    · intro j j' i hj hj'
      rw [place_resultIdx wf idx r0 c0 h0 h1 hR hC j] at hj
      rw [place_resultIdx wf idx r0 c0 h0 h1 hR hC j'] at hj'
      have e := (Option.some.inj hj).trans (Option.some.inj hj').symm
      have e0 : r0 + (j 0).val = r0 + (j' 0).val := by
        have := congrArg Fin.val (congrFun e ⟨0, Nat.zero_lt_two⟩); exact this
      have e1 : c0 + (j 1).val = c0 + (j' 1).val := by
        have := congrArg Fin.val (congrFun e ⟨1, Nat.one_lt_two⟩); exact this
      rw [eq_ix2 j, eq_ix2 j', Fin.ext (by omega : (j 0).val = (j' 0).val), Fin.ext (by omega : (j 1).val = (j' 1).val)]
    · rw [place_resultIdx wf idx r0 c0 h0 h1 hR hC]
      congr 1
      funext d
      refine Fin.ext ?_
      match d with
      | ⟨0, _⟩ => show r0 + (p.val - r0) = p.val; omega
      | ⟨1, _⟩ => show c0 + (q.val - c0) = q.val; omega
  · rename_i h
    refine scatter_set_miss (placeDims R C a b wf) x idx upd (ix2 p q) fun j hj => h ?_
    rw [place_resultIdx wf idx r0 c0 h0 h1 hR hC j] at hj
    have e := Option.some.inj hj
    have e0 : r0 + (j 0).val = p.val := by
      have := congrArg Fin.val (congrFun e ⟨0, Nat.zero_lt_two⟩); exact this
    have e1 : c0 + (j 1).val = q.val := by
      have := congrArg Fin.val (congrFun e ⟨1, Nat.one_lt_two⟩); exact this
    have hj0 := idx2_lt0 j
    have hj1 := idx2_lt1 j
    omega

end PlaceBlock

end Cert.Lib

end
-- ==== Proof.LibMoments.lean ====
/-
  General lemmas about sums of moments over a finite set of points: centring the points at any constant changes neither the
  mean recovered from the centred sum nor the covariance numerator; a sum against a 0/1 indicator is the sum over the
  points the indicator selects; a finite sum of reals, coerced to the extended reals, is the sum of the coerced terms.
  Nothing here mentions a program.
-/
import Mathlib.Algebra.BigOperators.Field
import Mathlib.Data.EReal.Operations
import Mathlib.Tactic.Ring
import Mathlib.Tactic.FieldSimp
import Mathlib.Tactic.Linarith

namespace LibMoments

open Finset

variable {ι : Type*}

/-- The sum of the points centred at `c` is the sum of the points less `card · c`. -/
theorem sum_sub_const (P : Finset ι) (x : ι → ℝ) (c : ℝ) :
    ∑ q ∈ P, (x q - c) = ∑ q ∈ P, x q - (P.card : ℝ) * c := by
  rw [Finset.sum_sub_distrib, Finset.sum_const, nsmul_eq_mul]

/-- The sum of products of two coordinates, each centred at its own constant, expanded. -/
theorem sum_sub_mul_sub (P : Finset ι) (x y : ι → ℝ) (a b : ℝ) :
    ∑ q ∈ P, (x q - a) * (y q - b)
      = ∑ q ∈ P, x q * y q - b * ∑ q ∈ P, x q - a * ∑ q ∈ P, y q + (P.card : ℝ) * a * b := by
  have h : ∀ q, (x q - a) * (y q - b) = x q * y q - b * x q - a * y q + a * b := fun q => by ring
  simp only [h, Finset.sum_add_distrib, Finset.sum_sub_distrib, Finset.sum_const, nsmul_eq_mul, ← Finset.mul_sum]
  ring

/-- THE MEAN IS RECOVERED: the mean of the centred points, shifted back by the centre, is the mean of the points. -/
theorem mean_centered (P : Finset ι) (x : ι → ℝ) (c n : ℝ) (hn : n = (P.card : ℝ)) (h0 : n ≠ 0) :
    (∑ q ∈ P, (x q - c)) / n + c = (∑ q ∈ P, x q) / n := by
  rw [sum_sub_const, ← hn]; field_simp; ring

/-- THE COVARIANCE IS SHIFT INVARIANT: second moments less `n` times the product of the means, computed from the
    points centred at `(a, b)`, equal the same expression computed from the points themselves. -/
theorem cov_centered (P : Finset ι) (x y : ι → ℝ) (a b n : ℝ) (hn : n = (P.card : ℝ)) (h0 : n ≠ 0) :
    ∑ q ∈ P, (x q - a) * (y q - b) - n * (((∑ q ∈ P, (x q - a)) / n) * ((∑ q ∈ P, (y q - b)) / n))
      = ∑ q ∈ P, x q * y q - n * (((∑ q ∈ P, x q) / n) * ((∑ q ∈ P, y q) / n)) := by
  rw [sum_sub_mul_sub, sum_sub_const, sum_sub_const, ← hn]; field_simp; ring

/-- A finite sum of reals, coerced, is the sum of the coerced terms. -/
theorem coe_sum (P : Finset ι) (f : ι → ℝ) : ((∑ q ∈ P, f q : ℝ) : EReal) = ∑ q ∈ P, (f q : EReal) := by
  classical
  induction P using Finset.induction_on with
  | empty => simp
  | insert a s ha ih => rw [Finset.sum_insert ha, Finset.sum_insert ha, EReal.coe_add, ih]

/-- A sum against a 0/1 indicator is the sum over the selected points (in the extended reals: `x · 0 = 0` even at ±∞). -/
theorem sum_mul_indicator [Fintype ι] (f : ι → EReal) (p : ι → Prop) [DecidablePred p] :
    ∑ q, f q * (if p q then (1 : EReal) else 0) = ∑ q ∈ Finset.univ.filter p, f q := by
  rw [Finset.sum_filter]
  refine Finset.sum_congr rfl fun q _ => ?_
  by_cases h : p q <;> simp [h]

/-- The same with two indicators: the product of two one-hot factors selects the points both select. -/
theorem sum_mul_indicator₂ [Fintype ι] (f : ι → EReal) (p r : ι → Prop) [DecidablePred p] [DecidablePred r] :
    ∑ q, (f q * (if p q then (1 : EReal) else 0)) * (if r q then (1 : EReal) else 0)
      = ∑ q ∈ Finset.univ.filter (fun q => p q ∧ r q), f q := by
  rw [Finset.sum_filter]
  refine Finset.sum_congr rfl fun q _ => ?_
  by_cases h : p q <;> by_cases h' : r q <;> simp [h, h']

/-- The number of selected points, as a sum of ones. -/
theorem sum_one_filter [Fintype ι] (p : ι → Prop) [DecidablePred p] :
    ∑ q ∈ Finset.univ.filter p, (1 : EReal) = (((Finset.univ.filter p).card : ℝ) : EReal) := by
  calc ∑ q ∈ Finset.univ.filter p, (1 : EReal)
      = ∑ q ∈ Finset.univ.filter p, (((fun _ => (1 : ℝ)) q : ℝ) : EReal) := by simp
    _ = ((∑ q ∈ Finset.univ.filter p, (1 : ℝ) : ℝ) : EReal) := (coe_sum _ _).symm
    _ = _ := by simp

end LibMoments
-- ==== Proof.LibSumLaws.lean ====
/-
  Two laws of finite sums of extended reals that join a tiled contraction to its textbook form.

  * EXCHANGE. For real-valued families, a contraction nested as  Σ_v R v · (Σ_i F v i · C i)  equals the nesting
    Σ_i (Σ_v F v i · R v) · C i.  Over the extended reals this needs the values to be real: distributivity fails at
    the infinities.  Proved by naming the real values, pushing the coercion outward, and exchanging the two sums.
  * WINDOW. A sum over n places of a family that vanishes outside the window [off, off + d) is the sum over the d
    places of the window.  This holds for any values (a zero term contributes nothing, even beside an infinity).
-/
import Mathlib.Algebra.BigOperators.Field
import Mathlib.Algebra.BigOperators.Group.Finset.Sigma
import Mathlib.Data.EReal.Operations
import Mathlib.Tactic.Ring
import proofs.«165524_j45689862095550_2_alg».proof.Proof.LibMoments

noncomputable section

open scoped BigOperators

namespace Cert.Lib

/-- A family of extended reals all of whose values are real is the coercion of a real family. -/
theorem exists_real_family {ι : Type*} (f : ι → EReal) (h : ∀ i, ∃ r : ℝ, f i = (r : EReal)) :
    ∃ g : ι → ℝ, ∀ i, f i = (g i : EReal) :=
  ⟨fun i => (h i).choose, fun i => (h i).choose_spec⟩

/-- EXCHANGE of the two nestings of a three-factor contraction, for real-valued factors. -/
theorem sum_nest_swap {V I : Type*} [Fintype V] [Fintype I] (R : V → EReal) (F : V → I → EReal) (C : I → EReal)
    (hR : ∀ v, ∃ r : ℝ, R v = (r : EReal)) (hF : ∀ v i, ∃ r : ℝ, F v i = (r : EReal))
    (hC : ∀ i, ∃ r : ℝ, C i = (r : EReal)) :
    ∑ v, R v * ∑ i, F v i * C i = ∑ i, (∑ v, F v i * R v) * C i := by
  obtain ⟨r, hr⟩ := exists_real_family R hR
  obtain ⟨c, hc⟩ := exists_real_family C hC
  obtain ⟨f, hf⟩ : ∃ f : V → I → ℝ, ∀ v i, F v i = (f v i : EReal) :=
    ⟨fun v i => (hF v i).choose, fun v i => (hF v i).choose_spec⟩
  have lhs : ∑ v, R v * ∑ i, F v i * C i = ((∑ v, r v * ∑ i, f v i * c i : ℝ) : EReal) := by
    rw [LibMoments.coe_sum]
    refine Finset.sum_congr rfl fun v _ => ?_
    rw [hr v, EReal.coe_mul, LibMoments.coe_sum]
    refine congrArg _ (Finset.sum_congr rfl fun i _ => ?_)
    rw [hf v i, hc i, EReal.coe_mul]
  have rhs : ∑ i, (∑ v, F v i * R v) * C i = ((∑ i, (∑ v, f v i * r v) * c i : ℝ) : EReal) := by
    rw [LibMoments.coe_sum]
    refine Finset.sum_congr rfl fun i _ => ?_
    rw [hc i, EReal.coe_mul, LibMoments.coe_sum]
    refine congrArg (· * (c i : EReal)) (Finset.sum_congr rfl fun v _ => ?_)
    rw [hf v i, hr v, EReal.coe_mul]
  rw [lhs, rhs]
  refine congrArg _ ?_
  simp only [Finset.mul_sum, Finset.sum_mul]
  rw [Finset.sum_comm]
  refine Finset.sum_congr rfl fun i _ => Finset.sum_congr rfl fun v _ => ?_
  ring

/-- The places of a window, among `n` places. -/
def winEmb {n d off : Nat} (h : off + d ≤ n) : Fin d ↪ Fin n :=
  ⟨fun f => ⟨off + f.val, by have := f.isLt; omega⟩,
    fun a b hab => Fin.ext (by have := congrArg Fin.val hab; simp only at this; omega)⟩

/-- WINDOW: a family that vanishes outside the window sums over the window. -/
theorem sum_window {n d off : Nat} (h : off + d ≤ n) (g : Fin n → EReal)
    (hz : ∀ p : Fin n, ¬(off ≤ p.val ∧ p.val < off + d) → g p = 0) :
    ∑ p : Fin n, g p = ∑ f : Fin d, g ⟨off + f.val, by have := f.isLt; omega⟩ := by
  have hsub : ∑ p ∈ Finset.univ.map (winEmb h), g p = ∑ p : Fin n, g p :=
    Finset.sum_subset (Finset.subset_univ _) fun p _ hp => hz p fun hw => hp (Finset.mem_map.2
      ⟨⟨p.val - off, by omega⟩, Finset.mem_univ _, Fin.ext (by show off + (p.val - off) = p.val; omega)⟩)
  rw [← hsub, Finset.sum_map]
  rfl

end Cert.Lib

end
-- ==== Proof.CBig.lean ====
/-
  The kernel's host program builds a [25, 259] matrix by writing, for each coupled triple, its coupling coefficients
  (transposed so that the harmonic index leads) as a block at row lf² and the triple's column offset, into zeros.
  A row of harmonics contracted against a column of that matrix is therefore the sum over the triple's own harmonics
  against its own coefficients: the zeros contribute nothing.
-/
import proofs.«165524_j45689862095550_2_alg».proof.Proof.Gen.KernelIdeal.Frame
import proofs.«165524_j45689862095550_2_alg».proof.Proof.Spec
import proofs.«165524_j45689862095550_2_alg».proof.Proof.LibScatterSet
import proofs.«165524_j45689862095550_2_alg».proof.Proof.LibPlaceBlock
import proofs.«165524_j45689862095550_2_alg».proof.Proof.LibSliceSplit
import proofs.«165524_j45689862095550_2_alg».proof.Proof.LibSumLaws
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem Idealize.ShloMosaic.ValueIdx Cert.Lib

/-- The start index (r0, c0) of a block, as the program builds it: two scalars made vectors of one entry and joined. -/
def sIdx (r0 c0 : BitVec 32) : (⟨S2, .i32⟩ : BufTy).Contents (Elt Ideal) :=
  concatenate S2 0 [⟨S1, broadcastInDim S1 ![] bcast_S_S1 (constantI S_ 32 r0)⟩, ⟨S1, broadcastInDim S1 ![] bcast_S_S1 (constantI S_ 32 c0)⟩] concatenates_S1_S1_S2_d0

/-- The zero matrix the blocks are written into. -/
def M0 : (⟨S25x259, .f32⟩ : BufTy).Contents (Elt Ideal) :=
  broadcastInDim S25x259 ![] bcast_S_S25x259 (constant (F := Ideal) S_ .f32 0x00000000#32)

/-- Block 0: the 1·1·1 coefficients from 0 on, as [1, 1·1] with the harmonic index leading. -/
def B0 (cg : (⟨S1225, .f32⟩ : BufTy).Contents (Elt Ideal)) : (⟨S1x1, .f32⟩ : BufTy).Contents (Elt Ideal) :=
  shapeCast S1x1 (transpose S1x1x1 [2, 0, 1] (shapeCast S1x1x1 (extractStridedSlice S1 ![0] cg slices_S1225_S1_0) shapeCasts_S1_S1x1x1) transposes_S1x1x1_S1x1x1_2_0_1) shapeCasts_S1x1x1_S1x1
/-- The matrix after block 0 is written at (0, 0). -/
def M1 (cg : (⟨S1225, .f32⟩ : BufTy).Contents (Elt Ideal)) : (⟨S25x259, .f32⟩ : BufTy).Contents (Elt Ideal) :=
  Host.scatter scatter_S25x259_S2_S1x1_01_n_01_0 (fun _ b => b) (M0) (sIdx 0#32 0#32) (B0 cg)

/-- Block 1: the 1·3·3 coefficients from 1 on, as [3, 1·3] with the harmonic index leading. -/
def B1 (cg : (⟨S1225, .f32⟩ : BufTy).Contents (Elt Ideal)) : (⟨S3x3, .f32⟩ : BufTy).Contents (Elt Ideal) :=
  shapeCast S3x3 (transpose S3x1x3 [2, 0, 1] (shapeCast S1x3x3 (extractStridedSlice S9 ![1] cg slices_S1225_S9_1) shapeCasts_S9_S1x3x3) transposes_S1x3x3_S3x1x3_2_0_1) shapeCasts_S3x1x3_S3x3
/-- The matrix after block 1 is written at (1, 1). -/
def M2 (cg : (⟨S1225, .f32⟩ : BufTy).Contents (Elt Ideal)) : (⟨S25x259, .f32⟩ : BufTy).Contents (Elt Ideal) :=
  Host.scatter scatter_S25x259_S2_S3x3_01_n_01_0 (fun _ b => b) (M1 cg) (sIdx 1#32 1#32) (B1 cg)

/-- Block 2: the 1·5·5 coefficients from 10 on, as [5, 1·5] with the harmonic index leading. -/
def B2 (cg : (⟨S1225, .f32⟩ : BufTy).Contents (Elt Ideal)) : (⟨S5x5, .f32⟩ : BufTy).Contents (Elt Ideal) :=
  shapeCast S5x5 (transpose S5x1x5 [2, 0, 1] (shapeCast S1x5x5 (extractStridedSlice S25 ![10] cg slices_S1225_S25_10) shapeCasts_S25_S1x5x5) transposes_S1x5x5_S5x1x5_2_0_1) shapeCasts_S5x1x5_S5x5
/-- The matrix after block 2 is written at (4, 4). -/
def M3 (cg : (⟨S1225, .f32⟩ : BufTy).Contents (Elt Ideal)) : (⟨S25x259, .f32⟩ : BufTy).Contents (Elt Ideal) :=
  Host.scatter scatter_S25x259_S2_S5x5_01_n_01_0 (fun _ b => b) (M2 cg) (sIdx 4#32 4#32) (B2 cg)

/-- Block 3: the 3·1·3 coefficients from 35 on, as [3, 3·1] with the harmonic index leading. -/
def B3 (cg : (⟨S1225, .f32⟩ : BufTy).Contents (Elt Ideal)) : (⟨S3x3, .f32⟩ : BufTy).Contents (Elt Ideal) :=
  shapeCast S3x3 (transpose S3x3x1 [2, 0, 1] (shapeCast S3x1x3 (extractStridedSlice S9 ![35] cg slices_S1225_S9_35) shapeCasts_S9_S3x1x3) transposes_S3x1x3_S3x3x1_2_0_1) shapeCasts_S3x3x1_S3x3
/-- The matrix after block 3 is written at (1, 9). -/
def M4 (cg : (⟨S1225, .f32⟩ : BufTy).Contents (Elt Ideal)) : (⟨S25x259, .f32⟩ : BufTy).Contents (Elt Ideal) :=
  Host.scatter scatter_S25x259_S2_S3x3_01_n_01_0 (fun _ b => b) (M3 cg) (sIdx 1#32 9#32) (B3 cg)

/-- Block 4: the 3·3·1 coefficients from 44 on, as [1, 3·3] with the harmonic index leading. -/
def B4 (cg : (⟨S1225, .f32⟩ : BufTy).Contents (Elt Ideal)) : (⟨S1x9, .f32⟩ : BufTy).Contents (Elt Ideal) :=
  shapeCast S1x9 (transpose S1x3x3 [2, 0, 1] (shapeCast S3x3x1 (extractStridedSlice S9 ![44] cg slices_S1225_S9_44) shapeCasts_S9_S3x3x1) transposes_S3x3x1_S1x3x3_2_0_1) shapeCasts_S1x3x3_S1x9
/-- The matrix after block 4 is written at (0, 12). -/
def M5 (cg : (⟨S1225, .f32⟩ : BufTy).Contents (Elt Ideal)) : (⟨S25x259, .f32⟩ : BufTy).Contents (Elt Ideal) :=
  Host.scatter scatter_S25x259_S2_S1x9_01_n_01_0 (fun _ b => b) (M4 cg) (sIdx 0#32 12#32) (B4 cg)

/-- Block 5: the 3·3·3 coefficients from 53 on, as [3, 3·3] with the harmonic index leading. -/
def B5 (cg : (⟨S1225, .f32⟩ : BufTy).Contents (Elt Ideal)) : (⟨S3x9, .f32⟩ : BufTy).Contents (Elt Ideal) :=
  shapeCast S3x9 (transpose S3x3x3 [2, 0, 1] (shapeCast S3x3x3 (extractStridedSlice S27 ![53] cg slices_S1225_S27_53) shapeCasts_S27_S3x3x3) transposes_S3x3x3_S3x3x3_2_0_1) shapeCasts_S3x3x3_S3x9
/-- The matrix after block 5 is written at (1, 21). -/
def M6 (cg : (⟨S1225, .f32⟩ : BufTy).Contents (Elt Ideal)) : (⟨S25x259, .f32⟩ : BufTy).Contents (Elt Ideal) :=
  Host.scatter scatter_S25x259_S2_S3x9_01_n_01_0 (fun _ b => b) (M5 cg) (sIdx 1#32 21#32) (B5 cg)

/-- Block 6: the 3·3·5 coefficients from 80 on, as [5, 3·3] with the harmonic index leading. -/
def B6 (cg : (⟨S1225, .f32⟩ : BufTy).Contents (Elt Ideal)) : (⟨S5x9, .f32⟩ : BufTy).Contents (Elt Ideal) :=
  shapeCast S5x9 (transpose S5x3x3 [2, 0, 1] (shapeCast S3x3x5 (extractStridedSlice S45 ![80] cg slices_S1225_S45_80) shapeCasts_S45_S3x3x5) transposes_S3x3x5_S5x3x3_2_0_1) shapeCasts_S5x3x3_S5x9
/-- The matrix after block 6 is written at (4, 30). -/
def M7 (cg : (⟨S1225, .f32⟩ : BufTy).Contents (Elt Ideal)) : (⟨S25x259, .f32⟩ : BufTy).Contents (Elt Ideal) :=
  Host.scatter scatter_S25x259_S2_S5x9_01_n_01_0 (fun _ b => b) (M6 cg) (sIdx 4#32 30#32) (B6 cg)

/-- Block 7: the 3·5·3 coefficients from 125 on, as [3, 3·5] with the harmonic index leading. -/
def B7 (cg : (⟨S1225, .f32⟩ : BufTy).Contents (Elt Ideal)) : (⟨S3x15, .f32⟩ : BufTy).Contents (Elt Ideal) :=
  shapeCast S3x15 (transpose S3x3x5 [2, 0, 1] (shapeCast S3x5x3 (extractStridedSlice S45 ![125] cg slices_S1225_S45_125) shapeCasts_S45_S3x5x3) transposes_S3x5x3_S3x3x5_2_0_1) shapeCasts_S3x3x5_S3x15
/-- The matrix after block 7 is written at (1, 39). -/
def M8 (cg : (⟨S1225, .f32⟩ : BufTy).Contents (Elt Ideal)) : (⟨S25x259, .f32⟩ : BufTy).Contents (Elt Ideal) :=
  Host.scatter scatter_S25x259_S2_S3x15_01_n_01_0 (fun _ b => b) (M7 cg) (sIdx 1#32 39#32) (B7 cg)

/-- Block 8: the 3·5·5 coefficients from 170 on, as [5, 3·5] with the harmonic index leading. -/
def B8 (cg : (⟨S1225, .f32⟩ : BufTy).Contents (Elt Ideal)) : (⟨S5x15, .f32⟩ : BufTy).Contents (Elt Ideal) :=
  shapeCast S5x15 (transpose S5x3x5 [2, 0, 1] (shapeCast S3x5x5 (extractStridedSlice S75 ![170] cg slices_S1225_S75_170) shapeCasts_S75_S3x5x5) transposes_S3x5x5_S5x3x5_2_0_1) shapeCasts_S5x3x5_S5x15
/-- The matrix after block 8 is written at (4, 54). -/
def M9 (cg : (⟨S1225, .f32⟩ : BufTy).Contents (Elt Ideal)) : (⟨S25x259, .f32⟩ : BufTy).Contents (Elt Ideal) :=
  Host.scatter scatter_S25x259_S2_S5x15_01_n_01_0 (fun _ b => b) (M8 cg) (sIdx 4#32 54#32) (B8 cg)

/-- Block 9: the 3·5·7 coefficients from 245 on, as [7, 3·5] with the harmonic index leading. -/
def B9 (cg : (⟨S1225, .f32⟩ : BufTy).Contents (Elt Ideal)) : (⟨S7x15, .f32⟩ : BufTy).Contents (Elt Ideal) :=
  shapeCast S7x15 (transpose S7x3x5 [2, 0, 1] (shapeCast S3x5x7 (extractStridedSlice S105 ![245] cg slices_S1225_S105_245) shapeCasts_S105_S3x5x7) transposes_S3x5x7_S7x3x5_2_0_1) shapeCasts_S7x3x5_S7x15
/-- The matrix after block 9 is written at (9, 69). -/
def M10 (cg : (⟨S1225, .f32⟩ : BufTy).Contents (Elt Ideal)) : (⟨S25x259, .f32⟩ : BufTy).Contents (Elt Ideal) :=
  Host.scatter scatter_S25x259_S2_S7x15_01_n_01_0 (fun _ b => b) (M9 cg) (sIdx 9#32 69#32) (B9 cg)

/-- Block 10: the 5·1·5 coefficients from 350 on, as [5, 5·1] with the harmonic index leading. -/
def B10 (cg : (⟨S1225, .f32⟩ : BufTy).Contents (Elt Ideal)) : (⟨S5x5, .f32⟩ : BufTy).Contents (Elt Ideal) :=
  shapeCast S5x5 (transpose S5x5x1 [2, 0, 1] (shapeCast S5x1x5 (extractStridedSlice S25 ![350] cg slices_S1225_S25_350) shapeCasts_S25_S5x1x5) transposes_S5x1x5_S5x5x1_2_0_1) shapeCasts_S5x5x1_S5x5
/-- The matrix after block 10 is written at (4, 84). -/
def M11 (cg : (⟨S1225, .f32⟩ : BufTy).Contents (Elt Ideal)) : (⟨S25x259, .f32⟩ : BufTy).Contents (Elt Ideal) :=
  Host.scatter scatter_S25x259_S2_S5x5_01_n_01_0 (fun _ b => b) (M10 cg) (sIdx 4#32 84#32) (B10 cg)

/-- Block 11: the 5·3·3 coefficients from 375 on, as [3, 5·3] with the harmonic index leading. -/
def B11 (cg : (⟨S1225, .f32⟩ : BufTy).Contents (Elt Ideal)) : (⟨S3x15, .f32⟩ : BufTy).Contents (Elt Ideal) :=
  shapeCast S3x15 (transpose S3x5x3 [2, 0, 1] (shapeCast S5x3x3 (extractStridedSlice S45 ![375] cg slices_S1225_S45_375) shapeCasts_S45_S5x3x3) transposes_S5x3x3_S3x5x3_2_0_1) shapeCasts_S3x5x3_S3x15
/-- The matrix after block 11 is written at (1, 89). -/
def M12 (cg : (⟨S1225, .f32⟩ : BufTy).Contents (Elt Ideal)) : (⟨S25x259, .f32⟩ : BufTy).Contents (Elt Ideal) :=
  Host.scatter scatter_S25x259_S2_S3x15_01_n_01_0 (fun _ b => b) (M11 cg) (sIdx 1#32 89#32) (B11 cg)

/-- Block 12: the 5·3·5 coefficients from 420 on, as [5, 5·3] with the harmonic index leading. -/
def B12 (cg : (⟨S1225, .f32⟩ : BufTy).Contents (Elt Ideal)) : (⟨S5x15, .f32⟩ : BufTy).Contents (Elt Ideal) :=
  shapeCast S5x15 (transpose S5x5x3 [2, 0, 1] (shapeCast S5x3x5 (extractStridedSlice S75 ![420] cg slices_S1225_S75_420) shapeCasts_S75_S5x3x5) transposes_S5x3x5_S5x5x3_2_0_1) shapeCasts_S5x5x3_S5x15
/-- The matrix after block 12 is written at (4, 104). -/
def M13 (cg : (⟨S1225, .f32⟩ : BufTy).Contents (Elt Ideal)) : (⟨S25x259, .f32⟩ : BufTy).Contents (Elt Ideal) :=
  Host.scatter scatter_S25x259_S2_S5x15_01_n_01_0 (fun _ b => b) (M12 cg) (sIdx 4#32 104#32) (B12 cg)

/-- Block 13: the 5·3·7 coefficients from 495 on, as [7, 5·3] with the harmonic index leading. -/
def B13 (cg : (⟨S1225, .f32⟩ : BufTy).Contents (Elt Ideal)) : (⟨S7x15, .f32⟩ : BufTy).Contents (Elt Ideal) :=
  shapeCast S7x15 (transpose S7x5x3 [2, 0, 1] (shapeCast S5x3x7 (extractStridedSlice S105 ![495] cg slices_S1225_S105_495) shapeCasts_S105_S5x3x7) transposes_S5x3x7_S7x5x3_2_0_1) shapeCasts_S7x5x3_S7x15
/-- The matrix after block 13 is written at (9, 119). -/
def M14 (cg : (⟨S1225, .f32⟩ : BufTy).Contents (Elt Ideal)) : (⟨S25x259, .f32⟩ : BufTy).Contents (Elt Ideal) :=
  Host.scatter scatter_S25x259_S2_S7x15_01_n_01_0 (fun _ b => b) (M13 cg) (sIdx 9#32 119#32) (B13 cg)

/-- Block 14: the 5·5·1 coefficients from 600 on, as [1, 5·5] with the harmonic index leading. -/
def B14 (cg : (⟨S1225, .f32⟩ : BufTy).Contents (Elt Ideal)) : (⟨S1x25, .f32⟩ : BufTy).Contents (Elt Ideal) :=
  shapeCast S1x25 (transpose S1x5x5 [2, 0, 1] (shapeCast S5x5x1 (extractStridedSlice S25 ![600] cg slices_S1225_S25_600) shapeCasts_S25_S5x5x1) transposes_S5x5x1_S1x5x5_2_0_1) shapeCasts_S1x5x5_S1x25
/-- The matrix after block 14 is written at (0, 134). -/
def M15 (cg : (⟨S1225, .f32⟩ : BufTy).Contents (Elt Ideal)) : (⟨S25x259, .f32⟩ : BufTy).Contents (Elt Ideal) :=
  Host.scatter scatter_S25x259_S2_S1x25_01_n_01_0 (fun _ b => b) (M14 cg) (sIdx 0#32 134#32) (B14 cg)

/-- Block 15: the 5·5·3 coefficients from 625 on, as [3, 5·5] with the harmonic index leading. -/
def B15 (cg : (⟨S1225, .f32⟩ : BufTy).Contents (Elt Ideal)) : (⟨S3x25, .f32⟩ : BufTy).Contents (Elt Ideal) :=
  shapeCast S3x25 (transpose S3x5x5 [2, 0, 1] (shapeCast S5x5x3 (extractStridedSlice S75 ![625] cg slices_S1225_S75_625) shapeCasts_S75_S5x5x3) transposes_S5x5x3_S3x5x5_2_0_1) shapeCasts_S3x5x5_S3x25
/-- The matrix after block 15 is written at (1, 159). -/
def M16 (cg : (⟨S1225, .f32⟩ : BufTy).Contents (Elt Ideal)) : (⟨S25x259, .f32⟩ : BufTy).Contents (Elt Ideal) :=
  Host.scatter scatter_S25x259_S2_S3x25_01_n_01_0 (fun _ b => b) (M15 cg) (sIdx 1#32 159#32) (B15 cg)

/-- Block 16: the 5·5·5 coefficients from 700 on, as [5, 5·5] with the harmonic index leading. -/
def B16 (cg : (⟨S1225, .f32⟩ : BufTy).Contents (Elt Ideal)) : (⟨S5x25, .f32⟩ : BufTy).Contents (Elt Ideal) :=
  shapeCast S5x25 (transpose S5x5x5 [2, 0, 1] (shapeCast S5x5x5 (extractStridedSlice S125 ![700] cg slices_S1225_S125_700) shapeCasts_S125_S5x5x5) transposes_S5x5x5_S5x5x5_2_0_1) shapeCasts_S5x5x5_S5x25
/-- The matrix after block 16 is written at (4, 184). -/
def M17 (cg : (⟨S1225, .f32⟩ : BufTy).Contents (Elt Ideal)) : (⟨S25x259, .f32⟩ : BufTy).Contents (Elt Ideal) :=
  Host.scatter scatter_S25x259_S2_S5x25_01_n_01_0 (fun _ b => b) (M16 cg) (sIdx 4#32 184#32) (B16 cg)

/-- Block 17: the 5·5·7 coefficients from 825 on, as [7, 5·5] with the harmonic index leading. -/
def B17 (cg : (⟨S1225, .f32⟩ : BufTy).Contents (Elt Ideal)) : (⟨S7x25, .f32⟩ : BufTy).Contents (Elt Ideal) :=
  shapeCast S7x25 (transpose S7x5x5 [2, 0, 1] (shapeCast S5x5x7 (extractStridedSlice S175 ![825] cg slices_S1225_S175_825) shapeCasts_S175_S5x5x7) transposes_S5x5x7_S7x5x5_2_0_1) shapeCasts_S7x5x5_S7x25
/-- The matrix after block 17 is written at (9, 209). -/
def M18 (cg : (⟨S1225, .f32⟩ : BufTy).Contents (Elt Ideal)) : (⟨S25x259, .f32⟩ : BufTy).Contents (Elt Ideal) :=
  Host.scatter scatter_S25x259_S2_S7x25_01_n_01_0 (fun _ b => b) (M17 cg) (sIdx 9#32 209#32) (B17 cg)

/-- Block 18: the 5·5·9 coefficients from 1000 on, as [9, 5·5] with the harmonic index leading. -/
def B18 (cg : (⟨S1225, .f32⟩ : BufTy).Contents (Elt Ideal)) : (⟨S9x25, .f32⟩ : BufTy).Contents (Elt Ideal) :=
  shapeCast S9x25 (transpose S9x5x5 [2, 0, 1] (shapeCast S5x5x9 (extractStridedSlice S225 ![1000] cg slices_S1225_S225_1000) shapeCasts_S225_S5x5x9) transposes_S5x5x9_S9x5x5_2_0_1) shapeCasts_S9x5x5_S9x25
/-- The matrix after block 18 is written at (16, 234). -/
def M19 (cg : (⟨S1225, .f32⟩ : BufTy).Contents (Elt Ideal)) : (⟨S25x259, .f32⟩ : BufTy).Contents (Elt Ideal) :=
  Host.scatter scatter_S25x259_S2_S9x25_01_n_01_0 (fun _ b => b) (M18 cg) (sIdx 16#32 234#32) (B18 cg)

/-! ## The program's matrix is the last of these -/

set_option maxHeartbeats 4000000 in
/-- The lines before the region, run from any buffer contents `W`: the matrix buffer holds the nineteen blocks written in
    order into zeros, each block cut from the coefficient vector held in `W`. -/
theorem cbig_after (W : Valuation τ sig (Elt Ideal)) :
    StableHlo.after (hostOps0 (F := Ideal)) W (Proc.devRef .tc main_v159) = M19 (W (Proc.devRef .tc main_arg3)) := by
  after_results_simp
  rfl

/-- The matrix the region finds, in terms of the launch's coefficient vector. -/
theorem V_cbig (m : (ℓ : Loc nD τ sig) → Buf (Elt Ideal) ℓ) (c : Dev nD) :
    V m c main_v159 = M19 (m ((c : Thread nD τ).loc main_arg3)) := by
  show StableHlo.after (List.flatten [hostOps0]) _ _ = _
  simp only [List.flatten_cons, List.flatten_nil, List.append_nil]
  exact cbig_after _

/-! ## A block of coefficients read at an index -/

/-- The slice of a vector from `off`, regrouped as [dO, dI, dF], its last axis moved to the front, regrouped as
    [dF, dO·dI]: entry (f, o·dI + i) is entry off + (o·dI + i)·dF + f of the vector. -/
theorem block_apply {α : Type} {N n dO dI dF w off : Nat} (x : (⟨1, ![N]⟩ : Shape).Idx → α)
    (hs : (⟨1, ![N]⟩ : Shape).Slices ![off] ⟨1, ![n]⟩)
    (hc1 : (⟨1, ![n]⟩ : Shape).ShapeCasts ⟨3, ![dO, dI, dF]⟩)
    (ht : (⟨3, ![dO, dI, dF]⟩ : Shape).Transposes [2, 0, 1] ⟨3, ![dF, dO, dI]⟩)
    (hc2 : (⟨3, ![dF, dO, dI]⟩ : Shape).ShapeCasts ⟨2, ![dF, w]⟩) (hw : w = dO * dI) (hn : n = dO * dI * dF)
    (f : Fin dF) (c : Fin w) (o : Fin dO) (i : Fin dI) (hc : c.val = o.val * dI + i.val)
    (k : (⟨1, ![N]⟩ : Shape).Idx) (hk : (k 0).val = off + (c.val * dF + f.val)) :
    shapeCast ⟨2, ![dF, w]⟩ (transpose ⟨3, ![dF, dO, dI]⟩ [2, 0, 1]
      (shapeCast ⟨3, ![dO, dI, dF]⟩ (extractStridedSlice ⟨1, ![n]⟩ ![off] x hs) hc1) ht) hc2 (ix2 f c) = x k := by
  have hlt : c.val * dF + f.val < n := by
    have h1 := c.isLt
    have h2 := f.isLt
    subst hn hw
    calc c.val * dF + f.val < c.val * dF + dF := by omega
      _ = (c.val + 1) * dF := by ring
      _ ≤ (dO * dI) * dF := Nat.mul_le_mul_right _ (by omega)
  refine (shapeCast_apply _ hc2 (ix2 f c) (ix3 f o i) ?_).trans ?_
  · rw [Shape.rowMajor_val_three, Shape.rowMajor_val_two]
    show (f.val * dO + o.val) * dI + i.val = f.val * w + c.val
    subst hw
    rw [hc]
    ring
  refine (transpose_apply [2, 0, 1] _ ht (ix3 f o i) (ix3 o i f) fun b => ?_).trans ?_
  · match b with
    | ⟨0, _⟩ => rfl
    | ⟨1, _⟩ => rfl
    | ⟨2, _⟩ => rfl
  refine (shapeCast_apply _ hc1 (ix3 o i f) (ix1 ⟨c.val * dF + f.val, hlt⟩) ?_).trans ?_
  · rw [Shape.rowMajor_val_three, Shape.rowMajor_val_one]
    show c.val * dF + f.val = (o.val * dI + i.val) * dF + f.val
    rw [hc]
  refine extractStridedSlice_apply _ x hs _ k fun a => ?_
  match a with
  | ⟨0, _⟩ => exact hk

/-! ## The start index -/

theorem sIdx_0 (r0 c0 : BitVec 32) : sIdx r0 c0 (ix1 (0 : Fin 2)) = r0 := rfl
theorem sIdx_1 (r0 c0 : BitVec 32) : sIdx r0 c0 (ix1 (1 : Fin 2)) = c0 := rfl

/-! ## One written block read at an index, by the column -/

section Place
variable {α : Type} {w : Nat} {R C a b : Nat} (wf : ScatterDims.WF ⟨2, ![R, C]⟩ ⟨1, ![2]⟩ ⟨2, ![a, b]⟩ [0, 1] [] [0, 1] 0)

/-- A column outside the written block's columns keeps the operand. -/
theorem place_col_miss (D : ScatterDims ⟨2, ![R, C]⟩ ⟨1, ![2]⟩ ⟨2, ![a, b]⟩) (hD : D = placeDims R C a b wf)
    (x : (⟨2, ![R, C]⟩ : Shape).Idx → α) (idx : IVec ⟨1, ![2]⟩ w) (upd : (⟨2, ![a, b]⟩ : Shape).Idx → α)
    (r0 c0 : Nat) (h0 : (idx (ix1 (0 : Fin 2))).toInt = (r0 : Int)) (h1 : (idx (ix1 (1 : Fin 2))).toInt = (c0 : Int))
    (hR : r0 + a ≤ R) (hC : c0 + b ≤ C) (p : Fin R) (q : Fin C) (hq : ¬(c0 ≤ q.val ∧ q.val < c0 + b)) :
    Host.scatter D (fun _ b => b) x idx upd (ix2 p q) = x (ix2 p q) := by
  subst hD
  rw [place_apply wf x idx upd r0 c0 h0 h1 hR hC p q, dif_neg fun h => hq h.2]

/-- A column among the written block's columns, the operand being `z` there: the block on its rows, `z` elsewhere. -/
theorem place_col_hit (D : ScatterDims ⟨2, ![R, C]⟩ ⟨1, ![2]⟩ ⟨2, ![a, b]⟩) (hD : D = placeDims R C a b wf)
    (x : (⟨2, ![R, C]⟩ : Shape).Idx → α) (idx : IVec ⟨1, ![2]⟩ w) (upd : (⟨2, ![a, b]⟩ : Shape).Idx → α)
    (r0 c0 : Nat) (h0 : (idx (ix1 (0 : Fin 2))).toInt = (r0 : Int)) (h1 : (idx (ix1 (1 : Fin 2))).toInt = (c0 : Int))
    (hR : r0 + a ≤ R) (hC : c0 + b ≤ C) (p : Fin R) (q : Fin C) (hq : c0 ≤ q.val ∧ q.val < c0 + b)
    (z : α) (hz : x (ix2 p q) = z) :
    Host.scatter D (fun _ b => b) x idx upd (ix2 p q)
      = if h : r0 ≤ p.val ∧ p.val < r0 + a then upd (ix2 ⟨p.val - r0, by omega⟩ ⟨q.val - c0, by omega⟩) else z := by
  subst hD
  rw [place_apply wf x idx upd r0 c0 h0 h1 hR hC p q]
  by_cases hp : r0 ≤ p.val ∧ p.val < r0 + a
  · rw [dif_pos ⟨hp, hq⟩, dif_pos hp]
  · rw [dif_neg fun h => hp h.1, dif_neg hp]
    exact hz

end Place

/-! ## A row of harmonics against a column of the matrix -/

/-- If, at column `q`, the matrix holds a block's column `c` on the rows [yOff, yOff + dF) and zero elsewhere, a row
    contracted against that column is the sum over the block's rows. -/
theorem sum_block {dF w yOff cyOff cgOff : Nat} (X : (⟨2, ![25, 259]⟩ : Shape).Idx → EReal)
    (B : (⟨2, ![dF, w]⟩ : Shape).Idx → EReal) (cg : Cert.Spec.A1 1225) (hy : yOff + dF ≤ 25)
    (c : Fin w) (q : Fin 259) (hq : q.val = cyOff + c.val)
    (hX : ∀ p : Fin 25, X (ix2 p q)
      = if h : yOff ≤ p.val ∧ p.val < yOff + dF then B (ix2 ⟨p.val - yOff, by omega⟩ ⟨q.val - cyOff, by have := c.isLt; omega⟩) else 0)
    (hB : ∀ f : Fin dF, B (ix2 f c) = Cert.Spec.get1 cg (cgOff + (c.val * dF + f.val)))
    (Yrow : Fin 25 → EReal) :
    ∑ f' : Fin 25, Yrow f' * X (ix2 f' q)
      = ∑ f : Fin dF, Yrow ⟨yOff + f.val, by have := f.isLt; omega⟩ * Cert.Spec.get1 cg (cgOff + (c.val * dF + f.val)) := by
  refine (sum_window hy (fun f' => Yrow f' * X (ix2 f' q)) fun p hp => ?_).trans ?_
  · show Yrow p * X (ix2 p q) = 0
    rw [hX p, dif_neg hp, mul_zero]
  · refine Finset.sum_congr rfl fun f _ => ?_
    show Yrow ⟨yOff + f.val, _⟩ * X (ix2 ⟨yOff + f.val, _⟩ q) = _
    refine congrArg₂ (· * ·) rfl ?_
    have hf := f.isLt
    rw [hX, dif_pos ⟨by show yOff ≤ yOff + f.val; omega, by show yOff + f.val < yOff + dF; omega⟩, ← hB f]
    refine congrArg B ?_
    funext d
    match d with
    | ⟨0, _⟩ => exact Fin.ext (by show yOff + f.val - yOff = f.val; omega)
    | ⟨1, _⟩ => exact Fin.ext (by show q.val - cyOff = c.val; omega)

/-! ## The nineteen writes, one by one

Block k occupies the columns [cyOff k, cyOff (k + 1)). A write leaves every column outside its own block's alone
(`M_miss_k`); so the matrix before write k is zero from column cyOff k on (`M_zero_k`), the final matrix agrees with the
matrix before write k on the columns below cyOff k (`M_top_k`), and at a column of block k the final matrix holds the
block on its rows and zero elsewhere (`M_hit_k`). -/

theorem M_zero_0 (p : Fin 25) (q : Fin 259) : M0 (ix2 p q) = 0 := Ideal.ofBits_zero_f32

theorem M_miss_0 (cg : (⟨S1225, .f32⟩ : BufTy).Contents (Elt Ideal)) (p : Fin 25) (q : Fin 259)
    (hq : ¬(0 ≤ q.val ∧ q.val < 0 + 1)) : M1 cg (ix2 p q) = M0 (ix2 p q) :=
  place_col_miss scatter_S25x259_S2_S1x1_01_n_01_0_wf _ rfl _ _ _ 0 0 (by rw [sIdx_0]; rfl) (by rw [sIdx_1]; rfl) (by norm_num) (by norm_num) p q hq
theorem M_zero_1 (cg : (⟨S1225, .f32⟩ : BufTy).Contents (Elt Ideal)) (p : Fin 25) (q : Fin 259) (hq : 1 ≤ q.val) :
    M1 cg (ix2 p q) = 0 :=
  (M_miss_0 cg p q (by omega)).trans (M_zero_0 p q)
theorem M_miss_1 (cg : (⟨S1225, .f32⟩ : BufTy).Contents (Elt Ideal)) (p : Fin 25) (q : Fin 259)
    (hq : ¬(1 ≤ q.val ∧ q.val < 1 + 3)) : M2 cg (ix2 p q) = M1 cg (ix2 p q) :=
  place_col_miss scatter_S25x259_S2_S3x3_01_n_01_0_wf _ rfl _ _ _ 1 1 (by rw [sIdx_0]; rfl) (by rw [sIdx_1]; rfl) (by norm_num) (by norm_num) p q hq
theorem M_zero_2 (cg : (⟨S1225, .f32⟩ : BufTy).Contents (Elt Ideal)) (p : Fin 25) (q : Fin 259) (hq : 4 ≤ q.val) :
    M2 cg (ix2 p q) = 0 :=
  (M_miss_1 cg p q (by omega)).trans (M_zero_1 cg p q (by omega))
theorem M_miss_2 (cg : (⟨S1225, .f32⟩ : BufTy).Contents (Elt Ideal)) (p : Fin 25) (q : Fin 259)
    (hq : ¬(4 ≤ q.val ∧ q.val < 4 + 5)) : M3 cg (ix2 p q) = M2 cg (ix2 p q) :=
  place_col_miss scatter_S25x259_S2_S5x5_01_n_01_0_wf _ rfl _ _ _ 4 4 (by rw [sIdx_0]; rfl) (by rw [sIdx_1]; rfl) (by norm_num) (by norm_num) p q hq
theorem M_zero_3 (cg : (⟨S1225, .f32⟩ : BufTy).Contents (Elt Ideal)) (p : Fin 25) (q : Fin 259) (hq : 9 ≤ q.val) :
    M3 cg (ix2 p q) = 0 :=
  (M_miss_2 cg p q (by omega)).trans (M_zero_2 cg p q (by omega))
theorem M_miss_3 (cg : (⟨S1225, .f32⟩ : BufTy).Contents (Elt Ideal)) (p : Fin 25) (q : Fin 259)
    (hq : ¬(9 ≤ q.val ∧ q.val < 9 + 3)) : M4 cg (ix2 p q) = M3 cg (ix2 p q) :=
  place_col_miss scatter_S25x259_S2_S3x3_01_n_01_0_wf _ rfl _ _ _ 1 9 (by rw [sIdx_0]; rfl) (by rw [sIdx_1]; rfl) (by norm_num) (by norm_num) p q hq
theorem M_zero_4 (cg : (⟨S1225, .f32⟩ : BufTy).Contents (Elt Ideal)) (p : Fin 25) (q : Fin 259) (hq : 12 ≤ q.val) :
    M4 cg (ix2 p q) = 0 :=
  (M_miss_3 cg p q (by omega)).trans (M_zero_3 cg p q (by omega))
theorem M_miss_4 (cg : (⟨S1225, .f32⟩ : BufTy).Contents (Elt Ideal)) (p : Fin 25) (q : Fin 259)
    (hq : ¬(12 ≤ q.val ∧ q.val < 12 + 9)) : M5 cg (ix2 p q) = M4 cg (ix2 p q) :=
  place_col_miss scatter_S25x259_S2_S1x9_01_n_01_0_wf _ rfl _ _ _ 0 12 (by rw [sIdx_0]; rfl) (by rw [sIdx_1]; rfl) (by norm_num) (by norm_num) p q hq
theorem M_zero_5 (cg : (⟨S1225, .f32⟩ : BufTy).Contents (Elt Ideal)) (p : Fin 25) (q : Fin 259) (hq : 21 ≤ q.val) :
    M5 cg (ix2 p q) = 0 :=
  (M_miss_4 cg p q (by omega)).trans (M_zero_4 cg p q (by omega))
theorem M_miss_5 (cg : (⟨S1225, .f32⟩ : BufTy).Contents (Elt Ideal)) (p : Fin 25) (q : Fin 259)
    (hq : ¬(21 ≤ q.val ∧ q.val < 21 + 9)) : M6 cg (ix2 p q) = M5 cg (ix2 p q) :=
  place_col_miss scatter_S25x259_S2_S3x9_01_n_01_0_wf _ rfl _ _ _ 1 21 (by rw [sIdx_0]; rfl) (by rw [sIdx_1]; rfl) (by norm_num) (by norm_num) p q hq
theorem M_zero_6 (cg : (⟨S1225, .f32⟩ : BufTy).Contents (Elt Ideal)) (p : Fin 25) (q : Fin 259) (hq : 30 ≤ q.val) :
    M6 cg (ix2 p q) = 0 :=
  (M_miss_5 cg p q (by omega)).trans (M_zero_5 cg p q (by omega))
theorem M_miss_6 (cg : (⟨S1225, .f32⟩ : BufTy).Contents (Elt Ideal)) (p : Fin 25) (q : Fin 259)
    (hq : ¬(30 ≤ q.val ∧ q.val < 30 + 9)) : M7 cg (ix2 p q) = M6 cg (ix2 p q) :=
  place_col_miss scatter_S25x259_S2_S5x9_01_n_01_0_wf _ rfl _ _ _ 4 30 (by rw [sIdx_0]; rfl) (by rw [sIdx_1]; rfl) (by norm_num) (by norm_num) p q hq
theorem M_zero_7 (cg : (⟨S1225, .f32⟩ : BufTy).Contents (Elt Ideal)) (p : Fin 25) (q : Fin 259) (hq : 39 ≤ q.val) :
    M7 cg (ix2 p q) = 0 :=
  (M_miss_6 cg p q (by omega)).trans (M_zero_6 cg p q (by omega))
theorem M_miss_7 (cg : (⟨S1225, .f32⟩ : BufTy).Contents (Elt Ideal)) (p : Fin 25) (q : Fin 259)
    (hq : ¬(39 ≤ q.val ∧ q.val < 39 + 15)) : M8 cg (ix2 p q) = M7 cg (ix2 p q) :=
  place_col_miss scatter_S25x259_S2_S3x15_01_n_01_0_wf _ rfl _ _ _ 1 39 (by rw [sIdx_0]; rfl) (by rw [sIdx_1]; rfl) (by norm_num) (by norm_num) p q hq
theorem M_zero_8 (cg : (⟨S1225, .f32⟩ : BufTy).Contents (Elt Ideal)) (p : Fin 25) (q : Fin 259) (hq : 54 ≤ q.val) :
    M8 cg (ix2 p q) = 0 :=
  (M_miss_7 cg p q (by omega)).trans (M_zero_7 cg p q (by omega))
theorem M_miss_8 (cg : (⟨S1225, .f32⟩ : BufTy).Contents (Elt Ideal)) (p : Fin 25) (q : Fin 259)
    (hq : ¬(54 ≤ q.val ∧ q.val < 54 + 15)) : M9 cg (ix2 p q) = M8 cg (ix2 p q) :=
  place_col_miss scatter_S25x259_S2_S5x15_01_n_01_0_wf _ rfl _ _ _ 4 54 (by rw [sIdx_0]; rfl) (by rw [sIdx_1]; rfl) (by norm_num) (by norm_num) p q hq
theorem M_zero_9 (cg : (⟨S1225, .f32⟩ : BufTy).Contents (Elt Ideal)) (p : Fin 25) (q : Fin 259) (hq : 69 ≤ q.val) :
    M9 cg (ix2 p q) = 0 :=
  (M_miss_8 cg p q (by omega)).trans (M_zero_8 cg p q (by omega))
theorem M_miss_9 (cg : (⟨S1225, .f32⟩ : BufTy).Contents (Elt Ideal)) (p : Fin 25) (q : Fin 259)
    (hq : ¬(69 ≤ q.val ∧ q.val < 69 + 15)) : M10 cg (ix2 p q) = M9 cg (ix2 p q) :=
  place_col_miss scatter_S25x259_S2_S7x15_01_n_01_0_wf _ rfl _ _ _ 9 69 (by rw [sIdx_0]; rfl) (by rw [sIdx_1]; rfl) (by norm_num) (by norm_num) p q hq
theorem M_zero_10 (cg : (⟨S1225, .f32⟩ : BufTy).Contents (Elt Ideal)) (p : Fin 25) (q : Fin 259) (hq : 84 ≤ q.val) :
    M10 cg (ix2 p q) = 0 :=
  (M_miss_9 cg p q (by omega)).trans (M_zero_9 cg p q (by omega))
theorem M_miss_10 (cg : (⟨S1225, .f32⟩ : BufTy).Contents (Elt Ideal)) (p : Fin 25) (q : Fin 259)
    (hq : ¬(84 ≤ q.val ∧ q.val < 84 + 5)) : M11 cg (ix2 p q) = M10 cg (ix2 p q) :=
  place_col_miss scatter_S25x259_S2_S5x5_01_n_01_0_wf _ rfl _ _ _ 4 84 (by rw [sIdx_0]; rfl) (by rw [sIdx_1]; rfl) (by norm_num) (by norm_num) p q hq
theorem M_zero_11 (cg : (⟨S1225, .f32⟩ : BufTy).Contents (Elt Ideal)) (p : Fin 25) (q : Fin 259) (hq : 89 ≤ q.val) :
    M11 cg (ix2 p q) = 0 :=
  (M_miss_10 cg p q (by omega)).trans (M_zero_10 cg p q (by omega))
theorem M_miss_11 (cg : (⟨S1225, .f32⟩ : BufTy).Contents (Elt Ideal)) (p : Fin 25) (q : Fin 259)
    (hq : ¬(89 ≤ q.val ∧ q.val < 89 + 15)) : M12 cg (ix2 p q) = M11 cg (ix2 p q) :=
  place_col_miss scatter_S25x259_S2_S3x15_01_n_01_0_wf _ rfl _ _ _ 1 89 (by rw [sIdx_0]; rfl) (by rw [sIdx_1]; rfl) (by norm_num) (by norm_num) p q hq
theorem M_zero_12 (cg : (⟨S1225, .f32⟩ : BufTy).Contents (Elt Ideal)) (p : Fin 25) (q : Fin 259) (hq : 104 ≤ q.val) :
    M12 cg (ix2 p q) = 0 :=
  (M_miss_11 cg p q (by omega)).trans (M_zero_11 cg p q (by omega))
theorem M_miss_12 (cg : (⟨S1225, .f32⟩ : BufTy).Contents (Elt Ideal)) (p : Fin 25) (q : Fin 259)
    (hq : ¬(104 ≤ q.val ∧ q.val < 104 + 15)) : M13 cg (ix2 p q) = M12 cg (ix2 p q) :=
  place_col_miss scatter_S25x259_S2_S5x15_01_n_01_0_wf _ rfl _ _ _ 4 104 (by rw [sIdx_0]; rfl) (by rw [sIdx_1]; rfl) (by norm_num) (by norm_num) p q hq
theorem M_zero_13 (cg : (⟨S1225, .f32⟩ : BufTy).Contents (Elt Ideal)) (p : Fin 25) (q : Fin 259) (hq : 119 ≤ q.val) :
    M13 cg (ix2 p q) = 0 :=
  (M_miss_12 cg p q (by omega)).trans (M_zero_12 cg p q (by omega))
theorem M_miss_13 (cg : (⟨S1225, .f32⟩ : BufTy).Contents (Elt Ideal)) (p : Fin 25) (q : Fin 259)
    (hq : ¬(119 ≤ q.val ∧ q.val < 119 + 15)) : M14 cg (ix2 p q) = M13 cg (ix2 p q) :=
  place_col_miss scatter_S25x259_S2_S7x15_01_n_01_0_wf _ rfl _ _ _ 9 119 (by rw [sIdx_0]; rfl) (by rw [sIdx_1]; rfl) (by norm_num) (by norm_num) p q hq
theorem M_zero_14 (cg : (⟨S1225, .f32⟩ : BufTy).Contents (Elt Ideal)) (p : Fin 25) (q : Fin 259) (hq : 134 ≤ q.val) :
    M14 cg (ix2 p q) = 0 :=
  (M_miss_13 cg p q (by omega)).trans (M_zero_13 cg p q (by omega))
theorem M_miss_14 (cg : (⟨S1225, .f32⟩ : BufTy).Contents (Elt Ideal)) (p : Fin 25) (q : Fin 259)
    (hq : ¬(134 ≤ q.val ∧ q.val < 134 + 25)) : M15 cg (ix2 p q) = M14 cg (ix2 p q) :=
  place_col_miss scatter_S25x259_S2_S1x25_01_n_01_0_wf _ rfl _ _ _ 0 134 (by rw [sIdx_0]; rfl) (by rw [sIdx_1]; rfl) (by norm_num) (by norm_num) p q hq
theorem M_zero_15 (cg : (⟨S1225, .f32⟩ : BufTy).Contents (Elt Ideal)) (p : Fin 25) (q : Fin 259) (hq : 159 ≤ q.val) :
    M15 cg (ix2 p q) = 0 :=
  (M_miss_14 cg p q (by omega)).trans (M_zero_14 cg p q (by omega))
theorem M_miss_15 (cg : (⟨S1225, .f32⟩ : BufTy).Contents (Elt Ideal)) (p : Fin 25) (q : Fin 259)
    (hq : ¬(159 ≤ q.val ∧ q.val < 159 + 25)) : M16 cg (ix2 p q) = M15 cg (ix2 p q) :=
  place_col_miss scatter_S25x259_S2_S3x25_01_n_01_0_wf _ rfl _ _ _ 1 159 (by rw [sIdx_0]; rfl) (by rw [sIdx_1]; rfl) (by norm_num) (by norm_num) p q hq
theorem M_zero_16 (cg : (⟨S1225, .f32⟩ : BufTy).Contents (Elt Ideal)) (p : Fin 25) (q : Fin 259) (hq : 184 ≤ q.val) :
    M16 cg (ix2 p q) = 0 :=
  (M_miss_15 cg p q (by omega)).trans (M_zero_15 cg p q (by omega))
theorem M_miss_16 (cg : (⟨S1225, .f32⟩ : BufTy).Contents (Elt Ideal)) (p : Fin 25) (q : Fin 259)
    (hq : ¬(184 ≤ q.val ∧ q.val < 184 + 25)) : M17 cg (ix2 p q) = M16 cg (ix2 p q) :=
  place_col_miss scatter_S25x259_S2_S5x25_01_n_01_0_wf _ rfl _ _ _ 4 184 (by rw [sIdx_0]; rfl) (by rw [sIdx_1]; rfl) (by norm_num) (by norm_num) p q hq
theorem M_zero_17 (cg : (⟨S1225, .f32⟩ : BufTy).Contents (Elt Ideal)) (p : Fin 25) (q : Fin 259) (hq : 209 ≤ q.val) :
    M17 cg (ix2 p q) = 0 :=
  (M_miss_16 cg p q (by omega)).trans (M_zero_16 cg p q (by omega))
theorem M_miss_17 (cg : (⟨S1225, .f32⟩ : BufTy).Contents (Elt Ideal)) (p : Fin 25) (q : Fin 259)
    (hq : ¬(209 ≤ q.val ∧ q.val < 209 + 25)) : M18 cg (ix2 p q) = M17 cg (ix2 p q) :=
  place_col_miss scatter_S25x259_S2_S7x25_01_n_01_0_wf _ rfl _ _ _ 9 209 (by rw [sIdx_0]; rfl) (by rw [sIdx_1]; rfl) (by norm_num) (by norm_num) p q hq
theorem M_zero_18 (cg : (⟨S1225, .f32⟩ : BufTy).Contents (Elt Ideal)) (p : Fin 25) (q : Fin 259) (hq : 234 ≤ q.val) :
    M18 cg (ix2 p q) = 0 :=
  (M_miss_17 cg p q (by omega)).trans (M_zero_17 cg p q (by omega))
theorem M_miss_18 (cg : (⟨S1225, .f32⟩ : BufTy).Contents (Elt Ideal)) (p : Fin 25) (q : Fin 259)
    (hq : ¬(234 ≤ q.val ∧ q.val < 234 + 25)) : M19 cg (ix2 p q) = M18 cg (ix2 p q) :=
  place_col_miss scatter_S25x259_S2_S9x25_01_n_01_0_wf _ rfl _ _ _ 16 234 (by rw [sIdx_0]; rfl) (by rw [sIdx_1]; rfl) (by norm_num) (by norm_num) p q hq

theorem M_top_18 (cg : (⟨S1225, .f32⟩ : BufTy).Contents (Elt Ideal)) (p : Fin 25) (q : Fin 259) (hq : q.val < 234) :
    M19 cg (ix2 p q) = M18 cg (ix2 p q) :=
  M_miss_18 cg p q (by omega)
theorem M_top_17 (cg : (⟨S1225, .f32⟩ : BufTy).Contents (Elt Ideal)) (p : Fin 25) (q : Fin 259) (hq : q.val < 209) :
    M19 cg (ix2 p q) = M17 cg (ix2 p q) :=
  (M_top_18 cg p q (by omega)).trans (M_miss_17 cg p q (by omega))
theorem M_top_16 (cg : (⟨S1225, .f32⟩ : BufTy).Contents (Elt Ideal)) (p : Fin 25) (q : Fin 259) (hq : q.val < 184) :
    M19 cg (ix2 p q) = M16 cg (ix2 p q) :=
  (M_top_17 cg p q (by omega)).trans (M_miss_16 cg p q (by omega))
theorem M_top_15 (cg : (⟨S1225, .f32⟩ : BufTy).Contents (Elt Ideal)) (p : Fin 25) (q : Fin 259) (hq : q.val < 159) :
    M19 cg (ix2 p q) = M15 cg (ix2 p q) :=
  (M_top_16 cg p q (by omega)).trans (M_miss_15 cg p q (by omega))
theorem M_top_14 (cg : (⟨S1225, .f32⟩ : BufTy).Contents (Elt Ideal)) (p : Fin 25) (q : Fin 259) (hq : q.val < 134) :
    M19 cg (ix2 p q) = M14 cg (ix2 p q) :=
  (M_top_15 cg p q (by omega)).trans (M_miss_14 cg p q (by omega))
theorem M_top_13 (cg : (⟨S1225, .f32⟩ : BufTy).Contents (Elt Ideal)) (p : Fin 25) (q : Fin 259) (hq : q.val < 119) :
    M19 cg (ix2 p q) = M13 cg (ix2 p q) :=
  (M_top_14 cg p q (by omega)).trans (M_miss_13 cg p q (by omega))
theorem M_top_12 (cg : (⟨S1225, .f32⟩ : BufTy).Contents (Elt Ideal)) (p : Fin 25) (q : Fin 259) (hq : q.val < 104) :
    M19 cg (ix2 p q) = M12 cg (ix2 p q) :=
  (M_top_13 cg p q (by omega)).trans (M_miss_12 cg p q (by omega))
theorem M_top_11 (cg : (⟨S1225, .f32⟩ : BufTy).Contents (Elt Ideal)) (p : Fin 25) (q : Fin 259) (hq : q.val < 89) :
    M19 cg (ix2 p q) = M11 cg (ix2 p q) :=
  (M_top_12 cg p q (by omega)).trans (M_miss_11 cg p q (by omega))
theorem M_top_10 (cg : (⟨S1225, .f32⟩ : BufTy).Contents (Elt Ideal)) (p : Fin 25) (q : Fin 259) (hq : q.val < 84) :
    M19 cg (ix2 p q) = M10 cg (ix2 p q) :=
  (M_top_11 cg p q (by omega)).trans (M_miss_10 cg p q (by omega))
theorem M_top_9 (cg : (⟨S1225, .f32⟩ : BufTy).Contents (Elt Ideal)) (p : Fin 25) (q : Fin 259) (hq : q.val < 69) :
    M19 cg (ix2 p q) = M9 cg (ix2 p q) :=
  (M_top_10 cg p q (by omega)).trans (M_miss_9 cg p q (by omega))
theorem M_top_8 (cg : (⟨S1225, .f32⟩ : BufTy).Contents (Elt Ideal)) (p : Fin 25) (q : Fin 259) (hq : q.val < 54) :
    M19 cg (ix2 p q) = M8 cg (ix2 p q) :=
  (M_top_9 cg p q (by omega)).trans (M_miss_8 cg p q (by omega))
theorem M_top_7 (cg : (⟨S1225, .f32⟩ : BufTy).Contents (Elt Ideal)) (p : Fin 25) (q : Fin 259) (hq : q.val < 39) :
    M19 cg (ix2 p q) = M7 cg (ix2 p q) :=
  (M_top_8 cg p q (by omega)).trans (M_miss_7 cg p q (by omega))
theorem M_top_6 (cg : (⟨S1225, .f32⟩ : BufTy).Contents (Elt Ideal)) (p : Fin 25) (q : Fin 259) (hq : q.val < 30) :
    M19 cg (ix2 p q) = M6 cg (ix2 p q) :=
  (M_top_7 cg p q (by omega)).trans (M_miss_6 cg p q (by omega))
theorem M_top_5 (cg : (⟨S1225, .f32⟩ : BufTy).Contents (Elt Ideal)) (p : Fin 25) (q : Fin 259) (hq : q.val < 21) :
    M19 cg (ix2 p q) = M5 cg (ix2 p q) :=
  (M_top_6 cg p q (by omega)).trans (M_miss_5 cg p q (by omega))
theorem M_top_4 (cg : (⟨S1225, .f32⟩ : BufTy).Contents (Elt Ideal)) (p : Fin 25) (q : Fin 259) (hq : q.val < 12) :
    M19 cg (ix2 p q) = M4 cg (ix2 p q) :=
  (M_top_5 cg p q (by omega)).trans (M_miss_4 cg p q (by omega))
theorem M_top_3 (cg : (⟨S1225, .f32⟩ : BufTy).Contents (Elt Ideal)) (p : Fin 25) (q : Fin 259) (hq : q.val < 9) :
    M19 cg (ix2 p q) = M3 cg (ix2 p q) :=
  (M_top_4 cg p q (by omega)).trans (M_miss_3 cg p q (by omega))
theorem M_top_2 (cg : (⟨S1225, .f32⟩ : BufTy).Contents (Elt Ideal)) (p : Fin 25) (q : Fin 259) (hq : q.val < 4) :
    M19 cg (ix2 p q) = M2 cg (ix2 p q) :=
  (M_top_3 cg p q (by omega)).trans (M_miss_2 cg p q (by omega))
theorem M_top_1 (cg : (⟨S1225, .f32⟩ : BufTy).Contents (Elt Ideal)) (p : Fin 25) (q : Fin 259) (hq : q.val < 1) :
    M19 cg (ix2 p q) = M1 cg (ix2 p q) :=
  (M_top_2 cg p q (by omega)).trans (M_miss_1 cg p q (by omega))

theorem M_hit_0 (cg : (⟨S1225, .f32⟩ : BufTy).Contents (Elt Ideal)) (p : Fin 25) (q : Fin 259)
    (hq : 0 ≤ q.val ∧ q.val < 0 + 1) :
    M19 cg (ix2 p q) = if h : 0 ≤ p.val ∧ p.val < 0 + 1 then B0 cg (ix2 ⟨p.val - 0, by omega⟩ ⟨q.val - 0, by omega⟩) else 0 :=
  (M_top_1 cg p q (by omega)).trans
    (place_col_hit scatter_S25x259_S2_S1x1_01_n_01_0_wf _ rfl _ _ _ 0 0 (by rw [sIdx_0]; rfl) (by rw [sIdx_1]; rfl) (by norm_num) (by norm_num) p q hq 0
      (M_zero_0 p q))
/-- Block 0 at (f, o·1 + i) is coefficient 0 + (o·1 + i)·1 + f. -/
theorem B0_apply (cg : (⟨S1225, .f32⟩ : BufTy).Contents (Elt Ideal)) (f : Fin 1) (c : Fin 1) (o : Fin 1) (i : Fin 1)
    (hc : c.val = o.val * 1 + i.val) : B0 cg (ix2 f c) = Cert.Spec.get1 cg (0 + (c.val * 1 + f.val)) :=
  (block_apply cg _ _ _ _ rfl rfl f c o i hc (ix1 ⟨0 + (c.val * 1 + f.val), by have := f.isLt; have := c.isLt; omega⟩) rfl).trans
    (Cert.Spec.get1_of cg _ _ rfl)
theorem M_hit_1 (cg : (⟨S1225, .f32⟩ : BufTy).Contents (Elt Ideal)) (p : Fin 25) (q : Fin 259)
    (hq : 1 ≤ q.val ∧ q.val < 1 + 3) :
    M19 cg (ix2 p q) = if h : 1 ≤ p.val ∧ p.val < 1 + 3 then B1 cg (ix2 ⟨p.val - 1, by omega⟩ ⟨q.val - 1, by omega⟩) else 0 :=
  (M_top_2 cg p q (by omega)).trans
    (place_col_hit scatter_S25x259_S2_S3x3_01_n_01_0_wf _ rfl _ _ _ 1 1 (by rw [sIdx_0]; rfl) (by rw [sIdx_1]; rfl) (by norm_num) (by norm_num) p q hq 0
      (M_zero_1 cg p q hq.1))
/-- Block 1 at (f, o·3 + i) is coefficient 1 + (o·3 + i)·3 + f. -/
theorem B1_apply (cg : (⟨S1225, .f32⟩ : BufTy).Contents (Elt Ideal)) (f : Fin 3) (c : Fin 3) (o : Fin 1) (i : Fin 3)
    (hc : c.val = o.val * 3 + i.val) : B1 cg (ix2 f c) = Cert.Spec.get1 cg (1 + (c.val * 3 + f.val)) :=
  (block_apply cg _ _ _ _ rfl rfl f c o i hc (ix1 ⟨1 + (c.val * 3 + f.val), by have := f.isLt; have := c.isLt; omega⟩) rfl).trans
    (Cert.Spec.get1_of cg _ _ rfl)
theorem M_hit_2 (cg : (⟨S1225, .f32⟩ : BufTy).Contents (Elt Ideal)) (p : Fin 25) (q : Fin 259)
    (hq : 4 ≤ q.val ∧ q.val < 4 + 5) :
    M19 cg (ix2 p q) = if h : 4 ≤ p.val ∧ p.val < 4 + 5 then B2 cg (ix2 ⟨p.val - 4, by omega⟩ ⟨q.val - 4, by omega⟩) else 0 :=
  (M_top_3 cg p q (by omega)).trans
    (place_col_hit scatter_S25x259_S2_S5x5_01_n_01_0_wf _ rfl _ _ _ 4 4 (by rw [sIdx_0]; rfl) (by rw [sIdx_1]; rfl) (by norm_num) (by norm_num) p q hq 0
      (M_zero_2 cg p q hq.1))
/-- Block 2 at (f, o·5 + i) is coefficient 10 + (o·5 + i)·5 + f. -/
theorem B2_apply (cg : (⟨S1225, .f32⟩ : BufTy).Contents (Elt Ideal)) (f : Fin 5) (c : Fin 5) (o : Fin 1) (i : Fin 5)
    (hc : c.val = o.val * 5 + i.val) : B2 cg (ix2 f c) = Cert.Spec.get1 cg (10 + (c.val * 5 + f.val)) :=
  (block_apply cg _ _ _ _ rfl rfl f c o i hc (ix1 ⟨10 + (c.val * 5 + f.val), by have := f.isLt; have := c.isLt; omega⟩) rfl).trans
    (Cert.Spec.get1_of cg _ _ rfl)
theorem M_hit_3 (cg : (⟨S1225, .f32⟩ : BufTy).Contents (Elt Ideal)) (p : Fin 25) (q : Fin 259)
    (hq : 9 ≤ q.val ∧ q.val < 9 + 3) :
    M19 cg (ix2 p q) = if h : 1 ≤ p.val ∧ p.val < 1 + 3 then B3 cg (ix2 ⟨p.val - 1, by omega⟩ ⟨q.val - 9, by omega⟩) else 0 :=
  (M_top_4 cg p q (by omega)).trans
    (place_col_hit scatter_S25x259_S2_S3x3_01_n_01_0_wf _ rfl _ _ _ 1 9 (by rw [sIdx_0]; rfl) (by rw [sIdx_1]; rfl) (by norm_num) (by norm_num) p q hq 0
      (M_zero_3 cg p q hq.1))
/-- Block 3 at (f, o·1 + i) is coefficient 35 + (o·1 + i)·3 + f. -/
theorem B3_apply (cg : (⟨S1225, .f32⟩ : BufTy).Contents (Elt Ideal)) (f : Fin 3) (c : Fin 3) (o : Fin 3) (i : Fin 1)
    (hc : c.val = o.val * 1 + i.val) : B3 cg (ix2 f c) = Cert.Spec.get1 cg (35 + (c.val * 3 + f.val)) :=
  (block_apply cg _ _ _ _ rfl rfl f c o i hc (ix1 ⟨35 + (c.val * 3 + f.val), by have := f.isLt; have := c.isLt; omega⟩) rfl).trans
    (Cert.Spec.get1_of cg _ _ rfl)
theorem M_hit_4 (cg : (⟨S1225, .f32⟩ : BufTy).Contents (Elt Ideal)) (p : Fin 25) (q : Fin 259)
    (hq : 12 ≤ q.val ∧ q.val < 12 + 9) :
    M19 cg (ix2 p q) = if h : 0 ≤ p.val ∧ p.val < 0 + 1 then B4 cg (ix2 ⟨p.val - 0, by omega⟩ ⟨q.val - 12, by omega⟩) else 0 :=
  (M_top_5 cg p q (by omega)).trans
    (place_col_hit scatter_S25x259_S2_S1x9_01_n_01_0_wf _ rfl _ _ _ 0 12 (by rw [sIdx_0]; rfl) (by rw [sIdx_1]; rfl) (by norm_num) (by norm_num) p q hq 0
      (M_zero_4 cg p q hq.1))
/-- Block 4 at (f, o·3 + i) is coefficient 44 + (o·3 + i)·1 + f. -/
theorem B4_apply (cg : (⟨S1225, .f32⟩ : BufTy).Contents (Elt Ideal)) (f : Fin 1) (c : Fin 9) (o : Fin 3) (i : Fin 3)
    (hc : c.val = o.val * 3 + i.val) : B4 cg (ix2 f c) = Cert.Spec.get1 cg (44 + (c.val * 1 + f.val)) :=
  (block_apply cg _ _ _ _ rfl rfl f c o i hc (ix1 ⟨44 + (c.val * 1 + f.val), by have := f.isLt; have := c.isLt; omega⟩) rfl).trans
    (Cert.Spec.get1_of cg _ _ rfl)
theorem M_hit_5 (cg : (⟨S1225, .f32⟩ : BufTy).Contents (Elt Ideal)) (p : Fin 25) (q : Fin 259)
    (hq : 21 ≤ q.val ∧ q.val < 21 + 9) :
    M19 cg (ix2 p q) = if h : 1 ≤ p.val ∧ p.val < 1 + 3 then B5 cg (ix2 ⟨p.val - 1, by omega⟩ ⟨q.val - 21, by omega⟩) else 0 :=
  (M_top_6 cg p q (by omega)).trans
    (place_col_hit scatter_S25x259_S2_S3x9_01_n_01_0_wf _ rfl _ _ _ 1 21 (by rw [sIdx_0]; rfl) (by rw [sIdx_1]; rfl) (by norm_num) (by norm_num) p q hq 0
      (M_zero_5 cg p q hq.1))
/-- Block 5 at (f, o·3 + i) is coefficient 53 + (o·3 + i)·3 + f. -/
theorem B5_apply (cg : (⟨S1225, .f32⟩ : BufTy).Contents (Elt Ideal)) (f : Fin 3) (c : Fin 9) (o : Fin 3) (i : Fin 3)
    (hc : c.val = o.val * 3 + i.val) : B5 cg (ix2 f c) = Cert.Spec.get1 cg (53 + (c.val * 3 + f.val)) :=
  (block_apply cg _ _ _ _ rfl rfl f c o i hc (ix1 ⟨53 + (c.val * 3 + f.val), by have := f.isLt; have := c.isLt; omega⟩) rfl).trans
    (Cert.Spec.get1_of cg _ _ rfl)
theorem M_hit_6 (cg : (⟨S1225, .f32⟩ : BufTy).Contents (Elt Ideal)) (p : Fin 25) (q : Fin 259)
    (hq : 30 ≤ q.val ∧ q.val < 30 + 9) :
    M19 cg (ix2 p q) = if h : 4 ≤ p.val ∧ p.val < 4 + 5 then B6 cg (ix2 ⟨p.val - 4, by omega⟩ ⟨q.val - 30, by omega⟩) else 0 :=
  (M_top_7 cg p q (by omega)).trans
    (place_col_hit scatter_S25x259_S2_S5x9_01_n_01_0_wf _ rfl _ _ _ 4 30 (by rw [sIdx_0]; rfl) (by rw [sIdx_1]; rfl) (by norm_num) (by norm_num) p q hq 0
      (M_zero_6 cg p q hq.1))
/-- Block 6 at (f, o·3 + i) is coefficient 80 + (o·3 + i)·5 + f. -/
theorem B6_apply (cg : (⟨S1225, .f32⟩ : BufTy).Contents (Elt Ideal)) (f : Fin 5) (c : Fin 9) (o : Fin 3) (i : Fin 3)
    (hc : c.val = o.val * 3 + i.val) : B6 cg (ix2 f c) = Cert.Spec.get1 cg (80 + (c.val * 5 + f.val)) :=
  (block_apply cg _ _ _ _ rfl rfl f c o i hc (ix1 ⟨80 + (c.val * 5 + f.val), by have := f.isLt; have := c.isLt; omega⟩) rfl).trans
    (Cert.Spec.get1_of cg _ _ rfl)
theorem M_hit_7 (cg : (⟨S1225, .f32⟩ : BufTy).Contents (Elt Ideal)) (p : Fin 25) (q : Fin 259)
    (hq : 39 ≤ q.val ∧ q.val < 39 + 15) :
    M19 cg (ix2 p q) = if h : 1 ≤ p.val ∧ p.val < 1 + 3 then B7 cg (ix2 ⟨p.val - 1, by omega⟩ ⟨q.val - 39, by omega⟩) else 0 :=
  (M_top_8 cg p q (by omega)).trans
    (place_col_hit scatter_S25x259_S2_S3x15_01_n_01_0_wf _ rfl _ _ _ 1 39 (by rw [sIdx_0]; rfl) (by rw [sIdx_1]; rfl) (by norm_num) (by norm_num) p q hq 0
      (M_zero_7 cg p q hq.1))
/-- Block 7 at (f, o·5 + i) is coefficient 125 + (o·5 + i)·3 + f. -/
theorem B7_apply (cg : (⟨S1225, .f32⟩ : BufTy).Contents (Elt Ideal)) (f : Fin 3) (c : Fin 15) (o : Fin 3) (i : Fin 5)
    (hc : c.val = o.val * 5 + i.val) : B7 cg (ix2 f c) = Cert.Spec.get1 cg (125 + (c.val * 3 + f.val)) :=
  (block_apply cg _ _ _ _ rfl rfl f c o i hc (ix1 ⟨125 + (c.val * 3 + f.val), by have := f.isLt; have := c.isLt; omega⟩) rfl).trans
    (Cert.Spec.get1_of cg _ _ rfl)
theorem M_hit_8 (cg : (⟨S1225, .f32⟩ : BufTy).Contents (Elt Ideal)) (p : Fin 25) (q : Fin 259)
    (hq : 54 ≤ q.val ∧ q.val < 54 + 15) :
    M19 cg (ix2 p q) = if h : 4 ≤ p.val ∧ p.val < 4 + 5 then B8 cg (ix2 ⟨p.val - 4, by omega⟩ ⟨q.val - 54, by omega⟩) else 0 :=
  (M_top_9 cg p q (by omega)).trans
    (place_col_hit scatter_S25x259_S2_S5x15_01_n_01_0_wf _ rfl _ _ _ 4 54 (by rw [sIdx_0]; rfl) (by rw [sIdx_1]; rfl) (by norm_num) (by norm_num) p q hq 0
      (M_zero_8 cg p q hq.1))
/-- Block 8 at (f, o·5 + i) is coefficient 170 + (o·5 + i)·5 + f. -/
theorem B8_apply (cg : (⟨S1225, .f32⟩ : BufTy).Contents (Elt Ideal)) (f : Fin 5) (c : Fin 15) (o : Fin 3) (i : Fin 5)
    (hc : c.val = o.val * 5 + i.val) : B8 cg (ix2 f c) = Cert.Spec.get1 cg (170 + (c.val * 5 + f.val)) :=
  (block_apply cg _ _ _ _ rfl rfl f c o i hc (ix1 ⟨170 + (c.val * 5 + f.val), by have := f.isLt; have := c.isLt; omega⟩) rfl).trans
    (Cert.Spec.get1_of cg _ _ rfl)
theorem M_hit_9 (cg : (⟨S1225, .f32⟩ : BufTy).Contents (Elt Ideal)) (p : Fin 25) (q : Fin 259)
    (hq : 69 ≤ q.val ∧ q.val < 69 + 15) :
    M19 cg (ix2 p q) = if h : 9 ≤ p.val ∧ p.val < 9 + 7 then B9 cg (ix2 ⟨p.val - 9, by omega⟩ ⟨q.val - 69, by omega⟩) else 0 :=
  (M_top_10 cg p q (by omega)).trans
    (place_col_hit scatter_S25x259_S2_S7x15_01_n_01_0_wf _ rfl _ _ _ 9 69 (by rw [sIdx_0]; rfl) (by rw [sIdx_1]; rfl) (by norm_num) (by norm_num) p q hq 0
      (M_zero_9 cg p q hq.1))
/-- Block 9 at (f, o·5 + i) is coefficient 245 + (o·5 + i)·7 + f. -/
theorem B9_apply (cg : (⟨S1225, .f32⟩ : BufTy).Contents (Elt Ideal)) (f : Fin 7) (c : Fin 15) (o : Fin 3) (i : Fin 5)
    (hc : c.val = o.val * 5 + i.val) : B9 cg (ix2 f c) = Cert.Spec.get1 cg (245 + (c.val * 7 + f.val)) :=
  (block_apply cg _ _ _ _ rfl rfl f c o i hc (ix1 ⟨245 + (c.val * 7 + f.val), by have := f.isLt; have := c.isLt; omega⟩) rfl).trans
    (Cert.Spec.get1_of cg _ _ rfl)
theorem M_hit_10 (cg : (⟨S1225, .f32⟩ : BufTy).Contents (Elt Ideal)) (p : Fin 25) (q : Fin 259)
    (hq : 84 ≤ q.val ∧ q.val < 84 + 5) :
    M19 cg (ix2 p q) = if h : 4 ≤ p.val ∧ p.val < 4 + 5 then B10 cg (ix2 ⟨p.val - 4, by omega⟩ ⟨q.val - 84, by omega⟩) else 0 :=
  (M_top_11 cg p q (by omega)).trans
    (place_col_hit scatter_S25x259_S2_S5x5_01_n_01_0_wf _ rfl _ _ _ 4 84 (by rw [sIdx_0]; rfl) (by rw [sIdx_1]; rfl) (by norm_num) (by norm_num) p q hq 0
      (M_zero_10 cg p q hq.1))
/-- Block 10 at (f, o·1 + i) is coefficient 350 + (o·1 + i)·5 + f. -/
theorem B10_apply (cg : (⟨S1225, .f32⟩ : BufTy).Contents (Elt Ideal)) (f : Fin 5) (c : Fin 5) (o : Fin 5) (i : Fin 1)
    (hc : c.val = o.val * 1 + i.val) : B10 cg (ix2 f c) = Cert.Spec.get1 cg (350 + (c.val * 5 + f.val)) :=
  (block_apply cg _ _ _ _ rfl rfl f c o i hc (ix1 ⟨350 + (c.val * 5 + f.val), by have := f.isLt; have := c.isLt; omega⟩) rfl).trans
    (Cert.Spec.get1_of cg _ _ rfl)
theorem M_hit_11 (cg : (⟨S1225, .f32⟩ : BufTy).Contents (Elt Ideal)) (p : Fin 25) (q : Fin 259)
    (hq : 89 ≤ q.val ∧ q.val < 89 + 15) :
    M19 cg (ix2 p q) = if h : 1 ≤ p.val ∧ p.val < 1 + 3 then B11 cg (ix2 ⟨p.val - 1, by omega⟩ ⟨q.val - 89, by omega⟩) else 0 :=
  (M_top_12 cg p q (by omega)).trans
    (place_col_hit scatter_S25x259_S2_S3x15_01_n_01_0_wf _ rfl _ _ _ 1 89 (by rw [sIdx_0]; rfl) (by rw [sIdx_1]; rfl) (by norm_num) (by norm_num) p q hq 0
      (M_zero_11 cg p q hq.1))
/-- Block 11 at (f, o·3 + i) is coefficient 375 + (o·3 + i)·3 + f. -/
theorem B11_apply (cg : (⟨S1225, .f32⟩ : BufTy).Contents (Elt Ideal)) (f : Fin 3) (c : Fin 15) (o : Fin 5) (i : Fin 3)
    (hc : c.val = o.val * 3 + i.val) : B11 cg (ix2 f c) = Cert.Spec.get1 cg (375 + (c.val * 3 + f.val)) :=
  (block_apply cg _ _ _ _ rfl rfl f c o i hc (ix1 ⟨375 + (c.val * 3 + f.val), by have := f.isLt; have := c.isLt; omega⟩) rfl).trans
    (Cert.Spec.get1_of cg _ _ rfl)
theorem M_hit_12 (cg : (⟨S1225, .f32⟩ : BufTy).Contents (Elt Ideal)) (p : Fin 25) (q : Fin 259)
    (hq : 104 ≤ q.val ∧ q.val < 104 + 15) :
    M19 cg (ix2 p q) = if h : 4 ≤ p.val ∧ p.val < 4 + 5 then B12 cg (ix2 ⟨p.val - 4, by omega⟩ ⟨q.val - 104, by omega⟩) else 0 :=
  (M_top_13 cg p q (by omega)).trans
    (place_col_hit scatter_S25x259_S2_S5x15_01_n_01_0_wf _ rfl _ _ _ 4 104 (by rw [sIdx_0]; rfl) (by rw [sIdx_1]; rfl) (by norm_num) (by norm_num) p q hq 0
      (M_zero_12 cg p q hq.1))
/-- Block 12 at (f, o·3 + i) is coefficient 420 + (o·3 + i)·5 + f. -/
theorem B12_apply (cg : (⟨S1225, .f32⟩ : BufTy).Contents (Elt Ideal)) (f : Fin 5) (c : Fin 15) (o : Fin 5) (i : Fin 3)
    (hc : c.val = o.val * 3 + i.val) : B12 cg (ix2 f c) = Cert.Spec.get1 cg (420 + (c.val * 5 + f.val)) :=
  (block_apply cg _ _ _ _ rfl rfl f c o i hc (ix1 ⟨420 + (c.val * 5 + f.val), by have := f.isLt; have := c.isLt; omega⟩) rfl).trans
    (Cert.Spec.get1_of cg _ _ rfl)
theorem M_hit_13 (cg : (⟨S1225, .f32⟩ : BufTy).Contents (Elt Ideal)) (p : Fin 25) (q : Fin 259)
    (hq : 119 ≤ q.val ∧ q.val < 119 + 15) :
    M19 cg (ix2 p q) = if h : 9 ≤ p.val ∧ p.val < 9 + 7 then B13 cg (ix2 ⟨p.val - 9, by omega⟩ ⟨q.val - 119, by omega⟩) else 0 :=
  (M_top_14 cg p q (by omega)).trans
    (place_col_hit scatter_S25x259_S2_S7x15_01_n_01_0_wf _ rfl _ _ _ 9 119 (by rw [sIdx_0]; rfl) (by rw [sIdx_1]; rfl) (by norm_num) (by norm_num) p q hq 0
      (M_zero_13 cg p q hq.1))
/-- Block 13 at (f, o·3 + i) is coefficient 495 + (o·3 + i)·7 + f. -/
theorem B13_apply (cg : (⟨S1225, .f32⟩ : BufTy).Contents (Elt Ideal)) (f : Fin 7) (c : Fin 15) (o : Fin 5) (i : Fin 3)
    (hc : c.val = o.val * 3 + i.val) : B13 cg (ix2 f c) = Cert.Spec.get1 cg (495 + (c.val * 7 + f.val)) :=
  (block_apply cg _ _ _ _ rfl rfl f c o i hc (ix1 ⟨495 + (c.val * 7 + f.val), by have := f.isLt; have := c.isLt; omega⟩) rfl).trans
    (Cert.Spec.get1_of cg _ _ rfl)
theorem M_hit_14 (cg : (⟨S1225, .f32⟩ : BufTy).Contents (Elt Ideal)) (p : Fin 25) (q : Fin 259)
    (hq : 134 ≤ q.val ∧ q.val < 134 + 25) :
    M19 cg (ix2 p q) = if h : 0 ≤ p.val ∧ p.val < 0 + 1 then B14 cg (ix2 ⟨p.val - 0, by omega⟩ ⟨q.val - 134, by omega⟩) else 0 :=
  (M_top_15 cg p q (by omega)).trans
    (place_col_hit scatter_S25x259_S2_S1x25_01_n_01_0_wf _ rfl _ _ _ 0 134 (by rw [sIdx_0]; rfl) (by rw [sIdx_1]; rfl) (by norm_num) (by norm_num) p q hq 0
      (M_zero_14 cg p q hq.1))
/-- Block 14 at (f, o·5 + i) is coefficient 600 + (o·5 + i)·1 + f. -/
theorem B14_apply (cg : (⟨S1225, .f32⟩ : BufTy).Contents (Elt Ideal)) (f : Fin 1) (c : Fin 25) (o : Fin 5) (i : Fin 5)
    (hc : c.val = o.val * 5 + i.val) : B14 cg (ix2 f c) = Cert.Spec.get1 cg (600 + (c.val * 1 + f.val)) :=
  (block_apply cg _ _ _ _ rfl rfl f c o i hc (ix1 ⟨600 + (c.val * 1 + f.val), by have := f.isLt; have := c.isLt; omega⟩) rfl).trans
    (Cert.Spec.get1_of cg _ _ rfl)
theorem M_hit_15 (cg : (⟨S1225, .f32⟩ : BufTy).Contents (Elt Ideal)) (p : Fin 25) (q : Fin 259)
    (hq : 159 ≤ q.val ∧ q.val < 159 + 25) :
    M19 cg (ix2 p q) = if h : 1 ≤ p.val ∧ p.val < 1 + 3 then B15 cg (ix2 ⟨p.val - 1, by omega⟩ ⟨q.val - 159, by omega⟩) else 0 :=
  (M_top_16 cg p q (by omega)).trans
    (place_col_hit scatter_S25x259_S2_S3x25_01_n_01_0_wf _ rfl _ _ _ 1 159 (by rw [sIdx_0]; rfl) (by rw [sIdx_1]; rfl) (by norm_num) (by norm_num) p q hq 0
      (M_zero_15 cg p q hq.1))
/-- Block 15 at (f, o·5 + i) is coefficient 625 + (o·5 + i)·3 + f. -/
theorem B15_apply (cg : (⟨S1225, .f32⟩ : BufTy).Contents (Elt Ideal)) (f : Fin 3) (c : Fin 25) (o : Fin 5) (i : Fin 5)
    (hc : c.val = o.val * 5 + i.val) : B15 cg (ix2 f c) = Cert.Spec.get1 cg (625 + (c.val * 3 + f.val)) :=
  (block_apply cg _ _ _ _ rfl rfl f c o i hc (ix1 ⟨625 + (c.val * 3 + f.val), by have := f.isLt; have := c.isLt; omega⟩) rfl).trans
    (Cert.Spec.get1_of cg _ _ rfl)
theorem M_hit_16 (cg : (⟨S1225, .f32⟩ : BufTy).Contents (Elt Ideal)) (p : Fin 25) (q : Fin 259)
    (hq : 184 ≤ q.val ∧ q.val < 184 + 25) :
    M19 cg (ix2 p q) = if h : 4 ≤ p.val ∧ p.val < 4 + 5 then B16 cg (ix2 ⟨p.val - 4, by omega⟩ ⟨q.val - 184, by omega⟩) else 0 :=
  (M_top_17 cg p q (by omega)).trans
    (place_col_hit scatter_S25x259_S2_S5x25_01_n_01_0_wf _ rfl _ _ _ 4 184 (by rw [sIdx_0]; rfl) (by rw [sIdx_1]; rfl) (by norm_num) (by norm_num) p q hq 0
      (M_zero_16 cg p q hq.1))
/-- Block 16 at (f, o·5 + i) is coefficient 700 + (o·5 + i)·5 + f. -/
theorem B16_apply (cg : (⟨S1225, .f32⟩ : BufTy).Contents (Elt Ideal)) (f : Fin 5) (c : Fin 25) (o : Fin 5) (i : Fin 5)
    (hc : c.val = o.val * 5 + i.val) : B16 cg (ix2 f c) = Cert.Spec.get1 cg (700 + (c.val * 5 + f.val)) :=
  (block_apply cg _ _ _ _ rfl rfl f c o i hc (ix1 ⟨700 + (c.val * 5 + f.val), by have := f.isLt; have := c.isLt; omega⟩) rfl).trans
    (Cert.Spec.get1_of cg _ _ rfl)
theorem M_hit_17 (cg : (⟨S1225, .f32⟩ : BufTy).Contents (Elt Ideal)) (p : Fin 25) (q : Fin 259)
    (hq : 209 ≤ q.val ∧ q.val < 209 + 25) :
    M19 cg (ix2 p q) = if h : 9 ≤ p.val ∧ p.val < 9 + 7 then B17 cg (ix2 ⟨p.val - 9, by omega⟩ ⟨q.val - 209, by omega⟩) else 0 :=
  (M_top_18 cg p q (by omega)).trans
    (place_col_hit scatter_S25x259_S2_S7x25_01_n_01_0_wf _ rfl _ _ _ 9 209 (by rw [sIdx_0]; rfl) (by rw [sIdx_1]; rfl) (by norm_num) (by norm_num) p q hq 0
      (M_zero_17 cg p q hq.1))
/-- Block 17 at (f, o·5 + i) is coefficient 825 + (o·5 + i)·7 + f. -/
theorem B17_apply (cg : (⟨S1225, .f32⟩ : BufTy).Contents (Elt Ideal)) (f : Fin 7) (c : Fin 25) (o : Fin 5) (i : Fin 5)
    (hc : c.val = o.val * 5 + i.val) : B17 cg (ix2 f c) = Cert.Spec.get1 cg (825 + (c.val * 7 + f.val)) :=
  (block_apply cg _ _ _ _ rfl rfl f c o i hc (ix1 ⟨825 + (c.val * 7 + f.val), by have := f.isLt; have := c.isLt; omega⟩) rfl).trans
    (Cert.Spec.get1_of cg _ _ rfl)
theorem M_hit_18 (cg : (⟨S1225, .f32⟩ : BufTy).Contents (Elt Ideal)) (p : Fin 25) (q : Fin 259)
    (hq : 234 ≤ q.val ∧ q.val < 234 + 25) :
    M19 cg (ix2 p q) = if h : 16 ≤ p.val ∧ p.val < 16 + 9 then B18 cg (ix2 ⟨p.val - 16, by omega⟩ ⟨q.val - 234, by omega⟩) else 0 :=
  place_col_hit scatter_S25x259_S2_S9x25_01_n_01_0_wf _ rfl _ _ _ 16 234 (by rw [sIdx_0]; rfl) (by rw [sIdx_1]; rfl) (by norm_num) (by norm_num) p q hq 0
    (M_zero_18 cg p q hq.1)
/-- Block 18 at (f, o·5 + i) is coefficient 1000 + (o·5 + i)·9 + f. -/
theorem B18_apply (cg : (⟨S1225, .f32⟩ : BufTy).Contents (Elt Ideal)) (f : Fin 9) (c : Fin 25) (o : Fin 5) (i : Fin 5)
    (hc : c.val = o.val * 5 + i.val) : B18 cg (ix2 f c) = Cert.Spec.get1 cg (1000 + (c.val * 9 + f.val)) :=
  (block_apply cg _ _ _ _ rfl rfl f c o i hc (ix1 ⟨1000 + (c.val * 9 + f.val), by have := f.isLt; have := c.isLt; omega⟩) rfl).trans
    (Cert.Spec.get1_of cg _ _ rfl)

/-! ## A row of harmonics against a column of the program's matrix -/

theorem cbig_sum_0 (m : (ℓ : Loc nD τ sig) → Buf (Elt Ideal) ℓ) (c : Dev nD) (Yrow : Fin 25 → EReal) (o : Fin 1) (i : Fin 1) :
    ∑ f' : Fin 25, Yrow f' * (V m c main_v159 : S25x259.Idx → EReal) (ix2 f' ⟨0 + (o.val * 1 + i.val), by have := o.isLt; have := i.isLt; omega⟩)
      = ∑ f : Fin 1, Yrow ⟨0 + f.val, by have := f.isLt; omega⟩ * Cert.Spec.get1 (m ((c : Thread nD τ).loc main_arg3)) (0 + ((o.val * 1 + i.val) * 1 + f.val)) := by
  rw [V_cbig m c]
  exact sum_block (M19 (m ((c : Thread nD τ).loc main_arg3))) (B0 (m ((c : Thread nD τ).loc main_arg3))) (m ((c : Thread nD τ).loc main_arg3))
    (by norm_num) ⟨o.val * 1 + i.val, by have := o.isLt; have := i.isLt; omega⟩ _ rfl
    (fun p => M_hit_0 _ p _ ⟨Nat.le_add_right _ _, Nat.add_lt_add_left (by have := o.isLt; have := i.isLt; omega) _⟩)
    (fun f => B0_apply _ f _ o i rfl) Yrow

theorem cbig_sum_1 (m : (ℓ : Loc nD τ sig) → Buf (Elt Ideal) ℓ) (c : Dev nD) (Yrow : Fin 25 → EReal) (o : Fin 1) (i : Fin 3) :
    ∑ f' : Fin 25, Yrow f' * (V m c main_v159 : S25x259.Idx → EReal) (ix2 f' ⟨1 + (o.val * 3 + i.val), by have := o.isLt; have := i.isLt; omega⟩)
      = ∑ f : Fin 3, Yrow ⟨1 + f.val, by have := f.isLt; omega⟩ * Cert.Spec.get1 (m ((c : Thread nD τ).loc main_arg3)) (1 + ((o.val * 3 + i.val) * 3 + f.val)) := by
  rw [V_cbig m c]
  exact sum_block (M19 (m ((c : Thread nD τ).loc main_arg3))) (B1 (m ((c : Thread nD τ).loc main_arg3))) (m ((c : Thread nD τ).loc main_arg3))
    (by norm_num) ⟨o.val * 3 + i.val, by have := o.isLt; have := i.isLt; omega⟩ _ rfl
    (fun p => M_hit_1 _ p _ ⟨Nat.le_add_right _ _, Nat.add_lt_add_left (by have := o.isLt; have := i.isLt; omega) _⟩)
    (fun f => B1_apply _ f _ o i rfl) Yrow

theorem cbig_sum_2 (m : (ℓ : Loc nD τ sig) → Buf (Elt Ideal) ℓ) (c : Dev nD) (Yrow : Fin 25 → EReal) (o : Fin 1) (i : Fin 5) :
    ∑ f' : Fin 25, Yrow f' * (V m c main_v159 : S25x259.Idx → EReal) (ix2 f' ⟨4 + (o.val * 5 + i.val), by have := o.isLt; have := i.isLt; omega⟩)
      = ∑ f : Fin 5, Yrow ⟨4 + f.val, by have := f.isLt; omega⟩ * Cert.Spec.get1 (m ((c : Thread nD τ).loc main_arg3)) (10 + ((o.val * 5 + i.val) * 5 + f.val)) := by
  rw [V_cbig m c]
  exact sum_block (M19 (m ((c : Thread nD τ).loc main_arg3))) (B2 (m ((c : Thread nD τ).loc main_arg3))) (m ((c : Thread nD τ).loc main_arg3))
    (by norm_num) ⟨o.val * 5 + i.val, by have := o.isLt; have := i.isLt; omega⟩ _ rfl
    (fun p => M_hit_2 _ p _ ⟨Nat.le_add_right _ _, Nat.add_lt_add_left (by have := o.isLt; have := i.isLt; omega) _⟩)
    (fun f => B2_apply _ f _ o i rfl) Yrow

theorem cbig_sum_3 (m : (ℓ : Loc nD τ sig) → Buf (Elt Ideal) ℓ) (c : Dev nD) (Yrow : Fin 25 → EReal) (o : Fin 3) (i : Fin 1) :
    ∑ f' : Fin 25, Yrow f' * (V m c main_v159 : S25x259.Idx → EReal) (ix2 f' ⟨9 + (o.val * 1 + i.val), by have := o.isLt; have := i.isLt; omega⟩)
      = ∑ f : Fin 3, Yrow ⟨1 + f.val, by have := f.isLt; omega⟩ * Cert.Spec.get1 (m ((c : Thread nD τ).loc main_arg3)) (35 + ((o.val * 1 + i.val) * 3 + f.val)) := by
  rw [V_cbig m c]
  exact sum_block (M19 (m ((c : Thread nD τ).loc main_arg3))) (B3 (m ((c : Thread nD τ).loc main_arg3))) (m ((c : Thread nD τ).loc main_arg3))
    (by norm_num) ⟨o.val * 1 + i.val, by have := o.isLt; have := i.isLt; omega⟩ _ rfl
    (fun p => M_hit_3 _ p _ ⟨Nat.le_add_right _ _, Nat.add_lt_add_left (by have := o.isLt; have := i.isLt; omega) _⟩)
    (fun f => B3_apply _ f _ o i rfl) Yrow

theorem cbig_sum_4 (m : (ℓ : Loc nD τ sig) → Buf (Elt Ideal) ℓ) (c : Dev nD) (Yrow : Fin 25 → EReal) (o : Fin 3) (i : Fin 3) :
    ∑ f' : Fin 25, Yrow f' * (V m c main_v159 : S25x259.Idx → EReal) (ix2 f' ⟨12 + (o.val * 3 + i.val), by have := o.isLt; have := i.isLt; omega⟩)
      = ∑ f : Fin 1, Yrow ⟨0 + f.val, by have := f.isLt; omega⟩ * Cert.Spec.get1 (m ((c : Thread nD τ).loc main_arg3)) (44 + ((o.val * 3 + i.val) * 1 + f.val)) := by
  rw [V_cbig m c]
  exact sum_block (M19 (m ((c : Thread nD τ).loc main_arg3))) (B4 (m ((c : Thread nD τ).loc main_arg3))) (m ((c : Thread nD τ).loc main_arg3))
    (by norm_num) ⟨o.val * 3 + i.val, by have := o.isLt; have := i.isLt; omega⟩ _ rfl
    (fun p => M_hit_4 _ p _ ⟨Nat.le_add_right _ _, Nat.add_lt_add_left (by have := o.isLt; have := i.isLt; omega) _⟩)
    (fun f => B4_apply _ f _ o i rfl) Yrow

theorem cbig_sum_5 (m : (ℓ : Loc nD τ sig) → Buf (Elt Ideal) ℓ) (c : Dev nD) (Yrow : Fin 25 → EReal) (o : Fin 3) (i : Fin 3) :
    ∑ f' : Fin 25, Yrow f' * (V m c main_v159 : S25x259.Idx → EReal) (ix2 f' ⟨21 + (o.val * 3 + i.val), by have := o.isLt; have := i.isLt; omega⟩)
      = ∑ f : Fin 3, Yrow ⟨1 + f.val, by have := f.isLt; omega⟩ * Cert.Spec.get1 (m ((c : Thread nD τ).loc main_arg3)) (53 + ((o.val * 3 + i.val) * 3 + f.val)) := by
  rw [V_cbig m c]
  exact sum_block (M19 (m ((c : Thread nD τ).loc main_arg3))) (B5 (m ((c : Thread nD τ).loc main_arg3))) (m ((c : Thread nD τ).loc main_arg3))
    (by norm_num) ⟨o.val * 3 + i.val, by have := o.isLt; have := i.isLt; omega⟩ _ rfl
    (fun p => M_hit_5 _ p _ ⟨Nat.le_add_right _ _, Nat.add_lt_add_left (by have := o.isLt; have := i.isLt; omega) _⟩)
    (fun f => B5_apply _ f _ o i rfl) Yrow

theorem cbig_sum_6 (m : (ℓ : Loc nD τ sig) → Buf (Elt Ideal) ℓ) (c : Dev nD) (Yrow : Fin 25 → EReal) (o : Fin 3) (i : Fin 3) :
    ∑ f' : Fin 25, Yrow f' * (V m c main_v159 : S25x259.Idx → EReal) (ix2 f' ⟨30 + (o.val * 3 + i.val), by have := o.isLt; have := i.isLt; omega⟩)
      = ∑ f : Fin 5, Yrow ⟨4 + f.val, by have := f.isLt; omega⟩ * Cert.Spec.get1 (m ((c : Thread nD τ).loc main_arg3)) (80 + ((o.val * 3 + i.val) * 5 + f.val)) := by
  rw [V_cbig m c]
  exact sum_block (M19 (m ((c : Thread nD τ).loc main_arg3))) (B6 (m ((c : Thread nD τ).loc main_arg3))) (m ((c : Thread nD τ).loc main_arg3))
    (by norm_num) ⟨o.val * 3 + i.val, by have := o.isLt; have := i.isLt; omega⟩ _ rfl
    (fun p => M_hit_6 _ p _ ⟨Nat.le_add_right _ _, Nat.add_lt_add_left (by have := o.isLt; have := i.isLt; omega) _⟩)
    (fun f => B6_apply _ f _ o i rfl) Yrow

theorem cbig_sum_7 (m : (ℓ : Loc nD τ sig) → Buf (Elt Ideal) ℓ) (c : Dev nD) (Yrow : Fin 25 → EReal) (o : Fin 3) (i : Fin 5) :
    ∑ f' : Fin 25, Yrow f' * (V m c main_v159 : S25x259.Idx → EReal) (ix2 f' ⟨39 + (o.val * 5 + i.val), by have := o.isLt; have := i.isLt; omega⟩)
      = ∑ f : Fin 3, Yrow ⟨1 + f.val, by have := f.isLt; omega⟩ * Cert.Spec.get1 (m ((c : Thread nD τ).loc main_arg3)) (125 + ((o.val * 5 + i.val) * 3 + f.val)) := by
  rw [V_cbig m c]
  exact sum_block (M19 (m ((c : Thread nD τ).loc main_arg3))) (B7 (m ((c : Thread nD τ).loc main_arg3))) (m ((c : Thread nD τ).loc main_arg3))
    (by norm_num) ⟨o.val * 5 + i.val, by have := o.isLt; have := i.isLt; omega⟩ _ rfl
    (fun p => M_hit_7 _ p _ ⟨Nat.le_add_right _ _, Nat.add_lt_add_left (by have := o.isLt; have := i.isLt; omega) _⟩)
    (fun f => B7_apply _ f _ o i rfl) Yrow

theorem cbig_sum_8 (m : (ℓ : Loc nD τ sig) → Buf (Elt Ideal) ℓ) (c : Dev nD) (Yrow : Fin 25 → EReal) (o : Fin 3) (i : Fin 5) :
    ∑ f' : Fin 25, Yrow f' * (V m c main_v159 : S25x259.Idx → EReal) (ix2 f' ⟨54 + (o.val * 5 + i.val), by have := o.isLt; have := i.isLt; omega⟩)
      = ∑ f : Fin 5, Yrow ⟨4 + f.val, by have := f.isLt; omega⟩ * Cert.Spec.get1 (m ((c : Thread nD τ).loc main_arg3)) (170 + ((o.val * 5 + i.val) * 5 + f.val)) := by
  rw [V_cbig m c]
  exact sum_block (M19 (m ((c : Thread nD τ).loc main_arg3))) (B8 (m ((c : Thread nD τ).loc main_arg3))) (m ((c : Thread nD τ).loc main_arg3))
    (by norm_num) ⟨o.val * 5 + i.val, by have := o.isLt; have := i.isLt; omega⟩ _ rfl
    (fun p => M_hit_8 _ p _ ⟨Nat.le_add_right _ _, Nat.add_lt_add_left (by have := o.isLt; have := i.isLt; omega) _⟩)
    (fun f => B8_apply _ f _ o i rfl) Yrow

theorem cbig_sum_9 (m : (ℓ : Loc nD τ sig) → Buf (Elt Ideal) ℓ) (c : Dev nD) (Yrow : Fin 25 → EReal) (o : Fin 3) (i : Fin 5) :
    ∑ f' : Fin 25, Yrow f' * (V m c main_v159 : S25x259.Idx → EReal) (ix2 f' ⟨69 + (o.val * 5 + i.val), by have := o.isLt; have := i.isLt; omega⟩)
      = ∑ f : Fin 7, Yrow ⟨9 + f.val, by have := f.isLt; omega⟩ * Cert.Spec.get1 (m ((c : Thread nD τ).loc main_arg3)) (245 + ((o.val * 5 + i.val) * 7 + f.val)) := by
  rw [V_cbig m c]
  exact sum_block (M19 (m ((c : Thread nD τ).loc main_arg3))) (B9 (m ((c : Thread nD τ).loc main_arg3))) (m ((c : Thread nD τ).loc main_arg3))
    (by norm_num) ⟨o.val * 5 + i.val, by have := o.isLt; have := i.isLt; omega⟩ _ rfl
    (fun p => M_hit_9 _ p _ ⟨Nat.le_add_right _ _, Nat.add_lt_add_left (by have := o.isLt; have := i.isLt; omega) _⟩)
    (fun f => B9_apply _ f _ o i rfl) Yrow

theorem cbig_sum_10 (m : (ℓ : Loc nD τ sig) → Buf (Elt Ideal) ℓ) (c : Dev nD) (Yrow : Fin 25 → EReal) (o : Fin 5) (i : Fin 1) :
    ∑ f' : Fin 25, Yrow f' * (V m c main_v159 : S25x259.Idx → EReal) (ix2 f' ⟨84 + (o.val * 1 + i.val), by have := o.isLt; have := i.isLt; omega⟩)
      = ∑ f : Fin 5, Yrow ⟨4 + f.val, by have := f.isLt; omega⟩ * Cert.Spec.get1 (m ((c : Thread nD τ).loc main_arg3)) (350 + ((o.val * 1 + i.val) * 5 + f.val)) := by
  rw [V_cbig m c]
  exact sum_block (M19 (m ((c : Thread nD τ).loc main_arg3))) (B10 (m ((c : Thread nD τ).loc main_arg3))) (m ((c : Thread nD τ).loc main_arg3))
    (by norm_num) ⟨o.val * 1 + i.val, by have := o.isLt; have := i.isLt; omega⟩ _ rfl
    (fun p => M_hit_10 _ p _ ⟨Nat.le_add_right _ _, Nat.add_lt_add_left (by have := o.isLt; have := i.isLt; omega) _⟩)
    (fun f => B10_apply _ f _ o i rfl) Yrow

theorem cbig_sum_11 (m : (ℓ : Loc nD τ sig) → Buf (Elt Ideal) ℓ) (c : Dev nD) (Yrow : Fin 25 → EReal) (o : Fin 5) (i : Fin 3) :
    ∑ f' : Fin 25, Yrow f' * (V m c main_v159 : S25x259.Idx → EReal) (ix2 f' ⟨89 + (o.val * 3 + i.val), by have := o.isLt; have := i.isLt; omega⟩)
      = ∑ f : Fin 3, Yrow ⟨1 + f.val, by have := f.isLt; omega⟩ * Cert.Spec.get1 (m ((c : Thread nD τ).loc main_arg3)) (375 + ((o.val * 3 + i.val) * 3 + f.val)) := by
  rw [V_cbig m c]
  exact sum_block (M19 (m ((c : Thread nD τ).loc main_arg3))) (B11 (m ((c : Thread nD τ).loc main_arg3))) (m ((c : Thread nD τ).loc main_arg3))
    (by norm_num) ⟨o.val * 3 + i.val, by have := o.isLt; have := i.isLt; omega⟩ _ rfl
    (fun p => M_hit_11 _ p _ ⟨Nat.le_add_right _ _, Nat.add_lt_add_left (by have := o.isLt; have := i.isLt; omega) _⟩)
    (fun f => B11_apply _ f _ o i rfl) Yrow

theorem cbig_sum_12 (m : (ℓ : Loc nD τ sig) → Buf (Elt Ideal) ℓ) (c : Dev nD) (Yrow : Fin 25 → EReal) (o : Fin 5) (i : Fin 3) :
    ∑ f' : Fin 25, Yrow f' * (V m c main_v159 : S25x259.Idx → EReal) (ix2 f' ⟨104 + (o.val * 3 + i.val), by have := o.isLt; have := i.isLt; omega⟩)
      = ∑ f : Fin 5, Yrow ⟨4 + f.val, by have := f.isLt; omega⟩ * Cert.Spec.get1 (m ((c : Thread nD τ).loc main_arg3)) (420 + ((o.val * 3 + i.val) * 5 + f.val)) := by
  rw [V_cbig m c]
  exact sum_block (M19 (m ((c : Thread nD τ).loc main_arg3))) (B12 (m ((c : Thread nD τ).loc main_arg3))) (m ((c : Thread nD τ).loc main_arg3))
    (by norm_num) ⟨o.val * 3 + i.val, by have := o.isLt; have := i.isLt; omega⟩ _ rfl
    (fun p => M_hit_12 _ p _ ⟨Nat.le_add_right _ _, Nat.add_lt_add_left (by have := o.isLt; have := i.isLt; omega) _⟩)
    (fun f => B12_apply _ f _ o i rfl) Yrow

theorem cbig_sum_13 (m : (ℓ : Loc nD τ sig) → Buf (Elt Ideal) ℓ) (c : Dev nD) (Yrow : Fin 25 → EReal) (o : Fin 5) (i : Fin 3) :
    ∑ f' : Fin 25, Yrow f' * (V m c main_v159 : S25x259.Idx → EReal) (ix2 f' ⟨119 + (o.val * 3 + i.val), by have := o.isLt; have := i.isLt; omega⟩)
      = ∑ f : Fin 7, Yrow ⟨9 + f.val, by have := f.isLt; omega⟩ * Cert.Spec.get1 (m ((c : Thread nD τ).loc main_arg3)) (495 + ((o.val * 3 + i.val) * 7 + f.val)) := by
  rw [V_cbig m c]
  exact sum_block (M19 (m ((c : Thread nD τ).loc main_arg3))) (B13 (m ((c : Thread nD τ).loc main_arg3))) (m ((c : Thread nD τ).loc main_arg3))
    (by norm_num) ⟨o.val * 3 + i.val, by have := o.isLt; have := i.isLt; omega⟩ _ rfl
    (fun p => M_hit_13 _ p _ ⟨Nat.le_add_right _ _, Nat.add_lt_add_left (by have := o.isLt; have := i.isLt; omega) _⟩)
    (fun f => B13_apply _ f _ o i rfl) Yrow

theorem cbig_sum_14 (m : (ℓ : Loc nD τ sig) → Buf (Elt Ideal) ℓ) (c : Dev nD) (Yrow : Fin 25 → EReal) (o : Fin 5) (i : Fin 5) :
    ∑ f' : Fin 25, Yrow f' * (V m c main_v159 : S25x259.Idx → EReal) (ix2 f' ⟨134 + (o.val * 5 + i.val), by have := o.isLt; have := i.isLt; omega⟩)
      = ∑ f : Fin 1, Yrow ⟨0 + f.val, by have := f.isLt; omega⟩ * Cert.Spec.get1 (m ((c : Thread nD τ).loc main_arg3)) (600 + ((o.val * 5 + i.val) * 1 + f.val)) := by
  rw [V_cbig m c]
  exact sum_block (M19 (m ((c : Thread nD τ).loc main_arg3))) (B14 (m ((c : Thread nD τ).loc main_arg3))) (m ((c : Thread nD τ).loc main_arg3))
    (by norm_num) ⟨o.val * 5 + i.val, by have := o.isLt; have := i.isLt; omega⟩ _ rfl
    (fun p => M_hit_14 _ p _ ⟨Nat.le_add_right _ _, Nat.add_lt_add_left (by have := o.isLt; have := i.isLt; omega) _⟩)
    (fun f => B14_apply _ f _ o i rfl) Yrow

theorem cbig_sum_15 (m : (ℓ : Loc nD τ sig) → Buf (Elt Ideal) ℓ) (c : Dev nD) (Yrow : Fin 25 → EReal) (o : Fin 5) (i : Fin 5) :
    ∑ f' : Fin 25, Yrow f' * (V m c main_v159 : S25x259.Idx → EReal) (ix2 f' ⟨159 + (o.val * 5 + i.val), by have := o.isLt; have := i.isLt; omega⟩)
      = ∑ f : Fin 3, Yrow ⟨1 + f.val, by have := f.isLt; omega⟩ * Cert.Spec.get1 (m ((c : Thread nD τ).loc main_arg3)) (625 + ((o.val * 5 + i.val) * 3 + f.val)) := by
  rw [V_cbig m c]
  exact sum_block (M19 (m ((c : Thread nD τ).loc main_arg3))) (B15 (m ((c : Thread nD τ).loc main_arg3))) (m ((c : Thread nD τ).loc main_arg3))
    (by norm_num) ⟨o.val * 5 + i.val, by have := o.isLt; have := i.isLt; omega⟩ _ rfl
    (fun p => M_hit_15 _ p _ ⟨Nat.le_add_right _ _, Nat.add_lt_add_left (by have := o.isLt; have := i.isLt; omega) _⟩)
    (fun f => B15_apply _ f _ o i rfl) Yrow

theorem cbig_sum_16 (m : (ℓ : Loc nD τ sig) → Buf (Elt Ideal) ℓ) (c : Dev nD) (Yrow : Fin 25 → EReal) (o : Fin 5) (i : Fin 5) :
    ∑ f' : Fin 25, Yrow f' * (V m c main_v159 : S25x259.Idx → EReal) (ix2 f' ⟨184 + (o.val * 5 + i.val), by have := o.isLt; have := i.isLt; omega⟩)
      = ∑ f : Fin 5, Yrow ⟨4 + f.val, by have := f.isLt; omega⟩ * Cert.Spec.get1 (m ((c : Thread nD τ).loc main_arg3)) (700 + ((o.val * 5 + i.val) * 5 + f.val)) := by
  rw [V_cbig m c]
  exact sum_block (M19 (m ((c : Thread nD τ).loc main_arg3))) (B16 (m ((c : Thread nD τ).loc main_arg3))) (m ((c : Thread nD τ).loc main_arg3))
    (by norm_num) ⟨o.val * 5 + i.val, by have := o.isLt; have := i.isLt; omega⟩ _ rfl
    (fun p => M_hit_16 _ p _ ⟨Nat.le_add_right _ _, Nat.add_lt_add_left (by have := o.isLt; have := i.isLt; omega) _⟩)
    (fun f => B16_apply _ f _ o i rfl) Yrow

theorem cbig_sum_17 (m : (ℓ : Loc nD τ sig) → Buf (Elt Ideal) ℓ) (c : Dev nD) (Yrow : Fin 25 → EReal) (o : Fin 5) (i : Fin 5) :
    ∑ f' : Fin 25, Yrow f' * (V m c main_v159 : S25x259.Idx → EReal) (ix2 f' ⟨209 + (o.val * 5 + i.val), by have := o.isLt; have := i.isLt; omega⟩)
      = ∑ f : Fin 7, Yrow ⟨9 + f.val, by have := f.isLt; omega⟩ * Cert.Spec.get1 (m ((c : Thread nD τ).loc main_arg3)) (825 + ((o.val * 5 + i.val) * 7 + f.val)) := by
  rw [V_cbig m c]
  exact sum_block (M19 (m ((c : Thread nD τ).loc main_arg3))) (B17 (m ((c : Thread nD τ).loc main_arg3))) (m ((c : Thread nD τ).loc main_arg3))
    (by norm_num) ⟨o.val * 5 + i.val, by have := o.isLt; have := i.isLt; omega⟩ _ rfl
    (fun p => M_hit_17 _ p _ ⟨Nat.le_add_right _ _, Nat.add_lt_add_left (by have := o.isLt; have := i.isLt; omega) _⟩)
    (fun f => B17_apply _ f _ o i rfl) Yrow

theorem cbig_sum_18 (m : (ℓ : Loc nD τ sig) → Buf (Elt Ideal) ℓ) (c : Dev nD) (Yrow : Fin 25 → EReal) (o : Fin 5) (i : Fin 5) :
    ∑ f' : Fin 25, Yrow f' * (V m c main_v159 : S25x259.Idx → EReal) (ix2 f' ⟨234 + (o.val * 5 + i.val), by have := o.isLt; have := i.isLt; omega⟩)
      = ∑ f : Fin 9, Yrow ⟨16 + f.val, by have := f.isLt; omega⟩ * Cert.Spec.get1 (m ((c : Thread nD τ).loc main_arg3)) (1000 + ((o.val * 5 + i.val) * 9 + f.val)) := by
  rw [V_cbig m c]
  exact sum_block (M19 (m ((c : Thread nD τ).loc main_arg3))) (B18 (m ((c : Thread nD τ).loc main_arg3))) (m ((c : Thread nD τ).loc main_arg3))
    (by norm_num) ⟨o.val * 5 + i.val, by have := o.isLt; have := i.isLt; omega⟩ _ rfl
    (fun p => M_hit_18 _ p _ ⟨Nat.le_add_right _ _, Nat.add_lt_add_left (by have := o.isLt; have := i.isLt; omega) _⟩)
    (fun f => B18_apply _ f _ o i rfl) Yrow

end Cert.KernelIdeal.Val

end
-- ==== Proof.KernelMsgs.lean ====
/-
  The kernel's message array at an index is the specification's message: edge e = 400 T + t sits at row t of point T's
  block; its column selects the output block and the channel (u, o); the tile-level accumulation over the block's
  triples becomes the specification's, triple by triple, the product with the zero-padded coupling matrix read through
  each triple's own window.
-/
import proofs.«165524_j45689862095550_2_alg».proof.Proof.Gen.KernelIdeal.Frame
import proofs.«165524_j45689862095550_2_alg».proof.Proof.Spec
import proofs.«165524_j45689862095550_2_alg».proof.Proof.Blocks
import proofs.«165524_j45689862095550_2_alg».proof.Proof.KernelBlocks
import proofs.«165524_j45689862095550_2_alg».proof.Proof.KernelSide
import proofs.«165524_j45689862095550_2_alg».proof.Proof.CBig

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Lib Cert.Spec

variable (m : (ℓ : Loc nD τ sig) → Buf (Elt Ideal) ℓ)

set_option hygiene false in
/-- One triple's step of the two accumulations: the weights agree, and the tile-level term is the specification's by the
    generic conversion, fed with that triple's window of the coupling matrix.  The arguments: the triple's number, its
    coupling-matrix lemma, and its parameters (radial start, lf count, lf position, features start, features dimension,
    harmonics start, harmonics count, coefficients start, columns start). -/
local macro "tri" j:num lem:ident r:num n:num k:num fo:num d:num y:num df:num g:num cy:num : term =>
  `(fun s => congrArg (s + ·) (congrArg₂ (· * ·) (weight_conv m c T $j (by norm_num))
      (kterm_eq_term m c T t u ht o $r $n $k $fo $d $y $df $g $cy
        (fun i => by have := o.isLt; have := i.isLt; omega) (fun ff => by have := ff.isLt; omega)
        (fun Yrow i => $lem m c Yrow o i))))

/-- Block 0's accumulation at tile row t of point T is the specification's at edge 400 T + t. -/
theorem kacc0_eq (c : Dev nD) (T : Fin cfg0.N) (t u : Nat) (ht : t < 400) (o : Fin 1) :
    kacc (iblk m c 0 T : A2 400 4864) (iblk m c 2 T : A2 400 144) (k0_pay2 (iblk m c 1 T) (iblk m c 3 T) : A2 400 259)
        (iblk m c 4 T : A2 1 19) t u o.val ktriples0
      = acc0 (m ((c : Thread nD τ).loc main_arg1) : A2 50000 4864) (V m c main_v6 : A2 50000 144)
          (m ((c : Thread nD τ).loc main_arg2) : A2 50000 25) (m ((c : Thread nD τ).loc main_arg3) : A1 1225)
          (m ((c : Thread nD τ).loc main_arg4) : A1 19) (T.val * 400 + t) u o.val := by
  unfold kacc acc0 acc ktriples0 triples0
  refine foldl_rel _ _ _ _ ?_ 0
  exact .cons (tri 0 cbig_sum_0 0 1 0 0 1 0 1 0 0)
    (.cons (tri 1 cbig_sum_1 256 1 0 16 3 1 3 1 1)
    (.cons (tri 2 cbig_sum_2 512 1 0 64 5 4 5 10 4) .nil))

/-- Block 1's accumulation likewise. -/
theorem kacc1_eq (c : Dev nD) (T : Fin cfg0.N) (t u : Nat) (ht : t < 400) (o : Fin 3) :
    kacc (iblk m c 0 T : A2 400 4864) (iblk m c 2 T : A2 400 144) (k0_pay2 (iblk m c 1 T) (iblk m c 3 T) : A2 400 259)
        (iblk m c 4 T : A2 1 19) t u o.val ktriples1
      = acc1 (m ((c : Thread nD τ).loc main_arg1) : A2 50000 4864) (V m c main_v6 : A2 50000 144)
          (m ((c : Thread nD τ).loc main_arg2) : A2 50000 25) (m ((c : Thread nD τ).loc main_arg3) : A1 1225)
          (m ((c : Thread nD τ).loc main_arg4) : A1 19) (T.val * 400 + t) u o.val := by
  unfold kacc acc1 acc ktriples1 triples1
  refine foldl_rel _ _ _ _ ?_ 0
  exact .cons (tri 3 cbig_sum_3 768 1 0 0 1 1 3 35 9)
    (.cons (tri 4 cbig_sum_4 1024 3 0 16 3 0 1 44 12)
    (.cons (tri 5 cbig_sum_5 1024 3 1 16 3 1 3 53 21)
    (.cons (tri 6 cbig_sum_6 1024 3 2 16 3 4 5 80 30)
    (.cons (tri 7 cbig_sum_7 1792 3 0 64 5 1 3 125 39)
    (.cons (tri 8 cbig_sum_8 1792 3 1 64 5 4 5 170 54)
    (.cons (tri 9 cbig_sum_9 1792 3 2 64 5 9 7 245 69) .nil))))))

/-- Block 2's accumulation likewise. -/
theorem kacc2_eq (c : Dev nD) (T : Fin cfg0.N) (t u : Nat) (ht : t < 400) (o : Fin 5) :
    kacc (iblk m c 0 T : A2 400 4864) (iblk m c 2 T : A2 400 144) (k0_pay2 (iblk m c 1 T) (iblk m c 3 T) : A2 400 259)
        (iblk m c 4 T : A2 1 19) t u o.val ktriples2
      = acc2 (m ((c : Thread nD τ).loc main_arg1) : A2 50000 4864) (V m c main_v6 : A2 50000 144)
          (m ((c : Thread nD τ).loc main_arg2) : A2 50000 25) (m ((c : Thread nD τ).loc main_arg3) : A1 1225)
          (m ((c : Thread nD τ).loc main_arg4) : A1 19) (T.val * 400 + t) u o.val := by
  unfold kacc acc2 acc ktriples2 triples2
  refine foldl_rel _ _ _ _ ?_ 0
  exact .cons (tri 10 cbig_sum_10 2560 1 0 0 1 4 5 350 84)
    (.cons (tri 11 cbig_sum_11 2816 3 0 16 3 1 3 375 89)
    (.cons (tri 12 cbig_sum_12 2816 3 1 16 3 4 5 420 104)
    (.cons (tri 13 cbig_sum_13 2816 3 2 16 3 9 7 495 119)
    (.cons (tri 14 cbig_sum_14 3584 5 0 64 5 0 1 600 134)
    (.cons (tri 15 cbig_sum_15 3584 5 1 64 5 1 3 625 159)
    (.cons (tri 16 cbig_sum_16 3584 5 2 64 5 4 5 700 184)
    (.cons (tri 17 cbig_sum_17 3584 5 3 64 5 9 7 825 209)
    (.cons (tri 18 cbig_sum_18 3584 5 4 64 5 16 9 1000 234) .nil))))))))

/-- THE KERNEL'S MESSAGES at an index are the specification's. -/
theorem kernel_msgs (c : Dev nD) (i : S50000x144.Idx) :
    msgsK m c i
      = msg (m ((c : Thread nD τ).loc main_arg1) : A2 50000 4864) (V m c main_v6 : A2 50000 144)
          (m ((c : Thread nD τ).loc main_arg2) : A2 50000 25) (m ((c : Thread nD τ).loc main_arg3) : A1 1225)
          (m ((c : Thread nD τ).loc main_arg4) : A1 19) (i 0).val (i 1).val := by
  have he : (i 0).val < 50000 := (i 0).isLt
  have hq : (i 1).val < 144 := (i 1).isLt
  have hT : (pointOf (i 0).val).val = (i 0).val / 400 := by show (i 0).val / 400 % 125 = (i 0).val / 400; omega
  have ht : (rowOf (i 0).val).val = (i 0).val % 400 := rfl
  have hsum : (pointOf (i 0).val).val * 400 + (rowOf (i 0).val).val = (i 0).val := by rw [hT, ht]; omega
  have hcol : (colOf i).val = (i 1).val := rfl
  unfold msgsK blockAt msg
  by_cases h16 : (i 1).val < 16
  · rw [if_pos h16,
      out5_lo0 _ _ _ _ _ (rowOf (i 0).val) ⟨(i 1).val, h16⟩ (0 : Fin 1) (colOf i) rfl,
      kacc0_eq m c (pointOf (i 0).val) (rowOf (i 0).val).val (i 1).val (rowOf (i 0).val).isLt 0, hsum]
    rfl
  · rw [if_neg h16]
    by_cases h64 : (i 1).val < 64
    · rw [if_pos h64,
        out5_lo1 _ _ _ _ _ (rowOf (i 0).val) ⟨((i 1).val - 16) / 3, by omega⟩ ⟨((i 1).val - 16) % 3, Nat.mod_lt _ (by norm_num)⟩
          (colOf i) (by show (i 1).val = 16 + (((i 1).val - 16) / 3 * 3 + ((i 1).val - 16) % 3); omega),
        kacc1_eq m c (pointOf (i 0).val) (rowOf (i 0).val).val (((i 1).val - 16) / 3) (rowOf (i 0).val).isLt
          ⟨((i 1).val - 16) % 3, Nat.mod_lt _ (by norm_num)⟩, hsum]
    · rw [if_neg h64,
        out5_lo2 _ _ _ _ _ (rowOf (i 0).val) ⟨((i 1).val - 64) / 5, by omega⟩ ⟨((i 1).val - 64) % 5, Nat.mod_lt _ (by norm_num)⟩
          (colOf i) (by show (i 1).val = 64 + (((i 1).val - 64) / 5 * 5 + ((i 1).val - 64) % 5); omega),
        kacc2_eq m c (pointOf (i 0).val) (rowOf (i 0).val).val (((i 1).val - 64) / 5) (rowOf (i 0).val).isLt
          ⟨((i 1).val - 64) % 5, Nat.mod_lt _ (by norm_num)⟩, hsum]

end Cert.KernelIdeal.Val

end
-- ==== Proof.RefLo01.lean ====
/-
  The reference's messages in the first two output blocks (columns 0–63 of the [50000, 144] message array), read at an
  index: each is the block's accumulation of weighted triple terms of the specification.
-/
import proofs.«165524_j45689862095550_2_alg».proof.Proof.Gen.ReferenceIdeal.Run
import proofs.«165524_j45689862095550_2_alg».proof.Proof.Spec
import proofs.«165524_j45689862095550_2_alg».proof.Proof.LibBatchDot
import proofs.«165524_j45689862095550_2_alg».proof.Proof.LibSliceSplit
import proofs.«165524_j45689862095550_2_alg».proof.Proof.LibEinsumPair
import proofs.«165524_j45689862095550_2_alg».proof.Proof.LibSumLaws
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Val

open Cert.ReferenceIdeal Cert.ReferenceIdeal.Gen Cert.ReferenceIdeal.Value Idealize.ShloMosaic Idealize.ShloMosaic.ValueIdx Cert.Lib

/-- The operand index maps of a contraction at literal extents, read off coordinate by coordinate. -/
local macro "idx_maps3" : tactic =>
  `(tactic| (intro t v o k; funext a; apply Fin.ext; match a with | ⟨0, _⟩ => rfl | ⟨1, _⟩ => rfl | ⟨2, _⟩ => rfl))
local macro "idx_maps2" : tactic =>
  `(tactic| (intro t v o k; funext a; apply Fin.ext; match a with | ⟨0, _⟩ => rfl | ⟨1, _⟩ => rfl))

/-! ## Two chained batched contractions of the host, read at an index -/

section Nest
variable {N V U I O : Nat}

/-- The contraction over the feature component inside, the one over the channel v outside:
    out[t, u, o] = Σ_v r[t, u, v] · Σ_i f[t, v, i] · c[t, o, i]. -/
theorem dots_v_apply
    (dA : DotDims ⟨3, ![N, V, I]⟩ ⟨3, ![N, O, I]⟩ ⟨3, ![N, V, O]⟩) (hAr : dA.contr.rank = 1)
    (hAs : dA.contr.size ⟨0, by omega⟩ = I)
    (hAl : ∀ (t : Fin N) (v : Fin V) (o : Fin O) (k : Fin I),
      dA.lhsIdx (ix3 t v o) ((contrEquiv1 dA I hAr hAs).symm k) = ix3 t v k)
    (hAri : ∀ (t : Fin N) (v : Fin V) (o : Fin O) (k : Fin I),
      dA.rhsIdx (ix3 t v o) ((contrEquiv1 dA I hAr hAs).symm k) = ix3 t o k)
    (dB : DotDims ⟨3, ![N, U, V]⟩ ⟨3, ![N, V, O]⟩ ⟨3, ![N, U, O]⟩) (hBr : dB.contr.rank = 1)
    (hBs : dB.contr.size ⟨0, by omega⟩ = V)
    (hBl : ∀ (t : Fin N) (u : Fin U) (o : Fin O) (k : Fin V),
      dB.lhsIdx (ix3 t u o) ((contrEquiv1 dB V hBr hBs).symm k) = ix3 t u k)
    (hBri : ∀ (t : Fin N) (u : Fin U) (o : Fin O) (k : Fin V),
      dB.rhsIdx (ix3 t u o) ((contrEquiv1 dB V hBr hBs).symm k) = ix3 t k o)
    (pA pB : Option ContractPrecision)
    (f : FVec Ideal ⟨3, ![N, V, I]⟩ .f32) (c : FVec Ideal ⟨3, ![N, O, I]⟩ .f32) (r : FVec Ideal ⟨3, ![N, U, V]⟩ .f32)
    (t : Fin N) (u : Fin U) (o : Fin O) :
    Host.dotGeneral (F := Ideal) dB pB r (Host.dotGeneral (F := Ideal) dA pA f c) (ix3 t u o)
      = ∑ v : Fin V, r (ix3 t u v) * ∑ i : Fin I, f (ix3 t v i) * c (ix3 t o i) := by
  refine (dotGeneral_sum dB pB .single V hBr hBs r _ (ix3 t u o) (fun v => ix3 t u v) (fun v => ix3 t v o)
    (hBl t u o) (hBri t u o)).trans ?_
  refine Finset.sum_congr rfl fun v _ => congrArg _ ?_
  exact dotGeneral_sum dA pA .single I hAr hAs f c (ix3 t v o) (fun i => ix3 t v i) (fun i => ix3 t o i)
    (hAl t v o) (hAri t v o)

/-- The contraction over the channel v inside, the one over the feature component outside:
    out[t, u, o] = Σ_i (Σ_v f[t, v, i] · r[t, u, v]) · c[t, o, i]. -/
theorem dots_i_apply
    (dC : DotDims ⟨3, ![N, V, I]⟩ ⟨3, ![N, U, V]⟩ ⟨3, ![N, I, U]⟩) (hCr : dC.contr.rank = 1)
    (hCs : dC.contr.size ⟨0, by omega⟩ = V)
    (hCl : ∀ (t : Fin N) (i : Fin I) (u : Fin U) (k : Fin V),
      dC.lhsIdx (ix3 t i u) ((contrEquiv1 dC V hCr hCs).symm k) = ix3 t k i)
    (hCri : ∀ (t : Fin N) (i : Fin I) (u : Fin U) (k : Fin V),
      dC.rhsIdx (ix3 t i u) ((contrEquiv1 dC V hCr hCs).symm k) = ix3 t u k)
    (dD : DotDims ⟨3, ![N, I, U]⟩ ⟨3, ![N, O, I]⟩ ⟨3, ![N, U, O]⟩) (hDr : dD.contr.rank = 1)
    (hDs : dD.contr.size ⟨0, by omega⟩ = I)
    (hDl : ∀ (t : Fin N) (u : Fin U) (o : Fin O) (k : Fin I),
      dD.lhsIdx (ix3 t u o) ((contrEquiv1 dD I hDr hDs).symm k) = ix3 t k u)
    (hDri : ∀ (t : Fin N) (u : Fin U) (o : Fin O) (k : Fin I),
      dD.rhsIdx (ix3 t u o) ((contrEquiv1 dD I hDr hDs).symm k) = ix3 t o k)
    (pC pD : Option ContractPrecision)
    (f : FVec Ideal ⟨3, ![N, V, I]⟩ .f32) (r : FVec Ideal ⟨3, ![N, U, V]⟩ .f32) (c : FVec Ideal ⟨3, ![N, O, I]⟩ .f32)
    (t : Fin N) (u : Fin U) (o : Fin O) :
    Host.dotGeneral (F := Ideal) dD pD (Host.dotGeneral (F := Ideal) dC pC f r) c (ix3 t u o)
      = ∑ i : Fin I, (∑ v : Fin V, f (ix3 t v i) * r (ix3 t u v)) * c (ix3 t o i) := by
  refine (dotGeneral_sum dD pD .single I hDr hDs _ c (ix3 t u o) (fun i => ix3 t i u) (fun i => ix3 t o i)
    (hDl t u o) (hDri t u o)).trans ?_
  refine Finset.sum_congr rfl fun i _ => congrArg (· * c (ix3 t o i)) ?_
  exact dotGeneral_sum dC pC .single V hCr hCs f r (ix3 t i u) (fun v => ix3 t v i) (fun v => ix3 t u v)
    (hCl t i u) (hCri t i u)

/-- The harmonics contracted with a block of coupling coefficients: cy[t, o, i] = Σ_f y[t, f] · g[o, i, f]. -/
theorem dot_cy_apply {DF : Nat}
    (dY : DotDims ⟨2, ![N, DF]⟩ ⟨3, ![O, I, DF]⟩ ⟨3, ![N, O, I]⟩) (hYr : dY.contr.rank = 1)
    (hYs : dY.contr.size ⟨0, by omega⟩ = DF)
    (hYl : ∀ (t : Fin N) (o : Fin O) (i : Fin I) (k : Fin DF),
      dY.lhsIdx (ix3 t o i) ((contrEquiv1 dY DF hYr hYs).symm k) = ix2 t k)
    (hYri : ∀ (t : Fin N) (o : Fin O) (i : Fin I) (k : Fin DF),
      dY.rhsIdx (ix3 t o i) ((contrEquiv1 dY DF hYr hYs).symm k) = ix3 o i k)
    (pY : Option ContractPrecision)
    (y : FVec Ideal ⟨2, ![N, DF]⟩ .f32) (g : FVec Ideal ⟨3, ![O, I, DF]⟩ .f32) (t : Fin N) (o : Fin O) (i : Fin I) :
    Host.dotGeneral (F := Ideal) dY pY y g (ix3 t o i) = ∑ f : Fin DF, y (ix2 t f) * g (ix3 o i f) :=
  dotGeneral_sum dY pY .single DF hYr hYs y g (ix3 t o i) (fun f => ix2 t f) (fun f => ix3 o i f) (hYl t o i) (hYri t o i)

end Nest

/-! ## Operand chains read at an index -/

section Chains
variable {α : Type}

/-- A window of U · V · n columns regrouped as [N, U, V, n]: entry (t, u, v, q) is the matrix's entry
    (t, off + (u · V + v) · n + q). -/
theorem cols_quad_apply {N B W U V n off : Nat} (x : (⟨2, ![N, B]⟩ : Shape).Idx → α)
    (hs : (⟨2, ![N, B]⟩ : Shape).Slices ![0, off] ⟨2, ![N, W]⟩)
    (hc : (⟨2, ![N, W]⟩ : Shape).ShapeCasts ⟨4, ![N, U, V, n]⟩) (hW : W = U * V * n)
    (t : Fin N) (u : Fin U) (v : Fin V) (q : Fin n) (k : (⟨2, ![N, B]⟩ : Shape).Idx)
    (h0 : (k 0).val = t.val) (h1 : (k 1).val = off + ((u.val * V + v.val) * n + q.val)) :
    shapeCast ⟨4, ![N, U, V, n]⟩ (extractStridedSlice ⟨2, ![N, W]⟩ ![0, off] x hs) hc (ix4 t u v q) = x k := by
  have huv : u.val * V + v.val + 1 ≤ U * V := by
    have h1' : (u.val + 1) * V ≤ U * V := Nat.mul_le_mul_right V (Nat.succ_le_of_lt u.isLt)
    have h2' : (u.val + 1) * V = u.val * V + V := Nat.succ_mul _ _
    have := v.isLt
    omega
  have hlt : (u.val * V + v.val) * n + q.val < W := by
    have h1' : (u.val * V + v.val + 1) * n ≤ U * V * n := Nat.mul_le_mul_right n huv
    have h2' : (u.val * V + v.val + 1) * n = (u.val * V + v.val) * n + n := Nat.succ_mul _ _
    have := q.isLt
    omega
  refine (shapeCast_apply _ hc (ix4 t u v q) (ix2 t ⟨(u.val * V + v.val) * n + q.val, hlt⟩) ?_).trans ?_
  · rw [Shape.rowMajor_val_two, Shape.rowMajor_val_four]
    show t.val * W + ((u.val * V + v.val) * n + q.val) = ((t.val * U + u.val) * V + v.val) * n + q.val
    subst hW
    ring
  · exact slice_cols_apply x hs _ k h0 h1

/-- A trailing unit axis of a rank-4 array dropped. -/
theorem quad_drop_unit_apply {N U V : Nat} (x : (⟨4, ![N, U, V, 1]⟩ : Shape).Idx → α)
    (hc : (⟨4, ![N, U, V, 1]⟩ : Shape).ShapeCasts ⟨3, ![N, U, V]⟩)
    (t : Fin N) (u : Fin U) (v : Fin V) :
    shapeCast ⟨3, ![N, U, V]⟩ x hc (ix3 t u v) = x (ix4 t u v (0 : Fin 1)) := by
  refine shapeCast_apply x hc (ix3 t u v) (ix4 t u v (0 : Fin 1)) ?_
  rw [Shape.rowMajor_val_four, Shape.rowMajor_val_three]
  show ((t.val * U + u.val) * V + v.val) * 1 + 0 = (t.val * U + u.val) * V + v.val
  omega

/-- One entry kk of the last axis of a rank-4 array taken out as a window of width one. -/
theorem quad_slice_last_apply {N U V n kk : Nat} (x : (⟨4, ![N, U, V, n]⟩ : Shape).Idx → α)
    (hs : (⟨4, ![N, U, V, n]⟩ : Shape).Slices ![0, 0, 0, kk] ⟨4, ![N, U, V, 1]⟩) (hk : kk < n)
    (t : Fin N) (u : Fin U) (v : Fin V) :
    extractStridedSlice ⟨4, ![N, U, V, 1]⟩ ![0, 0, 0, kk] x hs (ix4 t u v (0 : Fin 1)) = x (ix4 t u v ⟨kk, hk⟩) := by
  refine extractStridedSlice_apply _ x hs _ (ix4 t u v ⟨kk, hk⟩) fun a => ?_
  match a with
  | ⟨0, _⟩ => show t.val = 0 + t.val; omega
  | ⟨1, _⟩ => show u.val = 0 + u.val; omega
  | ⟨2, _⟩ => show v.val = 0 + v.val; omega
  | ⟨3, _⟩ => show kk = kk + 0; omega

/-- A window of a vector regrouped as [A, B, C]: entry (a, b, c) is the vector's entry off + (a · B + b) · C + c. -/
theorem vec_cube_apply {L W A B C off : Nat} (x : (⟨1, ![L]⟩ : Shape).Idx → α)
    (hs : (⟨1, ![L]⟩ : Shape).Slices ![off] ⟨1, ![W]⟩)
    (hc : (⟨1, ![W]⟩ : Shape).ShapeCasts ⟨3, ![A, B, C]⟩) (hW : W = A * B * C)
    (a : Fin A) (b : Fin B) (c : Fin C) (k : (⟨1, ![L]⟩ : Shape).Idx)
    (h0 : (k 0).val = off + ((a.val * B + b.val) * C + c.val)) :
    shapeCast ⟨3, ![A, B, C]⟩ (extractStridedSlice ⟨1, ![W]⟩ ![off] x hs) hc (ix3 a b c) = x k := by
  have hab : a.val * B + b.val + 1 ≤ A * B := by
    have h1' : (a.val + 1) * B ≤ A * B := Nat.mul_le_mul_right B (Nat.succ_le_of_lt a.isLt)
    have h2' : (a.val + 1) * B = a.val * B + B := Nat.succ_mul _ _
    have := b.isLt
    omega
  have hlt : (a.val * B + b.val) * C + c.val < W := by
    have h1' : (a.val * B + b.val + 1) * C ≤ A * B * C := Nat.mul_le_mul_right C hab
    have h2' : (a.val * B + b.val + 1) * C = (a.val * B + b.val) * C + C := Nat.succ_mul _ _
    have := c.isLt
    omega
  refine (shapeCast_apply _ hc (ix3 a b c) (ix1 ⟨(a.val * B + b.val) * C + c.val, hlt⟩) ?_).trans ?_
  · rw [Shape.rowMajor_val_one, Shape.rowMajor_val_three]
    rfl
  · refine extractStridedSlice_apply _ x hs _ k fun d => ?_
    match d with
    | ⟨0, _⟩ => exact h0

/-- One entry of a vector taken out as a scalar and broadcast: it reads that entry everywhere. -/
theorem splat_entry_apply {s : Shape} {L : Nat} (w : (⟨1, ![L]⟩ : Shape).Idx → α) (j : Nat) (hj : j < L)
    (hs : (⟨1, ![L]⟩ : Shape).Slices ![j] ⟨1, ![1]⟩) (hc : (⟨1, ![1]⟩ : Shape).ShapeCasts ⟨0, ![]⟩)
    (hb : (⟨0, ![]⟩ : Shape).BroadcastsInDim s (![] : Fin 0 → Fin s.rank)) (i : s.Idx) :
    broadcastInDim s ![] hb (shapeCast ⟨0, ![]⟩ (extractStridedSlice ⟨1, ![1]⟩ ![j] w hs) hc) i = w (ix1 ⟨j, hj⟩) := by
  refine (broadcastInDim_apply _ hb _ i ix0 fun a => a.elim0).trans ?_
  refine (shapeCast_apply _ hc ix0 (ix1 (0 : Fin 1)) ?_).trans ?_
  · rw [Shape.rowMajor_val_one]
    have h1 := ((⟨0, ![]⟩ : Shape).rowMajor ix0).isLt
    have h2 : (⟨0, ![]⟩ : Shape).numel = 1 := rfl
    show 0 = _
    omega
  · refine extractStridedSlice_apply _ w hs _ (ix1 ⟨j, hj⟩) fun d => ?_
    match d with
    | ⟨0, _⟩ => show j = j + 0; omega

end Chains

/-! ## The specification's term from the operands' entries -/

section SpecSide
open Cert.Spec

/-- An accessor's value is real when every entry is. -/
theorem get2_real {a b : Nat} (x : A2 a b) (h : ∀ i, ∃ r : ℝ, x i = (r : EReal)) (p q : Nat) :
    ∃ r : ℝ, get2 x p q = (r : EReal) := by
  unfold get2
  split
  · exact h _
  · exact ⟨0, rfl⟩

theorem get1_real {a : Nat} (x : A1 a) (h : ∀ i, ∃ r : ℝ, x i = (r : EReal)) (p : Nat) :
    ∃ r : ℝ, get1 x p = (r : EReal) := by
  unfold get1
  split
  · exact h _
  · exact ⟨0, rfl⟩

/-- A contracted coupling is real when the harmonics and the coefficients are. -/
theorem coup_real (cg : A1 1225) (Y : A2 50000 25) (hY : ∀ i, ∃ r : ℝ, Y i = (r : EReal))
    (hC : ∀ i, ∃ r : ℝ, cg i = (r : EReal)) (e cgOff yOff di df o i : Nat) :
    ∃ r : ℝ, coup cg Y e cgOff yOff di df o i = (r : EReal) := by
  unfold coup
  obtain ⟨y, hy⟩ := exists_real_family (fun f : Fin df => get2 Y e (yOff + f.val)) fun f => get2_real Y hY _ _
  obtain ⟨c, hc⟩ := exists_real_family (fun f : Fin df => get1 cg (cgOff + ((o * di + i) * df + f.val))) fun f => get1_real cg hC _
  refine ⟨∑ f : Fin df, y f * c f, ?_⟩
  rw [LibMoments.coe_sum]
  refine Finset.sum_congr rfl fun f _ => ?_
  rw [EReal.coe_mul]
  exact congrArg₂ (· * ·) (hy f) (hc f)

variable (R : A2 50000 4864) (F : A2 50000 144) (Y : A2 50000 25) (cg : A1 1225)

/-- The contracted coupling from a window of the harmonics and a block of coefficients. -/
theorem coup_of_reads {dO di df : Nat} (e : Fin 50000) (o : Fin dO) (i : Fin di)
    (y : FVec Ideal ⟨2, ![50000, df]⟩ .f32) (g : FVec Ideal ⟨3, ![dO, di, df]⟩ .f32) (yOff cgOff : Nat)
    (hy : ∀ f : Fin df, y (ix2 e f) = get2 Y e.val (yOff + f.val))
    (hg : ∀ f : Fin df, g (ix3 o i f) = get1 cg (cgOff + ((o.val * di + i.val) * df + f.val))) :
    ∑ f : Fin df, y (ix2 e f) * g (ix3 o i f) = coup cg Y e.val cgOff yOff di df o.val i.val := by
  unfold coup
  exact Finset.sum_congr rfl fun f _ => congrArg₂ (· * ·) (hy f) (hg f)

/-- The specification's term from the operands' entries, the sum over the channel v outside. -/
theorem term_of_reads_v {dO di : Nat} (df : Nat) (e : Fin 50000) (u : Fin 16) (o : Fin dO)
    (r : FVec Ideal ⟨3, ![50000, 16, 16]⟩ .f32) (f : FVec Ideal ⟨3, ![50000, 16, di]⟩ .f32)
    (c : FVec Ideal ⟨3, ![50000, dO, di]⟩ .f32) (rBase nlf k finOff yOff cgOff : Nat)
    (hr : ∀ v : Fin 16, r (ix3 e u v) = get2 R e.val (rBase + ((u.val * 16 + v.val) * nlf + k)))
    (hf : ∀ (v : Fin 16) (i : Fin di), f (ix3 e v i) = get2 F e.val (finOff + (v.val * di + i.val)))
    (hc : ∀ i : Fin di, c (ix3 e o i) = coup cg Y e.val cgOff yOff di df o.val i.val) :
    ∑ v : Fin 16, r (ix3 e u v) * ∑ i : Fin di, f (ix3 e v i) * c (ix3 e o i)
      = term R F Y cg e.val u.val o.val rBase nlf k finOff di yOff df cgOff := by
  unfold term
  refine Finset.sum_congr rfl fun v _ => congrArg₂ (· * ·) (hr v) ?_
  exact Finset.sum_congr rfl fun i _ => congrArg₂ (· * ·) (hf v i) (hc i)

/-- The same with the sum over the feature component outside: the two nestings agree on real values. -/
theorem term_of_reads_i {dO di : Nat} (df : Nat) (e : Fin 50000) (u : Fin 16) (o : Fin dO)
    (hR : ∀ i, ∃ x : ℝ, R i = (x : EReal)) (hF : ∀ i, ∃ x : ℝ, F i = (x : EReal))
    (hY : ∀ i, ∃ x : ℝ, Y i = (x : EReal)) (hC : ∀ i, ∃ x : ℝ, cg i = (x : EReal))
    (r : FVec Ideal ⟨3, ![50000, 16, 16]⟩ .f32) (f : FVec Ideal ⟨3, ![50000, 16, di]⟩ .f32)
    (c : FVec Ideal ⟨3, ![50000, dO, di]⟩ .f32) (rBase nlf k finOff yOff cgOff : Nat)
    (hr : ∀ v : Fin 16, r (ix3 e u v) = get2 R e.val (rBase + ((u.val * 16 + v.val) * nlf + k)))
    (hf : ∀ (v : Fin 16) (i : Fin di), f (ix3 e v i) = get2 F e.val (finOff + (v.val * di + i.val)))
    (hc : ∀ i : Fin di, c (ix3 e o i) = coup cg Y e.val cgOff yOff di df o.val i.val) :
    ∑ i : Fin di, (∑ v : Fin 16, f (ix3 e v i) * r (ix3 e u v)) * c (ix3 e o i)
      = term R F Y cg e.val u.val o.val rBase nlf k finOff di yOff df cgOff := by
  refine Eq.trans (sum_nest_swap (fun v : Fin 16 => r (ix3 e u v)) (fun (v : Fin 16) (i : Fin di) => f (ix3 e v i))
    (fun i : Fin di => c (ix3 e o i)) (fun v => ?_) (fun v i => ?_) (fun i => ?_)).symm ?_
  · show ∃ x : ℝ, r (ix3 e u v) = (x : EReal)
    rw [hr v]; exact get2_real R hR _ _
  · show ∃ x : ℝ, f (ix3 e v i) = (x : EReal)
    rw [hf v i]; exact get2_real F hF _ _
  · show ∃ x : ℝ, c (ix3 e o i) = (x : EReal)
    rw [hc i]; exact coup_real cg Y hY hC _ _ _ _ _ _ _
  · exact term_of_reads_v R F Y cg df e u o r f c rBase nlf k finOff yOff cgOff hr hf hc

end SpecSide

/-! ## This program's operands through the accessors -/

section Reads
open Cert.Spec

/-- A radial window of 256 columns regrouped [50000, 16, 16, 1] and then [50000, 16, 16]. -/
theorem rad_unit_read (R : A2 50000 4864) (off : Nat)
    (hs : (⟨2, ![50000, 4864]⟩ : Shape).Slices ![0, off] ⟨2, ![50000, 256]⟩)
    (hc1 : (⟨2, ![50000, 256]⟩ : Shape).ShapeCasts ⟨4, ![50000, 16, 16, 1]⟩)
    (hc2 : (⟨4, ![50000, 16, 16, 1]⟩ : Shape).ShapeCasts ⟨3, ![50000, 16, 16]⟩)
    (hoff : off + 256 ≤ 4864) (e : Fin 50000) (u v : Fin 16) :
    shapeCast ⟨3, ![50000, 16, 16]⟩ (shapeCast ⟨4, ![50000, 16, 16, 1]⟩
        (extractStridedSlice ⟨2, ![50000, 256]⟩ ![0, off] R hs) hc1) hc2 (ix3 e u v)
      = get2 R e.val (off + ((u.val * 16 + v.val) * 1 + 0)) := by
  have hu := u.isLt
  have hv := v.isLt
  refine (quad_drop_unit_apply _ hc2 e u v).trans ?_
  refine (cols_quad_apply R hs hc1 rfl e u v (0 : Fin 1)
    (ix2 e ⟨off + ((u.val * 16 + v.val) * 1 + 0), by omega⟩) rfl rfl).trans ?_
  exact get2_of R _ _ _ rfl rfl

/-- A radial window of 768 columns regrouped [50000, 16, 16, 3], entry kk of the last axis taken out. -/
theorem rad_pick_read (R : A2 50000 4864) (off kk : Nat)
    (hs : (⟨2, ![50000, 4864]⟩ : Shape).Slices ![0, off] ⟨2, ![50000, 768]⟩)
    (hc1 : (⟨2, ![50000, 768]⟩ : Shape).ShapeCasts ⟨4, ![50000, 16, 16, 3]⟩)
    (hs2 : (⟨4, ![50000, 16, 16, 3]⟩ : Shape).Slices ![0, 0, 0, kk] ⟨4, ![50000, 16, 16, 1]⟩)
    (hc2 : (⟨4, ![50000, 16, 16, 1]⟩ : Shape).ShapeCasts ⟨3, ![50000, 16, 16]⟩)
    (hk : kk < 3) (hoff : off + 768 ≤ 4864) (e : Fin 50000) (u v : Fin 16) :
    shapeCast ⟨3, ![50000, 16, 16]⟩ (extractStridedSlice ⟨4, ![50000, 16, 16, 1]⟩ ![0, 0, 0, kk]
        (shapeCast ⟨4, ![50000, 16, 16, 3]⟩ (extractStridedSlice ⟨2, ![50000, 768]⟩ ![0, off] R hs) hc1) hs2) hc2 (ix3 e u v)
      = get2 R e.val (off + ((u.val * 16 + v.val) * 3 + kk)) := by
  have hu := u.isLt
  have hv := v.isLt
  refine (quad_drop_unit_apply _ hc2 e u v).trans ?_
  refine (quad_slice_last_apply _ hs2 hk e u v).trans ?_
  refine (cols_quad_apply R hs hc1 rfl e u v ⟨kk, hk⟩
    (ix2 e ⟨off + ((u.val * 16 + v.val) * 3 + kk), by omega⟩) rfl rfl).trans ?_
  exact get2_of R _ _ _ rfl rfl

/-- A window of the features regrouped [50000, 16, di]. -/
theorem feat_read (F : A2 50000 144) (off di w : Nat)
    (hs : (⟨2, ![50000, 144]⟩ : Shape).Slices ![0, off] ⟨2, ![50000, w]⟩)
    (hc : (⟨2, ![50000, w]⟩ : Shape).ShapeCasts ⟨3, ![50000, 16, di]⟩)
    (hw : w = 16 * di) (hoff : off + w ≤ 144) (e : Fin 50000) (v : Fin 16) (i : Fin di) :
    shapeCast ⟨3, ![50000, 16, di]⟩ (extractStridedSlice ⟨2, ![50000, w]⟩ ![0, off] F hs) hc (ix3 e v i)
      = get2 F e.val (off + (v.val * di + i.val)) := by
  have hlt : off + (v.val * di + i.val) < 144 := by
    have h1' : (v.val + 1) * di ≤ 16 * di := Nat.mul_le_mul_right di (Nat.succ_le_of_lt v.isLt)
    have h2' : (v.val + 1) * di = v.val * di + di := Nat.succ_mul _ _
    have := i.isLt
    omega
  refine (cols_split_apply F hs hc hw e v i (ix2 e ⟨off + (v.val * di + i.val), hlt⟩) rfl rfl).trans ?_
  exact get2_of F _ _ _ rfl rfl

/-- A window of the harmonics. -/
theorem harm_read (Y : A2 50000 25) (off df : Nat)
    (hs : (⟨2, ![50000, 25]⟩ : Shape).Slices ![0, off] ⟨2, ![50000, df]⟩)
    (hoff : off + df ≤ 25) (e : Fin 50000) (f : Fin df) :
    extractStridedSlice ⟨2, ![50000, df]⟩ ![0, off] Y hs (ix2 e f) = get2 Y e.val (off + f.val) := by
  have hf := f.isLt
  refine (slice_cols_apply Y hs (ix2 e f) (ix2 e ⟨off + f.val, by omega⟩) rfl rfl).trans ?_
  exact get2_of Y _ _ _ rfl rfl

/-- A block of the flattened coupling coefficients regrouped [dO, di, df]. -/
theorem cg_read (cg : A1 1225) (off w dO di df : Nat)
    (hs : (⟨1, ![1225]⟩ : Shape).Slices ![off] ⟨1, ![w]⟩)
    (hc : (⟨1, ![w]⟩ : Shape).ShapeCasts ⟨3, ![dO, di, df]⟩)
    (hw : w = dO * di * df) (hoff : off + w ≤ 1225) (o : Fin dO) (i : Fin di) (f : Fin df) :
    shapeCast ⟨3, ![dO, di, df]⟩ (extractStridedSlice ⟨1, ![w]⟩ ![off] cg hs) hc (ix3 o i f)
      = get1 cg (off + ((o.val * di + i.val) * df + f.val)) := by
  have hab : o.val * di + i.val + 1 ≤ dO * di := by
    have h1' : (o.val + 1) * di ≤ dO * di := Nat.mul_le_mul_right di (Nat.succ_le_of_lt o.isLt)
    have h2' : (o.val + 1) * di = o.val * di + di := Nat.succ_mul _ _
    have := i.isLt
    omega
  have hlt : off + ((o.val * di + i.val) * df + f.val) < 1225 := by
    have h1' : (o.val * di + i.val + 1) * df ≤ dO * di * df := Nat.mul_le_mul_right df hab
    have h2' : (o.val * di + i.val + 1) * df = (o.val * di + i.val) * df + df := Nat.succ_mul _ _
    have := f.isLt
    omega
  refine (vec_cube_apply cg hs hc hw o i f (ix1 ⟨off + ((o.val * di + i.val) * df + f.val), hlt⟩) rfl).trans ?_
  exact get1_of cg _ _ rfl

/-- The contracted coupling as the program computes it. -/
theorem cy_read (Y : A2 50000 25) (cg : A1 1225) {dO di df : Nat}
    (dY : DotDims ⟨2, ![50000, df]⟩ ⟨3, ![dO, di, df]⟩ ⟨3, ![50000, dO, di]⟩) (hYr : dY.contr.rank = 1)
    (hYs : dY.contr.size ⟨0, by omega⟩ = df)
    (hYl : ∀ (t : Fin 50000) (o : Fin dO) (i : Fin di) (k : Fin df),
      dY.lhsIdx (ix3 t o i) ((contrEquiv1 dY df hYr hYs).symm k) = ix2 t k)
    (hYri : ∀ (t : Fin 50000) (o : Fin dO) (i : Fin di) (k : Fin df),
      dY.rhsIdx (ix3 t o i) ((contrEquiv1 dY df hYr hYs).symm k) = ix3 o i k)
    (yOff cgOff w : Nat)
    (hsY : (⟨2, ![50000, 25]⟩ : Shape).Slices ![0, yOff] ⟨2, ![50000, df]⟩)
    (hsC : (⟨1, ![1225]⟩ : Shape).Slices ![cgOff] ⟨1, ![w]⟩)
    (hcC : (⟨1, ![w]⟩ : Shape).ShapeCasts ⟨3, ![dO, di, df]⟩)
    (hw : w = dO * di * df) (hy : yOff + df ≤ 25) (hc : cgOff + w ≤ 1225)
    (e : Fin 50000) (o : Fin dO) (i : Fin di) :
    Host.dotGeneral (F := Ideal) (φ₁ := .f32) (φ₂ := .f32) dY none (extractStridedSlice ⟨2, ![50000, df]⟩ ![0, yOff] Y hsY)
        (shapeCast ⟨3, ![dO, di, df]⟩ (extractStridedSlice ⟨1, ![w]⟩ ![cgOff] cg hsC) hcC) (ix3 e o i)
      = coup cg Y e.val cgOff yOff di df o.val i.val := by
  refine (dot_cy_apply dY hYr hYs hYl hYri none _ _ e o i).trans ?_
  exact coup_of_reads Y cg e o i _ _ yOff cgOff (fun f => harm_read Y yOff df hsY hy e f)
    (fun f => cg_read cg cgOff w dO di df hsC hcC hw hc o i f)

/-- A weight read everywhere. -/
theorem weight_read {s : Shape} (W : A1 19) (j : Nat) (hj : j < 19)
    (hs : (⟨1, ![19]⟩ : Shape).Slices ![j] ⟨1, ![1]⟩) (hc : (⟨1, ![1]⟩ : Shape).ShapeCasts ⟨0, ![]⟩)
    (hb : (⟨0, ![]⟩ : Shape).BroadcastsInDim s (![] : Fin 0 → Fin s.rank)) (i : s.Idx) :
    broadcastInDim s ![] hb (shapeCast ⟨0, ![]⟩ (extractStridedSlice ⟨1, ![1]⟩ ![j] W hs) hc) i = get1 W j :=
  (splat_entry_apply W j hj hs hc hb i).trans (get1_of W _ _ rfl)

/-- The zero the accumulation starts from. -/
theorem zero_read {s : Shape} (hb : (⟨0, ![]⟩ : Shape).BroadcastsInDim s (![] : Fin 0 → Fin s.rank)) (i : s.Idx) :
    broadcastInDim s ![] hb (constant (F := Ideal) ⟨0, ![]⟩ .f32 0x00000000#32) i = (0 : EReal) :=
  ((broadcastInDim_apply _ hb _ i ix0 fun a => a.elim0).trans (constant_apply _ _)).trans Ideal.ofBits_zero_f32

end Reads

/-! ## The blocks' accumulations spelled out -/

section Accs
open Cert.Spec
variable (R : A2 50000 4864) (F : A2 50000 144) (Y : A2 50000 25) (cg : A1 1225) (W : A1 19) (e u o : Nat)

theorem acc0_eq :
    acc0 R F Y cg W e u o
      = 0 + get1 W 0 * term R F Y cg e u o 0 1 0 0 1 0 1 0
          + get1 W 1 * term R F Y cg e u o 256 1 0 16 3 1 3 1
          + get1 W 2 * term R F Y cg e u o 512 1 0 64 5 4 5 10 := rfl

theorem acc1_eq :
    acc1 R F Y cg W e u o
      = 0 + get1 W 3 * term R F Y cg e u o 768 1 0 0 1 1 3 35
          + get1 W 4 * term R F Y cg e u o 1024 3 0 16 3 0 1 44
          + get1 W 5 * term R F Y cg e u o 1024 3 1 16 3 1 3 53
          + get1 W 6 * term R F Y cg e u o 1024 3 2 16 3 4 5 80
          + get1 W 7 * term R F Y cg e u o 1792 3 0 64 5 1 3 125
          + get1 W 8 * term R F Y cg e u o 1792 3 1 64 5 4 5 170
          + get1 W 9 * term R F Y cg e u o 1792 3 2 64 5 9 7 245 := rfl

end Accs

/-! ## Block 0 -/

theorem ref_msgs_lo0 (V0 : Valuation τ sig (Elt Ideal))
    (hR : ∀ i, ∃ r : ℝ, (V0 (Proc.devRef .tc main_arg1) : S50000x4864.Idx → EReal) i = (r : EReal))
    (hF : ∀ i, ∃ r : ℝ, (res_main_v6 (F := Ideal) V0 : S50000x144.Idx → EReal) i = (r : EReal))
    (hY : ∀ i, ∃ r : ℝ, (V0 (Proc.devRef .tc main_arg2) : S50000x25.Idx → EReal) i = (r : EReal))
    (hC : ∀ i, ∃ r : ℝ, (V0 (Proc.devRef .tc main_arg3) : S1225.Idx → EReal) i = (r : EReal))
    (e : Fin 50000) (col : Fin 144) (hcol : col.val < 16) :
    (res_main_v291 (F := Ideal) V0 : S50000x144.Idx → EReal) (ix2 e col)
      = Cert.Spec.acc0 (V0 (Proc.devRef .tc main_arg1)) (res_main_v6 (F := Ideal) V0) (V0 (Proc.devRef .tc main_arg2)) (V0 (Proc.devRef .tc main_arg3)) (V0 (Proc.devRef .tc main_arg4)) e.val col.val 0 := by
  obtain ⟨u, hu⟩ : ∃ u : Fin 16, col.val = u.val := ⟨⟨col.val, hcol⟩, rfl⟩
  obtain ⟨o, ho⟩ : ∃ o : Fin 1, 0 = o.val := ⟨⟨0, Nat.one_pos⟩, rfl⟩
  rw [hu, ho, acc0_eq]
  unfold res_main_v291
  refine (concatenate_apply_piece _ _ _ (ix2 e col) 0 (by exact Nat.zero_lt_succ _) S50000x16 _ (by rfl) (by rfl) 0 (by rfl) (ix2 e u)
    (fun b hb => ?_) ?_).trans ?_
  · match b, hb with
    | ⟨0, _⟩, _ => rfl
    | ⟨1, _⟩, hb => exact absurd (Fin.ext rfl) hb
  · show 0 + u.val = col.val
    omega
  refine (drop_unit_apply _ _ (ix2 e u) (ix3 e u o) rfl rfl).trans ?_
  rw [addf_apply, addf_apply, addf_apply, mulf_apply, mulf_apply, mulf_apply]
  refine congrArg₂ (· + ·) (congrArg₂ (· + ·) (congrArg₂ (· + ·) ?_ (congrArg₂ (· * ·) ?_ ?_)) (congrArg₂ (· * ·) ?_ ?_))
    (congrArg₂ (· * ·) ?_ ?_)
  · exact zero_read _ _
  · exact weight_read _ 0 (by norm_num) _ _ _ _
  · refine (dots_i_apply _ rfl rfl (by idx_maps3) (by idx_maps3) _ rfl rfl (by idx_maps3) (by idx_maps3) none none _ _ _ e u o).trans ?_
    exact term_of_reads_i _ _ _ _ 1 e u o hR hF hY hC _ _ _ 0 1 0 0 0 0
      (fun v => rad_unit_read _ 0 _ _ _ (by norm_num) e u v)
      (fun v i => feat_read _ 0 1 16 _ _ rfl (by norm_num) e v i)
      (fun i => cy_read _ _ _ rfl rfl (by idx_maps2) (by idx_maps3) 0 0 1 _ _ _ rfl (by norm_num) (by norm_num) e o i)
  · exact weight_read _ 1 (by norm_num) _ _ _ _
  · refine (dots_v_apply _ rfl rfl (by idx_maps3) (by idx_maps3) _ rfl rfl (by idx_maps3) (by idx_maps3) none none _ _ _ e u o).trans ?_
    exact term_of_reads_v _ _ _ _ 3 e u o _ _ _ 256 1 0 16 1 1
      (fun v => rad_unit_read _ 256 _ _ _ (by norm_num) e u v)
      (fun v i => feat_read _ 16 3 48 _ _ rfl (by norm_num) e v i)
      (fun i => cy_read _ _ _ rfl rfl (by idx_maps2) (by idx_maps3) 1 1 9 _ _ _ rfl (by norm_num) (by norm_num) e o i)
  · exact weight_read _ 2 (by norm_num) _ _ _ _
  · refine (dots_v_apply _ rfl rfl (by idx_maps3) (by idx_maps3) _ rfl rfl (by idx_maps3) (by idx_maps3) none none _ _ _ e u o).trans ?_
    exact term_of_reads_v _ _ _ _ 5 e u o _ _ _ 512 1 0 64 4 10
      (fun v => rad_unit_read _ 512 _ _ _ (by norm_num) e u v)
      (fun v i => feat_read _ 64 5 80 _ _ rfl (by norm_num) e v i)
      (fun i => cy_read _ _ _ rfl rfl (by idx_maps2) (by idx_maps3) 4 10 25 _ _ _ rfl (by norm_num) (by norm_num) e o i)

/-! ## Block 1 -/

/-- The first five terms of block 1's accumulation. -/
theorem v133_apply (V0 : Valuation τ sig (Elt Ideal))
    (hR : ∀ i, ∃ r : ℝ, (V0 (Proc.devRef .tc main_arg1) : S50000x4864.Idx → EReal) i = (r : EReal))
    (hF : ∀ i, ∃ r : ℝ, (res_main_v6 (F := Ideal) V0 : S50000x144.Idx → EReal) i = (r : EReal))
    (hY : ∀ i, ∃ r : ℝ, (V0 (Proc.devRef .tc main_arg2) : S50000x25.Idx → EReal) i = (r : EReal))
    (hC : ∀ i, ∃ r : ℝ, (V0 (Proc.devRef .tc main_arg3) : S1225.Idx → EReal) i = (r : EReal))
    (e : Fin 50000) (u : Fin 16) (o : Fin 3) :
    (res_main_v133 (F := Ideal) V0 : S50000x16x3.Idx → EReal) (ix3 e u o)
      = 0 + Cert.Spec.get1 (V0 (Proc.devRef .tc main_arg4)) 3 * Cert.Spec.term (V0 (Proc.devRef .tc main_arg1)) (res_main_v6 (F := Ideal) V0) (V0 (Proc.devRef .tc main_arg2)) (V0 (Proc.devRef .tc main_arg3)) e.val u.val o.val 768 1 0 0 1 1 3 35
          + Cert.Spec.get1 (V0 (Proc.devRef .tc main_arg4)) 4 * Cert.Spec.term (V0 (Proc.devRef .tc main_arg1)) (res_main_v6 (F := Ideal) V0) (V0 (Proc.devRef .tc main_arg2)) (V0 (Proc.devRef .tc main_arg3)) e.val u.val o.val 1024 3 0 16 3 0 1 44
          + Cert.Spec.get1 (V0 (Proc.devRef .tc main_arg4)) 5 * Cert.Spec.term (V0 (Proc.devRef .tc main_arg1)) (res_main_v6 (F := Ideal) V0) (V0 (Proc.devRef .tc main_arg2)) (V0 (Proc.devRef .tc main_arg3)) e.val u.val o.val 1024 3 1 16 3 1 3 53
          + Cert.Spec.get1 (V0 (Proc.devRef .tc main_arg4)) 6 * Cert.Spec.term (V0 (Proc.devRef .tc main_arg1)) (res_main_v6 (F := Ideal) V0) (V0 (Proc.devRef .tc main_arg2)) (V0 (Proc.devRef .tc main_arg3)) e.val u.val o.val 1024 3 2 16 3 4 5 80
          + Cert.Spec.get1 (V0 (Proc.devRef .tc main_arg4)) 7 * Cert.Spec.term (V0 (Proc.devRef .tc main_arg1)) (res_main_v6 (F := Ideal) V0) (V0 (Proc.devRef .tc main_arg2)) (V0 (Proc.devRef .tc main_arg3)) e.val u.val o.val 1792 3 0 64 5 1 3 125 := by
  unfold res_main_v133
  rw [addf_apply, addf_apply, addf_apply, addf_apply, addf_apply, mulf_apply, mulf_apply, mulf_apply, mulf_apply, mulf_apply]
  refine congrArg₂ (· + ·) (congrArg₂ (· + ·) (congrArg₂ (· + ·) (congrArg₂ (· + ·) (congrArg₂ (· + ·) ?_
    (congrArg₂ (· * ·) ?_ ?_)) (congrArg₂ (· * ·) ?_ ?_)) (congrArg₂ (· * ·) ?_ ?_)) (congrArg₂ (· * ·) ?_ ?_))
    (congrArg₂ (· * ·) ?_ ?_)
  · exact zero_read _ _
  · exact weight_read _ 3 (by norm_num) _ _ _ _
  · refine (dots_i_apply _ rfl rfl (by idx_maps3) (by idx_maps3) _ rfl rfl (by idx_maps3) (by idx_maps3) none none _ _ _ e u o).trans ?_
    exact term_of_reads_i _ _ _ _ 3 e u o hR hF hY hC _ _ _ 768 1 0 0 1 35
      (fun v => rad_unit_read _ 768 _ _ _ (by norm_num) e u v)
      (fun v i => feat_read _ 0 1 16 _ _ rfl (by norm_num) e v i)
      (fun i => cy_read _ _ _ rfl rfl (by idx_maps2) (by idx_maps3) 1 35 9 _ _ _ rfl (by norm_num) (by norm_num) e o i)
  · exact weight_read _ 4 (by norm_num) _ _ _ _
  · refine (dots_i_apply _ rfl rfl (by idx_maps3) (by idx_maps3) _ rfl rfl (by idx_maps3) (by idx_maps3) none none _ _ _ e u o).trans ?_
    exact term_of_reads_i _ _ _ _ 1 e u o hR hF hY hC _ _ _ 1024 3 0 16 0 44
      (fun v => rad_pick_read _ 1024 0 _ _ _ _ (by norm_num) (by norm_num) e u v)
      (fun v i => feat_read _ 16 3 48 _ _ rfl (by norm_num) e v i)
      (fun i => cy_read _ _ _ rfl rfl (by idx_maps2) (by idx_maps3) 0 44 9 _ _ _ rfl (by norm_num) (by norm_num) e o i)
  · exact weight_read _ 5 (by norm_num) _ _ _ _
  · refine (dots_i_apply _ rfl rfl (by idx_maps3) (by idx_maps3) _ rfl rfl (by idx_maps3) (by idx_maps3) none none _ _ _ e u o).trans ?_
    exact term_of_reads_i _ _ _ _ 3 e u o hR hF hY hC _ _ _ 1024 3 1 16 1 53
      (fun v => rad_pick_read _ 1024 1 _ _ _ _ (by norm_num) (by norm_num) e u v)
      (fun v i => feat_read _ 16 3 48 _ _ rfl (by norm_num) e v i)
      (fun i => cy_read _ _ _ rfl rfl (by idx_maps2) (by idx_maps3) 1 53 27 _ _ _ rfl (by norm_num) (by norm_num) e o i)
  · exact weight_read _ 6 (by norm_num) _ _ _ _
  · refine (dots_i_apply _ rfl rfl (by idx_maps3) (by idx_maps3) _ rfl rfl (by idx_maps3) (by idx_maps3) none none _ _ _ e u o).trans ?_
    exact term_of_reads_i _ _ _ _ 5 e u o hR hF hY hC _ _ _ 1024 3 2 16 4 80
      (fun v => rad_pick_read _ 1024 2 _ _ _ _ (by norm_num) (by norm_num) e u v)
      (fun v i => feat_read _ 16 3 48 _ _ rfl (by norm_num) e v i)
      (fun i => cy_read _ _ _ rfl rfl (by idx_maps2) (by idx_maps3) 4 80 45 _ _ _ rfl (by norm_num) (by norm_num) e o i)
  · exact weight_read _ 7 (by norm_num) _ _ _ _
  · refine (dots_v_apply _ rfl rfl (by idx_maps3) (by idx_maps3) _ rfl rfl (by idx_maps3) (by idx_maps3) none none _ _ _ e u o).trans ?_
    exact term_of_reads_v _ _ _ _ 3 e u o _ _ _ 1792 3 0 64 1 125
      (fun v => rad_pick_read _ 1792 0 _ _ _ _ (by norm_num) (by norm_num) e u v)
      (fun v i => feat_read _ 64 5 80 _ _ rfl (by norm_num) e v i)
      (fun i => cy_read _ _ _ rfl rfl (by idx_maps2) (by idx_maps3) 1 125 45 _ _ _ rfl (by norm_num) (by norm_num) e o i)

theorem ref_msgs_lo1 (V0 : Valuation τ sig (Elt Ideal))
    (hR : ∀ i, ∃ r : ℝ, (V0 (Proc.devRef .tc main_arg1) : S50000x4864.Idx → EReal) i = (r : EReal))
    (hF : ∀ i, ∃ r : ℝ, (res_main_v6 (F := Ideal) V0 : S50000x144.Idx → EReal) i = (r : EReal))
    (hY : ∀ i, ∃ r : ℝ, (V0 (Proc.devRef .tc main_arg2) : S50000x25.Idx → EReal) i = (r : EReal))
    (hC : ∀ i, ∃ r : ℝ, (V0 (Proc.devRef .tc main_arg3) : S1225.Idx → EReal) i = (r : EReal))
    (e : Fin 50000) (col : Fin 144) (hlo : 16 ≤ col.val) (hhi : col.val < 64) :
    (res_main_v291 (F := Ideal) V0 : S50000x144.Idx → EReal) (ix2 e col)
      = Cert.Spec.acc1 (V0 (Proc.devRef .tc main_arg1)) (res_main_v6 (F := Ideal) V0) (V0 (Proc.devRef .tc main_arg2)) (V0 (Proc.devRef .tc main_arg3)) (V0 (Proc.devRef .tc main_arg4)) e.val ((col.val - 16) / 3) ((col.val - 16) % 3) := by
  obtain ⟨u, o, huo, hu, ho⟩ : ∃ (u : Fin 16) (o : Fin 3), 16 + (u.val * 3 + o.val) = col.val
      ∧ (col.val - 16) / 3 = u.val ∧ (col.val - 16) % 3 = o.val :=
    ⟨⟨(col.val - 16) / 3, by omega⟩, ⟨(col.val - 16) % 3, by omega⟩,
      by show 16 + ((col.val - 16) / 3 * 3 + (col.val - 16) % 3) = col.val; omega, rfl, rfl⟩
  have huo' : u.val * 3 + o.val < 48 := by have := u.isLt; have := o.isLt; omega
  rw [hu, ho, acc1_eq]
  unfold res_main_v291
  refine (concatenate_apply_piece _ _ _ (ix2 e col) 1 (by exact Nat.succ_lt_succ (Nat.zero_lt_succ _)) S50000x48 _ (by rfl) (by rfl) 16 (by rfl)
    (ix2 e ⟨u.val * 3 + o.val, huo'⟩) (fun b hb => ?_) ?_).trans ?_
  · match b, hb with
    | ⟨0, _⟩, _ => rfl
    | ⟨1, _⟩, hb => exact absurd (Fin.ext rfl) hb
  · exact huo
  refine (merge_last_apply _ _ (ix2 e ⟨u.val * 3 + o.val, huo'⟩) (ix3 e u o) rfl rfl rfl).trans ?_
  rw [addf_apply, addf_apply, mulf_apply, mulf_apply]
  refine congrArg₂ (· + ·) (congrArg₂ (· + ·) ?_ (congrArg₂ (· * ·) ?_ ?_)) (congrArg₂ (· * ·) ?_ ?_)
  · exact v133_apply V0 hR hF hY hC e u o
  · exact weight_read _ 8 (by norm_num) _ _ _ _
  · refine (dots_v_apply _ rfl rfl (by idx_maps3) (by idx_maps3) _ rfl rfl (by idx_maps3) (by idx_maps3) none none _ _ _ e u o).trans ?_
    exact term_of_reads_v _ _ _ _ 5 e u o _ _ _ 1792 3 1 64 4 170
      (fun v => rad_pick_read _ 1792 1 _ _ _ _ (by norm_num) (by norm_num) e u v)
      (fun v i => feat_read _ 64 5 80 _ _ rfl (by norm_num) e v i)
      (fun i => cy_read _ _ _ rfl rfl (by idx_maps2) (by idx_maps3) 4 170 75 _ _ _ rfl (by norm_num) (by norm_num) e o i)
  · exact weight_read _ 9 (by norm_num) _ _ _ _
  · refine (dots_v_apply _ rfl rfl (by idx_maps3) (by idx_maps3) _ rfl rfl (by idx_maps3) (by idx_maps3) none none _ _ _ e u o).trans ?_
    exact term_of_reads_v _ _ _ _ 7 e u o _ _ _ 1792 3 2 64 9 245
      (fun v => rad_pick_read _ 1792 2 _ _ _ _ (by norm_num) (by norm_num) e u v)
      (fun v i => feat_read _ 64 5 80 _ _ rfl (by norm_num) e v i)
      (fun i => cy_read _ _ _ rfl rfl (by idx_maps2) (by idx_maps3) 9 245 105 _ _ _ rfl (by norm_num) (by norm_num) e o i)

end Cert.ReferenceIdeal.Val

end
-- ==== Proof.RefLo2.lean ====
/-
  The reference's messages in the third output block (columns 64–143 of the [50000, 144] message array), read at an
  index: the block's accumulation of the nine weighted triple terms of the specification.
-/
import proofs.«165524_j45689862095550_2_alg».proof.Proof.Gen.ReferenceIdeal.Run
import proofs.«165524_j45689862095550_2_alg».proof.Proof.Spec
import proofs.«165524_j45689862095550_2_alg».proof.Proof.LibBatchDot
import proofs.«165524_j45689862095550_2_alg».proof.Proof.LibSliceSplit
import proofs.«165524_j45689862095550_2_alg».proof.Proof.LibEinsumPair
import proofs.«165524_j45689862095550_2_alg».proof.Proof.LibSumLaws
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Val

open Cert.ReferenceIdeal Cert.ReferenceIdeal.Gen Cert.ReferenceIdeal.Value Idealize.ShloMosaic Idealize.ShloMosaic.ValueIdx Cert.Lib

namespace Lo2

/-! ## Real values through the accessors, and the exchange of the two nestings at the specification's own terms -/

/-- An entry read through the matrix accessor is real when every entry of the matrix is. -/
theorem get2_real {a b : Nat} (x : Cert.Spec.A2 a b) (hx : ∀ i, ∃ r : ℝ, x i = (r : EReal)) (p q : Nat) :
    ∃ r : ℝ, Cert.Spec.get2 x p q = (r : EReal) := by
  unfold Cert.Spec.get2
  split
  · exact hx _
  · exact ⟨0, EReal.coe_zero.symm⟩

/-- An entry read through the vector accessor is real when every entry of the vector is. -/
theorem get1_real {a : Nat} (x : Cert.Spec.A1 a) (hx : ∀ i, ∃ r : ℝ, x i = (r : EReal)) (p : Nat) :
    ∃ r : ℝ, Cert.Spec.get1 x p = (r : EReal) := by
  unfold Cert.Spec.get1
  split
  · exact hx _
  · exact ⟨0, EReal.coe_zero.symm⟩

/-- A contracted coupling coefficient is real: a finite sum of products of reals. -/
theorem coup_real (cg : Cert.Spec.A1 1225) (Y : Cert.Spec.A2 50000 25)
    (hY : ∀ i, ∃ r : ℝ, Y i = (r : EReal)) (hC : ∀ i, ∃ r : ℝ, cg i = (r : EReal))
    (e cgOff yOff di df o i : Nat) : ∃ r : ℝ, Cert.Spec.coup cg Y e cgOff yOff di df o i = (r : EReal) := by
  unfold Cert.Spec.coup
  obtain ⟨g, hg⟩ := exists_real_family (fun f : Fin df => Cert.Spec.get2 Y e (yOff + f.val)) (fun f => get2_real Y hY _ _)
  obtain ⟨c, hc⟩ := exists_real_family (fun f : Fin df => Cert.Spec.get1 cg (cgOff + ((o * di + i) * df + f.val)))
    (fun f => get1_real cg hC _)
  refine ⟨∑ f : Fin df, g f * c f, ?_⟩
  rw [LibMoments.coe_sum]
  refine Finset.sum_congr rfl fun f _ => ?_
  rw [EReal.coe_mul]
  exact congrArg₂ (· * ·) (hg f) (hc f)

/-- The nesting with the feature component outermost is the specification's term (the radial sum outermost). -/
theorem term_swap (R : Cert.Spec.A2 50000 4864) (F : Cert.Spec.A2 50000 144) (Y : Cert.Spec.A2 50000 25) (cg : Cert.Spec.A1 1225)
    (hR : ∀ i, ∃ r : ℝ, R i = (r : EReal)) (hF : ∀ i, ∃ r : ℝ, F i = (r : EReal))
    (hY : ∀ i, ∃ r : ℝ, Y i = (r : EReal)) (hC : ∀ i, ∃ r : ℝ, cg i = (r : EReal))
    (e u o rBase nlf k finOff di yOff df cgOff : Nat) :
    ∑ i : Fin di, (∑ v : Fin 16, Cert.Spec.get2 F e (finOff + (v.val * di + i.val))
          * Cert.Spec.get2 R e (rBase + ((u * 16 + v.val) * nlf + k)))
        * Cert.Spec.coup cg Y e cgOff yOff di df o i.val
      = Cert.Spec.term R F Y cg e u o rBase nlf k finOff di yOff df cgOff := by
  unfold Cert.Spec.term
  exact (sum_nest_swap (fun v : Fin 16 => Cert.Spec.get2 R e (rBase + ((u * 16 + v.val) * nlf + k)))
    (fun (v : Fin 16) (i : Fin di) => Cert.Spec.get2 F e (finOff + (v.val * di + i.val)))
    (fun i : Fin di => Cert.Spec.coup cg Y e cgOff yOff di df o i.val)
    (fun v => get2_real R hR _ _) (fun v i => get2_real F hF _ _) (fun i => coup_real cg Y hY hC _ _ _ _ _ _ _)).symm

/-! ## Layout chains of the reference's operands -/

/-- A position inside a block of a regrouped axis is inside the whole axis. -/
theorem lt_mul_add {a b p q : Nat} (hp : p < a) (hq : q < b) : p * b + q < a * b := by
  have h1 : (p + 1) * b ≤ a * b := Nat.mul_le_mul_right b (Nat.succ_le_of_lt hp)
  have h2 : (p + 1) * b = p * b + b := Nat.succ_mul _ _
  omega

/-- A window of `U · V · n` columns regrouped as [N, U, V, n], entry `kk` of the last axis taken out and the unit axis
    dropped: entry (t, u, v) is the matrix's entry (t, off + (u · V + v) · n + kk). -/
theorem cols_pick4_apply {α : Type} {N B W U V n kk off : Nat} (x : (⟨2, ![N, B]⟩ : Shape).Idx → α)
    (hs : (⟨2, ![N, B]⟩ : Shape).Slices ![0, off] ⟨2, ![N, W]⟩)
    (hc1 : (⟨2, ![N, W]⟩ : Shape).ShapeCasts ⟨4, ![N, U, V, n]⟩)
    (hs2 : (⟨4, ![N, U, V, n]⟩ : Shape).Slices ![0, 0, 0, kk] ⟨4, ![N, U, V, 1]⟩)
    (hc2 : (⟨4, ![N, U, V, 1]⟩ : Shape).ShapeCasts ⟨3, ![N, U, V]⟩)
    (hW : W = U * V * n) (hk : kk < n)
    (t : Fin N) (u : Fin U) (v : Fin V) (k : (⟨2, ![N, B]⟩ : Shape).Idx)
    (h0 : (k 0).val = t.val) (h1 : (k 1).val = off + ((u.val * V + v.val) * n + kk)) :
    shapeCast ⟨3, ![N, U, V]⟩ (extractStridedSlice ⟨4, ![N, U, V, 1]⟩ ![0, 0, 0, kk]
        (shapeCast ⟨4, ![N, U, V, n]⟩ (extractStridedSlice ⟨2, ![N, W]⟩ ![0, off] x hs) hc1) hs2) hc2 (ix3 t u v) = x k := by
  have hlt : (u.val * V + v.val) * n + kk < W := by
    subst hW; exact lt_mul_add (lt_mul_add u.isLt v.isLt) hk
  refine (shapeCast_apply _ hc2 (ix3 t u v) (ix4 t u v (0 : Fin 1)) ?_).trans ?_
  · rw [Shape.rowMajor_val_three, Shape.rowMajor_val_four]
    show ((t.val * U + u.val) * V + v.val) * 1 + 0 = (t.val * U + u.val) * V + v.val
    omega
  refine (extractStridedSlice_apply _ _ hs2 _ (ix4 t u v ⟨kk, hk⟩) fun a => ?_).trans ?_
  · match a with
    | ⟨0, _⟩ => show t.val = 0 + t.val; omega
    | ⟨1, _⟩ => show u.val = 0 + u.val; omega
    | ⟨2, _⟩ => show v.val = 0 + v.val; omega
    | ⟨3, _⟩ => show kk = kk + 0; omega
  refine (shapeCast_apply _ hc1 (ix4 t u v ⟨kk, hk⟩) (ix2 t ⟨(u.val * V + v.val) * n + kk, hlt⟩) ?_).trans ?_
  · rw [Shape.rowMajor_val_two, Shape.rowMajor_val_four]
    show t.val * W + ((u.val * V + v.val) * n + kk) = ((t.val * U + u.val) * V + v.val) * n + kk
    subst hW; ring
  exact slice_cols_apply x hs _ k h0 h1

/-- A window of `U · V` columns regrouped as [N, U, V, 1] and the unit axis dropped: entry (t, u, v) is the matrix's
    entry (t, off + u · V + v). -/
theorem cols_unit4_apply {α : Type} {N B W U V off : Nat} (x : (⟨2, ![N, B]⟩ : Shape).Idx → α)
    (hs : (⟨2, ![N, B]⟩ : Shape).Slices ![0, off] ⟨2, ![N, W]⟩)
    (hc1 : (⟨2, ![N, W]⟩ : Shape).ShapeCasts ⟨4, ![N, U, V, 1]⟩)
    (hc2 : (⟨4, ![N, U, V, 1]⟩ : Shape).ShapeCasts ⟨3, ![N, U, V]⟩)
    (hW : W = U * V)
    (t : Fin N) (u : Fin U) (v : Fin V) (k : (⟨2, ![N, B]⟩ : Shape).Idx)
    (h0 : (k 0).val = t.val) (h1 : (k 1).val = off + (u.val * V + v.val)) :
    shapeCast ⟨3, ![N, U, V]⟩ (shapeCast ⟨4, ![N, U, V, 1]⟩ (extractStridedSlice ⟨2, ![N, W]⟩ ![0, off] x hs) hc1) hc2
        (ix3 t u v) = x k := by
  have hlt : u.val * V + v.val < W := by subst hW; exact lt_mul_add u.isLt v.isLt
  refine (shapeCast_apply _ hc2 (ix3 t u v) (ix4 t u v (0 : Fin 1)) ?_).trans ?_
  · rw [Shape.rowMajor_val_three, Shape.rowMajor_val_four]
    show ((t.val * U + u.val) * V + v.val) * 1 + 0 = (t.val * U + u.val) * V + v.val
    omega
  refine (shapeCast_apply _ hc1 (ix4 t u v (0 : Fin 1)) (ix2 t ⟨u.val * V + v.val, hlt⟩) ?_).trans ?_
  · rw [Shape.rowMajor_val_two, Shape.rowMajor_val_four]
    show t.val * W + (u.val * V + v.val) = ((t.val * U + u.val) * V + v.val) * 1 + 0
    subst hW; ring
  exact slice_cols_apply x hs _ k h0 h1

/-! ## The contractions at an index -/

/-- TWO CHAINED BATCHED CONTRACTIONS WITH THE FEATURE COMPONENT OUTERMOST:
      g[t, i, u]   = Σ_v f[t, v, i] · r[t, u, v],      out[t, u, o] = Σ_i g[t, i, u] · c[t, o, i]. -/
theorem pair_outer_apply {N V U I O : Nat}
    (dA : DotDims ⟨3, ![N, V, I]⟩ ⟨3, ![N, U, V]⟩ ⟨3, ![N, I, U]⟩) (hAr : dA.contr.rank = 1)
    (hAs : dA.contr.size ⟨0, by omega⟩ = V)
    (hAl : ∀ (t : Fin N) (i : Fin I) (u : Fin U) (k : Fin V),
      dA.lhsIdx (ix3 t i u) ((contrEquiv1 dA V hAr hAs).symm k) = ix3 t k i)
    (hAri : ∀ (t : Fin N) (i : Fin I) (u : Fin U) (k : Fin V),
      dA.rhsIdx (ix3 t i u) ((contrEquiv1 dA V hAr hAs).symm k) = ix3 t u k)
    (dB : DotDims ⟨3, ![N, I, U]⟩ ⟨3, ![N, O, I]⟩ ⟨3, ![N, U, O]⟩) (hBr : dB.contr.rank = 1)
    (hBs : dB.contr.size ⟨0, by omega⟩ = I)
    (hBl : ∀ (t : Fin N) (u : Fin U) (o : Fin O) (k : Fin I),
      dB.lhsIdx (ix3 t u o) ((contrEquiv1 dB I hBr hBs).symm k) = ix3 t k u)
    (hBri : ∀ (t : Fin N) (u : Fin U) (o : Fin O) (k : Fin I),
      dB.rhsIdx (ix3 t u o) ((contrEquiv1 dB I hBr hBs).symm k) = ix3 t o k)
    (pA pB : Option ContractPrecision) (sA sB : HostSchedule)
    (f : FVec Ideal ⟨3, ![N, V, I]⟩ .f32) (r : FVec Ideal ⟨3, ![N, U, V]⟩ .f32) (c : FVec Ideal ⟨3, ![N, O, I]⟩ .f32)
    (t : Fin N) (u : Fin U) (o : Fin O) :
    FloatOps.dotGeneral dB pB sB (FloatOps.dotGeneral dA pA sA f r) c (ix3 t u o)
      = ∑ i : Fin I, (∑ v : Fin V, f (ix3 t v i) * r (ix3 t u v)) * c (ix3 t o i) := by
  refine (dotGeneral_sum dB pB sB I hBr hBs _ c (ix3 t u o) (fun i => ix3 t i u) (fun i => ix3 t o i)
    (hBl t u o) (hBri t u o)).trans ?_
  refine Finset.sum_congr rfl fun i _ => congrArg (· * c (ix3 t o i)) ?_
  exact dotGeneral_sum dA pA sA V hAr hAs f r (ix3 t i u) (fun v => ix3 t v i) (fun v => ix3 t u v)
    (hAl t i u) (hAri t i u)

/-- THE CONTRACTED COUPLINGS AT AN INDEX: a window of the harmonics against a window of the flattened coupling table
    regrouped as [O, I, D], contracted over the last axis, is the specification's contracted coupling. -/
theorem coup_apply {O I D OID : Nat} (d : DotDims ⟨2, ![50000, D]⟩ ⟨3, ![O, I, D]⟩ ⟨3, ![50000, O, I]⟩)
    (hr : d.contr.rank = 1) (hs : d.contr.size ⟨0, by omega⟩ = D)
    (hl : ∀ (t : Fin 50000) (o : Fin O) (i : Fin I) (k : Fin D),
      d.lhsIdx (ix3 t o i) ((contrEquiv1 d D hr hs).symm k) = ix2 t k)
    (hri : ∀ (t : Fin 50000) (o : Fin O) (i : Fin I) (k : Fin D),
      d.rhsIdx (ix3 t o i) ((contrEquiv1 d D hr hs).symm k) = ix3 o i k)
    (p : Option ContractPrecision) (s : HostSchedule)
    (Y : FVec Ideal ⟨2, ![50000, 25]⟩ .f32) (cg : FVec Ideal ⟨1, ![1225]⟩ .f32) (yOff cgOff : Nat)
    (hsY : (⟨2, ![50000, 25]⟩ : Shape).Slices ![0, yOff] ⟨2, ![50000, D]⟩)
    (hsC : (⟨1, ![1225]⟩ : Shape).Slices ![cgOff] ⟨1, ![OID]⟩)
    (hcC : (⟨1, ![OID]⟩ : Shape).ShapeCasts ⟨3, ![O, I, D]⟩)
    (hOID : OID = O * I * D) (hyb : yOff + D ≤ 25) (hcb : cgOff + OID ≤ 1225)
    (e : Fin 50000) (o : Fin O) (i : Fin I) :
    FloatOps.dotGeneral d p s (extractStridedSlice ⟨2, ![50000, D]⟩ ![0, yOff] Y hsY)
        (shapeCast ⟨3, ![O, I, D]⟩ (extractStridedSlice ⟨1, ![OID]⟩ ![cgOff] cg hsC) hcC) (ix3 e o i)
      = Cert.Spec.coup cg Y e.val cgOff yOff I D o.val i.val := by
  refine (dotGeneral_sum d p s D hr hs _ _ (ix3 e o i) (fun k => ix2 e k) (fun k => ix3 o i k) (hl e o i) (hri e o i)).trans ?_
  unfold Cert.Spec.coup
  refine Finset.sum_congr rfl fun f _ => congrArg₂ (· * ·) ?_ ?_
  · have hb : yOff + f.val < 25 := by have := f.isLt; omega
    refine (slice_cols_apply Y hsY (ix2 e f) (ix2 e ⟨yOff + f.val, hb⟩) rfl rfl).trans ?_
    exact Cert.Spec.get2_of (a := 50000) (b := 25) Y _ _ _ rfl rfl
  · have hp : (o.val * I + i.val) * D + f.val < OID := by
      subst hOID; exact lt_mul_add (lt_mul_add o.isLt i.isLt) f.isLt
    have hq : cgOff + ((o.val * I + i.val) * D + f.val) < 1225 := by omega
    refine (shapeCast_apply _ hcC (ix3 o i f) (ix1 ⟨(o.val * I + i.val) * D + f.val, hp⟩) ?_).trans ?_
    · rw [Shape.rowMajor_val_one, Shape.rowMajor_val_three]
      rfl
    refine (extractStridedSlice_apply _ cg hsC _ (ix1 ⟨cgOff + ((o.val * I + i.val) * D + f.val), hq⟩) fun a => ?_).trans ?_
    · match a with
      | ⟨0, _⟩ => rfl
    exact Cert.Spec.get1_of (a := 1225) cg _ _ rfl

/-- A weight, as the reference extracts and broadcasts it: entry `j` of the weight vector. -/
theorem weight_apply {t : Shape} (W : FVec Ideal ⟨1, ![19]⟩ .f32) (j : Nat) (hj : j < 19)
    (hs : (⟨1, ![19]⟩ : Shape).Slices ![j] ⟨1, ![1]⟩) (hc : (⟨1, ![1]⟩ : Shape).ShapeCasts ⟨0, ![]⟩)
    (hb : (⟨0, ![]⟩ : Shape).BroadcastsInDim t ![]) (idx : t.Idx) :
    broadcastInDim t ![] hb (shapeCast ⟨0, ![]⟩ (extractStridedSlice ⟨1, ![1]⟩ ![j] W hs) hc) idx = Cert.Spec.get1 W j := by
  refine (broadcastInDim_apply _ hb _ idx ix0 fun a => a.elim0).trans ?_
  refine (shapeCast_apply _ hc ix0 (ix1 (0 : Fin 1)) ?_).trans ?_
  · rw [Shape.rowMajor_val_one]
    have h := ((⟨0, ![]⟩ : Shape).rowMajor ix0).isLt
    have h1 : (⟨0, ![]⟩ : Shape).numel = 1 := rfl
    show 0 = _
    omega
  refine (extractStridedSlice_apply _ W hs _ (ix1 ⟨j, hj⟩) fun a => ?_).trans ?_
  · match a with
    | ⟨0, _⟩ => rfl
  exact Cert.Spec.get1_of (a := 19) W _ _ rfl

/-- The message array is three blocks side by side; a column from 64 on is in the third, 64 columns in. -/
theorem concat3_apply {α : Type} (X0 : S50000x16.Idx → α) (X1 : S50000x48.Idx → α) (X2 : S50000x80.Idx → α)
    (hc : Shape.Concatenates [S50000x16, S50000x48, S50000x80] S50000x144 1)
    (e : Fin 50000) (col : Fin 144) (hlo : 64 ≤ col.val) :
    concatenate S50000x144 1 [⟨S50000x16, X0⟩, ⟨S50000x48, X1⟩, ⟨S50000x80, X2⟩] hc (ix2 e col)
      = X2 (ix2 e ⟨col.val - 64, by have := col.isLt; omega⟩) := by
  refine concatenate_apply_piece (t := S50000x144) (1 : Fin 2) [⟨S50000x16, X0⟩, ⟨S50000x48, X1⟩, ⟨S50000x80, X2⟩] hc (ix2 e col) 2
    (by show 2 < 3; omega) S50000x80 X2 rfl rfl 64 rfl
    (ix2 e ⟨col.val - 64, by have := col.isLt; omega⟩) (fun b hb => ?_) ?_
  · match b with
    | ⟨0, _⟩ => rfl
    | ⟨1, _⟩ => exact absurd rfl hb
  · show 64 + (col.val - 64) = col.val
    omega

/-! ## One triple's term, and the operands of the nine triples -/

/-- ONE TRIPLE'S TERM: the reference's two nested contractions around the contracted couplings, for operands whose
    entries are the accessor's values at the triple's offsets, are the specification's term. -/
theorem triple_apply {I D OID : Nat}
    (dA : DotDims ⟨3, ![50000, 16, I]⟩ ⟨3, ![50000, 16, 16]⟩ ⟨3, ![50000, I, 16]⟩) (hAr : dA.contr.rank = 1)
    (hAs : dA.contr.size ⟨0, by omega⟩ = 16)
    (hAl : ∀ (t : Fin 50000) (i : Fin I) (u : Fin 16) (k : Fin 16),
      dA.lhsIdx (ix3 t i u) ((contrEquiv1 dA 16 hAr hAs).symm k) = ix3 t k i)
    (hAri : ∀ (t : Fin 50000) (i : Fin I) (u : Fin 16) (k : Fin 16),
      dA.rhsIdx (ix3 t i u) ((contrEquiv1 dA 16 hAr hAs).symm k) = ix3 t u k)
    (dB : DotDims ⟨3, ![50000, I, 16]⟩ ⟨3, ![50000, 5, I]⟩ ⟨3, ![50000, 16, 5]⟩) (hBr : dB.contr.rank = 1)
    (hBs : dB.contr.size ⟨0, by omega⟩ = I)
    (hBl : ∀ (t : Fin 50000) (u : Fin 16) (o : Fin 5) (k : Fin I),
      dB.lhsIdx (ix3 t u o) ((contrEquiv1 dB I hBr hBs).symm k) = ix3 t k u)
    (hBri : ∀ (t : Fin 50000) (u : Fin 16) (o : Fin 5) (k : Fin I),
      dB.rhsIdx (ix3 t u o) ((contrEquiv1 dB I hBr hBs).symm k) = ix3 t o k)
    (dC : DotDims ⟨2, ![50000, D]⟩ ⟨3, ![5, I, D]⟩ ⟨3, ![50000, 5, I]⟩)
    (hCr : dC.contr.rank = 1) (hCs : dC.contr.size ⟨0, by omega⟩ = D)
    (hCl : ∀ (t : Fin 50000) (o : Fin 5) (i : Fin I) (k : Fin D),
      dC.lhsIdx (ix3 t o i) ((contrEquiv1 dC D hCr hCs).symm k) = ix2 t k)
    (hCri : ∀ (t : Fin 50000) (o : Fin 5) (i : Fin I) (k : Fin D),
      dC.rhsIdx (ix3 t o i) ((contrEquiv1 dC D hCr hCs).symm k) = ix3 o i k)
    (R : FVec Ideal ⟨2, ![50000, 4864]⟩ .f32) (F : FVec Ideal ⟨2, ![50000, 144]⟩ .f32)
    (Y : FVec Ideal ⟨2, ![50000, 25]⟩ .f32) (cg : FVec Ideal ⟨1, ![1225]⟩ .f32)
    (hR : ∀ i, ∃ r : ℝ, R i = (r : EReal)) (hF : ∀ i, ∃ r : ℝ, F i = (r : EReal))
    (hY : ∀ i, ∃ r : ℝ, Y i = (r : EReal)) (hC : ∀ i, ∃ r : ℝ, cg i = (r : EReal))
    (f : FVec Ideal ⟨3, ![50000, 16, I]⟩ .f32) (r : FVec Ideal ⟨3, ![50000, 16, 16]⟩ .f32)
    (rBase nlf k finOff yOff cgOff : Nat)
    (hf : ∀ (e : Fin 50000) (v : Fin 16) (i : Fin I), f (ix3 e v i) = Cert.Spec.get2 F e.val (finOff + (v.val * I + i.val)))
    (hr : ∀ (e : Fin 50000) (u : Fin 16) (v : Fin 16),
      r (ix3 e u v) = Cert.Spec.get2 R e.val (rBase + ((u.val * 16 + v.val) * nlf + k)))
    (hsY : (⟨2, ![50000, 25]⟩ : Shape).Slices ![0, yOff] ⟨2, ![50000, D]⟩)
    (hsC : (⟨1, ![1225]⟩ : Shape).Slices ![cgOff] ⟨1, ![OID]⟩)
    (hcC : (⟨1, ![OID]⟩ : Shape).ShapeCasts ⟨3, ![5, I, D]⟩)
    (hOID : OID = 5 * I * D) (hyb : yOff + D ≤ 25) (hcb : cgOff + OID ≤ 1225)
    (e : Fin 50000) (u : Fin 16) (o : Fin 5) :
    FloatOps.dotGeneral dB none .single (FloatOps.dotGeneral dA none .single f r)
        (FloatOps.dotGeneral dC none .single (extractStridedSlice ⟨2, ![50000, D]⟩ ![0, yOff] Y hsY)
          (shapeCast ⟨3, ![5, I, D]⟩ (extractStridedSlice ⟨1, ![OID]⟩ ![cgOff] cg hsC) hcC)) (ix3 e u o)
      = Cert.Spec.term R F Y cg e.val u.val o.val rBase nlf k finOff I yOff D cgOff := by
  refine (pair_outer_apply dA hAr hAs hAl hAri dB hBr hBs hBl hBri none none .single .single f r _ e u o).trans ?_
  refine (Finset.sum_congr rfl fun i _ => congrArg₂ (· * ·)
    (Finset.sum_congr rfl fun v _ => congrArg₂ (· * ·) (hf e v i) (hr e u v))
    (coup_apply dC hCr hCs hCl hCri none .single Y cg yOff cgOff hsY hsC hcC hOID hyb hcb e o i)).trans ?_
  exact term_swap R F Y cg hR hF hY hC e.val u.val o.val rBase nlf k finOff I yOff D cgOff

/-- The features of one input block, regrouped [50000, 16, d_i]: entry (e, v, i) is F[e, off + v · d_i + i]. -/
theorem feat_apply {W I : Nat} (F : FVec Ideal ⟨2, ![50000, 144]⟩ .f32) (off : Nat)
    (hs : (⟨2, ![50000, 144]⟩ : Shape).Slices ![0, off] ⟨2, ![50000, W]⟩)
    (hc : (⟨2, ![50000, W]⟩ : Shape).ShapeCasts ⟨3, ![50000, 16, I]⟩) (hW : W = 16 * I) (hb : off + W ≤ 144)
    (e : Fin 50000) (v : Fin 16) (i : Fin I) :
    shapeCast ⟨3, ![50000, 16, I]⟩ (extractStridedSlice ⟨2, ![50000, W]⟩ ![0, off] F hs) hc (ix3 e v i)
      = Cert.Spec.get2 F e.val (off + (v.val * I + i.val)) := by
  have hlt : v.val * I + i.val < W := by subst hW; exact lt_mul_add v.isLt i.isLt
  have hq : off + (v.val * I + i.val) < 144 := by omega
  refine (cols_split_apply F hs hc hW e v i (ix2 e ⟨off + (v.val * I + i.val), hq⟩) rfl rfl).trans ?_
  exact Cert.Spec.get2_of (a := 50000) (b := 144) F _ _ _ rfl rfl

/-- The radial coefficients of one triple, regrouped [50000, 16, 16, n] with entry `k` of the last axis taken out:
    entry (e, u, v) is R[e, off + (u · 16 + v) · n + k]. -/
theorem rad_pick_apply {W n : Nat} (R : FVec Ideal ⟨2, ![50000, 4864]⟩ .f32) (off k : Nat)
    (hs : (⟨2, ![50000, 4864]⟩ : Shape).Slices ![0, off] ⟨2, ![50000, W]⟩)
    (hc1 : (⟨2, ![50000, W]⟩ : Shape).ShapeCasts ⟨4, ![50000, 16, 16, n]⟩)
    (hs2 : (⟨4, ![50000, 16, 16, n]⟩ : Shape).Slices ![0, 0, 0, k] ⟨4, ![50000, 16, 16, 1]⟩)
    (hc2 : (⟨4, ![50000, 16, 16, 1]⟩ : Shape).ShapeCasts ⟨3, ![50000, 16, 16]⟩)
    (hW : W = 16 * 16 * n) (hk : k < n) (hb : off + W ≤ 4864)
    (e : Fin 50000) (u : Fin 16) (v : Fin 16) :
    shapeCast ⟨3, ![50000, 16, 16]⟩ (extractStridedSlice ⟨4, ![50000, 16, 16, 1]⟩ ![0, 0, 0, k]
        (shapeCast ⟨4, ![50000, 16, 16, n]⟩ (extractStridedSlice ⟨2, ![50000, W]⟩ ![0, off] R hs) hc1) hs2) hc2 (ix3 e u v)
      = Cert.Spec.get2 R e.val (off + ((u.val * 16 + v.val) * n + k)) := by
  have hlt : (u.val * 16 + v.val) * n + k < W := by
    subst hW; exact lt_mul_add (lt_mul_add u.isLt v.isLt) hk
  have hq : off + ((u.val * 16 + v.val) * n + k) < 4864 := by omega
  refine (cols_pick4_apply R hs hc1 hs2 hc2 hW hk e u v (ix2 e ⟨off + ((u.val * 16 + v.val) * n + k), hq⟩) rfl rfl).trans ?_
  exact Cert.Spec.get2_of (a := 50000) (b := 4864) R _ _ _ rfl rfl

/-- The radial coefficients of a triple that has its window to itself (n = 1): entry (e, u, v) is
    R[e, off + (u · 16 + v) · 1 + 0]. -/
theorem rad_unit_apply {W : Nat} (R : FVec Ideal ⟨2, ![50000, 4864]⟩ .f32) (off : Nat)
    (hs : (⟨2, ![50000, 4864]⟩ : Shape).Slices ![0, off] ⟨2, ![50000, W]⟩)
    (hc1 : (⟨2, ![50000, W]⟩ : Shape).ShapeCasts ⟨4, ![50000, 16, 16, 1]⟩)
    (hc2 : (⟨4, ![50000, 16, 16, 1]⟩ : Shape).ShapeCasts ⟨3, ![50000, 16, 16]⟩)
    (hW : W = 16 * 16) (hb : off + W ≤ 4864)
    (e : Fin 50000) (u : Fin 16) (v : Fin 16) :
    shapeCast ⟨3, ![50000, 16, 16]⟩ (shapeCast ⟨4, ![50000, 16, 16, 1]⟩ (extractStridedSlice ⟨2, ![50000, W]⟩ ![0, off] R hs) hc1) hc2
        (ix3 e u v)
      = Cert.Spec.get2 R e.val (off + ((u.val * 16 + v.val) * 1 + 0)) := by
  have hlt : u.val * 16 + v.val < W := by subst hW; exact lt_mul_add u.isLt v.isLt
  have hq : off + (u.val * 16 + v.val) < 4864 := by omega
  refine (cols_unit4_apply R hs hc1 hc2 hW e u v (ix2 e ⟨off + (u.val * 16 + v.val), hq⟩) rfl rfl).trans ?_
  exact Cert.Spec.get2_of (a := 50000) (b := 4864) R _ _ _ rfl (by show off + (u.val * 16 + v.val) = _; omega)

/-- An elementwise sum at an index, from its two summands there. -/
theorem addf_congr {s : Shape} {φ : FTy} (a b : FVec Ideal s φ) (i : s.Idx) (x y : EReal) (ha : a i = x) (hb : b i = y) :
    addf a b i = x + y := by rw [addf_apply, ha, hb]

/-- An elementwise product at an index, from its two factors there. -/
theorem mulf_congr {s : Shape} {φ : FTy} (a b : FVec Ideal s φ) (i : s.Idx) (x y : EReal) (ha : a i = x) (hb : b i = y) :
    mulf a b i = x * y := by rw [mulf_apply, ha, hb]

/-- The zero the accumulation starts from. -/
theorem zero_start {t : Shape} (hb : (⟨0, ![]⟩ : Shape).BroadcastsInDim t ![]) (idx : t.Idx) :
    broadcastInDim t ![] hb (constant (F := Ideal) ⟨0, ![]⟩ .f32 0x00000000#32) idx = 0 := by
  refine (broadcastInDim_apply _ hb _ idx ix0 fun a => a.elim0).trans ?_
  exact Ideal.ofBits_zero_f32

/-- The third block's accumulation, written out. -/
theorem acc2_eq (R : Cert.Spec.A2 50000 4864) (F : Cert.Spec.A2 50000 144) (Y : Cert.Spec.A2 50000 25) (cg : Cert.Spec.A1 1225)
    (W : Cert.Spec.A1 19) (e u o : Nat) :
    Cert.Spec.acc2 R F Y cg W e u o
      = 0 + Cert.Spec.get1 W 10 * Cert.Spec.term R F Y cg e u o 2560 1 0 0 1 4 5 350
          + Cert.Spec.get1 W 11 * Cert.Spec.term R F Y cg e u o 2816 3 0 16 3 1 3 375
          + Cert.Spec.get1 W 12 * Cert.Spec.term R F Y cg e u o 2816 3 1 16 3 4 5 420
          + Cert.Spec.get1 W 13 * Cert.Spec.term R F Y cg e u o 2816 3 2 16 3 9 7 495
          + Cert.Spec.get1 W 14 * Cert.Spec.term R F Y cg e u o 3584 5 0 64 5 0 1 600
          + Cert.Spec.get1 W 15 * Cert.Spec.term R F Y cg e u o 3584 5 1 64 5 1 3 625
          + Cert.Spec.get1 W 16 * Cert.Spec.term R F Y cg e u o 3584 5 2 64 5 4 5 700
          + Cert.Spec.get1 W 17 * Cert.Spec.term R F Y cg e u o 3584 5 3 64 5 9 7 825
          + Cert.Spec.get1 W 18 * Cert.Spec.term R F Y cg e u o 3584 5 4 64 5 16 9 1000 := rfl

end Lo2

open Lo2

/-- An operand-index identity of a contraction's dimension numbers at literal shapes, read off coordinate by
    coordinate. -/
local macro "idx3" : tactic =>
  `(tactic| (funext a; apply Fin.ext; match a with | ⟨0, _⟩ => rfl | ⟨1, _⟩ => rfl | ⟨2, _⟩ => rfl))
/-- The same for a two-coordinate operand index. -/
local macro "idx2" : tactic => `(tactic| (funext a; apply Fin.ext; match a with | ⟨0, _⟩ => rfl | ⟨1, _⟩ => rfl))

/-! ## The third block at an index

The block is the third piece of the concatenation, a [50000, 16, 5] accumulation recast to [50000, 80]: column
64 + u · 5 + o reads the accumulation at (e, u, o).  The accumulation adds, from zero, each weight times its triple's
two nested contractions; each is the specification's term by `triple_apply`, its operands read by the layout chains. -/

set_option maxHeartbeats 1600000 in
theorem ref_msgs_lo2 (V0 : Valuation τ sig (Elt Ideal))
    (hR : ∀ i, ∃ r : ℝ, (V0 (Proc.devRef .tc main_arg1) : S50000x4864.Idx → EReal) i = (r : EReal))
    (hF : ∀ i, ∃ r : ℝ, (res_main_v6 (F := Ideal) V0 : S50000x144.Idx → EReal) i = (r : EReal))
    (hY : ∀ i, ∃ r : ℝ, (V0 (Proc.devRef .tc main_arg2) : S50000x25.Idx → EReal) i = (r : EReal))
    (hC : ∀ i, ∃ r : ℝ, (V0 (Proc.devRef .tc main_arg3) : S1225.Idx → EReal) i = (r : EReal))
    (e : Fin 50000) (col : Fin 144) (hlo : 64 ≤ col.val) :
    (res_main_v291 (F := Ideal) V0 : S50000x144.Idx → EReal) (ix2 e col)
      = Cert.Spec.acc2 (V0 (Proc.devRef .tc main_arg1)) (res_main_v6 (F := Ideal) V0) (V0 (Proc.devRef .tc main_arg2)) (V0 (Proc.devRef .tc main_arg3)) (V0 (Proc.devRef .tc main_arg4)) e.val ((col.val - 64) / 5) ((col.val - 64) % 5) := by
  have hu : (col.val - 64) / 5 < 16 := by have := col.isLt; omega
  have ho : (col.val - 64) % 5 < 5 := Nat.mod_lt _ (by norm_num)
  refine Eq.trans ?_ (acc2_eq _ _ _ _ _ _ _ _).symm
  unfold res_main_v291
  refine (concat3_apply _ _ _ _ e col hlo).trans ?_
  refine (merge_last_apply _ _ _ (ix3 e (⟨(col.val - 64) / 5, hu⟩ : Fin 16) (⟨(col.val - 64) % 5, ho⟩ : Fin 5)) rfl rfl
    (Nat.div_add_mod' (col.val - 64) 5)).trans ?_
  refine addf_congr _ _ _ _ _ (addf_congr _ _ _ _ _ (addf_congr _ _ _ _ _ (addf_congr _ _ _ _ _ ?_ ?_) ?_) ?_) ?_
  · unfold res_main_v237
    refine addf_congr _ _ _ _ _ (addf_congr _ _ _ _ _ (addf_congr _ _ _ _ _ (addf_congr _ _ _ _ _
      (addf_congr _ _ _ _ _ ?_ ?_) ?_) ?_) ?_) ?_
    · exact zero_start _ _
    · refine mulf_congr _ _ _ _ _ (weight_apply _ 10 (by norm_num) _ _ _ _) ?_
      exact triple_apply (I := 1) (D := 5) (OID := 25)
        dot_S50000x16x1_S50000x16x16_S50000x1x16_1_2_2_1_0_0 rfl rfl (fun t i u k => by idx3) (fun t i u k => by idx3)
        dot_S50000x1x16_S50000x5x1_S50000x16x5_1_2_2_1_0_0 rfl rfl (fun t u o k => by idx3) (fun t u o k => by idx3)
        dot_S50000x5_S5x1x5_S50000x5x1_1_2_0_01_n_n rfl rfl (fun t o i k => by idx2) (fun t o i k => by idx3)
        _ _ _ _ hR hF hY hC _ _ 2560 1 0 0 4 350
        (fun e v i => feat_apply (W := 16) (I := 1) _ 0 _ _ rfl (by norm_num) e v i)
        (fun e u v => rad_unit_apply (W := 256) _ 2560 _ _ _ rfl (by norm_num) e u v)
        _ _ _ rfl (by norm_num) (by norm_num) e _ _
    · refine mulf_congr _ _ _ _ _ (weight_apply _ 11 (by norm_num) _ _ _ _) ?_
      exact triple_apply (I := 3) (D := 3) (OID := 45)
        dot_S50000x16x3_S50000x16x16_S50000x3x16_1_2_2_1_0_0 rfl rfl (fun t i u k => by idx3) (fun t i u k => by idx3)
        dot_S50000x3x16_S50000x5x3_S50000x16x5_1_2_2_1_0_0 rfl rfl (fun t u o k => by idx3) (fun t u o k => by idx3)
        dot_S50000x3_S5x3x3_S50000x5x3_1_2_0_01_n_n rfl rfl (fun t o i k => by idx2) (fun t o i k => by idx3)
        _ _ _ _ hR hF hY hC (res_main_v179 (F := Ideal) V0) _ 2816 3 0 16 1 375
        (fun e v i => feat_apply (W := 48) (I := 3) _ 16 _ _ rfl (by norm_num) e v i)
        (fun e u v => rad_pick_apply (W := 768) (n := 3) _ 2816 0 _ _ _ _ rfl (by norm_num) (by norm_num) e u v)
        _ _ _ rfl (by norm_num) (by norm_num) e _ _
    · refine mulf_congr _ _ _ _ _ (weight_apply _ 12 (by norm_num) _ _ _ _) ?_
      exact triple_apply (I := 3) (D := 5) (OID := 75)
        dot_S50000x16x3_S50000x16x16_S50000x3x16_1_2_2_1_0_0 rfl rfl (fun t i u k => by idx3) (fun t i u k => by idx3)
        dot_S50000x3x16_S50000x5x3_S50000x16x5_1_2_2_1_0_0 rfl rfl (fun t u o k => by idx3) (fun t u o k => by idx3)
        dot_S50000x5_S5x3x5_S50000x5x3_1_2_0_01_n_n rfl rfl (fun t o i k => by idx2) (fun t o i k => by idx3)
        _ _ _ _ hR hF hY hC (res_main_v179 (F := Ideal) V0) _ 2816 3 1 16 4 420
        (fun e v i => feat_apply (W := 48) (I := 3) _ 16 _ _ rfl (by norm_num) e v i)
        (fun e u v => rad_pick_apply (W := 768) (n := 3) _ 2816 1 _ _ _ _ rfl (by norm_num) (by norm_num) e u v)
        _ _ _ rfl (by norm_num) (by norm_num) e _ _
    · refine mulf_congr _ _ _ _ _ (weight_apply _ 13 (by norm_num) _ _ _ _) ?_
      exact triple_apply (I := 3) (D := 7) (OID := 105)
        dot_S50000x16x3_S50000x16x16_S50000x3x16_1_2_2_1_0_0 rfl rfl (fun t i u k => by idx3) (fun t i u k => by idx3)
        dot_S50000x3x16_S50000x5x3_S50000x16x5_1_2_2_1_0_0 rfl rfl (fun t u o k => by idx3) (fun t u o k => by idx3)
        dot_S50000x7_S5x3x7_S50000x5x3_1_2_0_01_n_n rfl rfl (fun t o i k => by idx2) (fun t o i k => by idx3)
        _ _ _ _ hR hF hY hC (res_main_v179 (F := Ideal) V0) _ 2816 3 2 16 9 495
        (fun e v i => feat_apply (W := 48) (I := 3) _ 16 _ _ rfl (by norm_num) e v i)
        (fun e u v => rad_pick_apply (W := 768) (n := 3) _ 2816 2 _ _ _ _ rfl (by norm_num) (by norm_num) e u v)
        _ _ _ rfl (by norm_num) (by norm_num) e _ _
    · refine mulf_congr _ _ _ _ _ (weight_apply _ 14 (by norm_num) _ _ _ _) ?_
      exact triple_apply (I := 5) (D := 1) (OID := 25)
        dot_S50000x16x5_S50000x16x16_S50000x5x16_1_2_2_1_0_0 rfl rfl (fun t i u k => by idx3) (fun t i u k => by idx3)
        dot_S50000x5x16_S50000x5x5_S50000x16x5_1_2_2_1_0_0 rfl rfl (fun t u o k => by idx3) (fun t u o k => by idx3)
        dot_S50000x1_S5x5x1_S50000x5x5_1_2_0_01_n_n rfl rfl (fun t o i k => by idx2) (fun t o i k => by idx3)
        _ _ _ _ hR hF hY hC (res_main_v222 (F := Ideal) V0) _ 3584 5 0 64 0 600
        (fun e v i => feat_apply (W := 80) (I := 5) _ 64 _ _ rfl (by norm_num) e v i)
        (fun e u v => rad_pick_apply (W := 1280) (n := 5) _ 3584 0 _ _ _ _ rfl (by norm_num) (by norm_num) e u v)
        _ _ _ rfl (by norm_num) (by norm_num) e _ _
  · refine mulf_congr _ _ _ _ _ (weight_apply _ 15 (by norm_num) _ _ _ _) ?_
    exact triple_apply (I := 5) (D := 3) (OID := 75)
      dot_S50000x16x5_S50000x16x16_S50000x5x16_1_2_2_1_0_0 rfl rfl (fun t i u k => by idx3) (fun t i u k => by idx3)
      dot_S50000x5x16_S50000x5x5_S50000x16x5_1_2_2_1_0_0 rfl rfl (fun t u o k => by idx3) (fun t u o k => by idx3)
      dot_S50000x3_S5x5x3_S50000x5x5_1_2_0_01_n_n rfl rfl (fun t o i k => by idx2) (fun t o i k => by idx3)
      _ _ _ _ hR hF hY hC (res_main_v222 (F := Ideal) V0) _ 3584 5 1 64 1 625
      (fun e v i => feat_apply (W := 80) (I := 5) _ 64 _ _ rfl (by norm_num) e v i)
      (fun e u v => rad_pick_apply (W := 1280) (n := 5) _ 3584 1 _ _ _ _ rfl (by norm_num) (by norm_num) e u v)
      _ _ _ rfl (by norm_num) (by norm_num) e _ _
  · refine mulf_congr _ _ _ _ _ (weight_apply _ 16 (by norm_num) _ _ _ _) ?_
    exact triple_apply (I := 5) (D := 5) (OID := 125)
      dot_S50000x16x5_S50000x16x16_S50000x5x16_1_2_2_1_0_0 rfl rfl (fun t i u k => by idx3) (fun t i u k => by idx3)
      dot_S50000x5x16_S50000x5x5_S50000x16x5_1_2_2_1_0_0 rfl rfl (fun t u o k => by idx3) (fun t u o k => by idx3)
      dot_S50000x5_S5x5x5_S50000x5x5_1_2_0_01_n_n rfl rfl (fun t o i k => by idx2) (fun t o i k => by idx3)
      _ _ _ _ hR hF hY hC (res_main_v222 (F := Ideal) V0) _ 3584 5 2 64 4 700
      (fun e v i => feat_apply (W := 80) (I := 5) _ 64 _ _ rfl (by norm_num) e v i)
      (fun e u v => rad_pick_apply (W := 1280) (n := 5) _ 3584 2 _ _ _ _ rfl (by norm_num) (by norm_num) e u v)
      _ _ _ rfl (by norm_num) (by norm_num) e _ _
  · refine mulf_congr _ _ _ _ _ (weight_apply _ 17 (by norm_num) _ _ _ _) ?_
    exact triple_apply (I := 5) (D := 7) (OID := 175)
      dot_S50000x16x5_S50000x16x16_S50000x5x16_1_2_2_1_0_0 rfl rfl (fun t i u k => by idx3) (fun t i u k => by idx3)
      dot_S50000x5x16_S50000x5x5_S50000x16x5_1_2_2_1_0_0 rfl rfl (fun t u o k => by idx3) (fun t u o k => by idx3)
      dot_S50000x7_S5x5x7_S50000x5x5_1_2_0_01_n_n rfl rfl (fun t o i k => by idx2) (fun t o i k => by idx3)
      _ _ _ _ hR hF hY hC (res_main_v222 (F := Ideal) V0) _ 3584 5 3 64 9 825
      (fun e v i => feat_apply (W := 80) (I := 5) _ 64 _ _ rfl (by norm_num) e v i)
      (fun e u v => rad_pick_apply (W := 1280) (n := 5) _ 3584 3 _ _ _ _ rfl (by norm_num) (by norm_num) e u v)
      _ _ _ rfl (by norm_num) (by norm_num) e _ _
  · refine mulf_congr _ _ _ _ _ (weight_apply _ 18 (by norm_num) _ _ _ _) ?_
    exact triple_apply (I := 5) (D := 9) (OID := 225)
      dot_S50000x16x5_S50000x16x16_S50000x5x16_1_2_2_1_0_0 rfl rfl (fun t i u k => by idx3) (fun t i u k => by idx3)
      dot_S50000x5x16_S50000x5x5_S50000x16x5_1_2_2_1_0_0 rfl rfl (fun t u o k => by idx3) (fun t u o k => by idx3)
      dot_S50000x9_S5x5x9_S50000x5x5_1_2_0_01_n_n rfl rfl (fun t o i k => by idx2) (fun t o i k => by idx3)
      _ _ _ _ hR hF hY hC (res_main_v222 (F := Ideal) V0) _ 3584 5 4 64 16 1000
      (fun e v i => feat_apply (W := 80) (I := 5) _ 64 _ _ rfl (by norm_num) e v i)
      (fun e u v => rad_pick_apply (W := 1280) (n := 5) _ 3584 4 _ _ _ _ rfl (by norm_num) (by norm_num) e u v)
      _ _ _ rfl (by norm_num) (by norm_num) e _ _

end Cert.ReferenceIdeal.Val

end
-- ==== Proof.Core.lean ====
/-
  The heart of the equivalence, as one equation between arrays [50000, 144]: the reference's per-edge messages are the
  array the tiled region writes, when the two programs' arguments agree and every float argument is finite.

  Both are the specification's message (Proof/Spec.lean) of the same five arguments and the same gathered features:
  the kernel's by reading its tile (Proof/KernelMsgs.lean), the reference's by reading its chain of contractions
  (Proof/RefLo01.lean, Proof/RefLo2.lean), where the two nestings of a triple's double sum are exchanged — which is where
  finiteness is used: every entry of the radial coefficients, the harmonics, the coupling coefficients and the gathered
  features is a real number (a gathered entry is an entry of the features array).
-/
import proofs.«165524_j45689862095550_2_alg».proof.Defs
import proofs.«165524_j45689862095550_2_alg».proof.Proof.Gen.KernelIdeal.Frame
import proofs.«165524_j45689862095550_2_alg».proof.Proof.Gen.ReferenceIdeal.Run
import proofs.«165524_j45689862095550_2_alg».proof.Proof.Gen.Pre_finite_inputs
import proofs.«165524_j45689862095550_2_alg».proof.Proof.Blocks
import proofs.«165524_j45689862095550_2_alg».proof.Proof.Spec
import proofs.«165524_j45689862095550_2_alg».proof.Proof.Finite
import proofs.«165524_j45689862095550_2_alg».proof.Proof.LibRowGather
import proofs.«165524_j45689862095550_2_alg».proof.Proof.KernelHost
import proofs.«165524_j45689862095550_2_alg».proof.Proof.KernelMsgs
import proofs.«165524_j45689862095550_2_alg».proof.Proof.RefLo01
import proofs.«165524_j45689862095550_2_alg».proof.Proof.RefLo2

set_option maxRecDepth 16384

noncomputable section

namespace Cert.KernelIdeal.Val

open Cert.KernelIdeal Cert.KernelIdeal.Gen Idealize.ShloMosaic Idealize.ShloMosaic.TcCoe Idealize.SL.Sem

/-- A gathered entry is an entry of the features array: real when every feature is. -/
theorem gatherRows_real (feat : (⟨S5000x144, .f32⟩ : BufTy).Contents (Elt Ideal))
    (idx : (⟨S50000, .i32⟩ : BufTy).Contents (Elt Ideal))
    (h : ∀ i, ∃ r : ℝ, (feat : S5000x144.Idx → EReal) i = (r : EReal)) (j : S50000x144.Idx) :
    ∃ r : ℝ, (gatherRows feat idx : S50000x144.Idx → EReal) j = (r : EReal) := by
  unfold gatherRows
  have key := Cert.Lib.rowGather_apply (N := 5000) (E := 50000) (D := 144) (w := 32) (by norm_num)
    gather_S5000x144_S50000x1_S50000x144_1_0_n_n_0_1_1144.wf feat
    (broadcastInDim S50000x1 ![0] bcast_S50000_S50000x1_0
      (select (cmpi .slt idx (broadcastInDim S50000 ![] bcast_S_S50000 (constantI S_ 32 0#32)))
        (addi idx (broadcastInDim S50000 ![] bcast_S_S50000 (constantI S_ 32 5000#32))) idx)) j
  exact ⟨_, (show _ = _ from key).trans (h _).choose_spec⟩

end Cert.KernelIdeal.Val

namespace Cert.Bridge

open Idealize.ShloMosaic Idealize.ShloMosaic.TcCoe Idealize.SL.Sem Idealize.ShloMosaic.ValueIdx Cert.Spec

/-- The reference's messages are the kernel's messages. -/
theorem msgs_eq [hPre : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Value.res_main_v291 (F := Ideal) (StableHlo.launchContents m' c) = Cert.KernelIdeal.Val.msgsK m c := by
  obtain ⟨f0, f1, f2, f3, f4⟩ := finite_of_pre
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (hpre c)
  obtain ⟨a0, a1, a2, a3, a4, a5, a6⟩ := hagree c
  -- the two programs gather the same rows
  have hFeq : (Cert.ReferenceIdeal.Value.res_main_v6 (F := Ideal) (StableHlo.launchContents m' c) : A2 50000 144)
      = (Cert.KernelIdeal.Gen.V m c Cert.KernelIdeal.main_v6 : A2 50000 144) := by
    rw [Cert.KernelIdeal.Val.V_v6]
    show Cert.KernelIdeal.Val.gatherRows
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg6)) = _
    rw [a0, a6]
  -- every entry the exchange of sums touches is real
  have hR : ∀ j, ∃ r : ℝ, (StableHlo.launchContents m' c (Proc.devRef .tc Cert.ReferenceIdeal.main_arg1) : Cert.ReferenceIdeal.S50000x4864.Idx → EReal) j = (r : EReal) :=
    fun j => by rw [show StableHlo.launchContents m' c (Proc.devRef .tc Cert.ReferenceIdeal.main_arg1) = _ from a1]; exact f1 j
  have hY : ∀ j, ∃ r : ℝ, (StableHlo.launchContents m' c (Proc.devRef .tc Cert.ReferenceIdeal.main_arg2) : Cert.ReferenceIdeal.S50000x25.Idx → EReal) j = (r : EReal) :=
    fun j => by rw [show StableHlo.launchContents m' c (Proc.devRef .tc Cert.ReferenceIdeal.main_arg2) = _ from a2]; exact f2 j
  have hC : ∀ j, ∃ r : ℝ, (StableHlo.launchContents m' c (Proc.devRef .tc Cert.ReferenceIdeal.main_arg3) : Cert.ReferenceIdeal.S1225.Idx → EReal) j = (r : EReal) :=
    fun j => by rw [show StableHlo.launchContents m' c (Proc.devRef .tc Cert.ReferenceIdeal.main_arg3) = _ from a3]; exact f3 j
  have hF : ∀ j, ∃ r : ℝ, (Cert.ReferenceIdeal.Value.res_main_v6 (F := Ideal) (StableHlo.launchContents m' c) : Cert.ReferenceIdeal.S50000x144.Idx → EReal) j = (r : EReal) :=
    fun j => by
      rw [show (Cert.ReferenceIdeal.Value.res_main_v6 (F := Ideal) (StableHlo.launchContents m' c) : Cert.ReferenceIdeal.S50000x144.Idx → EReal) = _ from hFeq,
        Cert.KernelIdeal.Val.V_v6]
      exact Cert.KernelIdeal.Val.gatherRows_real _ _ f0 j
  funext i
  rw [Cert.KernelIdeal.Val.kernel_msgs m c i]
  have hargs : ∀ (e col : Nat),
      msg (StableHlo.launchContents m' c (Proc.devRef .tc Cert.ReferenceIdeal.main_arg1) : A2 50000 4864)
          (Cert.ReferenceIdeal.Value.res_main_v6 (F := Ideal) (StableHlo.launchContents m' c) : A2 50000 144)
          (StableHlo.launchContents m' c (Proc.devRef .tc Cert.ReferenceIdeal.main_arg2) : A2 50000 25)
          (StableHlo.launchContents m' c (Proc.devRef .tc Cert.ReferenceIdeal.main_arg3) : A1 1225)
          (StableHlo.launchContents m' c (Proc.devRef .tc Cert.ReferenceIdeal.main_arg4) : A1 19) e col
        = msg (m ((c.tc : Thread Cert.KernelIdeal.nD Cert.KernelIdeal.τ).loc Cert.KernelIdeal.main_arg1) : A2 50000 4864)
          (Cert.KernelIdeal.Gen.V m c Cert.KernelIdeal.main_v6 : A2 50000 144)
          (m ((c.tc : Thread Cert.KernelIdeal.nD Cert.KernelIdeal.τ).loc Cert.KernelIdeal.main_arg2) : A2 50000 25)
          (m ((c.tc : Thread Cert.KernelIdeal.nD Cert.KernelIdeal.τ).loc Cert.KernelIdeal.main_arg3) : A1 1225)
          (m ((c.tc : Thread Cert.KernelIdeal.nD Cert.KernelIdeal.τ).loc Cert.KernelIdeal.main_arg4) : A1 19) e col := by
    intro e col
    have b1 : (StableHlo.launchContents m' c (Proc.devRef .tc Cert.ReferenceIdeal.main_arg1) : A2 50000 4864)
        = (m ((c.tc : Thread Cert.KernelIdeal.nD Cert.KernelIdeal.τ).loc Cert.KernelIdeal.main_arg1) : A2 50000 4864) := a1
    have b2 : (StableHlo.launchContents m' c (Proc.devRef .tc Cert.ReferenceIdeal.main_arg2) : A2 50000 25)
        = (m ((c.tc : Thread Cert.KernelIdeal.nD Cert.KernelIdeal.τ).loc Cert.KernelIdeal.main_arg2) : A2 50000 25) := a2
    have b3 : (StableHlo.launchContents m' c (Proc.devRef .tc Cert.ReferenceIdeal.main_arg3) : A1 1225)
        = (m ((c.tc : Thread Cert.KernelIdeal.nD Cert.KernelIdeal.τ).loc Cert.KernelIdeal.main_arg3) : A1 1225) := a3
    have b4 : (StableHlo.launchContents m' c (Proc.devRef .tc Cert.ReferenceIdeal.main_arg4) : A1 19)
        = (m ((c.tc : Thread Cert.KernelIdeal.nD Cert.KernelIdeal.τ).loc Cert.KernelIdeal.main_arg4) : A1 19) := a4
    rw [hFeq, b1, b2, b3, b4]
  refine Eq.trans ?_ (hargs _ _)
  refine (congrArg _ (eq_ix2 i)).trans ?_
  unfold msg
  by_cases h16 : (i 1).val < 16
  · rw [if_pos h16]
    exact Cert.ReferenceIdeal.Val.ref_msgs_lo0 _ hR hF hY hC (i 0) (i 1) h16
  · rw [if_neg h16]
    by_cases h64 : (i 1).val < 64
    · rw [if_pos h64]
      exact Cert.ReferenceIdeal.Val.ref_msgs_lo1 _ hR hF hY hC (i 0) (i 1) (by omega) h64
    · rw [if_neg h64]
      exact Cert.ReferenceIdeal.Val.ref_msgs_lo2 _ hR hF hY hC (i 0) (i 1) (by omega)

end Cert.Bridge

end
-- ==== Proof.RefTail.lean ====
/-
  The reference ends as the kernel does: a scatter-add of its per-edge messages into a zero [5000, 144] array at the
  target indices, a negative index wrapped once by the number of nodes. The two printed programs spell the
  operation with their own copies of the same dimension numbers; this module says they are one function, and re-posts
  the reference's generated run with its result named through that function.
-/
import proofs.«165524_j45689862095550_2_alg».proof.Proof.Gen.ReferenceIdeal.Run
import proofs.«165524_j45689862095550_2_alg».proof.Proof.KernelTail

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.StableHlo

/-- The reference's final scatter-add is the kernel's. -/
theorem tail_eq (idx : (⟨S50000, .i32⟩ : BufTy).Contents (Elt Ideal)) (msgs : (⟨S50000x144, .f32⟩ : BufTy).Contents (Elt Ideal)) :
    Host.scatterAdd scatter_S5000x144_S50000x1_S50000x144_1_0_0_1
        (broadcastInDim S5000x144 ![] bcast_S_S5000x144 (constant (F := Ideal) S_ .f32 0x00000000#32))
        (broadcastInDim S50000x1 ![0] bcast_S50000_S50000x1_0
          (select (cmpi .slt idx (broadcastInDim S50000 ![] bcast_S_S50000 (constantI S_ 32 0#32)))
            (addi idx (broadcastInDim S50000 ![] bcast_S_S50000 (constantI S_ 32 5000#32))) idx))
        msgs
      = Cert.KernelIdeal.Val.scatterTail idx msgs := rfl

/-- Every weakly fair execution of the reference terminates with the result buffer at the scatter-add of its messages
    and with the argument arrays unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v299)
        = Cert.KernelIdeal.Val.scatterTail (m ((c.tc : Thread nD τ).loc main_arg5)) (res_main_v291 (F := Ideal) (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (tail_eq _ _), (h c).2⟩) (Cert.ReferenceIdeal.Value.run (F := Ideal) m ρ)

end Cert.ReferenceIdeal.Val

end
-- ==== Proof.lean ====
/-
  The certificate's five claims for the tensor-product message-passing layer.

  The kernel gathers the source node's features per edge on the host, builds from the coupling coefficients a
  zero-padded [25, 259] matrix, lets a tiled region compute the per-edge messages [50000, 144] in 125 blocks of 400
  edges, and scatter-adds the messages into the target nodes' rows on the host. The reference computes the same
  messages by slices, contractions with the coefficients and einsums over the whole edge axis, and ends with the same
  scatter-add.

  The three frames are the generated frame runs (the reference's is its generated run with the result dropped). The
  ideal pass rewrote nothing, so `preserves` is `True`. For `algebraic` both runs are read with the result buffer
  named: the kernel's is the scatter-add of the array its region leaves (Proof/KernelTail.lean), which is one function
  of the index (Proof/Blocks.lean); the reference's is the same scatter-add of its messages (Proof/RefTail.lean); and the two message
  arrays agree (Proof/Core.lean).
-/
import proofs.«165524_j45689862095550_2_alg».proof.Defs
import proofs.«165524_j45689862095550_2_alg».proof.Proof.Gen.Kernel
import proofs.«165524_j45689862095550_2_alg».proof.Proof.Gen.Kernel.Skeleton
import proofs.«165524_j45689862095550_2_alg».proof.Proof.Gen.Kernel.Launch
import proofs.«165524_j45689862095550_2_alg».proof.Proof.Gen.Kernel.Points
import proofs.«165524_j45689862095550_2_alg».proof.Proof.Gen.Kernel.Frame
import proofs.«165524_j45689862095550_2_alg».proof.Proof.Gen.KernelIdeal
import proofs.«165524_j45689862095550_2_alg».proof.Proof.Gen.KernelIdeal.Skeleton
import proofs.«165524_j45689862095550_2_alg».proof.Proof.Gen.KernelIdeal.Launch
import proofs.«165524_j45689862095550_2_alg».proof.Proof.Gen.KernelIdeal.Points
import proofs.«165524_j45689862095550_2_alg».proof.Proof.Gen.KernelIdeal.Frame
import proofs.«165524_j45689862095550_2_alg».proof.Proof.Gen.ReferenceIdeal
import proofs.«165524_j45689862095550_2_alg».proof.Proof.Gen.Pre_finite_inputs
import proofs.«165524_j45689862095550_2_alg».proof.Proof.Gen.ReferenceIdeal.Run
import proofs.«165524_j45689862095550_2_alg».proof.Proof.KernelTail
import proofs.«165524_j45689862095550_2_alg».proof.Proof.Blocks
import proofs.«165524_j45689862095550_2_alg».proof.Proof.Core
import proofs.«165524_j45689862095550_2_alg».proof.Proof.RefTail
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scatter-add of their messages at the wrapped target indices; the messages agree. -/
theorem algebraic : Cert.algebraic_KernelIdeal_ReferenceIdeal := by
  intro m ρ m' ρ' hpre hagree
  refine ⟨fun c => Cert.KernelIdeal.Val.scatterTail (m ((c : Thread Cert.KernelIdeal.nD Cert.KernelIdeal.τ).loc Cert.KernelIdeal.main_arg5))
      (Cert.KernelIdeal.Val.msgsK m c), ?_, ?_⟩
  · refine (θ_run Cert.KernelIdeal.defs _ _).mono (fun _ h c => ⟨(h c).1.trans ?_, (h c).2⟩)
      (Cert.KernelIdeal.Val.run_named m ρ)
    exact congrArg _ (Cert.KernelIdeal.Val.final5 m c)
  · refine (θ_run Cert.ReferenceIdeal.defs _ _).mono (fun _ h c => ⟨(h c).1.trans ?_, (h c).2⟩)
      (Cert.ReferenceIdeal.Val.run_named m' ρ')
    exact congrArg₂ Cert.KernelIdeal.Val.scatterTail (hagree c).2.2.2.2.2.1 (Cert.Bridge.msgs_eq m m' hpre hagree c)

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
